-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x262144x3 : Shape := ⟨3, ![16, 262144, 3]⟩
abbrev S_ : Shape := ⟨0, ![]⟩

class Facts : Prop where
  bcast_S_S16x262144x3 : S_.BroadcastsInDim S16x262144x3 (![] : Fin 0 → Fin S16x262144x3.rank)
  reducesTo_S16x262144x3_S_d0_1_2 : S16x262144x3.ReducesTo [0, 1, 2] S_
  h_S_ : 0 < S_.numel

variable [Facts]

def fn {F : FTy → Type} [FloatOps F] (main_arg0 : FVec F S16x262144x3 .f32) : IVec S_ 1 :=
  let main_v0 : FVec F S16x262144x3 .f32 := Host.absf main_arg0
  let main_cst : FVec F S_ .f32 := constant S_ .f32 0x7F800000#32
  let main_v1 : FVec F S16x262144x3 .f32 := broadcastInDim S16x262144x3 ![] bcast_S_S16x262144x3 main_cst
  let main_v2 : IVec S16x262144x3 1 := cmpf .olt main_v0 main_v1
  let main_c : IVec S_ 1 := constantI S_ 1 1#1
  let main_v3 : IVec S_ 1 := (fun x v => Host.reduce IntOp.andi x v reducesTo_S16x262144x3_S_d0_1_2 h_S_) main_v2 main_c
  main_v3
-- ==== Kernel.lean ====
abbrev S16x262144x3 : Shape := ⟨3, ![16, 262144, 3]⟩
abbrev S_ : Shape := ⟨0, ![]⟩
abbrev S16x3 : Shape := ⟨2, ![16, 3]⟩
abbrev S16x1x3 : Shape := ⟨3, ![16, 1, 3]⟩
abbrev S16x2x3 : Shape := ⟨3, ![16, 2, 3]⟩
abbrev S16x208x256 : Shape := ⟨3, ![16, 208, 256]⟩
abbrev S1x4096x3 : Shape := ⟨3, ![1, 4096, 3]⟩
abbrev S1x2x3 : Shape := ⟨3, ![1, 2, 3]⟩
abbrev S1x208x256 : Shape := ⟨3, ![1, 208, 256]⟩
abbrev S208x256 : Shape := ⟨2, ![208, 256]⟩
abbrev S4096x3 : Shape := ⟨2, ![4096, 3]⟩
abbrev S2x3 : Shape := ⟨2, ![2, 3]⟩
abbrev S1x3 : Shape := ⟨2, ![1, 3]⟩
abbrev S4096x1 : Shape := ⟨2, ![4096, 1]⟩
abbrev S4096x13 : Shape := ⟨2, ![4096, 13]⟩
abbrev S1x16 : Shape := ⟨2, ![1, 16]⟩
abbrev S4096x16 : Shape := ⟨2, ![4096, 16]⟩
abbrev S1x256 : Shape := ⟨2, ![1, 256]⟩
abbrev S4096x256 : Shape := ⟨2, ![4096, 256]⟩
abbrev S4096x208 : Shape := ⟨2, ![4096, 208]⟩
abbrev S16x16x13x256 : Shape := ⟨4, ![16, 16, 13, 256]⟩
abbrev S16x13x16x256 : Shape := ⟨4, ![16, 13, 16, 256]⟩
abbrev S16x13x4096 : Shape := ⟨3, ![16, 13, 4096]⟩
abbrev S16x4096x13 : Shape := ⟨3, ![16, 4096, 13]⟩
abbrev S16x4096x1 : Shape := ⟨3, ![16, 4096, 1]⟩
abbrev S16x4096 : Shape := ⟨2, ![16, 4096]⟩
abbrev S16x4096x3 : Shape := ⟨3, ![16, 4096, 3]⟩
abbrev S16x4096x9 : Shape := ⟨3, ![16, 4096, 9]⟩
abbrev S4096 : Shape := ⟨1, ![4096]⟩
abbrev S16x4096x3x1 : Shape := ⟨4, ![16, 4096, 3, 1]⟩
abbrev S16x4096x1x3 : Shape := ⟨4, ![16, 4096, 1, 3]⟩
abbrev S16x4096x3x3 : Shape := ⟨4, ![16, 4096, 3, 3]⟩
abbrev S16x4096x12 : Shape := ⟨3, ![16, 4096, 12]⟩

abbrev nBuf : Space → Nat
  | .hbm => 159
  | .vmem => 7
  | .smem => 0
  | _ => 0

abbrev hbmTy0_0 (i : Nat) : BufTy := match i % 128 with
  | 0 => ⟨S16x262144x3, .f32⟩
  | 1 => ⟨S_, .f32⟩
  | 2 => ⟨S16x3, .f32⟩
  | 3 => ⟨S16x1x3, .f32⟩
  | 4 => ⟨S_, .f32⟩
  | 5 => ⟨S16x3, .f32⟩
  | 6 => ⟨S16x1x3, .f32⟩
  | 7 => ⟨S16x1x3, .f32⟩
  | 8 => ⟨S_, .f32⟩
  | 9 => ⟨S16x1x3, .f32⟩
  | 10 => ⟨S16x1x3, .f32⟩
  | 11 => ⟨S_, .f32⟩
  | 12 => ⟨S16x1x3, .f32⟩
  | 13 => ⟨S16x1x3, .f32⟩
  | 14 => ⟨S16x2x3, .f32⟩
  | 15 => ⟨S16x208x256, .f32⟩
  | 16 => ⟨S16x16x13x256, .f32⟩
  | 17 => ⟨S16x13x16x256, .f32⟩
  | 18 => ⟨S16x13x4096, .f32⟩
  | 19 => ⟨S16x4096x13, .f32⟩
  | 20 => ⟨S16x4096x1, .f32⟩
  | 21 => ⟨S16x4096, .f32⟩
  | 22 => ⟨S16x4096x3, .f32⟩
  | 23 => ⟨S16x4096x9, .f32⟩
  | 24 => ⟨S4096, .i32⟩
  | 25 => ⟨S_, .i32⟩
  | 26 => ⟨S_, .i32⟩
  | 27 => ⟨S4096, .i32⟩
  | 28 => ⟨S4096, .i32⟩
  | 29 => ⟨S4096, .i32⟩
  | 30 => ⟨S_, .i32⟩
  | 31 => ⟨S4096, .i32⟩
  | 32 => ⟨S4096, .i1⟩
  | 33 => ⟨S4096, .i32⟩
  | 34 => ⟨S4096, .i32⟩
  | 35 => ⟨S_, .i32⟩
  | 36 => ⟨S4096, .i32⟩
  | 37 => ⟨S4096, .i1⟩
  | 38 => ⟨S4096, .i1⟩
  | 39 => ⟨S_, .i32⟩
  | 40 => ⟨S4096, .i32⟩
  | 41 => ⟨S4096, .i32⟩
  | 42 => ⟨S4096, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S4096, .i32⟩
  | 50 => ⟨S4096, .i32⟩
  | 51 => ⟨S_, .i32⟩
  | 52 => ⟨S4096, .i32⟩
  | 53 => ⟨S4096, .i1⟩
  | 54 => ⟨S_, .i32⟩
  | 55 => ⟨S4096, .i32⟩
  | 56 => ⟨S4096, .i1⟩
  | 57 => ⟨S_, .i32⟩
  | 58 => ⟨S_, .i1⟩
  | 59 => ⟨S4096, .i1⟩
  | 60 => ⟨S4096, .i1⟩
  | 61 => ⟨S4096, .i1⟩
  | 62 => ⟨S4096, .i32⟩
  | 63 => ⟨S4096, .i32⟩
  | 64 => ⟨S4096, .i32⟩
  | 65 => ⟨S_, .i32⟩
  | 66 => ⟨S_, .i32⟩
  | 67 => ⟨S4096, .i32⟩
  | 68 => ⟨S4096, .i32⟩
  | 69 => ⟨S4096, .i32⟩
  | 70 => ⟨S_, .i32⟩
  | 71 => ⟨S4096, .i32⟩
  | 72 => ⟨S4096, .i1⟩
  | 73 => ⟨S4096, .i32⟩
  | 74 => ⟨S4096, .i32⟩
  | 75 => ⟨S_, .i32⟩
  | 76 => ⟨S4096, .i32⟩
  | 77 => ⟨S4096, .i1⟩
  | 78 => ⟨S4096, .i1⟩
  | 79 => ⟨S_, .i32⟩
  | 80 => ⟨S4096, .i32⟩
  | 81 => ⟨S4096, .i32⟩
  | 82 => ⟨S4096, .i32⟩
  | 83 => ⟨S_, .i32⟩
  | 84 => ⟨S_, .i32⟩
  | 85 => ⟨S_, .i32⟩
  | 86 => ⟨S_, .i1⟩
  | 87 => ⟨S_, .i32⟩
  | 88 => ⟨S_, .i32⟩
  | 89 => ⟨S4096, .i32⟩
  | 90 => ⟨S4096, .i32⟩
  | 91 => ⟨S_, .i32⟩
  | 92 => ⟨S4096, .i32⟩
  | 93 => ⟨S4096, .i1⟩
  | 94 => ⟨S_, .i32⟩
  | 95 => ⟨S4096, .i32⟩
  | 96 => ⟨S4096, .i1⟩
  | 97 => ⟨S_, .i32⟩
  | 98 => ⟨S_, .i1⟩
  | 99 => ⟨S4096, .i1⟩
  | 100 => ⟨S4096, .i1⟩
  | 101 => ⟨S4096, .i1⟩
  | 102 => ⟨S4096, .i32⟩
  | 103 => ⟨S4096, .i32⟩
  | 104 => ⟨S4096, .i32⟩
  | 105 => ⟨S4096x1, .i32⟩
  | 106 => ⟨S4096x1, .i32⟩
  | 107 => ⟨S4096x1, .i32⟩
  | 108 => ⟨S4096x3, .i32⟩
  | 109 => ⟨S4096x3, .f32⟩
  | 110 => ⟨S16x3, .f32⟩
  | 111 => ⟨S16x1x3, .f32⟩
  | 112 => ⟨S16x3, .f32⟩
  | 113 => ⟨S16x1x3, .f32⟩
  | 114 => ⟨S1x4096x3, .f32⟩
  | 115 => ⟨S_, .f32⟩
  | 116 => ⟨S1x4096x3, .f32⟩
  | 117 => ⟨S1x4096x3, .f32⟩
  | 118 => ⟨S16x4096x3, .f32⟩
  | 119 => ⟨S16x4096x3, .f32⟩
  | 120 => ⟨S16x4096x3, .f32⟩
  | 121 => ⟨S16x4096x3, .f32⟩
  | 122 => ⟨S16x4096x3, .f32⟩
  | 123 => ⟨S_, .f32⟩
  | 124 => ⟨S16x4096, .f32⟩
  | 125 => ⟨S16x4096, .f32⟩
  | 126 => ⟨S16x4096x1, .f32⟩
  | 127 => ⟨S16x4096x3, .f32⟩
  | _ => ⟨S16x262144x3, .f32⟩

abbrev hbmTy0_1 (i : Nat) : BufTy := match i % 128 with
  | 0 => ⟨S16x4096x3, .f32⟩
  | 1 => ⟨S16x4096x3, .f32⟩
  | 2 => ⟨S16x4096x3x1, .f32⟩
  | 3 => ⟨S16x4096x1x3, .f32⟩
  | 4 => ⟨S16x4096x3x3, .f32⟩
  | 5 => ⟨S16x4096x3x3, .f32⟩
  | 6 => ⟨S16x4096x3x3, .f32⟩
  | 7 => ⟨S16x4096x9, .f32⟩
  | 8 => ⟨S_, .f32⟩
  | 9 => ⟨S16x4096, .f32⟩
  | 10 => ⟨S16x4096, .f32⟩
  | 11 => ⟨S_, .f32⟩
  | 12 => ⟨S16x4096, .f32⟩
  | 13 => ⟨S16x4096, .f32⟩
  | 14 => ⟨S16x4096x1, .f32⟩
  | 15 => ⟨S16x4096x1, .f32⟩
  | 16 => ⟨S16x4096x9, .f32⟩
  | 17 => ⟨S16x4096x9, .f32⟩
  | 18 => ⟨S16x4096x9, .f32⟩
  | 19 => ⟨S16x4096x9, .f32⟩
  | 20 => ⟨S16x4096x9, .f32⟩
  | 21 => ⟨S_, .f32⟩
  | 22 => ⟨S16x4096, .f32⟩
  | 23 => ⟨S16x4096, .i1⟩
  | 24 => ⟨S16x4096x1, .i1⟩
  | 25 => ⟨S16x4096x12, .f32⟩
  | 26 => ⟨S_, .f32⟩
  | 27 => ⟨S_, .f32⟩
  | 28 => ⟨S16x4096x12, .i1⟩
  | 29 => ⟨S16x4096x12, .f32⟩
  | 30 => ⟨S16x4096x12, .f32⟩
  | _ => ⟨S16x262144x3, .f32⟩

abbrev hbmTy (i : Nat) : BufTy := match i / 128 with
  | 0 => hbmTy0_0 i
  | 1 => hbmTy0_1 i
  | _ => ⟨S16x262144x3, .f32⟩

abbrev bufTy : (tb : Table) → Fin (tcTables nBuf tb) → BufTy
  | .hbm, ⟨i, _⟩ => hbmTy i
  | .local _ .vmem, ⟨0, _⟩ => ⟨S1x4096x3, .f32⟩
  | .local _ .vmem, ⟨1, _⟩ => ⟨S1x4096x3, .f32⟩
  | .local _ .vmem, ⟨2, _⟩ => ⟨S1x2x3, .f32⟩
  | .local _ .vmem, ⟨3, _⟩ => ⟨S1x2x3, .f32⟩
  | .local _ .vmem, ⟨4, _⟩ => ⟨S1x208x256, .f32⟩
  | .local _ .vmem, ⟨5, _⟩ => ⟨S1x208x256, .f32⟩
  | .local _ .vmem, ⟨6, _⟩ => ⟨S208x256, .f32⟩
  | _, _ => ⟨S16x262144x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v20 : Ref sig .tc := ⟨.hbm, 42, rfl⟩
abbrev main_c_3 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v21 : Ref sig .tc := ⟨.hbm, 64, rfl⟩
abbrev main_c_4 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_c : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_0 : Ref sig .tc := ⟨.hbm, 79, rfl⟩
abbrev main_call2_v12 : Ref sig .tc := ⟨.hbm, 80, rfl⟩
abbrev main_call2_v13 : Ref sig .tc := ⟨.hbm, 81, rfl⟩
abbrev main_v22 : Ref sig .tc := ⟨.hbm, 82, rfl⟩
abbrev main_c_5 : Ref sig .tc := ⟨.hbm, 83, rfl⟩
abbrev main_call3_v0 : Ref sig .tc := ⟨.hbm, 84, rfl⟩
abbrev main_call3_c : Ref sig .tc := ⟨.hbm, 85, rfl⟩
abbrev main_call3_v1 : Ref sig .tc := ⟨.hbm, 86, rfl⟩
abbrev main_call3_c_0 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_c_1 : Ref sig .tc := ⟨.hbm, 91, rfl⟩
abbrev main_call3_v5 : Ref sig .tc := ⟨.hbm, 92, rfl⟩
abbrev main_call3_v6 : Ref sig .tc := ⟨.hbm, 93, rfl⟩
abbrev main_call3_c_2 : Ref sig .tc := ⟨.hbm, 94, rfl⟩
abbrev main_call3_v7 : Ref sig .tc := ⟨.hbm, 95, rfl⟩
abbrev main_call3_v8 : Ref sig .tc := ⟨.hbm, 96, rfl⟩
abbrev main_call3_c_3 : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_v12 : Ref sig .tc := ⟨.hbm, 101, rfl⟩
abbrev main_call3_v13 : Ref sig .tc := ⟨.hbm, 102, rfl⟩
abbrev main_call3_v14 : Ref sig .tc := ⟨.hbm, 103, rfl⟩
abbrev main_v23 : Ref sig .tc := ⟨.hbm, 104, rfl⟩
abbrev main_v24 : Ref sig .tc := ⟨.hbm, 105, rfl⟩
abbrev main_v25 : Ref sig .tc := ⟨.hbm, 106, rfl⟩
abbrev main_v26 : Ref sig .tc := ⟨.hbm, 107, rfl⟩
abbrev main_v27 : Ref sig .tc := ⟨.hbm, 108, rfl⟩
abbrev main_v28 : Ref sig .tc := ⟨.hbm, 109, rfl⟩
abbrev main_v29 : Ref sig .tc := ⟨.hbm, 110, rfl⟩
abbrev main_v30 : Ref sig .tc := ⟨.hbm, 111, rfl⟩
abbrev main_v31 : Ref sig .tc := ⟨.hbm, 112, rfl⟩
abbrev main_v32 : Ref sig .tc := ⟨.hbm, 113, rfl⟩
abbrev main_v33 : Ref sig .tc := ⟨.hbm, 114, rfl⟩
abbrev main_cst_6 : Ref sig .tc := ⟨.hbm, 115, rfl⟩
abbrev main_v34 : Ref sig .tc := ⟨.hbm, 116, rfl⟩
abbrev main_v35 : Ref sig .tc := ⟨.hbm, 117, rfl⟩
abbrev main_v36 : Ref sig .tc := ⟨.hbm, 118, rfl⟩
abbrev main_v37 : Ref sig .tc := ⟨.hbm, 119, rfl⟩
abbrev main_v38 : Ref sig .tc := ⟨.hbm, 120, rfl⟩
abbrev main_v39 : Ref sig .tc := ⟨.hbm, 121, rfl⟩
abbrev main_v40 : Ref sig .tc := ⟨.hbm, 122, rfl⟩
abbrev main_cst_7 : Ref sig .tc := ⟨.hbm, 123, rfl⟩
abbrev main_v41 : Ref sig .tc := ⟨.hbm, 124, rfl⟩
abbrev main_v42 : Ref sig .tc := ⟨.hbm, 125, rfl⟩
abbrev main_v43 : Ref sig .tc := ⟨.hbm, 126, rfl⟩
abbrev main_v44 : Ref sig .tc := ⟨.hbm, 127, rfl⟩
abbrev main_v45 : Ref sig .tc := ⟨.hbm, 128, rfl⟩
abbrev main_v46 : Ref sig .tc := ⟨.hbm, 129, rfl⟩
abbrev main_v47 : Ref sig .tc := ⟨.hbm, 130, rfl⟩
abbrev main_v48 : Ref sig .tc := ⟨.hbm, 131, rfl⟩
abbrev main_v49 : Ref sig .tc := ⟨.hbm, 132, rfl⟩
abbrev main_v50 : Ref sig .tc := ⟨.hbm, 133, rfl⟩
abbrev main_v51 : Ref sig .tc := ⟨.hbm, 134, rfl⟩
abbrev main_v52 : Ref sig .tc := ⟨.hbm, 135, rfl⟩
abbrev main_cst_8 : Ref sig .tc := ⟨.hbm, 136, rfl⟩
abbrev main_v53 : Ref sig .tc := ⟨.hbm, 137, rfl⟩
abbrev main_v54 : Ref sig .tc := ⟨.hbm, 138, rfl⟩
abbrev main_cst_9 : Ref sig .tc := ⟨.hbm, 139, rfl⟩
abbrev main_v55 : Ref sig .tc := ⟨.hbm, 140, rfl⟩
abbrev main_v56 : Ref sig .tc := ⟨.hbm, 141, rfl⟩
abbrev main_v57 : Ref sig .tc := ⟨.hbm, 142, rfl⟩
abbrev main_v58 : Ref sig .tc := ⟨.hbm, 143, rfl⟩
abbrev main_v59 : Ref sig .tc := ⟨.hbm, 144, rfl⟩
abbrev main_v60 : Ref sig .tc := ⟨.hbm, 145, rfl⟩
abbrev main_v61 : Ref sig .tc := ⟨.hbm, 146, rfl⟩
abbrev main_v62 : Ref sig .tc := ⟨.hbm, 147, rfl⟩
abbrev main_v63 : Ref sig .tc := ⟨.hbm, 148, rfl⟩
abbrev main_cst_10 : Ref sig .tc := ⟨.hbm, 149, rfl⟩
abbrev main_v64 : Ref sig .tc := ⟨.hbm, 150, rfl⟩
abbrev main_v65 : Ref sig .tc := ⟨.hbm, 151, rfl⟩
abbrev main_v66 : Ref sig .tc := ⟨.hbm, 152, rfl⟩
abbrev main_v67 : Ref sig .tc := ⟨.hbm, 153, rfl⟩
abbrev main_cst_11 : Ref sig .tc := ⟨.hbm, 154, rfl⟩
abbrev main_call4_v0 : Ref sig .tc := ⟨.hbm, 155, rfl⟩
abbrev main_call4_v1 : Ref sig .tc := ⟨.hbm, 156, rfl⟩
abbrev main_call4_v2 : Ref sig .tc := ⟨.hbm, 157, rfl⟩
abbrev main_v68 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 64], ![false, false]⟩

def k0_cond2 (i : grid0.Coords) : BitVec 1 :=
  let arg1 : BitVec 32 := BitVec.ofNat 32 (i 1).val
  let c63_i32 : BitVec 32 := 63#32
  let v116 : BitVec 1 := Scalar.cmpi .eq arg1 c63_i32
  let v117 : BitVec 32 := Scalar.extui v116
  let c0_i32_14 : BitVec 32 := 0#32
  let v118 : BitVec 1 := Scalar.cmpi .ne v117 c0_i32_14
  v118

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x208x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S16x262144x3_S16x3_d1 : S16x262144x3.ReducesTo [1] S16x3
  h_S_ : 0 < S_.numel
  bcast_S16x3_S16x1x3_0_2 : S16x3.BroadcastsInDim S16x1x3 (![0, 2] : Fin 2 → Fin S16x1x3.rank)
  bcast_S_S16x1x3 : S_.BroadcastsInDim S16x1x3 (![] : Fin 0 → Fin S16x1x3.rank)
  concatenates_S16x1x3_S16x1x3_S16x2x3_d1 : Shape.Concatenates [S16x1x3, S16x1x3] S16x2x3 1
  inb_S208x256_S208x256_0_0 : ∀ a, (![0, 0] : Fin 2 → Nat) a + S208x256.size a ≤ S208x256.size a
  h_S208x256 : 0 < S208x256.numel
  shapeCasts_S208x256_S208x256 : S208x256.ShapeCasts S208x256
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  inb_S1x2x3_S1x2x3_0_0_0 : ∀ a, (![0, 0, 0] : Fin 3 → Nat) a + S1x2x3.size a ≤ S1x2x3.size a
  h_S1x2x3 : 0 < S1x2x3.numel
  shapeCasts_S1x2x3_S2x3 : S1x2x3.ShapeCasts S2x3
  slices_S2x3_o0_0_S1x3 : S2x3.Slices ![0, 0] S1x3
  slices_S2x3_o1_0_S1x3 : S2x3.Slices ![1, 0] S1x3
  broadcasts_S1x3_S4096x3 : S1x3.Broadcasts S4096x3
  slices_S4096x3_o0_0_S4096x1 : S4096x3.Slices ![0, 0] S4096x1
  slices_S4096x3_o0_1_S4096x1 : S4096x3.Slices ![0, 1] S4096x1
  slices_S4096x3_o0_2_S4096x1 : S4096x3.Slices ![0, 2] S4096x1
  concatenates_S4096x1_S4096x1_S4096x1_S4096x1_S4096x1_S4096x1_S4096x1_S4096x1_S4096x1_S4096x1_S4096x1_S4096x1_S4096x1_S4096x13_d1 : Shape.Concatenates [S4096x1, S4096x1, S4096x1, S4096x1, S4096x1, S4096x1, S4096x1, S4096x1, S4096x1, S4096x1, S4096x1, S4096x1, S4096x1] S4096x13 1
  bitsLt_bf16_f32 : FTy.bits .bf16 < FTy.bits .f32
  iota_S1x16_d1_w32 : S1x16.Iotas .tc 32 [1]
  broadcasts_S4096x1_S4096x16 : S4096x1.Broadcasts S4096x16
  broadcasts_S1x16_S4096x16 : S1x16.Broadcasts S4096x16
  natLt_1_32 : 1 < 32
  iota_S1x256_d1_w32 : S1x256.Iotas .tc 32 [1]
  broadcasts_S4096x1_S4096x256 : S4096x1.Broadcasts S4096x256
  broadcasts_S1x256_S4096x256 : S1x256.Broadcasts S4096x256
  slices_S4096x16_o0_0_S4096x1 : S4096x16.Slices ![0, 0] S4096x1
  broadcasts_S4096x1_S4096x13 : S4096x1.Broadcasts S4096x13
  slices_S4096x16_o0_1_S4096x1 : S4096x16.Slices ![0, 1] S4096x1
  slices_S4096x16_o0_2_S4096x1 : S4096x16.Slices ![0, 2] S4096x1
  slices_S4096x16_o0_3_S4096x1 : S4096x16.Slices ![0, 3] S4096x1
  slices_S4096x16_o0_4_S4096x1 : S4096x16.Slices ![0, 4] S4096x1
  slices_S4096x16_o0_5_S4096x1 : S4096x16.Slices ![0, 5] S4096x1
  slices_S4096x16_o0_6_S4096x1 : S4096x16.Slices ![0, 6] S4096x1
  slices_S4096x16_o0_7_S4096x1 : S4096x16.Slices ![0, 7] S4096x1
  slices_S4096x16_o0_8_S4096x1 : S4096x16.Slices ![0, 8] S4096x1
  slices_S4096x16_o0_9_S4096x1 : S4096x16.Slices ![0, 9] S4096x1
  slices_S4096x16_o0_10_S4096x1 : S4096x16.Slices ![0, 10] S4096x1
  slices_S4096x16_o0_11_S4096x1 : S4096x16.Slices ![0, 11] S4096x1
  slices_S4096x16_o0_12_S4096x1 : S4096x16.Slices ![0, 12] S4096x1
  slices_S4096x16_o0_13_S4096x1 : S4096x16.Slices ![0, 13] S4096x1
  slices_S4096x16_o0_14_S4096x1 : S4096x16.Slices ![0, 14] S4096x1
  slices_S4096x16_o0_15_S4096x1 : S4096x16.Slices ![0, 15] S4096x1
  concatenates_S4096x13_S4096x13_S4096x13_S4096x13_S4096x13_S4096x13_S4096x13_S4096x13_S4096x13_S4096x13_S4096x13_S4096x13_S4096x13_S4096x13_S4096x13_S4096x13_S4096x208_d1 : Shape.Concatenates [S4096x13, S4096x13, S4096x13, S4096x13, S4096x13, S4096x13, S4096x13, S4096x13, S4096x13, S4096x13, S4096x13, S4096x13, S4096x13, S4096x13, S4096x13, S4096x13] S4096x208 1
  inb_S1x208x256_S1x208x256_0_0_0 : ∀ a, (![0, 0, 0] : Fin 3 → Nat) a + S1x208x256.size a ≤ S1x208x256.size a
  h_S1x208x256 : 0 < S1x208x256.numel
  shapeCasts_S1x208x256_S208x256 : S1x208x256.ShapeCasts S208x256
  shapeCasts_S208x256_S1x208x256 : S208x256.ShapeCasts S1x208x256
  shapeCasts_S16x208x256_S16x16x13x256 : S16x208x256.ShapeCasts S16x16x13x256
  transposes_S16x16x13x256_S16x13x16x256_0_2_1_3 : S16x16x13x256.Transposes [0, 2, 1, 3] S16x13x16x256
  shapeCasts_S16x13x16x256_S16x13x4096 : S16x13x16x256.ShapeCasts S16x13x4096
  transposes_S16x13x4096_S16x4096x13_0_2_1 : S16x13x4096.Transposes [0, 2, 1] S16x4096x13
  slices_S16x4096x13_S16x4096x1_0_0_0 : S16x4096x13.Slices ![0, 0, 0] S16x4096x1
  shapeCasts_S16x4096x1_S16x4096 : S16x4096x1.ShapeCasts S16x4096
  slices_S16x4096x13_S16x4096x3_0_0_1 : S16x4096x13.Slices ![0, 0, 1] S16x4096x3
  slices_S16x4096x13_S16x4096x9_0_0_4 : S16x4096x13.Slices ![0, 0, 4] S16x4096x9
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x1_S4096x3_d1 : Shape.Concatenates [S4096x1, S4096x1, S4096x1] S4096x3 1
  shapeCasts_S16x1x3_S16x3 : S16x1x3.ShapeCasts S16x3
  bcast_S4096x3_S1x4096x3_1_2 : S4096x3.BroadcastsInDim S1x4096x3 (![1, 2] : Fin 2 → Fin S1x4096x3.rank)
  bcast_S_S1x4096x3 : S_.BroadcastsInDim S1x4096x3 (![] : Fin 0 → Fin S1x4096x3.rank)
  bcast_S1x4096x3_S16x4096x3_0_1_2 : S1x4096x3.BroadcastsInDim S16x4096x3 (![0, 1, 2] : Fin 3 → Fin S16x4096x3.rank)
  bcast_S16x1x3_S16x4096x3_0_1_2 : S16x1x3.BroadcastsInDim S16x4096x3 (![0, 1, 2] : Fin 3 → Fin S16x4096x3.rank)
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S16x4096x1_S16x4096x3_0_1_2 : S16x4096x1.BroadcastsInDim S16x4096x3 (![0, 1, 2] : Fin 3 → Fin S16x4096x3.rank)
  bcast_S16x4096x3_S16x4096x3x1_0_1_2 : S16x4096x3.BroadcastsInDim S16x4096x3x1 (![0, 1, 2] : Fin 3 → Fin S16x4096x3x1.rank)
  bcast_S16x4096x3_S16x4096x1x3_0_1_3 : S16x4096x3.BroadcastsInDim S16x4096x1x3 (![0, 1, 3] : Fin 3 → Fin S16x4096x1x3.rank)
  bcast_S16x4096x3x1_S16x4096x3x3_0_1_2_3 : S16x4096x3x1.BroadcastsInDim S16x4096x3x3 (![0, 1, 2, 3] : Fin 4 → Fin S16x4096x3x3.rank)
  bcast_S16x4096x1x3_S16x4096x3x3_0_1_2_3 : S16x4096x1x3.BroadcastsInDim S16x4096x3x3 (![0, 1, 2, 3] : Fin 4 → Fin S16x4096x3x3.rank)
  shapeCasts_S16x4096x3x3_S16x4096x9 : S16x4096x3x3.ShapeCasts S16x4096x9
  bcast_S16x4096x1_S16x4096x9_0_1_2 : S16x4096x1.BroadcastsInDim S16x4096x9 (![0, 1, 2] : Fin 3 → Fin S16x4096x9.rank)
  concatenates_S16x4096x3_S16x4096x9_S16x4096x12_d2 : Shape.Concatenates [S16x4096x3, S16x4096x9] S16x4096x12 2
  bcast_S16x4096x1_S16x4096x12_0_1_2 : S16x4096x1.BroadcastsInDim S16x4096x12 (![0, 1, 2] : Fin 3 → Fin S16x4096x12.rank)
  bcast_S_S16x4096x12 : S_.BroadcastsInDim S16x4096x12 (![] : Fin 0 → Fin S16x4096x12.rank)
  dot_S4096x208_S4096x256_S208x256_0_0_1_1_n_n_wf : DotDims.WF S4096x208 S4096x256 S208x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S16x262144x3.size a
  hwx0_0 : ∀ i : grid0.Coords, EltTy.bits .f32 = 32 ∨ (Rect.block (s := S16x262144x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x3.size a ≤ S16x2x3.size a
  hwx0_1 : ∀ i : grid0.Coords, EltTy.bits .f32 = 32 ∨ (Rect.block (s := S16x2x3) S1x2x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x208x256.size a ≤ S16x208x256.size a
  hwx0_2 : ∀ i : grid0.Coords, EltTy.bits .f32 = 32 ∨ (Rect.block (s := S16x208x256) S1x208x256.size (cc0_transform_2 i) (hinb0_2 i)).WholeWords (EltTy.packing .f32)

variable [Facts₀]

def dot_S4096x208_S4096x256_S208x256_0_0_1_1_n_n : DotDims S4096x208 S4096x256 S208x256 where
  lhsContracting := [0]
  rhsContracting := [0]
  lhsNonContracting := [1]
  rhsNonContracting := [1]
  lhsBatch := []
  rhsBatch := []
  wf := dot_S4096x208_S4096x256_S208x256_0_0_1_1_n_n_wf

abbrev win0_0 : Pipeline.Window sig grid0 :=
  Pipeline.Window.ofSpec (Memref.whole main_arg0) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x2x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x208x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x262144x3 : Shape := ⟨3, ![16, 262144, 3]⟩
abbrev S_ : Shape := ⟨0, ![]⟩
abbrev S16x3 : Shape := ⟨2, ![16, 3]⟩
abbrev S16x1x3 : Shape := ⟨3, ![16, 1, 3]⟩
abbrev S16x262144x1 : Shape := ⟨3, ![16, 262144, 1]⟩
abbrev S16x262144 : Shape := ⟨2, ![16, 262144]⟩
abbrev S16 : Shape := ⟨1, ![16]⟩
abbrev S16x1 : Shape := ⟨2, ![16, 1]⟩
abbrev S4194304 : Shape := ⟨1, ![4194304]⟩
abbrev S4194304x3 : Shape := ⟨2, ![4194304, 3]⟩
abbrev S65536 : Shape := ⟨1, ![65536]⟩
abbrev S4194304x1 : Shape := ⟨2, ![4194304, 1]⟩
abbrev S65536x3 : Shape := ⟨2, ![65536, 3]⟩
abbrev S4194304x3x1 : Shape := ⟨3, ![4194304, 3, 1]⟩
abbrev S4194304x1x3 : Shape := ⟨3, ![4194304, 1, 3]⟩
abbrev S4194304x3x3 : Shape := ⟨3, ![4194304, 3, 3]⟩
abbrev S4194304x9 : Shape := ⟨2, ![4194304, 9]⟩
abbrev S65536x9 : Shape := ⟨2, ![65536, 9]⟩
abbrev S65536x1 : Shape := ⟨2, ![65536, 1]⟩
abbrev S65536x3x1 : Shape := ⟨3, ![65536, 3, 1]⟩
abbrev S65536x1x3 : Shape := ⟨3, ![65536, 1, 3]⟩
abbrev S65536x3x3 : Shape := ⟨3, ![65536, 3, 3]⟩
abbrev S65536x12 : Shape := ⟨2, ![65536, 12]⟩
abbrev S16x4096x12 : Shape := ⟨3, ![16, 4096, 12]⟩

abbrev nBuf : Space → Nat
  | .hbm => 107
  | .vmem => 0
  | .smem => 0
  | _ => 0

abbrev bufTy : (tb : Table) → Fin (tcTables nBuf tb) → BufTy
  | .hbm, ⟨0, _⟩ => ⟨S16x262144x3, .f32⟩
  | .hbm, ⟨1, _⟩ => ⟨S_, .f32⟩
  | .hbm, ⟨2, _⟩ => ⟨S16x3, .f32⟩
  | .hbm, ⟨3, _⟩ => ⟨S16x1x3, .f32⟩
  | .hbm, ⟨4, _⟩ => ⟨S_, .f32⟩
  | .hbm, ⟨5, _⟩ => ⟨S16x3, .f32⟩
  | .hbm, ⟨6, _⟩ => ⟨S16x1x3, .f32⟩
  | .hbm, ⟨7, _⟩ => ⟨S16x1x3, .f32⟩
  | .hbm, ⟨8, _⟩ => ⟨S_, .f32⟩
  | .hbm, ⟨9, _⟩ => ⟨S16x1x3, .f32⟩
  | .hbm, ⟨10, _⟩ => ⟨S16x1x3, .f32⟩
  | .hbm, ⟨11, _⟩ => ⟨S_, .f32⟩
  | .hbm, ⟨12, _⟩ => ⟨S16x1x3, .f32⟩
  | .hbm, ⟨13, _⟩ => ⟨S16x1x3, .f32⟩
  | .hbm, ⟨14, _⟩ => ⟨S16x262144x3, .f32⟩
  | .hbm, ⟨15, _⟩ => ⟨S16x262144x3, .f32⟩
  | .hbm, ⟨16, _⟩ => ⟨S16x262144x3, .f32⟩
  | .hbm, ⟨17, _⟩ => ⟨S16x262144x3, .f32⟩
  | .hbm, ⟨18, _⟩ => ⟨S16x262144x3, .f32⟩
  | .hbm, ⟨19, _⟩ => ⟨S_, .i32⟩
  | .hbm, ⟨20, _⟩ => ⟨S_, .i32⟩
  | .hbm, ⟨21, _⟩ => ⟨S_, .f32⟩
  | .hbm, ⟨22, _⟩ => ⟨S16x262144x3, .f32⟩
  | .hbm, ⟨23, _⟩ => ⟨S16x262144x3, .f32⟩
  | .hbm, ⟨24, _⟩ => ⟨S_, .f32⟩
  | .hbm, ⟨25, _⟩ => ⟨S16x262144x3, .f32⟩
  | .hbm, ⟨26, _⟩ => ⟨S16x262144x3, .f32⟩
  | .hbm, ⟨27, _⟩ => ⟨S16x262144x3, .i32⟩
  | .hbm, ⟨28, _⟩ => ⟨S16x262144x1, .i32⟩
  | .hbm, ⟨29, _⟩ => ⟨S16x262144, .i32⟩
  | .hbm, ⟨30, _⟩ => ⟨S_, .i32⟩
  | .hbm, ⟨31, _⟩ => ⟨S16x262144, .i32⟩
  | .hbm, ⟨32, _⟩ => ⟨S16x262144, .i32⟩
  | .hbm, ⟨33, _⟩ => ⟨S16x262144x1, .i32⟩
  | .hbm, ⟨34, _⟩ => ⟨S16x262144, .i32⟩
  | .hbm, ⟨35, _⟩ => ⟨S_, .i32⟩
  | .hbm, ⟨36, _⟩ => ⟨S16x262144, .i32⟩
  | .hbm, ⟨37, _⟩ => ⟨S16x262144, .i32⟩
  | .hbm, ⟨38, _⟩ => ⟨S16x262144, .i32⟩
  | .hbm, ⟨39, _⟩ => ⟨S16x262144x1, .i32⟩
  | .hbm, ⟨40, _⟩ => ⟨S16x262144, .i32⟩
  | .hbm, ⟨41, _⟩ => ⟨S16x262144, .i32⟩
  | .hbm, ⟨42, _⟩ => ⟨S16, .i32⟩
  | .hbm, ⟨43, _⟩ => ⟨S16x1, .i32⟩
  | .hbm, ⟨44, _⟩ => ⟨S_, .i32⟩
  | .hbm, ⟨45, _⟩ => ⟨S16x1, .i32⟩
  | .hbm, ⟨46, _⟩ => ⟨S16x1, .i32⟩
  | .hbm, ⟨47, _⟩ => ⟨S16x262144, .i32⟩
  | .hbm, ⟨48, _⟩ => ⟨S16x262144, .i32⟩
  | .hbm, ⟨49, _⟩ => ⟨S4194304, .i32⟩
  | .hbm, ⟨50, _⟩ => ⟨S4194304x3, .f32⟩
  | .hbm, ⟨51, _⟩ => ⟨S_, .f32⟩
  | .hbm, ⟨52, _⟩ => ⟨S4194304, .f32⟩
  | .hbm, ⟨53, _⟩ => ⟨S_, .f32⟩
  | .hbm, ⟨54, _⟩ => ⟨S65536, .f32⟩
  | .hbm, ⟨55, _⟩ => ⟨S4194304x1, .i32⟩
  | .hbm, ⟨56, _⟩ => ⟨S65536, .f32⟩
  | .hbm, ⟨57, _⟩ => ⟨S_, .f32⟩
  | .hbm, ⟨58, _⟩ => ⟨S65536x3, .f32⟩
  | .hbm, ⟨59, _⟩ => ⟨S4194304x1, .i32⟩
  | .hbm, ⟨60, _⟩ => ⟨S65536x3, .f32⟩
  | .hbm, ⟨61, _⟩ => ⟨S4194304x3x1, .f32⟩
  | .hbm, ⟨62, _⟩ => ⟨S4194304x1x3, .f32⟩
  | .hbm, ⟨63, _⟩ => ⟨S4194304x3x3, .f32⟩
  | .hbm, ⟨64, _⟩ => ⟨S4194304x3x3, .f32⟩
  | .hbm, ⟨65, _⟩ => ⟨S4194304x3x3, .f32⟩
  | .hbm, ⟨66, _⟩ => ⟨S4194304x9, .f32⟩
  | .hbm, ⟨67, _⟩ => ⟨S_, .f32⟩
  | .hbm, ⟨68, _⟩ => ⟨S65536x9, .f32⟩
  | .hbm, ⟨69, _⟩ => ⟨S4194304x1, .i32⟩
  | .hbm, ⟨70, _⟩ => ⟨S65536x9, .f32⟩
  | .hbm, ⟨71, _⟩ => ⟨S_, .f32⟩
  | .hbm, ⟨72, _⟩ => ⟨S65536, .f32⟩
  | .hbm, ⟨73, _⟩ => ⟨S65536, .f32⟩
  | .hbm, ⟨74, _⟩ => ⟨S65536x1, .f32⟩
  | .hbm, ⟨75, _⟩ => ⟨S65536x3, .f32⟩
  | .hbm, ⟨76, _⟩ => ⟨S65536x3, .f32⟩
  | .hbm, ⟨77, _⟩ => ⟨S65536x3x1, .f32⟩
  | .hbm, ⟨78, _⟩ => ⟨S65536x1x3, .f32⟩
  | .hbm, ⟨79, _⟩ => ⟨S65536x3x3, .f32⟩
  | .hbm, ⟨80, _⟩ => ⟨S65536x3x3, .f32⟩
  | .hbm, ⟨81, _⟩ => ⟨S65536x3x3, .f32⟩
  | .hbm, ⟨82, _⟩ => ⟨S65536x9, .f32⟩
  | .hbm, ⟨83, _⟩ => ⟨S_, .f32⟩
  | .hbm, ⟨84, _⟩ => ⟨S65536, .f32⟩
  | .hbm, ⟨85, _⟩ => ⟨S65536, .f32⟩
  | .hbm, ⟨86, _⟩ => ⟨S_, .f32⟩
  | .hbm, ⟨87, _⟩ => ⟨S65536, .f32⟩
  | .hbm, ⟨88, _⟩ => ⟨S65536, .f32⟩
  | .hbm, ⟨89, _⟩ => ⟨S65536x1, .f32⟩
  | .hbm, ⟨90, _⟩ => ⟨S65536x1, .f32⟩
  | .hbm, ⟨91, _⟩ => ⟨S65536x9, .f32⟩
  | .hbm, ⟨92, _⟩ => ⟨S65536x9, .f32⟩
  | .hbm, ⟨93, _⟩ => ⟨S65536x9, .f32⟩
  | .hbm, ⟨94, _⟩ => ⟨S65536x9, .f32⟩
  | .hbm, ⟨95, _⟩ => ⟨S65536x9, .f32⟩
  | .hbm, ⟨96, _⟩ => ⟨S_, .f32⟩
  | .hbm, ⟨97, _⟩ => ⟨S65536, .f32⟩
  | .hbm, ⟨98, _⟩ => ⟨S65536, .i1⟩
  | .hbm, ⟨99, _⟩ => ⟨S65536x1, .i1⟩
  | .hbm, ⟨100, _⟩ => ⟨S65536x12, .f32⟩
  | .hbm, ⟨101, _⟩ => ⟨S_, .f32⟩
  | .hbm, ⟨102, _⟩ => ⟨S_, .f32⟩
  | .hbm, ⟨103, _⟩ => ⟨S65536x12, .i1⟩
  | .hbm, ⟨104, _⟩ => ⟨S65536x12, .f32⟩
  | .hbm, ⟨105, _⟩ => ⟨S65536x12, .f32⟩
  | .hbm, ⟨106, _⟩ => ⟨S16x4096x12, .f32⟩
  | _, _ => ⟨S16x262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_c_3 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_12 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_14 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_15 : Ref sig .tc := ⟨.hbm, 101, rfl⟩
abbrev main_call1_v0 : Ref sig .tc := ⟨.hbm, 102, rfl⟩
abbrev main_call1_v1 : Ref sig .tc := ⟨.hbm, 103, rfl⟩
abbrev main_call1_v2 : Ref sig .tc := ⟨.hbm, 104, rfl⟩
abbrev main_v78 : Ref sig .tc := ⟨.hbm, 105, rfl⟩
abbrev main_v79 : Ref sig .tc := ⟨.hbm, 106, rfl⟩

abbrev nD : Nat := 1
abbrev τ : Topo := Topo.v7x

variable {F : FTy → Type} [FloatOps F]

class Facts₀ : Prop where
  reducesTo_S16x262144x3_S16x3_d1 : S16x262144x3.ReducesTo [1] S16x3
  h_S_ : 0 < S_.numel
  bcast_S16x3_S16x1x3_0_2 : S16x3.BroadcastsInDim S16x1x3 (![0, 2] : Fin 2 → Fin S16x1x3.rank)
  bcast_S_S16x1x3 : S_.BroadcastsInDim S16x1x3 (![] : Fin 0 → Fin S16x1x3.rank)
  bcast_S16x1x3_S16x262144x3_0_1_2 : S16x1x3.BroadcastsInDim S16x262144x3 (![0, 1, 2] : Fin 3 → Fin S16x262144x3.rank)
  bcast_S_S16x262144x3 : S_.BroadcastsInDim S16x262144x3 (![] : Fin 0 → Fin S16x262144x3.rank)
  slices_S16x262144x3_S16x262144x1_0_0_0 : S16x262144x3.Slices ![0, 0, 0] S16x262144x1
  shapeCasts_S16x262144x1_S16x262144 : S16x262144x1.ShapeCasts S16x262144
  bcast_S_S16x262144 : S_.BroadcastsInDim S16x262144 (![] : Fin 0 → Fin S16x262144.rank)
  slices_S16x262144x3_S16x262144x1_0_0_1 : S16x262144x3.Slices ![0, 0, 1] S16x262144x1
  slices_S16x262144x3_S16x262144x1_0_0_2 : S16x262144x3.Slices ![0, 0, 2] S16x262144x1
  bcast_S16_S16x1_0 : S16.BroadcastsInDim S16x1 (![0] : Fin 1 → Fin S16x1.rank)
  bcast_S_S16x1 : S_.BroadcastsInDim S16x1 (![] : Fin 0 → Fin S16x1.rank)
  bcast_S16x1_S16x262144_0_1 : S16x1.BroadcastsInDim S16x262144 (![0, 1] : Fin 2 → Fin S16x262144.rank)
  shapeCasts_S16x262144_S4194304 : S16x262144.ShapeCasts S4194304
  shapeCasts_S16x262144x3_S4194304x3 : S16x262144x3.ShapeCasts S4194304x3
  bcast_S_S4194304 : S_.BroadcastsInDim S4194304 (![] : Fin 0 → Fin S4194304.rank)
  bcast_S_S65536 : S_.BroadcastsInDim S65536 (![] : Fin 0 → Fin S65536.rank)
  bcast_S4194304_S4194304x1_0 : S4194304.BroadcastsInDim S4194304x1 (![0] : Fin 1 → Fin S4194304x1.rank)
  bcast_S_S65536x3 : S_.BroadcastsInDim S65536x3 (![] : Fin 0 → Fin S65536x3.rank)
  bcast_S4194304x3_S4194304x3x1_0_1 : S4194304x3.BroadcastsInDim S4194304x3x1 (![0, 1] : Fin 2 → Fin S4194304x3x1.rank)
  bcast_S4194304x3_S4194304x1x3_0_2 : S4194304x3.BroadcastsInDim S4194304x1x3 (![0, 2] : Fin 2 → Fin S4194304x1x3.rank)
  bcast_S4194304x3x1_S4194304x3x3_0_1_2 : S4194304x3x1.BroadcastsInDim S4194304x3x3 (![0, 1, 2] : Fin 3 → Fin S4194304x3x3.rank)
  bcast_S4194304x1x3_S4194304x3x3_0_1_2 : S4194304x1x3.BroadcastsInDim S4194304x3x3 (![0, 1, 2] : Fin 3 → Fin S4194304x3x3.rank)
  shapeCasts_S4194304x3x3_S4194304x9 : S4194304x3x3.ShapeCasts S4194304x9
  bcast_S_S65536x9 : S_.BroadcastsInDim S65536x9 (![] : Fin 0 → Fin S65536x9.rank)
  bcast_S65536_S65536x1_0 : S65536.BroadcastsInDim S65536x1 (![0] : Fin 1 → Fin S65536x1.rank)
  bcast_S65536x1_S65536x3_0_1 : S65536x1.BroadcastsInDim S65536x3 (![0, 1] : Fin 2 → Fin S65536x3.rank)
  bcast_S65536x3_S65536x3x1_0_1 : S65536x3.BroadcastsInDim S65536x3x1 (![0, 1] : Fin 2 → Fin S65536x3x1.rank)
  bcast_S65536x3_S65536x1x3_0_2 : S65536x3.BroadcastsInDim S65536x1x3 (![0, 2] : Fin 2 → Fin S65536x1x3.rank)
  bcast_S65536x3x1_S65536x3x3_0_1_2 : S65536x3x1.BroadcastsInDim S65536x3x3 (![0, 1, 2] : Fin 3 → Fin S65536x3x3.rank)
  bcast_S65536x1x3_S65536x3x3_0_1_2 : S65536x1x3.BroadcastsInDim S65536x3x3 (![0, 1, 2] : Fin 3 → Fin S65536x3x3.rank)
  shapeCasts_S65536x3x3_S65536x9 : S65536x3x3.ShapeCasts S65536x9
  bcast_S65536x1_S65536x9_0_1 : S65536x1.BroadcastsInDim S65536x9 (![0, 1] : Fin 2 → Fin S65536x9.rank)
  concatenates_S65536x3_S65536x9_S65536x12_d1 : Shape.Concatenates [S65536x3, S65536x9] S65536x12 1
  bcast_S65536x1_S65536x12_0_1 : S65536x1.BroadcastsInDim S65536x12 (![0, 1] : Fin 2 → Fin S65536x12.rank)
  bcast_S_S65536x12 : S_.BroadcastsInDim S65536x12 (![] : Fin 0 → Fin S65536x12.rank)
  shapeCasts_S65536x12_S16x4096x12 : S65536x12.ShapeCasts S16x4096x12
  scatter_S65536_S4194304x1_S4194304_n_0_0_1_wf : ScatterDims.WF S65536 S4194304x1 S4194304 [] [0] [0] 1
  scatter_S65536x3_S4194304x1_S4194304x3_1_0_0_1_wf : ScatterDims.WF S65536x3 S4194304x1 S4194304x3 [1] [0] [0] 1
  scatter_S65536x9_S4194304x1_S4194304x9_1_0_0_1_wf : ScatterDims.WF S65536x9 S4194304x1 S4194304x9 [1] [0] [0] 1

variable [Facts₀]

def scatter_S65536_S4194304x1_S4194304_n_0_0_1 : ScatterDims S65536 S4194304x1 S4194304 where
  updateWindowDims := []
  insertedWindowDims := [0]
  scatterDimsToOperandDims := [0]
  indexVectorDim := 1
  wf := scatter_S65536_S4194304x1_S4194304_n_0_0_1_wf
def scatter_S65536x3_S4194304x1_S4194304x3_1_0_0_1 : ScatterDims S65536x3 S4194304x1 S4194304x3 where
  updateWindowDims := [1]
  insertedWindowDims := [0]
  scatterDimsToOperandDims := [0]
  indexVectorDim := 1
  wf := scatter_S65536x3_S4194304x1_S4194304x3_1_0_0_1_wf
def scatter_S65536x9_S4194304x1_S4194304x9_1_0_0_1 : ScatterDims S65536x9 S4194304x1 S4194304x9 where
  updateWindowDims := [1]
  insertedWindowDims := [0]
  scatterDimsToOperandDims := [0]
  indexVectorDim := 1
  wf := scatter_S65536x9_S4194304x1_S4194304x9_1_0_0_1_wf

class Facts : Prop extends Facts₀ where

variable [Facts]
-- ==== Proof.K.Region.lean ====
/-
  The one pallas_call of `Kernel` inside its @main: the host lines before it (the per-batch minima and voxel sizes, joined
  into the 16×2×3 table the kernel reads), the region, and the host lines after it (the 143 operations that un-factor the
  208×256 accumulator into 4096 voxels × 13 moments and turn the moments into means and covariances).
  This module says what the region finds in each buffer (`V`), that the later lines touch only unscoped buffers, allocate
  nothing and never write one of the region's three arrays, what a window's block at a grid point is, the two
  conditions the body branches on (first tile of a batch: point ≡ 0 mod 64; last tile: point ≡ 63 mod 64), and where the
  output window is idle.
-/
import proofs.«168833_j62826781606551_2_alg».proof.Proof.Gen.Kernel.Launch
import proofs.«168833_j62826781606551_2_alg».proof.Proof.Gen.Kernel.Skeleton
import proofs.«168833_j62826781606551_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines after the region, stretch by stretch, in program order. -/
abbrev tailOps : List (List (HloOp τ sig (Elt F))) :=
  [hostOps1, hostOps1_1, hostOps1_2, hostOps1_3, hostOps1_4, hostOps1_5, hostOps1_6, hostOps1_7, hostOps1_8, hostOps1_9]

/-- What core `c`'s buffers hold when the region is entered: the launch contents after the fourteen host lines before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is: the lines before the region, the region, the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-! ## The lines after the region -/

/-- A stretch of host lines none of which allocates. -/
abbrev NoFresh (ops : List (HloOp τ sig (Elt F))) : Prop := ops.Forall fun op => op.fresh = ∅
/-- A stretch of host lines none of which writes one of the region's three arrays. -/
abbrev KeepsArrays (ops : List (HloOp τ sig (Elt F))) : Prop :=
  ops.Forall fun op => ∀ w, Proc.devRef .tc (Pipeline.arrRef spec0 w) ∉ op.writes

theorem fresh1 : NoFresh (F := F) hostOps1 := by simp only [List.Forall]; repeat' constructor
theorem fresh1_1 : NoFresh (F := F) hostOps1_1 := by simp only [List.Forall]; repeat' constructor
theorem fresh1_2 : NoFresh (F := F) hostOps1_2 := by simp only [List.Forall]; repeat' constructor
theorem fresh1_3 : NoFresh (F := F) hostOps1_3 := by simp only [List.Forall]; repeat' constructor
theorem fresh1_4 : NoFresh (F := F) hostOps1_4 := by simp only [List.Forall]; repeat' constructor
theorem fresh1_5 : NoFresh (F := F) hostOps1_5 := by simp only [List.Forall]; repeat' constructor
theorem fresh1_6 : NoFresh (F := F) hostOps1_6 := by simp only [List.Forall]; repeat' constructor
theorem fresh1_7 : NoFresh (F := F) hostOps1_7 := by simp only [List.Forall]; repeat' constructor
theorem fresh1_8 : NoFresh (F := F) hostOps1_8 := by simp only [List.Forall]; repeat' constructor
theorem fresh1_9 : NoFresh (F := F) hostOps1_9 := by simp only [List.Forall]; repeat' constructor

/-- Each later line writes its own result buffer only, and that buffer is none of the three arrays. -/
macro "keeps_arrays" : tactic => `(tactic| (
  simp only [List.Forall]
  repeat' apply And.intro
  all_goals (intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide))))

theorem keeps1 : KeepsArrays (F := F) hostOps1 := by keeps_arrays
theorem keeps1_1 : KeepsArrays (F := F) hostOps1_1 := by keeps_arrays
theorem keeps1_2 : KeepsArrays (F := F) hostOps1_2 := by keeps_arrays
theorem keeps1_3 : KeepsArrays (F := F) hostOps1_3 := by keeps_arrays
theorem keeps1_4 : KeepsArrays (F := F) hostOps1_4 := by keeps_arrays
theorem keeps1_5 : KeepsArrays (F := F) hostOps1_5 := by keeps_arrays
theorem keeps1_6 : KeepsArrays (F := F) hostOps1_6 := by keeps_arrays
theorem keeps1_7 : KeepsArrays (F := F) hostOps1_7 := by keeps_arrays
theorem keeps1_8 : KeepsArrays (F := F) hostOps1_8 := by keeps_arrays
theorem keeps1_9 : KeepsArrays (F := F) hostOps1_9 := by keeps_arrays

/-- A property of every line of every later stretch, from the property of each stretch. -/
theorem tail_forall {Q : HloOp τ sig (Elt F) → Prop}
    (h0 : (hostOps1 (F := F)).Forall Q) (h1 : (hostOps1_1 (F := F)).Forall Q) (h2 : (hostOps1_2 (F := F)).Forall Q)
    (h3 : (hostOps1_3 (F := F)).Forall Q) (h4 : (hostOps1_4 (F := F)).Forall Q) (h5 : (hostOps1_5 (F := F)).Forall Q)
    (h6 : (hostOps1_6 (F := F)).Forall Q) (h7 : (hostOps1_7 (F := F)).Forall Q) (h8 : (hostOps1_8 (F := F)).Forall Q)
    (h9 : (hostOps1_9 (F := F)).Forall Q) : ∀ ops ∈ (tailOps (F := F)), ∀ op ∈ ops, Q op := by
  intro ops hops op hop
  simp only [List.mem_cons, List.mem_nil_iff, or_false] at hops
  rcases hops with rfl | rfl | rfl | rfl | rfl | rfl | rfl | rfl | rfl | rfl
  · exact List.forall_iff_forall_mem.mp h0 op hop
  · exact List.forall_iff_forall_mem.mp h1 op hop
  · exact List.forall_iff_forall_mem.mp h2 op hop
  · exact List.forall_iff_forall_mem.mp h3 op hop
  · exact List.forall_iff_forall_mem.mp h4 op hop
  · exact List.forall_iff_forall_mem.mp h5 op hop
  · exact List.forall_iff_forall_mem.mp h6 op hop
  · exact List.forall_iff_forall_mem.mp h7 op hop
  · exact List.forall_iff_forall_mem.mp h8 op hop
  · exact List.forall_iff_forall_mem.mp h9 op hop

/-- The later lines touch the region's arrays and the buffers that bypass it only. -/
theorem sfx_sub : ∀ ops ∈ (tailOps (F := F)), ∀ op ∈ ops,
    op.bufs ⊆ Pipeline.tailRefs sig Pipeline.Prefetch.none spec0 := by
  rw [Pipeline.tailRefs_none spec0 launch0.win.arr_unscoped]
  intro ops hops op hop
  exact Pipeline.sub_ucRefs op (tail_forall (Q := fun op => op.bufs ⊆ StableHlo.tcRefs τ sig)
    hostOps1_sub hostOps1_1_sub hostOps1_2_sub hostOps1_3_sub hostOps1_4_sub hostOps1_5_sub hostOps1_6_sub hostOps1_7_sub
    hostOps1_8_sub hostOps1_9_sub ops hops op hop)
/-- They allocate nothing. -/
theorem sfx_fresh : ∀ ops ∈ (tailOps (F := F)), ∀ op ∈ ops, op.fresh = ∅ :=
  tail_forall fresh1 fresh1_1 fresh1_2 fresh1_3 fresh1_4 fresh1_5 fresh1_6 fresh1_7 fresh1_8 fresh1_9
/-- And they write none of the region's arrays. -/
theorem sfx_keeps : ∀ ops ∈ (tailOps (F := F)), ∀ op ∈ ops,
    ∀ w, Proc.devRef .tc (Pipeline.arrRef spec0 w) ∉ op.writes :=
  tail_forall keeps1 keeps1_1 keeps1_2 keeps1_3 keeps1_4 keeps1_5 keeps1_6 keeps1_7 keeps1_8 keeps1_9

/-- The lines before the region do not write the point array: the region finds it as launched. -/
theorem V_main_arg0 (c : Dev nD) : V m c main_arg0 = m ((c : Thread nD τ).loc main_arg0) := by
  dsimp only [V, V0]; simp only [hostOps0, List.flatten_cons, List.flatten_nil, List.append_nil]; after_results_simp <;> rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The tile of 4096 points (window 0) is in its staging buffer at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The batch's row of the table (window 1: minima and voxel sizes) is in its staging buffer at every point, though it is
    fetched only at the batch's first tile: between fetches the block index does not move. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The point array is window 0's array, an input: after the run it holds what the region found, which is what was launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats 0 c).arrAt_in 0 rfl _).trans ((hA c 0).trans (V_main_arg0 m c)))) h

/-! ## The body's two branch conditions -/

/-- "This is the batch's first tile" (the accumulator is zeroed), as the body computes it from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 64 = 0 :=
  (by decide +kernel : ∀ t : Fin grid0.N, cond0_0 (grid0.coords t) ↔ t.val % 64 = 0)

/-- "This is the batch's last tile" (the accumulator is copied to the output block). -/
abbrev cond0_1 (i : grid0.Coords) : Prop := k0_cond2 i = 1#1
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from a batch's last tile the body stores nothing into the output block, and the pipeline does not write it back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

/-- One staging buffer of the output window, through which its contents are stated. -/
abbrev VO0_2 : View sig .tc .vmem S1x208x256 .f32 := (Memref.whole cc0_stg2_0 : Memref sig .tc .vmem S1x208x256 .f32).view
abbrev ms0_0 (t : Fin cfg0.N) : Memref sig .tc .vmem S1x4096x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x208x256 .f32 := win0_2.stage (cfg0.slots t 2)
abbrev hs0_2 (t : Fin cfg0.N) : (ms0_2 t).IsWhole := hstage0_2 ((cfg0.slots t 2).cast nbuf0_2)
/-- The 208×256 accumulator: a scratch buffer of the kernel's own, carried from tile to tile. -/
abbrev scM0_0 : Memref sig .tc .vmem S208x256 .f32 := Memref.whole cc0_scratch0
abbrev VS0_0 : View sig .tc .vmem S208x256 .f32 := scM0_0.view

/-- What the launch hands the body besides the windows: the accumulator at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.K.Body.lean ====
/-
  The body of `Kernel`'s kernel run on whole staging memrefs, in each of the three cases its two conditionals meet over the grid:
    first  — a batch's first tile: the accumulator is zeroed, then this tile's 208×256 block of moments is added;
    middle — neither first nor last: the tile's moments are added to what the tile before left;
    last   — a batch's last tile: the moments are added and the accumulator is copied into the output block.
  (With 64 tiles per batch no tile is both first and last.) In each case the run ends with the two input buffers as they were
  and the accumulator — in the last case also the output block — at a list of stored pieces, which the run finds.
-/
import proofs.«168833_j62826781606551_2_alg».proof.Proof.K.Region

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- First tile of a batch: the output block is not touched (`xi2` handed back), the accumulator is found at anything. -/
noncomputable def runFirst (c : Dev nD) (i : grid0.Coords) (arg2 : Memref sig .tc .vmem S1x4096x3 .f32) (harg2 : arg2.IsWhole) (arg3 : Memref sig .tc .vmem S1x2x3 .f32) (harg3 : arg3.IsWhole) (arg4 : Memref sig .tc .vmem S1x208x256 .f32) (harg4 : arg4.IsWhole) (arg5 : Memref sig .tc .vmem S208x256 .f32) (harg5 : arg5.IsWhole) (hc0 : cond0_0 i) (hc1 : ¬cond0_1 i)
    (x0 : Vec F S1x4096x3 .f32) (x1 : Vec F S1x2x3 .f32) :
    Σ' (L2 : List (View.Piece (Elt F) S1x208x256 .f32)), { LS0 : List (View.Piece (Elt F) S208x256 .f32) //
      ∀ (xi2 : Vec F S1x208x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0_voxel_kernel i arg2 harg2 arg3 harg3 arg4 harg4 arg5 harg5) K } := by
  refine ⟨[], ?_, fun xi2 E K => ?run⟩
  case run =>
    simp only [cc0_voxel_kernel_eq_skeleton]; unfold cc0_voxel_kernel_skel
    simp only [k0_part1_eq_skeleton, k0_part2_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- A middle tile: the output block is not touched, the accumulator is found at what the tile before left (`xs0`). -/
noncomputable def runMiddle (c : Dev nD) (i : grid0.Coords) (arg2 : Memref sig .tc .vmem S1x4096x3 .f32) (harg2 : arg2.IsWhole) (arg3 : Memref sig .tc .vmem S1x2x3 .f32) (harg3 : arg3.IsWhole) (arg4 : Memref sig .tc .vmem S1x208x256 .f32) (harg4 : arg4.IsWhole) (arg5 : Memref sig .tc .vmem S208x256 .f32) (harg5 : arg5.IsWhole) (hc0 : ¬cond0_0 i) (hc1 : ¬cond0_1 i)
    (x0 : Vec F S1x4096x3 .f32) (x1 : Vec F S1x2x3 .f32) (xs0 : Vec F S208x256 .f32) :
    Σ' (L2 : List (View.Piece (Elt F) S1x208x256 .f32)), { LS0 : List (View.Piece (Elt F) S208x256 .f32) //
      ∀ (xi2 : Vec F S1x208x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0_voxel_kernel i arg2 harg2 arg3 harg3 arg4 harg4 arg5 harg5) K } := by
  refine ⟨[], ?_, fun xi2 E K => ?run⟩
  case run =>
    simp only [cc0_voxel_kernel_eq_skeleton]; unfold cc0_voxel_kernel_skel
    simp only [k0_part1_eq_skeleton, k0_part2_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Last tile of a batch: the output block is found at anything and left at its stored pieces. -/
noncomputable def runLast (c : Dev nD) (i : grid0.Coords) (arg2 : Memref sig .tc .vmem S1x4096x3 .f32) (harg2 : arg2.IsWhole) (arg3 : Memref sig .tc .vmem S1x2x3 .f32) (harg3 : arg3.IsWhole) (arg4 : Memref sig .tc .vmem S1x208x256 .f32) (harg4 : arg4.IsWhole) (arg5 : Memref sig .tc .vmem S208x256 .f32) (harg5 : arg5.IsWhole) (hc0 : ¬cond0_0 i) (hc1 : cond0_1 i)
    (x0 : Vec F S1x4096x3 .f32) (x1 : Vec F S1x2x3 .f32) (xs0 : Vec F S208x256 .f32) :
    Σ' (L2 : List (View.Piece (Elt F) S1x208x256 .f32)), { LS0 : List (View.Piece (Elt F) S208x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0_voxel_kernel i arg2 harg2 arg3 harg3 arg4 harg4 arg5 harg5) K } := by
  refine ⟨?_, ?_, fun E K => ?run⟩
  case run =>
    simp only [cc0_voxel_kernel_eq_skeleton]; unfold cc0_voxel_kernel_skel
    simp only [k0_part1_eq_skeleton, k0_part2_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.Frame.lean ====
/-
  The frame of `Kernel`: what the accumulator and the output block hold after every grid point (by recursion on the point: a
  batch's first tile starts from zero, every later tile adds to what the tile before left, the last tile also copies the sum
  out), the proof data of the one pipeline, the body obligation at a generic point, the run of @main — the host lines before
  the region, the 1024 points, the 143 host lines after — and the frame claim: the run terminates, nothing faults, and the
  point array ends as launched.
-/
import proofs.«168833_j62826781606551_2_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, read back -/

section Cases
variable (c : Dev nD) (i : grid0.Coords) (arg2 : Memref sig .tc .vmem S1x4096x3 .f32) (harg2 : arg2.IsWhole) (arg3 : Memref sig .tc .vmem S1x2x3 .f32) (harg3 : arg3.IsWhole) (arg4 : Memref sig .tc .vmem S1x208x256 .f32) (harg4 : arg4.IsWhole) (arg5 : Memref sig .tc .vmem S208x256 .f32) (harg5 : arg5.IsWhole)

/-- The first tile's stores into the accumulator cover it. -/
theorem scoverFirst (hc0 : cond0_0 i) (hc1 : ¬cond0_1 i) (x0 : Vec F S1x4096x3 .f32) (x1 : Vec F S1x2x3 .f32) (y : S208x256.Idx) :
    ∃ pc ∈ (runFirst c i arg2 harg2 arg3 harg3 arg4 harg4 arg5 harg5 hc0 hc1 x0 x1).2.1, y ∈ pc.1.set :=
  View.cover_of_tiledL (runFirst c i arg2 harg2 arg3 harg3 arg4 harg4 arg5 harg5 hc0 hc1 x0 x1).2.1 S208x256.size (by sl_kernel_rfl) y
/-- What the first tile leaves in the accumulator. -/
def soutFirst (hc0 : cond0_0 i) (hc1 : ¬cond0_1 i) (x0 : Vec F S1x4096x3 .f32) (x1 : Vec F S1x2x3 .f32) : Vec F S208x256 .f32 :=
  VS0_0.read (Elt F) (VS0_0.writes (Elt F) VS0_0.junk (runFirst c i arg2 harg2 arg3 harg3 arg4 harg4 arg5 harg5 hc0 hc1 x0 x1).2.1)
/-- The first tile stores nothing into the output block: a placeholder nothing consults (the block is idle there). -/
def outFirst (hc0 : cond0_0 i) (hc1 : ¬cond0_1 i) (x0 : Vec F S1x4096x3 .f32) (x1 : Vec F S1x2x3 .f32) : Vec F S1x208x256 .f32 :=
  VO0_2.read (Elt F) (VO0_2.writes (Elt F) VO0_2.junk (runFirst c i arg2 harg2 arg3 harg3 arg4 harg4 arg5 harg5 hc0 hc1 x0 x1).1)

theorem scoverMiddle (hc0 : ¬cond0_0 i) (hc1 : ¬cond0_1 i) (x0 : Vec F S1x4096x3 .f32) (x1 : Vec F S1x2x3 .f32) (xs0 : Vec F S208x256 .f32) (y : S208x256.Idx) :
    ∃ pc ∈ (runMiddle c i arg2 harg2 arg3 harg3 arg4 harg4 arg5 harg5 hc0 hc1 x0 x1 xs0).2.1, y ∈ pc.1.set :=
  View.cover_of_tiledL (runMiddle c i arg2 harg2 arg3 harg3 arg4 harg4 arg5 harg5 hc0 hc1 x0 x1 xs0).2.1 S208x256.size (by sl_kernel_rfl) y
/-- What a middle tile leaves in the accumulator, from what the tile before left. -/
def soutMiddle (hc0 : ¬cond0_0 i) (hc1 : ¬cond0_1 i) (x0 : Vec F S1x4096x3 .f32) (x1 : Vec F S1x2x3 .f32) (xs0 : Vec F S208x256 .f32) : Vec F S208x256 .f32 :=
  VS0_0.read (Elt F) (VS0_0.writes (Elt F) VS0_0.junk (runMiddle c i arg2 harg2 arg3 harg3 arg4 harg4 arg5 harg5 hc0 hc1 x0 x1 xs0).2.1)
def outMiddle (hc0 : ¬cond0_0 i) (hc1 : ¬cond0_1 i) (x0 : Vec F S1x4096x3 .f32) (x1 : Vec F S1x2x3 .f32) (xs0 : Vec F S208x256 .f32) : Vec F S1x208x256 .f32 :=
  VO0_2.read (Elt F) (VO0_2.writes (Elt F) VO0_2.junk (runMiddle c i arg2 harg2 arg3 harg3 arg4 harg4 arg5 harg5 hc0 hc1 x0 x1 xs0).1)

theorem scoverLast (hc0 : ¬cond0_0 i) (hc1 : cond0_1 i) (x0 : Vec F S1x4096x3 .f32) (x1 : Vec F S1x2x3 .f32) (xs0 : Vec F S208x256 .f32) (y : S208x256.Idx) :
    ∃ pc ∈ (runLast c i arg2 harg2 arg3 harg3 arg4 harg4 arg5 harg5 hc0 hc1 x0 x1 xs0).2.1, y ∈ pc.1.set :=
  View.cover_of_tiledL (runLast c i arg2 harg2 arg3 harg3 arg4 harg4 arg5 harg5 hc0 hc1 x0 x1 xs0).2.1 S208x256.size (by sl_kernel_rfl) y
def soutLast (hc0 : ¬cond0_0 i) (hc1 : cond0_1 i) (x0 : Vec F S1x4096x3 .f32) (x1 : Vec F S1x2x3 .f32) (xs0 : Vec F S208x256 .f32) : Vec F S208x256 .f32 :=
  VS0_0.read (Elt F) (VS0_0.writes (Elt F) VS0_0.junk (runLast c i arg2 harg2 arg3 harg3 arg4 harg4 arg5 harg5 hc0 hc1 x0 x1 xs0).2.1)
/-- The last tile's one store into the output block covers it. -/
theorem coverLast (hc0 : ¬cond0_0 i) (hc1 : cond0_1 i) (x0 : Vec F S1x4096x3 .f32) (x1 : Vec F S1x2x3 .f32) (xs0 : Vec F S208x256 .f32) (y : S1x208x256.Idx) :
    ∃ pc ∈ (runLast c i arg2 harg2 arg3 harg3 arg4 harg4 arg5 harg5 hc0 hc1 x0 x1 xs0).1, y ∈ pc.1.set :=
  View.cover_of_tiledL (runLast c i arg2 harg2 arg3 harg3 arg4 harg4 arg5 harg5 hc0 hc1 x0 x1 xs0).1 S1x208x256.size (by sl_kernel_rfl) y
/-- What the last tile leaves in the output block. -/
def outLast (hc0 : ¬cond0_0 i) (hc1 : cond0_1 i) (x0 : Vec F S1x4096x3 .f32) (x1 : Vec F S1x2x3 .f32) (xs0 : Vec F S208x256 .f32) : Vec F S1x208x256 .f32 :=
  VO0_2.read (Elt F) (VO0_2.writes (Elt F) VO0_2.junk (runLast c i arg2 harg2 arg3 harg3 arg4 harg4 arg5 harg5 hc0 hc1 x0 x1 xs0).1)

end Cases

/-! ## Point by point -/

/-- A batch's first tile at point `t`: (output block, accumulator) after the body. -/
def firstAt (c : Dev nD) (t : Fin cfg0.N) (h0 : t.val % 64 = 0) (h1 : ¬t.val % 64 = 63) : Vec F S1x208x256 .f32 × Vec F S208x256 .f32 :=
  (outFirst c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t),
   soutFirst c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t))
/-- A middle tile at point `t`, over the accumulator `xs` the tile before left. -/
def middleAt (c : Dev nD) (t : Fin cfg0.N) (h0 : ¬t.val % 64 = 0) (h1 : ¬t.val % 64 = 63) (xs : Vec F S208x256 .f32) : Vec F S1x208x256 .f32 × Vec F S208x256 .f32 :=
  (outMiddle c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) xs,
   soutMiddle c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) xs)
/-- A batch's last tile at point `t`, over the accumulator `xs` the tile before left. -/
def lastAt (c : Dev nD) (t : Fin cfg0.N) (h0 : ¬t.val % 64 = 0) (h1 : t.val % 64 = 63) (xs : Vec F S208x256 .f32) : Vec F S1x208x256 .f32 × Vec F S208x256 .f32 :=
  (outLast c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) xs,
   soutLast c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) xs)

/-- THE ACCUMULATION: (output block, accumulator) after the body at position `n`. -/
def outsAt0 (c : Dev nD) : (n : ℕ) → n < cfg0.N → Vec F S1x208x256 .f32 × Vec F S208x256 .f32
  | 0, hn => firstAt m c ⟨0, hn⟩ (Nat.zero_mod _) (show ¬(0 % 64 = 63) by decide)
  | n + 1, hn =>
    if h0 : (n + 1) % 64 = 0 then
      if h1 : (n + 1) % 64 = 63 then False.elim (by omega)
      else firstAt m c ⟨n + 1, hn⟩ h0 h1
    else
      if h1 : (n + 1) % 64 = 63 then lastAt m c ⟨n + 1, hn⟩ h0 h1 (outsAt0 c n (Nat.lt_of_succ_lt hn)).2
      else middleAt m c ⟨n + 1, hn⟩ h0 h1 (outsAt0 c n (Nat.lt_of_succ_lt hn)).2

theorem outsAt0_first (c : Dev nD) (t : Fin cfg0.N) (h0 : t.val % 64 = 0) (h1 : ¬t.val % 64 = 63) :
    outsAt0 m c t.val t.isLt = firstAt m c t h0 h1 := by
  obtain ⟨n, hn⟩ := t
  cases n with
  | zero => exact rfl
  | succ n => exact (dif_pos h0).trans ((dif_neg h1).trans rfl)

theorem outsAt0_middle (c : Dev nD) (t : Fin cfg0.N) (h0 : ¬t.val % 64 = 0) (h1 : ¬t.val % 64 = 63) :
    outsAt0 m c t.val t.isLt = middleAt m c t h0 h1 (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt0_last (c : Dev nD) (t : Fin cfg0.N) (h0 : ¬t.val % 64 = 0) (h1 : t.val % 64 = 63) :
    outsAt0 m c t.val t.isLt = lastAt m c t h0 h1 (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands over (the accumulator at
    anything); afterwards the accumulator at what the point before left, and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body the two inputs' buffers at their blocks and the output's at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the two inputs' buffers hold their blocks; the point's residue mod 64 says which case it is in;
    the invariant hands the body the accumulator (at anything before the very first point, else at what the point before
    left) and takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 64 = 0
  · have h1 : ¬t.val % 64 = 63 := by omega
    rw [Dat.leavesExact_idle (dats m 0 c) 2 t (idleAt0_2 t (fun h => h1 ((hcond0_1 t).mp h))) (noFlush0_2 t (fun h => h1 ((hcond0_1 t).mp h)))]
    rw [outsAt0_first m c t h0 h1]
    unfold firstAt soutFirst; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩⟩
      iapply ((runFirst c (grid0.coords t) _ _ _ _ _ _ _ _ ((hcond0_0 t).mpr h0) (fun h => h1 ((hcond0_1 t).mp h)) (iblk m c 0 t) (iblk m c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scoverFirst c _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨HS0, Hg⟩, Ho, ⟨%d0, H0⟩, ⟨%d1, H1⟩, ⟨%d2, H2⟩⟩
      iapply ((runFirst c (grid0.coords t) _ _ _ _ _ _ _ _ ((hcond0_0 t).mpr h0) (fun h => h1 ((hcond0_1 t).mp h)) (iblk m c 0 t) (iblk m c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scoverFirst c _ _ _ _ _ _ _ _ _ _ _ _ _)
        iexact Hg
      isplitl [Ho]; · iexact Ho
      isplitl [H0]; · iexact H0
      isplitl [H1]; · iexact H1
      iexists _; iexact H2
  · have hz : t.val ≠ 0 := fun e => h0 (by rw [e])
    by_cases h1 : t.val % 64 = 63
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_last m c t h0 h1]
      unfold lastAt outLast soutLast; (try dsimp only)
      rw [PhiS_castSucc m c t, PhiS_pos m c _ _ hz]
      iintro ⟨⟨HS0, Hg⟩, Ho, ⟨%d0, H0⟩, ⟨%d1, H1⟩, ⟨%d2, H2⟩⟩
      iapply ((runLast c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scoverLast c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverLast c _ _ _ _ _ _ _ _ _ _ _ _ _ _)
    · rw [Dat.leavesExact_idle (dats m 0 c) 2 t (idleAt0_2 t (fun h => h1 ((hcond0_1 t).mp h))) (noFlush0_2 t (fun h => h1 ((hcond0_1 t).mp h)))]
      rw [outsAt0_middle m c t h0 h1]
      unfold middleAt soutMiddle; (try dsimp only)
      rw [PhiS_castSucc m c t, PhiS_pos m c _ _ hz]
      iintro ⟨⟨HS0, Hg⟩, Ho, ⟨%d0, H0⟩, ⟨%d1, H1⟩, ⟨%d2, H2⟩⟩
      iapply ((runMiddle c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scoverMiddle c _ _ _ _ _ _ _ _ _ _ _ _ _ _)
        iexact Hg
      isplitl [Ho]; · iexact Ho
      isplitl [H0]; · iexact H0
      isplitl [H1]; · iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 1024 := N_0; omega)

/-! ## The run and the frame -/

set_option backward.isDefEq.respectTransparency.types false in
/-- Every weakly fair execution of @main terminates; at the end each of the region's arrays holds what the proof data says
    and every other unscoped buffer what the lines after the region leave in it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- THE FRAME of `Kernel`, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Hand

end
-- ==== Proof.KI.Region.lean ====
/-
  The one pallas_call of `KernelIdeal` inside its @main: the host lines before it (the per-batch minima and voxel sizes, joined
  into the 16×2×3 table the kernel reads), the region, and the host lines after it (the 143 operations that un-factor the
  208×256 accumulator into 4096 voxels × 13 moments and turn the moments into means and covariances).
  This module says what the region finds in each buffer (`V`), that the later lines touch only unscoped buffers, allocate
  nothing and never write one of the region's three arrays, what a window's block at a grid point is, the two
  conditions the body branches on (first tile of a batch: point ≡ 0 mod 64; last tile: point ≡ 63 mod 64), and where the
  output window is idle.
-/
import proofs.«168833_j62826781606551_2_alg».proof.Proof.Gen.KernelIdeal.Launch
import proofs.«168833_j62826781606551_2_alg».proof.Proof.Gen.KernelIdeal.Skeleton
import proofs.«168833_j62826781606551_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines after the region, stretch by stretch, in program order. -/
abbrev tailOps : List (List (HloOp τ sig (Elt F))) :=
  [hostOps1, hostOps1_1, hostOps1_2, hostOps1_3, hostOps1_4, hostOps1_5, hostOps1_6, hostOps1_7, hostOps1_8, hostOps1_9]

/-- What core `c`'s buffers hold when the region is entered: the launch contents after the fourteen host lines before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is: the lines before the region, the region, the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-! ## The lines after the region -/

/-- A stretch of host lines none of which allocates. -/
abbrev NoFresh (ops : List (HloOp τ sig (Elt F))) : Prop := ops.Forall fun op => op.fresh = ∅
/-- A stretch of host lines none of which writes one of the region's three arrays. -/
abbrev KeepsArrays (ops : List (HloOp τ sig (Elt F))) : Prop :=
  ops.Forall fun op => ∀ w, Proc.devRef .tc (Pipeline.arrRef spec0 w) ∉ op.writes

theorem fresh1 : NoFresh (F := F) hostOps1 := by simp only [List.Forall]; repeat' constructor
theorem fresh1_1 : NoFresh (F := F) hostOps1_1 := by simp only [List.Forall]; repeat' constructor
theorem fresh1_2 : NoFresh (F := F) hostOps1_2 := by simp only [List.Forall]; repeat' constructor
theorem fresh1_3 : NoFresh (F := F) hostOps1_3 := by simp only [List.Forall]; repeat' constructor
theorem fresh1_4 : NoFresh (F := F) hostOps1_4 := by simp only [List.Forall]; repeat' constructor
theorem fresh1_5 : NoFresh (F := F) hostOps1_5 := by simp only [List.Forall]; repeat' constructor
theorem fresh1_6 : NoFresh (F := F) hostOps1_6 := by simp only [List.Forall]; repeat' constructor
theorem fresh1_7 : NoFresh (F := F) hostOps1_7 := by simp only [List.Forall]; repeat' constructor
theorem fresh1_8 : NoFresh (F := F) hostOps1_8 := by simp only [List.Forall]; repeat' constructor
theorem fresh1_9 : NoFresh (F := F) hostOps1_9 := by simp only [List.Forall]; repeat' constructor

/-- Each later line writes its own result buffer only, and that buffer is none of the three arrays. -/
macro "keeps_arrays" : tactic => `(tactic| (
  simp only [List.Forall]
  repeat' apply And.intro
  all_goals (intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide))))

theorem keeps1 : KeepsArrays (F := F) hostOps1 := by keeps_arrays
theorem keeps1_1 : KeepsArrays (F := F) hostOps1_1 := by keeps_arrays
theorem keeps1_2 : KeepsArrays (F := F) hostOps1_2 := by keeps_arrays
theorem keeps1_3 : KeepsArrays (F := F) hostOps1_3 := by keeps_arrays
theorem keeps1_4 : KeepsArrays (F := F) hostOps1_4 := by keeps_arrays
theorem keeps1_5 : KeepsArrays (F := F) hostOps1_5 := by keeps_arrays
theorem keeps1_6 : KeepsArrays (F := F) hostOps1_6 := by keeps_arrays
theorem keeps1_7 : KeepsArrays (F := F) hostOps1_7 := by keeps_arrays
theorem keeps1_8 : KeepsArrays (F := F) hostOps1_8 := by keeps_arrays
theorem keeps1_9 : KeepsArrays (F := F) hostOps1_9 := by keeps_arrays

/-- A property of every line of every later stretch, from the property of each stretch. -/
theorem tail_forall {Q : HloOp τ sig (Elt F) → Prop}
    (h0 : (hostOps1 (F := F)).Forall Q) (h1 : (hostOps1_1 (F := F)).Forall Q) (h2 : (hostOps1_2 (F := F)).Forall Q)
    (h3 : (hostOps1_3 (F := F)).Forall Q) (h4 : (hostOps1_4 (F := F)).Forall Q) (h5 : (hostOps1_5 (F := F)).Forall Q)
    (h6 : (hostOps1_6 (F := F)).Forall Q) (h7 : (hostOps1_7 (F := F)).Forall Q) (h8 : (hostOps1_8 (F := F)).Forall Q)
    (h9 : (hostOps1_9 (F := F)).Forall Q) : ∀ ops ∈ (tailOps (F := F)), ∀ op ∈ ops, Q op := by
  intro ops hops op hop
  simp only [List.mem_cons, List.mem_nil_iff, or_false] at hops
  rcases hops with rfl | rfl | rfl | rfl | rfl | rfl | rfl | rfl | rfl | rfl
  · exact List.forall_iff_forall_mem.mp h0 op hop
  · exact List.forall_iff_forall_mem.mp h1 op hop
  · exact List.forall_iff_forall_mem.mp h2 op hop
  · exact List.forall_iff_forall_mem.mp h3 op hop
  · exact List.forall_iff_forall_mem.mp h4 op hop
  · exact List.forall_iff_forall_mem.mp h5 op hop
  · exact List.forall_iff_forall_mem.mp h6 op hop
  · exact List.forall_iff_forall_mem.mp h7 op hop
  · exact List.forall_iff_forall_mem.mp h8 op hop
  · exact List.forall_iff_forall_mem.mp h9 op hop

/-- The later lines touch the region's arrays and the buffers that bypass it only. -/
theorem sfx_sub : ∀ ops ∈ (tailOps (F := F)), ∀ op ∈ ops,
    op.bufs ⊆ Pipeline.tailRefs sig Pipeline.Prefetch.none spec0 := by
  rw [Pipeline.tailRefs_none spec0 launch0.win.arr_unscoped]
  intro ops hops op hop
  exact Pipeline.sub_ucRefs op (tail_forall (Q := fun op => op.bufs ⊆ StableHlo.tcRefs τ sig)
    hostOps1_sub hostOps1_1_sub hostOps1_2_sub hostOps1_3_sub hostOps1_4_sub hostOps1_5_sub hostOps1_6_sub hostOps1_7_sub
    hostOps1_8_sub hostOps1_9_sub ops hops op hop)
/-- They allocate nothing. -/
theorem sfx_fresh : ∀ ops ∈ (tailOps (F := F)), ∀ op ∈ ops, op.fresh = ∅ :=
  tail_forall fresh1 fresh1_1 fresh1_2 fresh1_3 fresh1_4 fresh1_5 fresh1_6 fresh1_7 fresh1_8 fresh1_9
/-- And they write none of the region's arrays. -/
theorem sfx_keeps : ∀ ops ∈ (tailOps (F := F)), ∀ op ∈ ops,
    ∀ w, Proc.devRef .tc (Pipeline.arrRef spec0 w) ∉ op.writes :=
  tail_forall keeps1 keeps1_1 keeps1_2 keeps1_3 keeps1_4 keeps1_5 keeps1_6 keeps1_7 keeps1_8 keeps1_9

/-- The lines before the region do not write the point array: the region finds it as launched. -/
theorem V_main_arg0 (c : Dev nD) : V m c main_arg0 = m ((c : Thread nD τ).loc main_arg0) := by
  dsimp only [V, V0]; simp only [hostOps0, List.flatten_cons, List.flatten_nil, List.append_nil]; after_results_simp <;> rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The tile of 4096 points (window 0) is in its staging buffer at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The batch's row of the table (window 1: minima and voxel sizes) is in its staging buffer at every point, though it is
    fetched only at the batch's first tile: between fetches the block index does not move. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The point array is window 0's array, an input: after the run it holds what the region found, which is what was launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats 0 c).arrAt_in 0 rfl _).trans ((hA c 0).trans (V_main_arg0 m c)))) h

/-! ## The body's two branch conditions -/

/-- "This is the batch's first tile" (the accumulator is zeroed), as the body computes it from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 64 = 0 :=
  (by decide +kernel : ∀ t : Fin grid0.N, cond0_0 (grid0.coords t) ↔ t.val % 64 = 0)

/-- "This is the batch's last tile" (the accumulator is copied to the output block). -/
abbrev cond0_1 (i : grid0.Coords) : Prop := k0_cond2 i = 1#1
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from a batch's last tile the body stores nothing into the output block, and the pipeline does not write it back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

/-- One staging buffer of the output window, through which its contents are stated. -/
abbrev VO0_2 : View sig .tc .vmem S1x208x256 .f32 := (Memref.whole cc0_stg2_0 : Memref sig .tc .vmem S1x208x256 .f32).view
abbrev ms0_0 (t : Fin cfg0.N) : Memref sig .tc .vmem S1x4096x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x208x256 .f32 := win0_2.stage (cfg0.slots t 2)
abbrev hs0_2 (t : Fin cfg0.N) : (ms0_2 t).IsWhole := hstage0_2 ((cfg0.slots t 2).cast nbuf0_2)
/-- The 208×256 accumulator: a scratch buffer of the kernel's own, carried from tile to tile. -/
abbrev scM0_0 : Memref sig .tc .vmem S208x256 .f32 := Memref.whole cc0_scratch0
abbrev VS0_0 : View sig .tc .vmem S208x256 .f32 := scM0_0.view

/-- What the launch hands the body besides the windows: the accumulator at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KI.Body.lean ====
/-
  The body of `KernelIdeal`'s kernel run on whole staging memrefs, in each of the three cases its two conditionals meet over the grid:
    first  — a batch's first tile: the accumulator is zeroed, then this tile's 208×256 block of moments is added;
    middle — neither first nor last: the tile's moments are added to what the tile before left;
    last   — a batch's last tile: the moments are added and the accumulator is copied into the output block.
  (With 64 tiles per batch no tile is both first and last.) In each case the run ends with the two input buffers as they were
  and the accumulator — in the last case also the output block — at a list of stored pieces, which the run finds.
-/
import proofs.«168833_j62826781606551_2_alg».proof.Proof.KI.Region

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- First tile of a batch: the output block is not touched (`xi2` handed back), the accumulator is found at anything. -/
noncomputable def runFirst (c : Dev nD) (i : grid0.Coords) (arg2 : Memref sig .tc .vmem S1x4096x3 .f32) (harg2 : arg2.IsWhole) (arg3 : Memref sig .tc .vmem S1x2x3 .f32) (harg3 : arg3.IsWhole) (arg4 : Memref sig .tc .vmem S1x208x256 .f32) (harg4 : arg4.IsWhole) (arg5 : Memref sig .tc .vmem S208x256 .f32) (harg5 : arg5.IsWhole) (hc0 : cond0_0 i) (hc1 : ¬cond0_1 i)
    (x0 : Vec F S1x4096x3 .f32) (x1 : Vec F S1x2x3 .f32) :
    Σ' (L2 : List (View.Piece (Elt F) S1x208x256 .f32)), { LS0 : List (View.Piece (Elt F) S208x256 .f32) //
      ∀ (xi2 : Vec F S1x208x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0_voxel_kernel i arg2 harg2 arg3 harg3 arg4 harg4 arg5 harg5) K } := by
  refine ⟨[], ?_, fun xi2 E K => ?run⟩
  case run =>
    simp only [cc0_voxel_kernel_eq_skeleton]; unfold cc0_voxel_kernel_skel
    simp only [k0_part1_eq_skeleton, k0_part2_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- A middle tile: the output block is not touched, the accumulator is found at what the tile before left (`xs0`). -/
noncomputable def runMiddle (c : Dev nD) (i : grid0.Coords) (arg2 : Memref sig .tc .vmem S1x4096x3 .f32) (harg2 : arg2.IsWhole) (arg3 : Memref sig .tc .vmem S1x2x3 .f32) (harg3 : arg3.IsWhole) (arg4 : Memref sig .tc .vmem S1x208x256 .f32) (harg4 : arg4.IsWhole) (arg5 : Memref sig .tc .vmem S208x256 .f32) (harg5 : arg5.IsWhole) (hc0 : ¬cond0_0 i) (hc1 : ¬cond0_1 i)
    (x0 : Vec F S1x4096x3 .f32) (x1 : Vec F S1x2x3 .f32) (xs0 : Vec F S208x256 .f32) :
    Σ' (L2 : List (View.Piece (Elt F) S1x208x256 .f32)), { LS0 : List (View.Piece (Elt F) S208x256 .f32) //
      ∀ (xi2 : Vec F S1x208x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0_voxel_kernel i arg2 harg2 arg3 harg3 arg4 harg4 arg5 harg5) K } := by
  refine ⟨[], ?_, fun xi2 E K => ?run⟩
  case run =>
    simp only [cc0_voxel_kernel_eq_skeleton]; unfold cc0_voxel_kernel_skel
    simp only [k0_part1_eq_skeleton, k0_part2_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Last tile of a batch: the output block is found at anything and left at its stored pieces. -/
noncomputable def runLast (c : Dev nD) (i : grid0.Coords) (arg2 : Memref sig .tc .vmem S1x4096x3 .f32) (harg2 : arg2.IsWhole) (arg3 : Memref sig .tc .vmem S1x2x3 .f32) (harg3 : arg3.IsWhole) (arg4 : Memref sig .tc .vmem S1x208x256 .f32) (harg4 : arg4.IsWhole) (arg5 : Memref sig .tc .vmem S208x256 .f32) (harg5 : arg5.IsWhole) (hc0 : ¬cond0_0 i) (hc1 : cond0_1 i)
    (x0 : Vec F S1x4096x3 .f32) (x1 : Vec F S1x2x3 .f32) (xs0 : Vec F S208x256 .f32) :
    Σ' (L2 : List (View.Piece (Elt F) S1x208x256 .f32)), { LS0 : List (View.Piece (Elt F) S208x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0_voxel_kernel i arg2 harg2 arg3 harg3 arg4 harg4 arg5 harg5) K } := by
  refine ⟨?_, ?_, fun E K => ?run⟩
  case run =>
    simp only [cc0_voxel_kernel_eq_skeleton]; unfold cc0_voxel_kernel_skel
    simp only [k0_part1_eq_skeleton, k0_part2_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.Frame.lean ====
/-
  The frame of `KernelIdeal`: what the accumulator and the output block hold after every grid point (by recursion on the point: a
  batch's first tile starts from zero, every later tile adds to what the tile before left, the last tile also copies the sum
  out), the proof data of the one pipeline, the body obligation at a generic point, the run of @main — the host lines before
  the region, the 1024 points, the 143 host lines after — and the frame claim: the run terminates, nothing faults, and the
  point array ends as launched.
-/
import proofs.«168833_j62826781606551_2_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, read back -/

section Cases
variable (c : Dev nD) (i : grid0.Coords) (arg2 : Memref sig .tc .vmem S1x4096x3 .f32) (harg2 : arg2.IsWhole) (arg3 : Memref sig .tc .vmem S1x2x3 .f32) (harg3 : arg3.IsWhole) (arg4 : Memref sig .tc .vmem S1x208x256 .f32) (harg4 : arg4.IsWhole) (arg5 : Memref sig .tc .vmem S208x256 .f32) (harg5 : arg5.IsWhole)

/-- The first tile's stores into the accumulator cover it. -/
theorem scoverFirst (hc0 : cond0_0 i) (hc1 : ¬cond0_1 i) (x0 : Vec F S1x4096x3 .f32) (x1 : Vec F S1x2x3 .f32) (y : S208x256.Idx) :
    ∃ pc ∈ (runFirst c i arg2 harg2 arg3 harg3 arg4 harg4 arg5 harg5 hc0 hc1 x0 x1).2.1, y ∈ pc.1.set :=
  View.cover_of_tiledL (runFirst c i arg2 harg2 arg3 harg3 arg4 harg4 arg5 harg5 hc0 hc1 x0 x1).2.1 S208x256.size (by sl_kernel_rfl) y
/-- What the first tile leaves in the accumulator. -/
def soutFirst (hc0 : cond0_0 i) (hc1 : ¬cond0_1 i) (x0 : Vec F S1x4096x3 .f32) (x1 : Vec F S1x2x3 .f32) : Vec F S208x256 .f32 :=
  VS0_0.read (Elt F) (VS0_0.writes (Elt F) VS0_0.junk (runFirst c i arg2 harg2 arg3 harg3 arg4 harg4 arg5 harg5 hc0 hc1 x0 x1).2.1)
/-- The first tile stores nothing into the output block: a placeholder nothing consults (the block is idle there). -/
def outFirst (hc0 : cond0_0 i) (hc1 : ¬cond0_1 i) (x0 : Vec F S1x4096x3 .f32) (x1 : Vec F S1x2x3 .f32) : Vec F S1x208x256 .f32 :=
  VO0_2.read (Elt F) (VO0_2.writes (Elt F) VO0_2.junk (runFirst c i arg2 harg2 arg3 harg3 arg4 harg4 arg5 harg5 hc0 hc1 x0 x1).1)

theorem scoverMiddle (hc0 : ¬cond0_0 i) (hc1 : ¬cond0_1 i) (x0 : Vec F S1x4096x3 .f32) (x1 : Vec F S1x2x3 .f32) (xs0 : Vec F S208x256 .f32) (y : S208x256.Idx) :
    ∃ pc ∈ (runMiddle c i arg2 harg2 arg3 harg3 arg4 harg4 arg5 harg5 hc0 hc1 x0 x1 xs0).2.1, y ∈ pc.1.set :=
  View.cover_of_tiledL (runMiddle c i arg2 harg2 arg3 harg3 arg4 harg4 arg5 harg5 hc0 hc1 x0 x1 xs0).2.1 S208x256.size (by sl_kernel_rfl) y
/-- What a middle tile leaves in the accumulator, from what the tile before left. -/
def soutMiddle (hc0 : ¬cond0_0 i) (hc1 : ¬cond0_1 i) (x0 : Vec F S1x4096x3 .f32) (x1 : Vec F S1x2x3 .f32) (xs0 : Vec F S208x256 .f32) : Vec F S208x256 .f32 :=
  VS0_0.read (Elt F) (VS0_0.writes (Elt F) VS0_0.junk (runMiddle c i arg2 harg2 arg3 harg3 arg4 harg4 arg5 harg5 hc0 hc1 x0 x1 xs0).2.1)
def outMiddle (hc0 : ¬cond0_0 i) (hc1 : ¬cond0_1 i) (x0 : Vec F S1x4096x3 .f32) (x1 : Vec F S1x2x3 .f32) (xs0 : Vec F S208x256 .f32) : Vec F S1x208x256 .f32 :=
  VO0_2.read (Elt F) (VO0_2.writes (Elt F) VO0_2.junk (runMiddle c i arg2 harg2 arg3 harg3 arg4 harg4 arg5 harg5 hc0 hc1 x0 x1 xs0).1)

theorem scoverLast (hc0 : ¬cond0_0 i) (hc1 : cond0_1 i) (x0 : Vec F S1x4096x3 .f32) (x1 : Vec F S1x2x3 .f32) (xs0 : Vec F S208x256 .f32) (y : S208x256.Idx) :
    ∃ pc ∈ (runLast c i arg2 harg2 arg3 harg3 arg4 harg4 arg5 harg5 hc0 hc1 x0 x1 xs0).2.1, y ∈ pc.1.set :=
  View.cover_of_tiledL (runLast c i arg2 harg2 arg3 harg3 arg4 harg4 arg5 harg5 hc0 hc1 x0 x1 xs0).2.1 S208x256.size (by sl_kernel_rfl) y
def soutLast (hc0 : ¬cond0_0 i) (hc1 : cond0_1 i) (x0 : Vec F S1x4096x3 .f32) (x1 : Vec F S1x2x3 .f32) (xs0 : Vec F S208x256 .f32) : Vec F S208x256 .f32 :=
  VS0_0.read (Elt F) (VS0_0.writes (Elt F) VS0_0.junk (runLast c i arg2 harg2 arg3 harg3 arg4 harg4 arg5 harg5 hc0 hc1 x0 x1 xs0).2.1)
/-- The last tile's one store into the output block covers it. -/
theorem coverLast (hc0 : ¬cond0_0 i) (hc1 : cond0_1 i) (x0 : Vec F S1x4096x3 .f32) (x1 : Vec F S1x2x3 .f32) (xs0 : Vec F S208x256 .f32) (y : S1x208x256.Idx) :
    ∃ pc ∈ (runLast c i arg2 harg2 arg3 harg3 arg4 harg4 arg5 harg5 hc0 hc1 x0 x1 xs0).1, y ∈ pc.1.set :=
  View.cover_of_tiledL (runLast c i arg2 harg2 arg3 harg3 arg4 harg4 arg5 harg5 hc0 hc1 x0 x1 xs0).1 S1x208x256.size (by sl_kernel_rfl) y
/-- What the last tile leaves in the output block. -/
def outLast (hc0 : ¬cond0_0 i) (hc1 : cond0_1 i) (x0 : Vec F S1x4096x3 .f32) (x1 : Vec F S1x2x3 .f32) (xs0 : Vec F S208x256 .f32) : Vec F S1x208x256 .f32 :=
  VO0_2.read (Elt F) (VO0_2.writes (Elt F) VO0_2.junk (runLast c i arg2 harg2 arg3 harg3 arg4 harg4 arg5 harg5 hc0 hc1 x0 x1 xs0).1)

end Cases

/-! ## Point by point -/

/-- A batch's first tile at point `t`: (output block, accumulator) after the body. -/
def firstAt (c : Dev nD) (t : Fin cfg0.N) (h0 : t.val % 64 = 0) (h1 : ¬t.val % 64 = 63) : Vec F S1x208x256 .f32 × Vec F S208x256 .f32 :=
  (outFirst c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t),
   soutFirst c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t))
/-- A middle tile at point `t`, over the accumulator `xs` the tile before left. -/
def middleAt (c : Dev nD) (t : Fin cfg0.N) (h0 : ¬t.val % 64 = 0) (h1 : ¬t.val % 64 = 63) (xs : Vec F S208x256 .f32) : Vec F S1x208x256 .f32 × Vec F S208x256 .f32 :=
  (outMiddle c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) xs,
   soutMiddle c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) xs)
/-- A batch's last tile at point `t`, over the accumulator `xs` the tile before left. -/
def lastAt (c : Dev nD) (t : Fin cfg0.N) (h0 : ¬t.val % 64 = 0) (h1 : t.val % 64 = 63) (xs : Vec F S208x256 .f32) : Vec F S1x208x256 .f32 × Vec F S208x256 .f32 :=
  (outLast c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) xs,
   soutLast c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) xs)

/-- THE ACCUMULATION: (output block, accumulator) after the body at position `n`. -/
def outsAt0 (c : Dev nD) : (n : ℕ) → n < cfg0.N → Vec F S1x208x256 .f32 × Vec F S208x256 .f32
  | 0, hn => firstAt m c ⟨0, hn⟩ (Nat.zero_mod _) (show ¬(0 % 64 = 63) by decide)
  | n + 1, hn =>
    if h0 : (n + 1) % 64 = 0 then
      if h1 : (n + 1) % 64 = 63 then False.elim (by omega)
      else firstAt m c ⟨n + 1, hn⟩ h0 h1
    else
      if h1 : (n + 1) % 64 = 63 then lastAt m c ⟨n + 1, hn⟩ h0 h1 (outsAt0 c n (Nat.lt_of_succ_lt hn)).2
      else middleAt m c ⟨n + 1, hn⟩ h0 h1 (outsAt0 c n (Nat.lt_of_succ_lt hn)).2

theorem outsAt0_first (c : Dev nD) (t : Fin cfg0.N) (h0 : t.val % 64 = 0) (h1 : ¬t.val % 64 = 63) :
    outsAt0 m c t.val t.isLt = firstAt m c t h0 h1 := by
  obtain ⟨n, hn⟩ := t
  cases n with
  | zero => exact rfl
  | succ n => exact (dif_pos h0).trans ((dif_neg h1).trans rfl)

theorem outsAt0_middle (c : Dev nD) (t : Fin cfg0.N) (h0 : ¬t.val % 64 = 0) (h1 : ¬t.val % 64 = 63) :
    outsAt0 m c t.val t.isLt = middleAt m c t h0 h1 (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt0_last (c : Dev nD) (t : Fin cfg0.N) (h0 : ¬t.val % 64 = 0) (h1 : t.val % 64 = 63) :
    outsAt0 m c t.val t.isLt = lastAt m c t h0 h1 (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands over (the accumulator at
    anything); afterwards the accumulator at what the point before left, and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body the two inputs' buffers at their blocks and the output's at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the two inputs' buffers hold their blocks; the point's residue mod 64 says which case it is in;
    the invariant hands the body the accumulator (at anything before the very first point, else at what the point before
    left) and takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 64 = 0
  · have h1 : ¬t.val % 64 = 63 := by omega
    rw [Dat.leavesExact_idle (dats m 0 c) 2 t (idleAt0_2 t (fun h => h1 ((hcond0_1 t).mp h))) (noFlush0_2 t (fun h => h1 ((hcond0_1 t).mp h)))]
    rw [outsAt0_first m c t h0 h1]
    unfold firstAt soutFirst; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩⟩
      iapply ((runFirst c (grid0.coords t) _ _ _ _ _ _ _ _ ((hcond0_0 t).mpr h0) (fun h => h1 ((hcond0_1 t).mp h)) (iblk m c 0 t) (iblk m c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scoverFirst c _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨HS0, Hg⟩, Ho, ⟨%d0, H0⟩, ⟨%d1, H1⟩, ⟨%d2, H2⟩⟩
      iapply ((runFirst c (grid0.coords t) _ _ _ _ _ _ _ _ ((hcond0_0 t).mpr h0) (fun h => h1 ((hcond0_1 t).mp h)) (iblk m c 0 t) (iblk m c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scoverFirst c _ _ _ _ _ _ _ _ _ _ _ _ _)
        iexact Hg
      isplitl [Ho]; · iexact Ho
      isplitl [H0]; · iexact H0
      isplitl [H1]; · iexact H1
      iexists _; iexact H2
  · have hz : t.val ≠ 0 := fun e => h0 (by rw [e])
    by_cases h1 : t.val % 64 = 63
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_last m c t h0 h1]
      unfold lastAt outLast soutLast; (try dsimp only)
      rw [PhiS_castSucc m c t, PhiS_pos m c _ _ hz]
      iintro ⟨⟨HS0, Hg⟩, Ho, ⟨%d0, H0⟩, ⟨%d1, H1⟩, ⟨%d2, H2⟩⟩
      iapply ((runLast c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scoverLast c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverLast c _ _ _ _ _ _ _ _ _ _ _ _ _ _)
    · rw [Dat.leavesExact_idle (dats m 0 c) 2 t (idleAt0_2 t (fun h => h1 ((hcond0_1 t).mp h))) (noFlush0_2 t (fun h => h1 ((hcond0_1 t).mp h)))]
      rw [outsAt0_middle m c t h0 h1]
      unfold middleAt soutMiddle; (try dsimp only)
      rw [PhiS_castSucc m c t, PhiS_pos m c _ _ hz]
      iintro ⟨⟨HS0, Hg⟩, Ho, ⟨%d0, H0⟩, ⟨%d1, H1⟩, ⟨%d2, H2⟩⟩
      iapply ((runMiddle c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scoverMiddle c _ _ _ _ _ _ _ _ _ _ _ _ _ _)
        iexact Hg
      isplitl [Ho]; · iexact Ho
      isplitl [H0]; · iexact H0
      isplitl [H1]; · iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 1024 := N_0; omega)

/-! ## The run and the frame -/

set_option backward.isDefEq.respectTransparency.types false in
/-- Every weakly fair execution of @main terminates; at the end each of the region's arrays holds what the proof data says
    and every other unscoped buffer what the lines after the region leave in it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- THE FRAME of `KernelIdeal`, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Hand

end
-- ==== Proof.RefFrame.lean ====
/-
  The reference program's run: its @main is 106 host operations in a row, so every weakly fair execution terminates, faults
  nowhere, leaves the point array as launched (no operation writes it), and leaves in each buffer the fold of the operations'
  results over the launch contents. The result buffer is stated at that fold itself.
-/
import proofs.«168833_j62826781606551_2_alg».proof.Proof.RefRun

noncomputable section

namespace Cert.ReferenceIdeal.Hand

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- What the reference leaves in its result buffer on core `c`: the fold of its operations over the launch contents. -/
def result (m : (ℓ : Loc nD τ sig) → Buf (Elt F) ℓ) (c : Dev nD) : Buf (Elt F) ((c.tc : Thread nD τ).loc main_v79) :=
  after (ops (F := F)) (launchContents m c) (Proc.devRef .tc main_v79)

set_option maxRecDepth 8192 in
set_option maxHeartbeats 4000000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v79) = result m c
      ∧ r.2.mem ((c.tc : Thread nD τ).loc main_arg0) = m ((c.tc : Thread nD τ).loc main_arg0) :=
  (θ_run defs _ _).mono (fun _ h c => ⟨h c main_v79, (h c main_arg0).trans (by after_results_simp <;> rfl)⟩)
    (run_seq scopedRefs_eq scopedSems_eq defs main (fun _ => ops) main_eq (fun _ => ops_sub) m ρ)

end Cert.ReferenceIdeal.Hand

end
-- ==== Proof.KI.Value.lean ====
/-
  What `KernelIdeal` leaves in its result buffer: the 143 host lines after the region, run over the buffers as the region found
  them with the region's three arrays at what the pipeline left in them (the 16×208×256 array of accumulated moments: each
  batch's block as the batch's last tile wrote it back).
-/
import proofs.«168833_j62826781606551_2_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer's contents after the run, on core `c`. -/
def result (c : Dev nD) : Buf (Elt F) ((c.tc : Thread nD τ).loc main_v68) :=
  Pipeline.afterTail₀ cfgs (dats m) 0 (V0 m) tailOps c main_v68

/-- The run, read at the result buffer and at the point array. -/
theorem run_value : θ_run defs (onTc (τ := τ) (main (F := F))) ⟨m, fun _ => 0, ρ⟩ (fun r => ∀ c : Dev nD,
      r.2.mem ((c.tc : Thread nD τ).loc main_v68) = result m c
      ∧ r.2.mem ((c.tc : Thread nD τ).loc main_arg0) = m ((c.tc : Thread nD τ).loc main_arg0)) :=
  (θ_run defs _ _).mono (fun _ h c => ⟨(h c).2 main_v68 (Pipeline.mem_restRefs_of main_v68 (by decide) (by decide)),
      ((h c).1 0).trans (((dats m 0 c).arrAt_in 0 rfl _).trans ((A_eq m c 0).trans (V_main_arg0 m c)))⟩) (run_main m ρ)

end Cert.KernelIdeal.Hand

end
-- ==== Proof.KI.Tile.lean ====
/-
  One tile's contribution, and the accumulator tile by tile.

  From a tile of 4096 points `x0` and the batch's table row `x1` (minima and voxel sizes) the body forms the 4096×208 matrix of
  expanded features (`featExp`: for each of the 16 values of the first voxel coordinate, the 13 centred moments of a point
  times the indicator that the point has that coordinate) and the 4096×256 indicator of the other two coordinates
  (`hotJK`), contracts them over the 4096 points on the matrix unit and adds the 208×256 product to the accumulator
  (`tileAcc`). What each case of the body leaves is read back as these terms, and the accumulator after position `n` is
  the ordered running sum over the batch's tiles so far (`accAt`): zero plus the first tile, plus each later tile.
-/
import proofs.«168833_j62826781606551_2_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The 4096×208 expanded features of a tile: column `13·g + f` is moment `f` of the point times "its first voxel
    coordinate is `g`". -/
def featExp (x0 : Vec F S1x4096x3 .f32) (x1 : Vec F S1x2x3 .f32) : FVec F S4096x208 .bf16 :=
  concatenate S4096x208 1
    [⟨S4096x13, k0_pay18 (k0_pay12 x0 x1) (k0_pay13 x0 x1)⟩,
     ⟨S4096x13, k0_pay19 (k0_pay12 x0 x1) (k0_pay13 x0 x1)⟩,
     ⟨S4096x13, k0_pay20 (k0_pay12 x0 x1) (k0_pay13 x0 x1)⟩,
     ⟨S4096x13, k0_pay21 (k0_pay12 x0 x1) (k0_pay13 x0 x1)⟩,
     ⟨S4096x13, k0_pay22 (k0_pay12 x0 x1) (k0_pay13 x0 x1)⟩,
     ⟨S4096x13, k0_pay23 (k0_pay12 x0 x1) (k0_pay13 x0 x1)⟩,
     ⟨S4096x13, k0_pay24 (k0_pay12 x0 x1) (k0_pay13 x0 x1)⟩,
     ⟨S4096x13, k0_pay25 (k0_pay12 x0 x1) (k0_pay13 x0 x1)⟩,
     ⟨S4096x13, k0_pay26 (k0_pay12 x0 x1) (k0_pay13 x0 x1)⟩,
     ⟨S4096x13, k0_pay27 (k0_pay12 x0 x1) (k0_pay13 x0 x1)⟩,
     ⟨S4096x13, k0_pay28 (k0_pay12 x0 x1) (k0_pay13 x0 x1)⟩,
     ⟨S4096x13, k0_pay29 (k0_pay12 x0 x1) (k0_pay13 x0 x1)⟩,
     ⟨S4096x13, k0_pay30 (k0_pay12 x0 x1) (k0_pay13 x0 x1)⟩,
     ⟨S4096x13, k0_pay31 (k0_pay12 x0 x1) (k0_pay13 x0 x1)⟩,
     ⟨S4096x13, k0_pay1 (k0_pay12 x0 x1) (k0_pay32 (F := F) (k0_pay13 x0 x1))⟩,
     ⟨S4096x13, k0_pay2 (k0_pay12 x0 x1) (k0_pay16 (F := F) (k0_pay13 x0 x1))⟩]
    concatenates_S4096x13_S4096x13_S4096x13_S4096x13_S4096x13_S4096x13_S4096x13_S4096x13_S4096x13_S4096x13_S4096x13_S4096x13_S4096x13_S4096x13_S4096x13_S4096x13_S4096x208_d1

/-- The 4096×256 indicator "the point's second and third voxel coordinates are (column / 16, column % 16)". -/
def hotJK (x0 : Vec F S1x4096x3 .f32) (x1 : Vec F S1x2x3 .f32) : FVec F S4096x256 .bf16 :=
  k0_pay17 (F := F) (k0_pay11 x0 x1) (k0_pay14 x0 x1) k0_pay15

/-- The accumulator after a tile: what it held plus the tile's 208×256 block of moment sums. -/
def tileAcc (x0 : Vec F S1x4096x3 .f32) (x1 : Vec F S1x2x3 .f32) (acc : Vec F S208x256 .f32) : Vec F S208x256 .f32 :=
  k0_pay3 (hotJK x0 x1) (featExp x0 x1) acc

/-- A load of a whole staging buffer through the whole-shape rectangle reads its contents. -/
theorem readAt2 (a : Memref sig .tc .vmem S1x4096x3 .f32) (h : a.IsWhole) (x : Vec F S1x4096x3 .f32) :
    View.readAt (Elt F) a.view (Rect.unit (s := S1x4096x3) ![0, 0, 0] S1x4096x3.size inb_S1x4096x3_S1x4096x3_0_0_0).toLoadRect (h.unread x) = x := by
  simp only [View.readAt_eq_ld, h.read_unread, View.ld_unit_zero (S := S1x4096x3) hz3]
theorem readAt3 (a : Memref sig .tc .vmem S1x2x3 .f32) (h : a.IsWhole) (x : Vec F S1x2x3 .f32) :
    View.readAt (Elt F) a.view (Rect.unit (s := S1x2x3) ![0, 0, 0] S1x2x3.size inb_S1x2x3_S1x2x3_0_0_0).toLoadRect (h.unread x) = x := by
  simp only [View.readAt_eq_ld, h.read_unread, View.ld_unit_zero (S := S1x2x3) hz3]
theorem readAt5 (a : Memref sig .tc .vmem S208x256 .f32) (h : a.IsWhole) (x : Vec F S208x256 .f32) :
    View.readAt (Elt F) a.view (Rect.unit (s := S208x256) ![0, 0] S208x256.size inb_S208x256_S208x256_0_0).toLoadRect (h.unread x) = x := by
  simp only [View.readAt_eq_ld, h.read_unread, View.ld_unit_zero (S := S208x256) hz2]

section Pieces
variable (c : Dev nD) (i : grid0.Coords) (arg2 : Memref sig .tc .vmem S1x4096x3 .f32) (harg2 : arg2.IsWhole) (arg3 : Memref sig .tc .vmem S1x2x3 .f32) (harg3 : arg3.IsWhole) (arg4 : Memref sig .tc .vmem S1x208x256 .f32) (harg4 : arg4.IsWhole) (arg5 : Memref sig .tc .vmem S208x256 .f32) (harg5 : arg5.IsWhole)

/-- A middle tile leaves the accumulator at what it held plus the tile's block. -/
theorem soutMiddle_eq (hc0 : ¬cond0_0 i) (hc1 : ¬cond0_1 i) (x0 : Vec F S1x4096x3 .f32) (x1 : Vec F S1x2x3 .f32) (xs0 : Vec F S208x256 .f32) :
    soutMiddle c i arg2 harg2 arg3 harg3 arg4 harg4 arg5 harg5 hc0 hc1 x0 x1 xs0 = tileAcc x0 x1 xs0 := by
  unfold soutMiddle
  rw [View.read_writes_eq_canon _ _ _ (scoverMiddle c i arg2 harg2 arg3 harg3 arg4 harg4 arg5 harg5 hc0 hc1 x0 x1 xs0)]
  unfold runMiddle
  dsimp only
  sl_unfold_words
  rw [View.canon_unit_zero hz2, readAt2 arg2 harg2 x0, readAt3 arg3 harg3 x1, readAt5 arg5 harg5 xs0]
  rfl

/-- A batch's last tile leaves the accumulator likewise, -/
theorem soutLast_eq (hc0 : ¬cond0_0 i) (hc1 : cond0_1 i) (x0 : Vec F S1x4096x3 .f32) (x1 : Vec F S1x2x3 .f32) (xs0 : Vec F S208x256 .f32) :
    soutLast c i arg2 harg2 arg3 harg3 arg4 harg4 arg5 harg5 hc0 hc1 x0 x1 xs0 = tileAcc x0 x1 xs0 := by
  unfold soutLast
  rw [View.read_writes_eq_canon _ _ _ (scoverLast c i arg2 harg2 arg3 harg3 arg4 harg4 arg5 harg5 hc0 hc1 x0 x1 xs0)]
  unfold runLast
  dsimp only
  sl_unfold_words
  rw [View.canon_unit_zero hz2, readAt2 arg2 harg2 x0, readAt3 arg3 harg3 x1, readAt5 arg5 harg5 xs0]
  rfl

/-- A batch's first tile zeroes the accumulator, reads the zeros back and leaves zero plus the tile's block. -/
theorem soutFirst_eq (hc0 : cond0_0 i) (hc1 : ¬cond0_1 i) (x0 : Vec F S1x4096x3 .f32) (x1 : Vec F S1x2x3 .f32) :
    soutFirst c i arg2 harg2 arg3 harg3 arg4 harg4 arg5 harg5 hc0 hc1 x0 x1 = tileAcc x0 x1 (k0_pay5 (F := F)) := by
  unfold soutFirst
  rw [View.read_writes_eq_canon _ _ _ (scoverFirst c i arg2 harg2 arg3 harg3 arg4 harg4 arg5 harg5 hc0 hc1 x0 x1)]
  unfold runFirst
  dsimp only
  sl_unfold_words
  rw [View.canon_cons_unit_zero (S := S208x256) hz2, View.readCov_unit_zero (S := S208x256) _ hz2, readAt2 arg2 harg2 x0, readAt3 arg3 harg3 x1]
  rfl

/-- and copies the new accumulator into the output block (as a 1×208×256 block). -/
theorem outLast_eq (hc0 : ¬cond0_0 i) (hc1 : cond0_1 i) (x0 : Vec F S1x4096x3 .f32) (x1 : Vec F S1x2x3 .f32) (xs0 : Vec F S208x256 .f32) :
    outLast c i arg2 harg2 arg3 harg3 arg4 harg4 arg5 harg5 hc0 hc1 x0 x1 xs0 = k0_pay4 (tileAcc x0 x1 xs0) := by
  unfold outLast
  rw [View.read_writes_eq_canon _ _ _ (coverLast c i arg2 harg2 arg3 harg3 arg4 harg4 arg5 harg5 hc0 hc1 x0 x1 xs0)]
  unfold runLast
  dsimp only
  sl_unfold_words
  rw [View.canon_unit_zero (S := S1x208x256) hz3, View.readCov_unit_zero (S := S208x256) _ hz2, readAt2 arg2 harg2 x0, readAt3 arg3 harg3 x1, readAt5 arg5 harg5 xs0]
  rfl

end Pieces

/-! ## The accumulator, tile by tile -/

/-- The accumulator after position `n`: at a batch's first tile zero plus the tile's block, at every later tile what the
    tile before left plus the tile's block. -/
def accAt (c : Dev nD) : (n : ℕ) → n < cfg0.N → Vec F S208x256 .f32
  | 0, h => tileAcc (iblk m c 0 ⟨0, h⟩) (iblk m c 1 ⟨0, h⟩) (k0_pay5 (F := F))
  | n + 1, h =>
    if (n + 1) % 64 = 0 then tileAcc (iblk m c 0 ⟨n + 1, h⟩) (iblk m c 1 ⟨n + 1, h⟩) (k0_pay5 (F := F))
    else tileAcc (iblk m c 0 ⟨n + 1, h⟩) (iblk m c 1 ⟨n + 1, h⟩) (accAt c n (Nat.lt_of_succ_lt h))

/-- What the frame's recursion says the accumulator holds after each point is this running sum. -/
theorem outsAt_snd (c : Dev nD) : ∀ (n : ℕ) (h : n < cfg0.N), (outsAt0 m c n h).2 = accAt m c n h
  | 0, h => by
    rw [outsAt0_first m c ⟨0, h⟩ (Nat.zero_mod _) (show ¬(0 % 64 = 63) by decide)]
    unfold firstAt; dsimp only
    rw [soutFirst_eq]; rfl
  | n + 1, h => by
    by_cases h0 : (n + 1) % 64 = 0
    · have h1 : ¬(n + 1) % 64 = 63 := by omega
      rw [outsAt0_first m c ⟨n + 1, h⟩ h0 h1]
      unfold firstAt; dsimp only
      rw [soutFirst_eq]; unfold accAt; rw [if_pos h0]
    · by_cases h1 : (n + 1) % 64 = 63
      · rw [outsAt0_last m c ⟨n + 1, h⟩ h0 h1]
        unfold lastAt; dsimp only
        rw [soutLast_eq]; conv_rhs => unfold accAt
        rw [if_neg h0]
        show tileAcc _ _ (outsAt0 m c n _).2 = tileAcc _ _ (accAt m c n _)
        rw [outsAt_snd c n]
      · rw [outsAt0_middle m c ⟨n + 1, h⟩ h0 h1]
        unfold middleAt; dsimp only
        rw [soutMiddle_eq]; conv_rhs => unfold accAt
        rw [if_neg h0]
        show tileAcc _ _ (outsAt0 m c n _).2 = tileAcc _ _ (accAt m c n _)
        rw [outsAt_snd c n]

/-- At a batch's last tile the output block is left at the accumulator (as a 1×208×256 block). -/
theorem outsAt_fst_last (c : Dev nD) (t : Fin cfg0.N) (h1 : t.val % 64 = 63) :
    (outsAt0 m c t.val t.isLt).1 = k0_pay4 (accAt m c t.val t.isLt) := by
  have h0 : ¬t.val % 64 = 0 := by omega
  have e := outsAt_snd m c t.val t.isLt
  rw [outsAt0_last m c t h0 h1] at e ⊢
  unfold lastAt at e ⊢; dsimp only at e ⊢
  rw [soutLast_eq] at e
  rw [outLast_eq, e]

end Cert.KernelIdeal.Hand

end
-- ==== Proof.KI.Raw.lean ====
/-
  The 16×208×256 array of accumulated moments after the run: batch `b`'s 208×256 block is written back once, at the batch's
  last tile (point `64 b + 63`), and holds the accumulator there; the sixteen blocks tile the array.
-/
import proofs.«168833_j62826781606551_2_alg».proof.Proof.KI.Tile
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The accumulator after a position does not depend on how the position is written. -/
theorem accAt_congr (c : Dev nD) {n n' : ℕ} (e : n = n') (h : n < cfg0.N) (h' : n' < cfg0.N) :
    accAt m c n h = accAt m c n' h' := by subst e; rfl

/-- The array of accumulated moments: at `(b, r, col)` the accumulator after batch `b`'s last tile, at `(r, col)`. -/
def rawG (c : Dev nD) : S16x208x256.Idx → Elt F .f32 := fun i =>
  accAt m c ((i 0).val * 64 + 63) (by have h : (i 0).val < 16 := (i 0).isLt; have hN : cfg0.N = 1024 := N_0; omega)
    (ix2 (n0 := 208) (n1 := 256) (i 1) (i 2))

/-- The output window's block index at a point: the batch, and zero on the other two axes. -/
theorem idx_out : ∀ t : Fin cfg0.N, win0_2.index t (0 : Fin 3) = t.val / 64 ∧ win0_2.index t (1 : Fin 3) = 0 ∧ win0_2.index t (2 : Fin 3) = 0 :=
  (by decide +kernel : ∀ t : Fin grid0.N, win0_2.index t (0 : Fin 3) = t.val / 64 ∧ win0_2.index t (1 : Fin 3) = 0 ∧ win0_2.index t (2 : Fin 3) = 0)

/-- What a batch's last tile writes back is that batch's block of `rawG`. -/
theorem flushed2_eq (c : Dev nD) (t : Fin cfg0.N) (hf : (cfg0.win 2).flush t = true) :
    (dats m 0 c).flushed 2 t = ((cfg0.win 2).blk t).view.read (Elt F) (rawG m c) := by
  have h63 : t.val % 64 = 63 := (flush0_2 t).mp hf
  obtain ⟨e0, e1, e2⟩ := idx_out t
  show (cfg0.win 2).cut (grid0.coords t) ((dats m 0 c).after 2 t) = _
  rw [after0_2, outsAt_fst_last m c t h63]
  funext j
  rw [View.read_apply]
  show k0_pay4 (accAt m c t.val t.isLt) j = rawG m c (((cfg0.win 2).blk t).view.emb j)
  obtain ⟨u, p, q, rfl⟩ : ∃ (u : Fin 1) (p : Fin 208) (q : Fin 256), j = ix3 u p q := ⟨j 0, j 1, j 2, eq_ix3 j⟩
  have hu : u.val = 0 := by omega
  unfold k0_pay4
  rw [shapeCast_ab_1ab_apply]
  have hemb : ((cfg0.win 2).blk t).view.emb (ix3 u p q) = ix3 (n0 := 16) (n1 := 208) (n2 := 256) ⟨t.val / 64, by have := t.isLt; have hN : cfg0.N = 1024 := N_0; omega⟩ p q := by
    funext a; apply Fin.ext
    match a with
    | ⟨0, _⟩ => show win0_2.index t (0 : Fin 3) * 1 + 1 * u.val = t.val / 64; omega
    | ⟨1, _⟩ => show win0_2.index t (1 : Fin 3) * 208 + 1 * p.val = p.val; omega
    | ⟨2, _⟩ => show win0_2.index t (2 : Fin 3) * 256 + 1 * q.val = q.val; omega
  rw [hemb]
  unfold rawG
  show accAt m c t.val t.isLt (ix2 p q) = accAt m c (t.val / 64 * 64 + 63) _ (ix2 p q)
  rw [accAt_congr m c (show t.val = t.val / 64 * 64 + 63 by omega) t.isLt]

/-- An index of the array is in point `t`'s block iff each coordinate is in the block's range on its axis. -/
theorem mem_blk2 (t : Fin cfg0.N) (i : S16x208x256.Idx) :
    i ∈ ((cfg0.win 2).blk t).view.set ↔ ∀ a : Fin 3, win0_2.index t a * S1x208x256.size a ≤ (i a).val ∧ (i a).val < win0_2.index t a * S1x208x256.size a + S1x208x256.size a := by
  show i ∈ ((View.whole main_v10).slice (win0_2.rect t)).set ↔ _
  rw [View.set_slice_whole, Rect.mem_set_unit]
  exact Iff.rfl

/-- Every index of the array lies in the block some batch's last tile writes back. -/
theorem covered2 (i : S16x208x256.Idx) : ∃ t : Fin cfg0.N, (cfg0.win 2).flush t = true ∧ i ∈ ((cfg0.win 2).blk t).view.set := by
  have h0 : (i 0).val < 16 := (i 0).isLt
  have h1 : (i 1).val < 208 := (i 1).isLt
  have h2 : (i 2).val < 256 := (i 2).isLt
  have hN : cfg0.N = 1024 := N_0
  have hN' : grid0.N = 1024 := N_0
  refine ⟨⟨(i 0).val * 64 + 63, by omega⟩, (flush0_2 _).mpr (by show ((i 0).val * 64 + 63) % 64 = 63; omega), ?_⟩
  rw [mem_blk2]
  obtain ⟨e0, e1, e2⟩ := idx_out ⟨(i 0).val * 64 + 63, by omega⟩
  have e0' : win0_2.index ⟨(i 0).val * 64 + 63, by omega⟩ (0 : Fin 3) = (i 0).val := by rw [e0]; show ((i 0).val * 64 + 63) / 64 = (i 0).val; omega
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 208 ≤ (i 1).val ∧ (i 1).val < win0_2.index _ (1 : Fin 3) * 208 + 208; omega
  | ⟨2, _⟩ => show win0_2.index _ (2 : Fin 3) * 256 ≤ (i 2).val ∧ (i 2).val < win0_2.index _ (2 : Fin 3) * 256 + 256; omega

/-- THE ARRAY after the run. -/
theorem final2 (c : Dev nD) : (dats m 0 c).arrAt 2 cfg0.N = rawG m c :=
  (dats m 0 c).arrAt_eq_of_cover 2 (rawG m c) (flushed2_eq m c) (covered2)

end Cert.KernelIdeal.Hand

end
-- ==== Proof.KI.TileIdx.lean ====
/-
  The tile's block at an index, over the extended reals: entry (r, col) of the accumulator after a tile is what it held plus
  the sum over the tile's 4096 points of the expanded feature (point, r) times the indicator (point, col) — the matrix unit's
  contraction over the point axis, into a zero accumulator, then added.
-/
import proofs.«168833_j62826781606551_2_alg».proof.Proof.KI.Raw
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

local notation "dotTile" => dot_S4096x208_S4096x256_S208x256_0_0_1_1_n_n

theorem dot_rank : (dotTile).contr.rank = 1 := rfl
theorem dot_size : (dotTile).contr.size ⟨0, by decide⟩ = 4096 := rfl

/-- The left operand index of the contraction at output (r, col) and point p is (p, r). -/
theorem dot_lhs (r : Fin 208) (col : Fin 256) (p : Fin 4096) :
    (dotTile).lhsIdx (ix2 r col) ((contrEquiv1 (dotTile) 4096 rfl rfl).symm p) = ix2 p r := by
  funext a; apply Fin.ext
  match a with
  | ⟨0, _⟩ => exact ((dotTile).lhsIdx_val_of_single (cl := 0) rfl _ _).trans (contrEquiv1_symm_val (dotTile) 4096 rfl rfl p)
  | ⟨1, _⟩ => rfl

/-- The right operand index is (p, col). -/
theorem dot_rhs (r : Fin 208) (col : Fin 256) (p : Fin 4096) :
    (dotTile).rhsIdx (ix2 r col) ((contrEquiv1 (dotTile) 4096 rfl rfl).symm p) = ix2 p col := by
  funext a; apply Fin.ext
  match a with
  | ⟨0, _⟩ => exact ((dotTile).rhsIdx_val_of_single (cr := 0) rfl _ _).trans (contrEquiv1_symm_val (dotTile) 4096 rfl rfl p)
  | ⟨1, _⟩ => rfl

/-- The accumulator after a tile, at an index. -/
theorem tileAcc_apply (x0 : Vec Ideal S1x4096x3 .f32) (x1 : Vec Ideal S1x2x3 .f32) (acc : Vec Ideal S208x256 .f32)
    (r : Fin 208) (col : Fin 256) :
    tileAcc (F := Ideal) x0 x1 acc (ix2 r col)
      = acc (ix2 r col) + ∑ p : Fin 4096, featExp (F := Ideal) x0 x1 (ix2 p r) * hotJK (F := Ideal) x0 x1 (ix2 p col) := by
  unfold tileAcc k0_pay3
  rw [shapeCast_self]
  show acc (ix2 r col) + FloatOps.matmul (dotTile) none (featExp (F := Ideal) x0 x1) (hotJK (F := Ideal) x0 x1) (constant S208x256 .f32 0x00000000#32) (ix2 r col) = _
  rw [Ideal.matmul_constant_zero_apply, ← Equiv.sum_comp (contrEquiv1 (dotTile) 4096 rfl rfl).symm]
  refine congrArg (acc (ix2 r col) + ·) (Finset.sum_congr rfl fun p _ => ?_)
  rw [dot_lhs, dot_rhs]

end Cert.KernelIdeal.Hand

end
-- ==== Proof.KI.Point.lean ====
/-
  One point of a tile, over the extended reals. From the tile `x0` (1×4096×3) and the table row `x1` (1×2×3: the batch's minima,
  then its voxel sizes) the body computes, per point `p` and axis `a`: the voxel coordinate as a float
  `gridF = min 15 (max 0 ⌊(x − mn) / vs⌋)`, the voxel's centre `mn + (gridF + ½)·vs`, and the centred coordinate `x − centre`;
  its thirteen features are 1, the three centred coordinates and their nine products; its two indicators compare the
  integer voxel coordinates with the column's number. This module reads each of these vectors at an index.
-/
import proofs.«168833_j62826781606551_2_alg».proof.Proof.KI.TileIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

section PerPoint
variable (x0 : Vec Ideal S1x4096x3 .f32) (x1 : Vec Ideal S1x2x3 .f32)

/-- The float literals of the body, kept as the words the program prints. -/
abbrev w0 : EReal := Ideal.ofBits .f32 0x00000000#32
abbrev w15 : EReal := Ideal.ofBits .f32 0x41700000#32
abbrev wHalf : EReal := Ideal.ofBits .f32 0x3F000000#32
abbrev w1 : EReal := Ideal.ofBits .f32 0x3F800000#32

/-- The batch's minimum and voxel size on axis `a`, as the tile's table row holds them. -/
def mnT (a : Fin 3) : EReal := x1 (ix3 (0 : Fin 1) (0 : Fin 2) a)
def vsT (a : Fin 3) : EReal := x1 (ix3 (0 : Fin 1) (1 : Fin 2) a)
/-- Point `p`'s coordinate on axis `a`. -/
def px (p : Fin 4096) (a : Fin 3) : EReal := x0 (ix3 (0 : Fin 1) p a)
/-- Its voxel coordinate on that axis, as a float: the clipped floor of the scaled offset. -/
def gridF (p : Fin 4096) (a : Fin 3) : EReal :=
  min w15 (max w0 (FloatOps.floor (F := Ideal) (φ := .f32) (Ideal.div (px x0 p a - mnT x1 a) (vsT x1 a))))
/-- Its voxel's centre on that axis. -/
def ctrT (p : Fin 4096) (a : Fin 3) : EReal := mnT x1 a + (gridF x0 x1 p a + wHalf) * vsT x1 a
/-- Its centred coordinate. -/
def xcT (p : Fin 4096) (a : Fin 3) : EReal := px x0 p a - ctrT x0 x1 p a

/-- A row vector [1, 3] broadcast over 4096 rows reads its own column. -/
theorem rowBcast3 (y : FVec Ideal S1x3 .f32) (p : Fin 4096) (a : Fin 3) :
    broadcastTo S4096x3 y broadcasts_S1x3_S4096x3 (ix2 p a) = y (ix2 (0 : Fin 1) a) :=
  broadcastTo_apply y _ _ _ fun b => by match b with | ⟨0, _⟩ => rfl | ⟨1, _⟩ => rfl

theorem pay6_apply (p : Fin 4096) (a : Fin 3) : k0_pay6 (F := Ideal) x0 (ix2 p a) = px x0 p a :=
  shapeCast_1ab_ab_apply x0 _ p a

theorem pay8_apply (a : Fin 3) : k0_pay8 (F := Ideal) x1 (ix2 (0 : Fin 1) a) = mnT x1 a := by
  unfold k0_pay8 k0_pay7
  rw [extractStridedSlice_apply _ _ _ _ (ix2 (0 : Fin 2) a) (fun b => by match b with | ⟨0, _⟩ => rfl | ⟨1, _⟩ => (show a.val = 0 + a.val; omega))]
  exact shapeCast_1ab_ab_apply x1 _ (0 : Fin 2) a

theorem pay9_apply (a : Fin 3) : k0_pay9 (F := Ideal) x1 (ix2 (0 : Fin 1) a) = vsT x1 a := by
  unfold k0_pay9 k0_pay7
  rw [extractStridedSlice_apply _ _ _ _ (ix2 (1 : Fin 2) a) (fun b => by match b with | ⟨0, _⟩ => rfl | ⟨1, _⟩ => (show a.val = 0 + a.val; omega))]
  exact shapeCast_1ab_ab_apply x1 _ (1 : Fin 2) a

/-- The clipped floor at a point. -/
theorem pay10_apply (p : Fin 4096) (a : Fin 3) : k0_pay10 (F := Ideal) x0 x1 (ix2 p a) = gridF x0 x1 p a := by
  unfold k0_pay10 gridF
  show min w15 (max w0 (FloatOps.floor (F := Ideal) (φ := .f32) (Ideal.div (k0_pay6 (F := Ideal) x0 (ix2 p a) - broadcastTo S4096x3 (k0_pay8 (F := Ideal) x1) broadcasts_S1x3_S4096x3 (ix2 p a))
    (broadcastTo S4096x3 (k0_pay9 (F := Ideal) x1) broadcasts_S1x3_S4096x3 (ix2 p a))))) = _
  rw [rowBcast3, rowBcast3, pay6_apply, pay8_apply, pay9_apply]

end PerPoint

end Cert.KernelIdeal.Hand

end
-- ==== Proof.KI.Point2.lean ====
/-
  The features and the indicators of a tile at an index: feature `f` of point `p` is 1, a centred coordinate, or a product of
  two; the expanded feature in column `13 g + f` is that feature times "the point's first voxel coordinate is `g`"; the
  other indicator, in column `col`, is "16 · second + third voxel coordinate = `col`".
-/
import proofs.«168833_j62826781606551_2_alg».proof.Proof.KI.Point

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

section PerPoint
variable (x0 : Vec Ideal S1x4096x3 .f32) (x1 : Vec Ideal S1x2x3 .f32)

/-- The centred coordinates of the tile's points, as the body forms them. -/
def xcVec : FVec Ideal S4096x3 .f32 :=
  subf (k0_pay6 (F := Ideal) x0) (addf (broadcastTo S4096x3 (k0_pay8 (F := Ideal) x1) broadcasts_S1x3_S4096x3)
    (mulf (addf (k0_pay10 (F := Ideal) x0 x1) (broadcast S4096x3 (Scalar.ofBits (F := Ideal) .f32 0x3F000000#32)))
      (broadcastTo S4096x3 (k0_pay9 (F := Ideal) x1) broadcasts_S1x3_S4096x3)))

theorem xcVec_apply (p : Fin 4096) (a : Fin 3) : xcVec x0 x1 (ix2 p a) = xcT x0 x1 p a := by
  unfold xcVec xcT ctrT
  show k0_pay6 (F := Ideal) x0 (ix2 p a) - (broadcastTo S4096x3 (k0_pay8 (F := Ideal) x1) broadcasts_S1x3_S4096x3 (ix2 p a)
    + (k0_pay10 (F := Ideal) x0 x1 (ix2 p a) + wHalf) * broadcastTo S4096x3 (k0_pay9 (F := Ideal) x1) broadcasts_S1x3_S4096x3 (ix2 p a)) = _
  rw [rowBcast3, rowBcast3, pay6_apply, pay8_apply, pay9_apply, pay10_apply]

/-- Column `a` of the centred coordinates, as a 4096×1 vector. -/
def xcCol (a : Fin 3) : FVec Ideal S4096x1 .f32 :=
  extractStridedSlice S4096x1 ![0, a.val] (xcVec x0 x1) (by fin_cases a <;> decide)

theorem xcCol_apply (a : Fin 3) (p : Fin 4096) : xcCol x0 x1 a (ix2 p (0 : Fin 1)) = xcT x0 x1 p a := by
  unfold xcCol
  rw [extractStridedSlice_apply _ _ _ _ (ix2 p a) (fun b => by match b with | ⟨0, _⟩ => (show p.val = 0 + p.val; omega) | ⟨1, _⟩ => (show a.val = a.val + 0; omega))]
  exact xcVec_apply x0 x1 p a

/-- Feature `f` of point `p`: 1; the centred coordinates; their products, row by row. -/
def featT (p : Fin 4096) (f : Fin 13) : EReal :=
  if f.val = 0 then w1 else if h : f.val < 4 then xcT x0 x1 p ⟨f.val - 1, by omega⟩
  else xcT x0 x1 p ⟨(f.val - 4) / 3, by have := f.isLt; omega⟩ * xcT x0 x1 p ⟨(f.val - 4) % 3, by omega⟩

set_option maxHeartbeats 4000000 in
theorem pay12_apply (p : Fin 4096) (f : Fin 13) : k0_pay12 (F := Ideal) x0 x1 (ix2 p f) = featT x0 x1 p f := by
  unfold k0_pay12
  show concatenate S4096x13 1 [⟨S4096x1, broadcast S4096x1 (Scalar.ofBits (F := Ideal) .f32 0x3F800000#32)⟩, ⟨S4096x1, xcCol x0 x1 0⟩, ⟨S4096x1, xcCol x0 x1 1⟩, ⟨S4096x1, xcCol x0 x1 2⟩, ⟨S4096x1, mulf (xcCol x0 x1 0) (xcCol x0 x1 0)⟩, ⟨S4096x1, mulf (xcCol x0 x1 0) (xcCol x0 x1 1)⟩, ⟨S4096x1, mulf (xcCol x0 x1 0) (xcCol x0 x1 2)⟩, ⟨S4096x1, mulf (xcCol x0 x1 1) (xcCol x0 x1 0)⟩, ⟨S4096x1, mulf (xcCol x0 x1 1) (xcCol x0 x1 1)⟩, ⟨S4096x1, mulf (xcCol x0 x1 1) (xcCol x0 x1 2)⟩, ⟨S4096x1, mulf (xcCol x0 x1 2) (xcCol x0 x1 0)⟩, ⟨S4096x1, mulf (xcCol x0 x1 2) (xcCol x0 x1 1)⟩, ⟨S4096x1, mulf (xcCol x0 x1 2) (xcCol x0 x1 2)⟩]
    concatenates_S4096x1_S4096x1_S4096x1_S4096x1_S4096x1_S4096x1_S4096x1_S4096x1_S4096x1_S4096x1_S4096x1_S4096x1_S4096x1_S4096x13_d1 (ix2 p f) = _
  match f with
  | ⟨0, _⟩ =>
    refine Eq.trans (concatenate_apply_piece (t := S4096x13) (1 : Fin 2) _ _ _ 0 ?_ S4096x1 _ rfl rfl 0 rfl (ix2 p (0 : Fin 1)) ?_ rfl) ?_
    · show (_ : ℕ) < 13; decide
    · intro b hb; match b with
      | ⟨0, _⟩ => rfl
      | ⟨1, _⟩ => exact absurd rfl hb
    · unfold featT; rw [if_pos (by simp)]; rfl
  | ⟨1, _⟩ =>
    refine Eq.trans (concatenate_apply_piece (t := S4096x13) (1 : Fin 2) _ _ _ 1 ?_ S4096x1 _ rfl rfl 1 rfl (ix2 p (0 : Fin 1)) ?_ rfl) ?_
    · show (_ : ℕ) < 13; decide
    · intro b hb; match b with
      | ⟨0, _⟩ => rfl
      | ⟨1, _⟩ => exact absurd rfl hb
    · rw [xcCol_apply]; unfold featT; rw [if_neg (by simp), dif_pos (by simp)]
      first | done | rfl | (congr 1 <;> (apply Fin.ext; simp))
  | ⟨2, _⟩ =>
    refine Eq.trans (concatenate_apply_piece (t := S4096x13) (1 : Fin 2) _ _ _ 2 ?_ S4096x1 _ rfl rfl 2 rfl (ix2 p (0 : Fin 1)) ?_ rfl) ?_
    · show (_ : ℕ) < 13; decide
    · intro b hb; match b with
      | ⟨0, _⟩ => rfl
      | ⟨1, _⟩ => exact absurd rfl hb
    · rw [xcCol_apply]; unfold featT; rw [if_neg (by simp), dif_pos (by simp)]
      first | done | rfl | (congr 1 <;> (apply Fin.ext; simp))
  | ⟨3, _⟩ =>
    refine Eq.trans (concatenate_apply_piece (t := S4096x13) (1 : Fin 2) _ _ _ 3 ?_ S4096x1 _ rfl rfl 3 rfl (ix2 p (0 : Fin 1)) ?_ rfl) ?_
    · show (_ : ℕ) < 13; decide
    · intro b hb; match b with
      | ⟨0, _⟩ => rfl
      | ⟨1, _⟩ => exact absurd rfl hb
    · rw [xcCol_apply]; unfold featT; rw [if_neg (by simp), dif_pos (by simp)]
      first | done | rfl | (congr 1 <;> (apply Fin.ext; simp))
  | ⟨4, _⟩ =>
    refine Eq.trans (concatenate_apply_piece (t := S4096x13) (1 : Fin 2) _ _ _ 4 ?_ S4096x1 _ rfl rfl 4 rfl (ix2 p (0 : Fin 1)) ?_ rfl) ?_
    · show (_ : ℕ) < 13; decide
    · intro b hb; match b with
      | ⟨0, _⟩ => rfl
      | ⟨1, _⟩ => exact absurd rfl hb
    · show xcCol x0 x1 0 (ix2 p (0 : Fin 1)) * xcCol x0 x1 0 (ix2 p (0 : Fin 1)) = _
      simp only [xcCol_apply]; unfold featT; rw [if_neg (by simp), dif_neg (by simp)]
      first | done | (congr 1 <;> (congr 1; apply Fin.ext; simp))
  | ⟨5, _⟩ =>
    refine Eq.trans (concatenate_apply_piece (t := S4096x13) (1 : Fin 2) _ _ _ 5 ?_ S4096x1 _ rfl rfl 5 rfl (ix2 p (0 : Fin 1)) ?_ rfl) ?_
    · show (_ : ℕ) < 13; decide
    · intro b hb; match b with
      | ⟨0, _⟩ => rfl
      | ⟨1, _⟩ => exact absurd rfl hb
    · show xcCol x0 x1 0 (ix2 p (0 : Fin 1)) * xcCol x0 x1 1 (ix2 p (0 : Fin 1)) = _
      simp only [xcCol_apply]; unfold featT; rw [if_neg (by simp), dif_neg (by simp)]
      first | done | (congr 1 <;> (congr 1; apply Fin.ext; simp))
  | ⟨6, _⟩ =>
    refine Eq.trans (concatenate_apply_piece (t := S4096x13) (1 : Fin 2) _ _ _ 6 ?_ S4096x1 _ rfl rfl 6 rfl (ix2 p (0 : Fin 1)) ?_ rfl) ?_
    · show (_ : ℕ) < 13; decide
    · intro b hb; match b with
      | ⟨0, _⟩ => rfl
      | ⟨1, _⟩ => exact absurd rfl hb
    · show xcCol x0 x1 0 (ix2 p (0 : Fin 1)) * xcCol x0 x1 2 (ix2 p (0 : Fin 1)) = _
      simp only [xcCol_apply]; unfold featT; rw [if_neg (by simp), dif_neg (by simp)]
      first | done | (congr 1 <;> (congr 1; apply Fin.ext; simp))
  | ⟨7, _⟩ =>
    refine Eq.trans (concatenate_apply_piece (t := S4096x13) (1 : Fin 2) _ _ _ 7 ?_ S4096x1 _ rfl rfl 7 rfl (ix2 p (0 : Fin 1)) ?_ rfl) ?_
    · show (_ : ℕ) < 13; decide
    · intro b hb; match b with
      | ⟨0, _⟩ => rfl
      | ⟨1, _⟩ => exact absurd rfl hb
    · show xcCol x0 x1 1 (ix2 p (0 : Fin 1)) * xcCol x0 x1 0 (ix2 p (0 : Fin 1)) = _
      simp only [xcCol_apply]; unfold featT; rw [if_neg (by simp), dif_neg (by simp)]
      first | done | (congr 1 <;> (congr 1; apply Fin.ext; simp))
  | ⟨8, _⟩ =>
    refine Eq.trans (concatenate_apply_piece (t := S4096x13) (1 : Fin 2) _ _ _ 8 ?_ S4096x1 _ rfl rfl 8 rfl (ix2 p (0 : Fin 1)) ?_ rfl) ?_
    · show (_ : ℕ) < 13; decide
    · intro b hb; match b with
      | ⟨0, _⟩ => rfl
      | ⟨1, _⟩ => exact absurd rfl hb
    · show xcCol x0 x1 1 (ix2 p (0 : Fin 1)) * xcCol x0 x1 1 (ix2 p (0 : Fin 1)) = _
      simp only [xcCol_apply]; unfold featT; rw [if_neg (by simp), dif_neg (by simp)]
      first | done | (congr 1 <;> (congr 1; apply Fin.ext; simp))
  | ⟨9, _⟩ =>
    refine Eq.trans (concatenate_apply_piece (t := S4096x13) (1 : Fin 2) _ _ _ 9 ?_ S4096x1 _ rfl rfl 9 rfl (ix2 p (0 : Fin 1)) ?_ rfl) ?_
    · show (_ : ℕ) < 13; decide
    · intro b hb; match b with
      | ⟨0, _⟩ => rfl
      | ⟨1, _⟩ => exact absurd rfl hb
    · show xcCol x0 x1 1 (ix2 p (0 : Fin 1)) * xcCol x0 x1 2 (ix2 p (0 : Fin 1)) = _
      simp only [xcCol_apply]; unfold featT; rw [if_neg (by simp), dif_neg (by simp)]
      first | done | (congr 1 <;> (congr 1; apply Fin.ext; simp))
  | ⟨10, _⟩ =>
    refine Eq.trans (concatenate_apply_piece (t := S4096x13) (1 : Fin 2) _ _ _ 10 ?_ S4096x1 _ rfl rfl 10 rfl (ix2 p (0 : Fin 1)) ?_ rfl) ?_
    · show (_ : ℕ) < 13; decide
    · intro b hb; match b with
      | ⟨0, _⟩ => rfl
      | ⟨1, _⟩ => exact absurd rfl hb
    · show xcCol x0 x1 2 (ix2 p (0 : Fin 1)) * xcCol x0 x1 0 (ix2 p (0 : Fin 1)) = _
      simp only [xcCol_apply]; unfold featT; rw [if_neg (by simp), dif_neg (by simp)]
      first | done | (congr 1 <;> (congr 1; apply Fin.ext; simp))
  | ⟨11, _⟩ =>
    refine Eq.trans (concatenate_apply_piece (t := S4096x13) (1 : Fin 2) _ _ _ 11 ?_ S4096x1 _ rfl rfl 11 rfl (ix2 p (0 : Fin 1)) ?_ rfl) ?_
    · show (_ : ℕ) < 13; decide
    · intro b hb; match b with
      | ⟨0, _⟩ => rfl
      | ⟨1, _⟩ => exact absurd rfl hb
    · show xcCol x0 x1 2 (ix2 p (0 : Fin 1)) * xcCol x0 x1 1 (ix2 p (0 : Fin 1)) = _
      simp only [xcCol_apply]; unfold featT; rw [if_neg (by simp), dif_neg (by simp)]
      first | done | (congr 1 <;> (congr 1; apply Fin.ext; simp))
  | ⟨12, _⟩ =>
    refine Eq.trans (concatenate_apply_piece (t := S4096x13) (1 : Fin 2) _ _ _ 12 ?_ S4096x1 _ rfl rfl 12 rfl (ix2 p (0 : Fin 1)) ?_ rfl) ?_
    · show (_ : ℕ) < 13; decide
    · intro b hb; match b with
      | ⟨0, _⟩ => rfl
      | ⟨1, _⟩ => exact absurd rfl hb
    · show xcCol x0 x1 2 (ix2 p (0 : Fin 1)) * xcCol x0 x1 2 (ix2 p (0 : Fin 1)) = _
      simp only [xcCol_apply]; unfold featT; rw [if_neg (by simp), dif_neg (by simp)]
      first | done | (congr 1 <;> (congr 1; apply Fin.ext; simp))

  | ⟨n + 13, h⟩ => exact absurd h (by omega)

/-- A 4096×1 column broadcast over 13 columns reads its own row. -/
theorem colBcast13 (y : FVec Ideal S4096x1 .bf16) (p : Fin 4096) (f : Fin 13) :
    broadcastTo S4096x13 y broadcasts_S4096x1_S4096x13 (ix2 p f) = y (ix2 p (0 : Fin 1)) :=
  broadcastTo_apply y _ _ _ fun b => by match b with | ⟨0, _⟩ => rfl | ⟨1, _⟩ => rfl

/-- One of the sixteen groups of thirteen columns: the features times column `g` of the first indicator. -/
theorem chunk_apply (v40 : FVec Ideal S4096x13 .bf16) (hot : FVec Ideal S4096x16 .bf16) (g : Fin 16)
    (hs : S4096x16.Slices ![0, g.val] S4096x1) (p : Fin 4096) (f : Fin 13) :
    mulf v40 (broadcastTo S4096x13 (extractStridedSlice S4096x1 ![0, g.val] hot hs) broadcasts_S4096x1_S4096x13) (ix2 p f)
      = v40 (ix2 p f) * hot (ix2 p g) := by
  show v40 (ix2 p f) * broadcastTo S4096x13 (extractStridedSlice S4096x1 ![0, g.val] hot hs) broadcasts_S4096x1_S4096x13 (ix2 p f) = _
  rw [colBcast13, extractStridedSlice_apply _ _ _ _ (ix2 p g) (fun b => by match b with | ⟨0, _⟩ => (show p.val = 0 + p.val; omega) | ⟨1, _⟩ => (show g.val = g.val + 0; omega))]

set_option maxHeartbeats 4000000 in
/-- The expanded features at an index: column `13 g + f` is feature `f` times column `g` of the first indicator. -/
theorem featExp_apply (p : Fin 4096) (g : Fin 16) (f : Fin 13) :
    featExp (F := Ideal) x0 x1 (ix2 p (⟨g.val * 13 + f.val, by have := g.isLt; have := f.isLt; omega⟩ : Fin 208))
      = k0_pay12 (F := Ideal) x0 x1 (ix2 p f) * k0_pay16 (F := Ideal) (k0_pay13 x0 x1) (ix2 p g) := by
  unfold featExp
  match g with
  | ⟨0, _⟩ =>
    refine Eq.trans (concatenate_apply_piece (t := S4096x208) (1 : Fin 2) _ _ _ 0 ?_ S4096x13 _ rfl rfl 0 rfl (ix2 p f) ?_ ?_) ?_
    · show (_ : ℕ) < 16; decide
    · intro b hb; match b with
      | ⟨0, _⟩ => rfl
      | ⟨1, _⟩ => exact absurd rfl hb
    · show 0 + f.val = 0 * 13 + f.val; omega
    · exact chunk_apply (k0_pay12 x0 x1) (k0_pay16 (F := Ideal) (k0_pay13 x0 x1)) (0 : Fin 16) slices_S4096x16_o0_0_S4096x1 p f
  | ⟨1, _⟩ =>
    refine Eq.trans (concatenate_apply_piece (t := S4096x208) (1 : Fin 2) _ _ _ 1 ?_ S4096x13 _ rfl rfl 13 rfl (ix2 p f) ?_ ?_) ?_
    · show (_ : ℕ) < 16; decide
    · intro b hb; match b with
      | ⟨0, _⟩ => rfl
      | ⟨1, _⟩ => exact absurd rfl hb
    · show 13 + f.val = 1 * 13 + f.val; omega
    · exact chunk_apply (k0_pay12 x0 x1) (k0_pay16 (F := Ideal) (k0_pay13 x0 x1)) (1 : Fin 16) slices_S4096x16_o0_1_S4096x1 p f
  | ⟨2, _⟩ =>
    refine Eq.trans (concatenate_apply_piece (t := S4096x208) (1 : Fin 2) _ _ _ 2 ?_ S4096x13 _ rfl rfl 26 rfl (ix2 p f) ?_ ?_) ?_
    · show (_ : ℕ) < 16; decide
    · intro b hb; match b with
      | ⟨0, _⟩ => rfl
      | ⟨1, _⟩ => exact absurd rfl hb
    · show 26 + f.val = 2 * 13 + f.val; omega
    · exact chunk_apply (k0_pay12 x0 x1) (k0_pay16 (F := Ideal) (k0_pay13 x0 x1)) (2 : Fin 16) slices_S4096x16_o0_2_S4096x1 p f
  | ⟨3, _⟩ =>
    refine Eq.trans (concatenate_apply_piece (t := S4096x208) (1 : Fin 2) _ _ _ 3 ?_ S4096x13 _ rfl rfl 39 rfl (ix2 p f) ?_ ?_) ?_
    · show (_ : ℕ) < 16; decide
    · intro b hb; match b with
      | ⟨0, _⟩ => rfl
      | ⟨1, _⟩ => exact absurd rfl hb
    · show 39 + f.val = 3 * 13 + f.val; omega
    · exact chunk_apply (k0_pay12 x0 x1) (k0_pay16 (F := Ideal) (k0_pay13 x0 x1)) (3 : Fin 16) slices_S4096x16_o0_3_S4096x1 p f
  | ⟨4, _⟩ =>
    refine Eq.trans (concatenate_apply_piece (t := S4096x208) (1 : Fin 2) _ _ _ 4 ?_ S4096x13 _ rfl rfl 52 rfl (ix2 p f) ?_ ?_) ?_
    · show (_ : ℕ) < 16; decide
    · intro b hb; match b with
      | ⟨0, _⟩ => rfl
      | ⟨1, _⟩ => exact absurd rfl hb
    · show 52 + f.val = 4 * 13 + f.val; omega
    · exact chunk_apply (k0_pay12 x0 x1) (k0_pay16 (F := Ideal) (k0_pay13 x0 x1)) (4 : Fin 16) slices_S4096x16_o0_4_S4096x1 p f
  | ⟨5, _⟩ =>
    refine Eq.trans (concatenate_apply_piece (t := S4096x208) (1 : Fin 2) _ _ _ 5 ?_ S4096x13 _ rfl rfl 65 rfl (ix2 p f) ?_ ?_) ?_
    · show (_ : ℕ) < 16; decide
    · intro b hb; match b with
      | ⟨0, _⟩ => rfl
      | ⟨1, _⟩ => exact absurd rfl hb
    · show 65 + f.val = 5 * 13 + f.val; omega
    · exact chunk_apply (k0_pay12 x0 x1) (k0_pay16 (F := Ideal) (k0_pay13 x0 x1)) (5 : Fin 16) slices_S4096x16_o0_5_S4096x1 p f
  | ⟨6, _⟩ =>
    refine Eq.trans (concatenate_apply_piece (t := S4096x208) (1 : Fin 2) _ _ _ 6 ?_ S4096x13 _ rfl rfl 78 rfl (ix2 p f) ?_ ?_) ?_
    · show (_ : ℕ) < 16; decide
    · intro b hb; match b with
      | ⟨0, _⟩ => rfl
      | ⟨1, _⟩ => exact absurd rfl hb
    · show 78 + f.val = 6 * 13 + f.val; omega
    · exact chunk_apply (k0_pay12 x0 x1) (k0_pay16 (F := Ideal) (k0_pay13 x0 x1)) (6 : Fin 16) slices_S4096x16_o0_6_S4096x1 p f
  | ⟨7, _⟩ =>
    refine Eq.trans (concatenate_apply_piece (t := S4096x208) (1 : Fin 2) _ _ _ 7 ?_ S4096x13 _ rfl rfl 91 rfl (ix2 p f) ?_ ?_) ?_
    · show (_ : ℕ) < 16; decide
    · intro b hb; match b with
      | ⟨0, _⟩ => rfl
      | ⟨1, _⟩ => exact absurd rfl hb
    · show 91 + f.val = 7 * 13 + f.val; omega
    · exact chunk_apply (k0_pay12 x0 x1) (k0_pay16 (F := Ideal) (k0_pay13 x0 x1)) (7 : Fin 16) slices_S4096x16_o0_7_S4096x1 p f
  | ⟨8, _⟩ =>
    refine Eq.trans (concatenate_apply_piece (t := S4096x208) (1 : Fin 2) _ _ _ 8 ?_ S4096x13 _ rfl rfl 104 rfl (ix2 p f) ?_ ?_) ?_
    · show (_ : ℕ) < 16; decide
    · intro b hb; match b with
      | ⟨0, _⟩ => rfl
      | ⟨1, _⟩ => exact absurd rfl hb
    · show 104 + f.val = 8 * 13 + f.val; omega
    · exact chunk_apply (k0_pay12 x0 x1) (k0_pay16 (F := Ideal) (k0_pay13 x0 x1)) (8 : Fin 16) slices_S4096x16_o0_8_S4096x1 p f
  | ⟨9, _⟩ =>
    refine Eq.trans (concatenate_apply_piece (t := S4096x208) (1 : Fin 2) _ _ _ 9 ?_ S4096x13 _ rfl rfl 117 rfl (ix2 p f) ?_ ?_) ?_
    · show (_ : ℕ) < 16; decide
    · intro b hb; match b with
      | ⟨0, _⟩ => rfl
      | ⟨1, _⟩ => exact absurd rfl hb
    · show 117 + f.val = 9 * 13 + f.val; omega
    · exact chunk_apply (k0_pay12 x0 x1) (k0_pay16 (F := Ideal) (k0_pay13 x0 x1)) (9 : Fin 16) slices_S4096x16_o0_9_S4096x1 p f
  | ⟨10, _⟩ =>
    refine Eq.trans (concatenate_apply_piece (t := S4096x208) (1 : Fin 2) _ _ _ 10 ?_ S4096x13 _ rfl rfl 130 rfl (ix2 p f) ?_ ?_) ?_
    · show (_ : ℕ) < 16; decide
    · intro b hb; match b with
      | ⟨0, _⟩ => rfl
      | ⟨1, _⟩ => exact absurd rfl hb
    · show 130 + f.val = 10 * 13 + f.val; omega
    · exact chunk_apply (k0_pay12 x0 x1) (k0_pay16 (F := Ideal) (k0_pay13 x0 x1)) (10 : Fin 16) slices_S4096x16_o0_10_S4096x1 p f
  | ⟨11, _⟩ =>
    refine Eq.trans (concatenate_apply_piece (t := S4096x208) (1 : Fin 2) _ _ _ 11 ?_ S4096x13 _ rfl rfl 143 rfl (ix2 p f) ?_ ?_) ?_
    · show (_ : ℕ) < 16; decide
    · intro b hb; match b with
      | ⟨0, _⟩ => rfl
      | ⟨1, _⟩ => exact absurd rfl hb
    · show 143 + f.val = 11 * 13 + f.val; omega
    · exact chunk_apply (k0_pay12 x0 x1) (k0_pay16 (F := Ideal) (k0_pay13 x0 x1)) (11 : Fin 16) slices_S4096x16_o0_11_S4096x1 p f
  | ⟨12, _⟩ =>
    refine Eq.trans (concatenate_apply_piece (t := S4096x208) (1 : Fin 2) _ _ _ 12 ?_ S4096x13 _ rfl rfl 156 rfl (ix2 p f) ?_ ?_) ?_
    · show (_ : ℕ) < 16; decide
    · intro b hb; match b with
      | ⟨0, _⟩ => rfl
      | ⟨1, _⟩ => exact absurd rfl hb
    · show 156 + f.val = 12 * 13 + f.val; omega
    · exact chunk_apply (k0_pay12 x0 x1) (k0_pay16 (F := Ideal) (k0_pay13 x0 x1)) (12 : Fin 16) slices_S4096x16_o0_12_S4096x1 p f
  | ⟨13, _⟩ =>
    refine Eq.trans (concatenate_apply_piece (t := S4096x208) (1 : Fin 2) _ _ _ 13 ?_ S4096x13 _ rfl rfl 169 rfl (ix2 p f) ?_ ?_) ?_
    · show (_ : ℕ) < 16; decide
    · intro b hb; match b with
      | ⟨0, _⟩ => rfl
      | ⟨1, _⟩ => exact absurd rfl hb
    · show 169 + f.val = 13 * 13 + f.val; omega
    · exact chunk_apply (k0_pay12 x0 x1) (k0_pay16 (F := Ideal) (k0_pay13 x0 x1)) (13 : Fin 16) slices_S4096x16_o0_13_S4096x1 p f
  | ⟨14, _⟩ =>
    refine Eq.trans (concatenate_apply_piece (t := S4096x208) (1 : Fin 2) _ _ _ 14 ?_ S4096x13 _ rfl rfl 182 rfl (ix2 p f) ?_ ?_) ?_
    · show (_ : ℕ) < 16; decide
    · intro b hb; match b with
      | ⟨0, _⟩ => rfl
      | ⟨1, _⟩ => exact absurd rfl hb
    · show 182 + f.val = 14 * 13 + f.val; omega
    · exact chunk_apply (k0_pay12 x0 x1) (k0_pay16 (F := Ideal) (k0_pay13 x0 x1)) (14 : Fin 16) slices_S4096x16_o0_14_S4096x1 p f
  | ⟨15, _⟩ =>
    refine Eq.trans (concatenate_apply_piece (t := S4096x208) (1 : Fin 2) _ _ _ 15 ?_ S4096x13 _ rfl rfl 195 rfl (ix2 p f) ?_ ?_) ?_
    · show (_ : ℕ) < 16; decide
    · intro b hb; match b with
      | ⟨0, _⟩ => rfl
      | ⟨1, _⟩ => exact absurd rfl hb
    · show 195 + f.val = 15 * 13 + f.val; omega
    · exact chunk_apply (k0_pay12 x0 x1) (k0_pay16 (F := Ideal) (k0_pay13 x0 x1)) (15 : Fin 16) slices_S4096x16_o0_15_S4096x1 p f
  | ⟨n + 16, h⟩ => exact absurd h (by omega)

end PerPoint

end Cert.KernelIdeal.Hand

end
-- ==== Proof.KI.Point3.lean ====
/-
  The two indicators of a tile at an index. The integer voxel coordinate of point `p` on axis `a` is the float coordinate
  converted (`gridI`). Column `g` of the first indicator is 1 where the first coordinate is `g` and 0 elsewhere; column `col`
  of the second is 1 where sixteen times the second coordinate plus the third is `col`.
-/
import proofs.«168833_j62826781606551_2_alg».proof.Proof.KI.Point2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- An integer comparison, widened and converted to a float, is the indicator of equality. -/
theorem oneHot_val (x y : BitVec 32) :
    ((((IntOp.cmpi .eq x y).setWidth 32).toInt : ℝ) : EReal) = if x = y then (1 : EReal) else 0 := by
  by_cases h : x = y
  · have hb : (x == y) = true := by rw [beq_iff_eq]; exact h
    have e : IntOp.cmpi .eq x y = 1#1 := by show BitVec.ofBool (x == y) = 1#1; rw [hb]; rfl
    rw [e, if_pos h]
    have : ((1#1 : BitVec 1).setWidth 32).toInt = 1 := by decide
    rw [this]; norm_num
  · have hb : (x == y) = false := by rw [beq_eq_false_iff_ne]; exact h
    have e : IntOp.cmpi .eq x y = 0#1 := by show BitVec.ofBool (x == y) = 0#1; rw [hb]; rfl
    rw [e, if_neg h]
    have : ((0#1 : BitVec 1).setWidth 32).toInt = 0 := by decide
    rw [this]; norm_num

section PerPoint
variable (x0 : Vec Ideal S1x4096x3 .f32) (x1 : Vec Ideal S1x2x3 .f32)

/-- The integer voxel coordinate of point `p` on axis `a`. -/
def gridI (p : Fin 4096) (a : Fin 3) : BitVec 32 := Ideal.fptosi 32 (gridF x0 x1 p a)

theorem pay11_apply (p : Fin 4096) (a : Fin 3) : k0_pay11 (F := Ideal) x0 x1 (ix2 p a) = gridI x0 x1 p a := by
  unfold k0_pay11 gridI
  show Ideal.fptosi 32 (k0_pay10 (F := Ideal) x0 x1 (ix2 p a)) = _
  rw [pay10_apply]

/-- A column of the integer coordinates, as a 4096×1 vector, reads the coordinate. -/
theorem gridCol_apply (a : Fin 3) (hs : S4096x3.Slices ![0, a.val] S4096x1) (p : Fin 4096) :
    extractStridedSlice S4096x1 ![0, a.val] (k0_pay11 (F := Ideal) x0 x1) hs (ix2 p (0 : Fin 1)) = gridI x0 x1 p a := by
  rw [extractStridedSlice_apply _ _ _ _ (ix2 p a) (fun b => by match b with | ⟨0, _⟩ => (show p.val = 0 + p.val; omega) | ⟨1, _⟩ => (show a.val = a.val + 0; omega))]
  exact pay11_apply x0 x1 p a

theorem pay13_apply (p : Fin 4096) : k0_pay13 (F := Ideal) x0 x1 (ix2 p (0 : Fin 1)) = gridI x0 x1 p 0 :=
  gridCol_apply x0 x1 0 slices_S4096x3_o0_0_S4096x1 p
theorem pay14_apply (p : Fin 4096) : k0_pay14 (F := Ideal) x0 x1 (ix2 p (0 : Fin 1)) = gridI x0 x1 p 1 :=
  gridCol_apply x0 x1 1 slices_S4096x3_o0_1_S4096x1 p

/-- A 4096×1 integer column broadcast over 16 (or 256) columns reads its own row; a 1×16 (or 1×256) row broadcast over
    4096 rows reads its own column. -/
theorem colBcast16 (y : IVec S4096x1 32) (p : Fin 4096) (g : Fin 16) :
    broadcastTo S4096x16 y broadcasts_S4096x1_S4096x16 (ix2 p g) = y (ix2 p (0 : Fin 1)) :=
  broadcastTo_apply y _ _ _ fun b => by match b with | ⟨0, _⟩ => rfl | ⟨1, _⟩ => rfl
theorem rowBcast16 (y : IVec S1x16 32) (p : Fin 4096) (g : Fin 16) :
    broadcastTo S4096x16 y broadcasts_S1x16_S4096x16 (ix2 p g) = y (ix2 (0 : Fin 1) g) :=
  broadcastTo_apply y _ _ _ fun b => by match b with | ⟨0, _⟩ => rfl | ⟨1, _⟩ => rfl
theorem colBcast256 (y : IVec S4096x1 32) (p : Fin 4096) (g : Fin 256) :
    broadcastTo S4096x256 y broadcasts_S4096x1_S4096x256 (ix2 p g) = y (ix2 p (0 : Fin 1)) :=
  broadcastTo_apply y _ _ _ fun b => by match b with | ⟨0, _⟩ => rfl | ⟨1, _⟩ => rfl
theorem rowBcast256 (y : IVec S1x256 32) (p : Fin 4096) (g : Fin 256) :
    broadcastTo S4096x256 y broadcasts_S1x256_S4096x256 (ix2 p g) = y (ix2 (0 : Fin 1) g) :=
  broadcastTo_apply y _ _ _ fun b => by match b with | ⟨0, _⟩ => rfl | ⟨1, _⟩ => rfl

theorem iota16_apply (g : Fin 16) : iota .tc S1x16 32 [1] iota_S1x16_d1_w32 (ix2 (0 : Fin 1) g) = BitVec.ofNat 32 g.val := by
  show BitVec.ofNat 32 (0 * 16 + g.val) = _
  rw [Nat.zero_mul, Nat.zero_add]
theorem iota256_apply (g : Fin 256) : iota .tc S1x256 32 [1] iota_S1x256_d1_w32 (ix2 (0 : Fin 1) g) = BitVec.ofNat 32 g.val := by
  show BitVec.ofNat 32 (0 * 256 + g.val) = _
  rw [Nat.zero_mul, Nat.zero_add]

/-- Column `g` of the first indicator. -/
theorem pay16_apply (v41 : IVec S4096x1 32) (p : Fin 4096) (g : Fin 16) :
    k0_pay16 (F := Ideal) v41 (ix2 p g) = if v41 (ix2 p (0 : Fin 1)) = BitVec.ofNat 32 g.val then (1 : EReal) else 0 := by
  unfold k0_pay16
  show ((((IntOp.cmpi .eq (broadcastTo S4096x16 v41 broadcasts_S4096x1_S4096x16 (ix2 p g))
    (broadcastTo S4096x16 (iota .tc S1x16 32 [1] iota_S1x16_d1_w32) broadcasts_S1x16_S4096x16 (ix2 p g))).setWidth 32).toInt : ℝ) : EReal) = _
  rw [colBcast16, rowBcast16, iota16_apply, oneHot_val]

/-- Column `col` of the second indicator. -/
theorem hotJK_apply (p : Fin 4096) (col : Fin 256) :
    hotJK (F := Ideal) x0 x1 (ix2 p col)
      = if IntOp.addi (IntOp.muli (gridI x0 x1 p 1) 16#32) (gridI x0 x1 p 2) = BitVec.ofNat 32 col.val then (1 : EReal) else 0 := by
  unfold hotJK k0_pay17
  show ((((IntOp.cmpi .eq (broadcastTo S4096x256 (addi (muli (k0_pay14 (F := Ideal) x0 x1) (k0_pay15)) (extractStridedSlice S4096x1 ![0, 2] (k0_pay11 (F := Ideal) x0 x1) slices_S4096x3_o0_2_S4096x1)) broadcasts_S4096x1_S4096x256 (ix2 p col))
    (broadcastTo S4096x256 (iota .tc S1x256 32 [1] iota_S1x256_d1_w32) broadcasts_S1x256_S4096x256 (ix2 p col))).setWidth 32).toInt : ℝ) : EReal) = _
  rw [colBcast256, rowBcast256, iota256_apply, oneHot_val]
  show (if IntOp.addi (IntOp.muli (k0_pay14 (F := Ideal) x0 x1 (ix2 p (0 : Fin 1))) 16#32)
    (extractStridedSlice S4096x1 ![0, 2] (k0_pay11 (F := Ideal) x0 x1) slices_S4096x3_o0_2_S4096x1 (ix2 p (0 : Fin 1))) = _ then _ else _) = _
  rw [pay14_apply, show extractStridedSlice S4096x1 ![0, 2] (k0_pay11 (F := Ideal) x0 x1) slices_S4096x3_o0_2_S4096x1 (ix2 p (0 : Fin 1)) = gridI x0 x1 p 2 from gridCol_apply x0 x1 2 slices_S4096x3_o0_2_S4096x1 p]

/-- THE TILE'S SUMMAND at point `p`, group `g`, feature `f`, column `col`: the feature where both indicators hold, else 0. -/
theorem summand_apply (p : Fin 4096) (g : Fin 16) (f : Fin 13) (col : Fin 256) :
    featExp (F := Ideal) x0 x1 (ix2 p (⟨g.val * 13 + f.val, by have := g.isLt; have := f.isLt; omega⟩ : Fin 208)) * hotJK (F := Ideal) x0 x1 (ix2 p col)
      = (featT x0 x1 p f * (if gridI x0 x1 p 0 = BitVec.ofNat 32 g.val then (1 : EReal) else 0))
        * (if IntOp.addi (IntOp.muli (gridI x0 x1 p 1) 16#32) (gridI x0 x1 p 2) = BitVec.ofNat 32 col.val then (1 : EReal) else 0) := by
  rw [featExp_apply, hotJK_apply, pay12_apply, pay16_apply, pay13_apply]

end PerPoint

end Cert.KernelIdeal.Hand

end
-- ==== Proof.KI.Accum.lean ====
/-
  The accumulator in closed form, over the extended reals: after tile `n` of batch `b` (point `64 b + n`) its entry (r, col) is
  zero plus the sum over the batch's tiles so far of the tile's sum over its 4096 points of expanded feature × indicator; so
  the array of accumulated moments at (b, r, col) is zero plus that sum over all 64 tiles of the batch.
-/
import proofs.«168833_j62826781606551_2_alg».proof.Proof.KI.Point3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

variable (m : (ℓ : Loc nD τ sig) → Buf (Elt Ideal) ℓ)

/-- Tile `t`'s sum at (r, col). -/
def tileSum (c : Dev nD) (t : Fin cfg0.N) (r : Fin 208) (col : Fin 256) : EReal :=
  ∑ p : Fin 4096, featExp (F := Ideal) (iblk m c 0 t) (iblk m c 1 t) (ix2 p r) * hotJK (F := Ideal) (iblk m c 0 t) (iblk m c 1 t) (ix2 p col)

/-- The same at a position that may lie past the grid (then nothing). -/
def tileSumN (c : Dev nD) (t : ℕ) (r : Fin 208) (col : Fin 256) : EReal :=
  if h : t < cfg0.N then tileSum m c ⟨t, h⟩ r col else 0

theorem pay5_apply (i : S208x256.Idx) : k0_pay5 (F := Ideal) i = w0 := by
  unfold k0_pay5; rw [shapeCast_self]; rfl

theorem accAt_zero (c : Dev nD) (h : 0 < cfg0.N) (r : Fin 208) (col : Fin 256) :
    accAt m c 0 h (ix2 r col) = w0 + tileSum m c ⟨0, h⟩ r col := by
  rw [accAt, tileAcc_apply, pay5_apply]; rfl

theorem accAt_succ (c : Dev nD) (n : ℕ) (h : n + 1 < cfg0.N) (r : Fin 208) (col : Fin 256) :
    accAt m c (n + 1) h (ix2 r col)
      = (if (n + 1) % 64 = 0 then w0 else accAt m c n (Nat.lt_of_succ_lt h) (ix2 r col)) + tileSum m c ⟨n + 1, h⟩ r col := by
  rw [accAt]
  split_ifs with h0
  · rw [tileAcc_apply, pay5_apply]; rfl
  · rw [tileAcc_apply]; rfl

/-- The accumulator after tile `n` of batch `b`. -/
theorem accAt_closed (c : Dev nD) (b : ℕ) (r : Fin 208) (col : Fin 256) :
    ∀ (n : ℕ) (hn : n < 64) (h : b * 64 + n < cfg0.N),
      accAt m c (b * 64 + n) h (ix2 r col) = w0 + ∑ k ∈ Finset.range (n + 1), tileSumN m c (b * 64 + k) r col
  | 0, _, h => by
    rw [Finset.sum_range_one]
    have e : tileSumN m c (b * 64 + 0) r col = tileSum m c ⟨b * 64 + 0, h⟩ r col := dif_pos h
    rw [e]
    rcases Nat.eq_zero_or_pos b with hb | hb
    · subst hb
      have h0 : (0 : ℕ) < cfg0.N := by have hN : cfg0.N = 1024 := N_0; omega
      have hf : (⟨0, h0⟩ : Fin cfg0.N) = ⟨0 * 64 + 0, h⟩ := Fin.ext (by norm_num)
      rw [accAt_congr m c (show 0 * 64 + 0 = 0 by norm_num) h h0, accAt_zero, hf]
    · obtain ⟨k, hk⟩ : ∃ k, b * 64 + 0 = k + 1 := ⟨b * 64 - 1, by omega⟩
      have h' : k + 1 < cfg0.N := hk ▸ h
      have hf : (⟨k + 1, h'⟩ : Fin cfg0.N) = ⟨b * 64 + 0, h⟩ := Fin.ext hk.symm
      rw [accAt_congr m c hk h h', accAt_succ, if_pos (by omega), hf]
  | n + 1, hn, h => by
    have h' : b * 64 + n < cfg0.N := by omega
    have hs : b * 64 + n + 1 < cfg0.N := h
    rw [Finset.sum_range_succ, ← add_assoc (w0 : EReal), ← accAt_closed c b r col n (by omega) h']
    have e : tileSumN m c (b * 64 + (n + 1)) r col = tileSum m c ⟨b * 64 + n + 1, hs⟩ r col := dif_pos h
    rw [e]
    have := accAt_succ m c (b * 64 + n) hs r col
    rw [if_neg (by omega)] at this
    exact this

/-- THE ARRAY OF ACCUMULATED MOMENTS at an index. -/
theorem rawG_apply (c : Dev nD) (b : Fin 16) (r : Fin 208) (col : Fin 256) :
    rawG m c (ix3 b r col) = w0 + ∑ k ∈ Finset.range 64, tileSumN m c (b.val * 64 + k) r col := by
  unfold rawG
  exact accAt_closed m c b.val r col 63 (by omega) _

end Cert.KernelIdeal.Hand

end
-- ==== Proof.KI.Blocks.lean ====
/-
  What the body finds in its two input blocks, in terms of the launched point array: tile `t = 64 b + n` of the points is rows
  `4096 n … 4096 n + 4095` of batch `b`; the table row is the batch's row of the 16×2×3 table the host lines before the region
  build, whose two rows are the batch's minima and its voxel sizes — the same two terms of the point array that the
  reference computes (its stages 1 and 8).
-/
import proofs.«168833_j62826781606551_2_alg».proof.Proof.KI.Accum
import proofs.«168833_j62826781606551_2_alg».proof.Proof.RefRead

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Idealize.ShloMosaic.StableHlo

variable (m : (ℓ : Loc nD τ sig) → Buf (Elt Ideal) ℓ)

/-- The launched point array on core `c`. -/
abbrev X (c : Dev nD) : FVec Ideal S16x262144x3 .f32 := m ((c : Thread nD τ).loc main_arg0)

/-- The input windows' block indices at a point: (batch, tile, 0) and (batch, 0, 0). -/
theorem idx_in0 : ∀ t : Fin cfg0.N, win0_0.index t (0 : Fin 3) = t.val / 64 ∧ win0_0.index t (1 : Fin 3) = t.val % 64 ∧ win0_0.index t (2 : Fin 3) = 0 :=
  (by decide +kernel : ∀ t : Fin grid0.N, win0_0.index t (0 : Fin 3) = t.val / 64 ∧ win0_0.index t (1 : Fin 3) = t.val % 64 ∧ win0_0.index t (2 : Fin 3) = 0)
theorem idx_in1 : ∀ t : Fin cfg0.N, win0_1.index t (0 : Fin 3) = t.val / 64 ∧ win0_1.index t (1 : Fin 3) = 0 ∧ win0_1.index t (2 : Fin 3) = 0 :=
  (by decide +kernel : ∀ t : Fin grid0.N, win0_1.index t (0 : Fin 3) = t.val / 64 ∧ win0_1.index t (1 : Fin 3) = 0 ∧ win0_1.index t (2 : Fin 3) = 0)

/-- The tile of points at point `t`. -/
theorem iblk0_apply (c : Dev nD) (t : Fin cfg0.N) (p : Fin 4096) (a : Fin 3) :
    (iblk m c 0 t : Vec Ideal S1x4096x3 .f32) (ix3 (0 : Fin 1) p a)
      = X m c (ix3 (n0 := 16) (n1 := 262144) (n2 := 3) ⟨t.val / 64, by have := t.isLt; have hN : cfg0.N = 1024 := N_0; omega⟩
          ⟨t.val % 64 * 4096 + p.val, by have := p.isLt; omega⟩ a) := by
  obtain ⟨e0, e1, e2⟩ := idx_in0 t
  unfold iblk
  rw [View.read_apply]
  show V m c main_arg0 _ = _
  rw [V_main_arg0]
  congr 1
  funext ax; apply Fin.ext
  match ax with
  | ⟨0, _⟩ => show win0_0.index t (0 : Fin 3) * 1 + 1 * 0 = t.val / 64; omega
  | ⟨1, _⟩ => show win0_0.index t (1 : Fin 3) * 4096 + 1 * p.val = t.val % 64 * 4096 + p.val; omega
  | ⟨2, _⟩ => show win0_0.index t (2 : Fin 3) * 3 + 1 * a.val = a.val; omega

/-- The table row at point `t`. -/
theorem iblk1_apply (c : Dev nD) (t : Fin cfg0.N) (r : Fin 2) (a : Fin 3) :
    (iblk m c 1 t : Vec Ideal S1x2x3 .f32) (ix3 (0 : Fin 1) r a)
      = V m c main_v9 (ix3 (n0 := 16) (n1 := 2) (n2 := 3) ⟨t.val / 64, by have := t.isLt; have hN : cfg0.N = 1024 := N_0; omega⟩ r a) := by
  obtain ⟨e0, e1, e2⟩ := idx_in1 t
  unfold iblk
  rw [View.read_apply]
  show V m c main_v9 _ = _
  congr 1
  funext ax; apply Fin.ext
  match ax with
  | ⟨0, _⟩ => show win0_1.index t (0 : Fin 3) * 1 + 1 * 0 = t.val / 64; omega
  | ⟨1, _⟩ => show win0_1.index t (1 : Fin 3) * 2 + 1 * r.val = r.val; omega
  | ⟨2, _⟩ => show win0_1.index t (2 : Fin 3) * 3 + 1 * a.val = a.val; omega

/-! ## The host lines before the region -/

/-- The batch minima, as the region finds them, are the reference's stage 1 of the point array. -/
theorem V_v1 (c : Dev nD) : V m c main_v1 = Cert.ReferenceIdeal.Read.val_main_v1 (F := Ideal) (X m c) := by
  dsimp only [V, V0]; simp only [hostOps0, List.flatten_cons, List.flatten_nil, List.append_nil]
  after_results_simp
  rfl

/-- The voxel sizes are its stage 8. -/
theorem V_v8 (c : Dev nD) : V m c main_v8 = Cert.ReferenceIdeal.Read.val_main_v8 (F := Ideal) (X m c) := by
  dsimp only [V, V0]; simp only [hostOps0, List.flatten_cons, List.flatten_nil, List.append_nil]
  after_results_simp
  rfl

/-- The table is the two, one after the other along the middle axis. -/
theorem V_v9 (c : Dev nD) : V m c main_v9 = concatenate S16x2x3 1 [⟨S16x1x3, V m c main_v1⟩, ⟨S16x1x3, V m c main_v8⟩] concatenates_S16x1x3_S16x1x3_S16x2x3_d1 := by
  dsimp only [V, V0]; simp only [hostOps0, List.flatten_cons, List.flatten_nil, List.append_nil]
  after_results_simp
  rfl

end Cert.KernelIdeal.Hand

end
-- ==== Proof.Spec.lean ====
/-
  The voxel coordinate, away from any program: the clipped floor of an extended real is one of the naturals 0 … 15, whatever
  the argument (an infinite or huge quotient is clipped); converting it to a 32-bit integer gives that natural; and the
  integer arithmetic on such coordinates (16·j + k, 256·i + 16·j + k, plus a batch offset of 4096·b) does not wrap.
-/
import Idealize.ShloMosaic.PureOps.Ideal
import Mathlib.Tactic.Ring
import Mathlib.Tactic.Linarith
import Mathlib.Tactic.NormNum

noncomputable section

namespace Cert.Spec

open Idealize.ShloMosaic

/-- The clipped floor `min 15 (max 0 ⌊y⌋)`. -/
def clipF (y : EReal) : EReal := min ((15 : ℝ) : EReal) (max ((0 : ℝ) : EReal) (Ideal.liftRound Int.floor y))

theorem coe_max (a b : ℝ) : ((max a b : ℝ) : EReal) = max (a : EReal) (b : EReal) :=
  Monotone.map_max EReal.coe_strictMono.monotone
theorem coe_min (a b : ℝ) : ((min a b : ℝ) : EReal) = min (a : EReal) (b : EReal) :=
  Monotone.map_min EReal.coe_strictMono.monotone

/-- It is one of the naturals 0 … 15. -/
theorem clipF_nat (y : EReal) : ∃ z : ℕ, z ≤ 15 ∧ clipF y = ((z : ℝ) : EReal) := by
  unfold clipF
  induction y using EReal.rec with
  | bot =>
    refine ⟨0, by omega, ?_⟩
    rw [Ideal.liftRound_bot, max_eq_left bot_le, min_eq_right (by exact_mod_cast (by norm_num : (0 : ℝ) ≤ 15))]
    norm_num
  | top =>
    refine ⟨15, le_refl _, ?_⟩
    rw [Ideal.liftRound_top, max_eq_right le_top, min_eq_left le_top]
    norm_num
  | coe r =>
    have h0 : (0 : ℤ) ≤ min 15 (max 0 ⌊r⌋) := le_min (by norm_num) (le_max_left _ _)
    have h15 : min 15 (max 0 ⌊r⌋) ≤ (15 : ℤ) := min_le_left _ _
    refine ⟨(min 15 (max 0 ⌊r⌋)).toNat, by omega, ?_⟩
    rw [Ideal.liftRound_coe, ← coe_max, ← coe_min]
    congr 1
    have e : (((min 15 (max 0 ⌊r⌋)).toNat : ℕ) : ℝ) = ((min 15 (max 0 ⌊r⌋) : ℤ) : ℝ) := by
      rw [← Int.cast_natCast, Int.toNat_of_nonneg h0]
    rw [e]; push_cast; rfl

/-- Converting a natural of at most 15 (any natural below 2³¹) to a 32-bit integer gives that natural. -/
theorem fptosi_nat (z : ℕ) (hz : z ≤ 15) : Ideal.fptosi 32 ((z : ℝ) : EReal) = BitVec.ofNat 32 z := by
  unfold Ideal.fptosi
  rw [Ideal.toIntClamped_coe, if_pos (Nat.cast_nonneg z), Int.floor_natCast]
  have : max (-((2 ^ (32 - 1) : ℕ) : ℤ)) (min (((2 ^ (32 - 1) : ℕ) : ℤ) - 1) (z : ℤ)) = (z : ℤ) := by
    have : (z : ℤ) ≤ 15 := by exact_mod_cast hz
    have h2 : (((2 ^ (32 - 1) : ℕ) : ℤ)) = 2147483648 := by norm_num
    rw [h2, min_eq_right (by omega), max_eq_right (by omega)]
  rw [this]
  exact BitVec.ofInt_natCast 32 z

end Cert.Spec

end
-- ==== Proof.Spec2.lean ====
/-
  Integer arithmetic on voxel coordinates, as 32-bit words: for coordinates at most 15, a batch number at most 15 and the
  small constants 16, 256, 4096, none of the products and sums the two programs form wraps, so an equation between such
  words is the equation between the naturals.
-/
import Mathlib.Tactic.Ring
import Mathlib.Tactic.Linarith
import Mathlib.Tactic.NormNum
import Idealize.ShloMosaic.PureOps.Ideal

namespace Cert.Spec

open Idealize.ShloMosaic

theorem toNat_ofNat_small (a : ℕ) (ha : a < 2 ^ 32) : (BitVec.ofNat 32 a).toNat = a := by
  rw [BitVec.toNat_ofNat]; exact Nat.mod_eq_of_lt ha

theorem ofNat_eq_iff (a b : ℕ) (ha : a < 2 ^ 32) (hb : b < 2 ^ 32) : BitVec.ofNat 32 a = BitVec.ofNat 32 b ↔ a = b := by
  constructor
  · intro h
    have := congrArg BitVec.toNat h
    rwa [toNat_ofNat_small a ha, toNat_ofNat_small b hb] at this
  · rintro rfl; rfl

theorem toInt_ofNat_small (a : ℕ) (ha : a < 2 ^ 31) : (BitVec.ofNat 32 a).toInt = (a : ℤ) := by
  rw [BitVec.toInt_eq_toNat_cond, toNat_ofNat_small a (by omega)]
  rw [if_pos (by omega)]

/-- Sixteen times the second coordinate plus the third, as words. -/
theorem jk_word (n1 n2 : ℕ) : IntOp.addi (IntOp.muli (BitVec.ofNat 32 n1) 16#32) (BitVec.ofNat 32 n2) = BitVec.ofNat 32 (n1 * 16 + n2) := by
  unfold IntOp.addi IntOp.muli
  rw [BitVec.ofNat_add, BitVec.ofNat_mul]

theorem jk_eq (n1 n2 col : ℕ) (h1 : n1 ≤ 15) (h2 : n2 ≤ 15) (hc : col < 256) :
    IntOp.addi (IntOp.muli (BitVec.ofNat 32 n1) 16#32) (BitVec.ofNat 32 n2) = BitVec.ofNat 32 col ↔ n1 * 16 + n2 = col := by
  rw [jk_word, ofNat_eq_iff _ _ (by omega) (by omega)]

/-- The reference's flat segment number of a point: 256·first + 16·second + third, plus 4096 times the batch. -/
theorem seg_word (n0 n1 n2 b' : ℕ) :
    IntOp.addi (IntOp.addi (IntOp.addi (IntOp.muli (BitVec.ofNat 32 n0) 256#32) (IntOp.muli (BitVec.ofNat 32 n1) 16#32)) (BitVec.ofNat 32 n2))
        (IntOp.muli (BitVec.ofNat 32 b') 4096#32)
      = BitVec.ofNat 32 (n0 * 256 + n1 * 16 + n2 + b' * 4096) := by
  unfold IntOp.addi IntOp.muli
  rw [BitVec.ofNat_add, BitVec.ofNat_add, BitVec.ofNat_add, BitVec.ofNat_mul, BitVec.ofNat_mul, BitVec.ofNat_mul]

theorem seg_eq (n0 n1 n2 b' b v : ℕ) (h0 : n0 ≤ 15) (h1 : n1 ≤ 15) (h2 : n2 ≤ 15) (hb' : b' < 16) (hb : b < 16) (hv : v < 4096) :
    (IntOp.addi (IntOp.addi (IntOp.addi (IntOp.muli (BitVec.ofNat 32 n0) 256#32) (IntOp.muli (BitVec.ofNat 32 n1) 16#32)) (BitVec.ofNat 32 n2))
        (IntOp.muli (BitVec.ofNat 32 b') 4096#32)).toInt = ((b * 4096 + v : ℕ) : ℤ)
      ↔ b' = b ∧ n0 * 256 + n1 * 16 + n2 = v := by
  rw [seg_word, toInt_ofNat_small _ (by omega)]
  constructor
  · intro h; have h' : n0 * 256 + n1 * 16 + n2 + b' * 4096 = b * 4096 + v := by exact_mod_cast h
    omega
  · rintro ⟨rfl, rfl⟩; congr 1; omega

/-- A voxel's number splits into its first coordinate and the pair of the other two. -/
theorem vox_split (n0 n1 n2 g jk : ℕ) (h1 : n1 ≤ 15) (h2 : n2 ≤ 15) (hjk : jk < 256) :
    n0 * 256 + n1 * 16 + n2 = g * 256 + jk ↔ n0 = g ∧ n1 * 16 + n2 = jk := by
  constructor
  · intro h; omega
  · rintro ⟨rfl, rfl⟩; omega

end Cert.Spec
-- ==== Proof.Spec3.lean ====
/-
  A batch's points seen at once, away from any program: from the points `x`, the batch minima `mn` and voxel sizes `vs`, per
  point `q` of batch `b` — the voxel coordinate on each axis (as an extended real `gF`, a natural `gN` ≤ 15 and a 32-bit word
  `gI`: all three are one number), the voxel's centre, the centred coordinate, and the thirteen centred features.
-/
import proofs.«168833_j62826781606551_2_alg».proof.Proof.Spec
import proofs.«168833_j62826781606551_2_alg».proof.Proof.Spec2

noncomputable section

namespace Cert.Spec

open Idealize.ShloMosaic

variable (x : Fin 16 → Fin 262144 → Fin 3 → EReal) (mn vs : Fin 16 → Fin 3 → EReal)

/-- The voxel coordinate of point `q` of batch `b` on axis `a`: the clipped floor of the scaled offset. -/
def gF (b : Fin 16) (q : Fin 262144) (a : Fin 3) : EReal := clipF (Ideal.div (x b q a - mn b a) (vs b a))
/-- The same as a natural number. -/
def gN (b : Fin 16) (q : Fin 262144) (a : Fin 3) : ℕ := (clipF_nat (Ideal.div (x b q a - mn b a) (vs b a))).choose
theorem gN_le (b : Fin 16) (q : Fin 262144) (a : Fin 3) : gN x mn vs b q a ≤ 15 :=
  (clipF_nat (Ideal.div (x b q a - mn b a) (vs b a))).choose_spec.1
theorem gF_eq (b : Fin 16) (q : Fin 262144) (a : Fin 3) : gF x mn vs b q a = ((gN x mn vs b q a : ℝ) : EReal) :=
  (clipF_nat (Ideal.div (x b q a - mn b a) (vs b a))).choose_spec.2
/-- The same as a 32-bit word. -/
def gI (b : Fin 16) (q : Fin 262144) (a : Fin 3) : BitVec 32 := Ideal.fptosi 32 (gF x mn vs b q a)
theorem gI_eq (b : Fin 16) (q : Fin 262144) (a : Fin 3) : gI x mn vs b q a = BitVec.ofNat 32 (gN x mn vs b q a) := by
  unfold gI; rw [gF_eq]; exact fptosi_nat _ (gN_le x mn vs b q a)

/-- The centre of the point's voxel on axis `a`. -/
def cen (b : Fin 16) (q : Fin 262144) (a : Fin 3) : EReal := mn b a + (gF x mn vs b q a + ((1 / 2 : ℝ) : EReal)) * vs b a
/-- The centred coordinate. -/
def xc (b : Fin 16) (q : Fin 262144) (a : Fin 3) : EReal := x b q a - cen x mn vs b q a
/-- The thirteen features: 1, the centred coordinates, their nine products row by row. -/
def feat (b : Fin 16) (q : Fin 262144) (f : Fin 13) : EReal :=
  if f.val = 0 then ((1 : ℝ) : EReal) else if h : f.val < 4 then xc x mn vs b q ⟨f.val - 1, by omega⟩
  else xc x mn vs b q ⟨(f.val - 4) / 3, by have := f.isLt; omega⟩ * xc x mn vs b q ⟨(f.val - 4) % 3, by omega⟩

/-- The points of batch `b` in voxel (g, jk): first coordinate `g`, sixteen times the second plus the third `jk`. -/
def inVox (b : Fin 16) (g : Fin 16) (jk : Fin 256) (q : Fin 262144) : Prop :=
  gN x mn vs b q 0 = g.val ∧ gN x mn vs b q 1 * 16 + gN x mn vs b q 2 = jk.val

instance (b : Fin 16) (g : Fin 16) (jk : Fin 256) : DecidablePred (inVox x mn vs b g jk) := fun _ => by unfold inVox; infer_instance

/-- The two word comparisons of the kernel select exactly the voxel's points. -/
theorem hot_iff (b : Fin 16) (g : Fin 16) (jk : Fin 256) (q : Fin 262144) :
    (gI x mn vs b q 0 = BitVec.ofNat 32 g.val
      ∧ IntOp.addi (IntOp.muli (gI x mn vs b q 1) 16#32) (gI x mn vs b q 2) = BitVec.ofNat 32 jk.val) ↔ inVox x mn vs b g jk q := by
  unfold inVox
  rw [gI_eq, gI_eq, gI_eq, ofNat_eq_iff _ _ (by have := gN_le x mn vs b q 0; omega) (by have := g.isLt; omega),
    jk_eq _ _ _ (gN_le x mn vs b q 1) (gN_le x mn vs b q 2) jk.isLt]

end Cert.Spec

end
-- ==== Proof.Consts.lean ====
/-
  The float words the two programs spell, as the extended reals they denote at the ideal instance: +0.0, 1.0, 0.5, 15.0.
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_15 : Ideal.ofBits .f32 0x41700000#32 = ((15 : ℝ) : EReal) := by
  simp [Ideal.ofBits, Ideal.ieee, -EReal.coe_mul]; norm_num

end Cert.Consts

end
-- ==== Proof.LibMoments.lean ====
/-
  General lemmas about sums of moments over a finite set of points: centring the points at any constant changes neither the
  mean recovered from the centred sum nor the covariance numerator; a sum against a 0/1 indicator is the sum over the
  points the indicator selects; a finite sum of reals, coerced to the extended reals, is the sum of the coerced terms.
  Nothing here mentions a program.
-/
import Mathlib.Algebra.BigOperators.Field
import Mathlib.Data.EReal.Operations
import Mathlib.Tactic.Ring
import Mathlib.Tactic.FieldSimp
import Mathlib.Tactic.Linarith

namespace LibMoments

open Finset

variable {ι : Type*}

/-- The sum of the points centred at `c` is the sum of the points less `card · c`. -/
theorem sum_sub_const (P : Finset ι) (x : ι → ℝ) (c : ℝ) :
    ∑ q ∈ P, (x q - c) = ∑ q ∈ P, x q - (P.card : ℝ) * c := by
  rw [Finset.sum_sub_distrib, Finset.sum_const, nsmul_eq_mul]

/-- The sum of products of two coordinates, each centred at its own constant, expanded. -/
theorem sum_sub_mul_sub (P : Finset ι) (x y : ι → ℝ) (a b : ℝ) :
    ∑ q ∈ P, (x q - a) * (y q - b)
      = ∑ q ∈ P, x q * y q - b * ∑ q ∈ P, x q - a * ∑ q ∈ P, y q + (P.card : ℝ) * a * b := by
  have h : ∀ q, (x q - a) * (y q - b) = x q * y q - b * x q - a * y q + a * b := fun q => by ring
  simp only [h, Finset.sum_add_distrib, Finset.sum_sub_distrib, Finset.sum_const, nsmul_eq_mul, ← Finset.mul_sum]
  ring

/-- THE MEAN IS RECOVERED: the mean of the centred points, shifted back by the centre, is the mean of the points. -/
theorem mean_centered (P : Finset ι) (x : ι → ℝ) (c n : ℝ) (hn : n = (P.card : ℝ)) (h0 : n ≠ 0) :
    (∑ q ∈ P, (x q - c)) / n + c = (∑ q ∈ P, x q) / n := by
  rw [sum_sub_const, ← hn]; field_simp; ring

/-- THE COVARIANCE IS SHIFT INVARIANT: second moments less `n` times the product of the means, computed from the
    points centred at `(a, b)`, equal the same expression computed from the points themselves. -/
theorem cov_centered (P : Finset ι) (x y : ι → ℝ) (a b n : ℝ) (hn : n = (P.card : ℝ)) (h0 : n ≠ 0) :
    ∑ q ∈ P, (x q - a) * (y q - b) - n * (((∑ q ∈ P, (x q - a)) / n) * ((∑ q ∈ P, (y q - b)) / n))
      = ∑ q ∈ P, x q * y q - n * (((∑ q ∈ P, x q) / n) * ((∑ q ∈ P, y q) / n)) := by
  rw [sum_sub_mul_sub, sum_sub_const, sum_sub_const, ← hn]; field_simp; ring

/-- A finite sum of reals, coerced, is the sum of the coerced terms. -/
theorem coe_sum (P : Finset ι) (f : ι → ℝ) : ((∑ q ∈ P, f q : ℝ) : EReal) = ∑ q ∈ P, (f q : EReal) := by
  classical
  induction P using Finset.induction_on with
  | empty => simp
  | insert a s ha ih => rw [Finset.sum_insert ha, Finset.sum_insert ha, EReal.coe_add, ih]

/-- A sum against a 0/1 indicator is the sum over the selected points (in the extended reals: `x · 0 = 0` even at ±∞). -/
theorem sum_mul_indicator [Fintype ι] (f : ι → EReal) (p : ι → Prop) [DecidablePred p] :
    ∑ q, f q * (if p q then (1 : EReal) else 0) = ∑ q ∈ Finset.univ.filter p, f q := by
  rw [Finset.sum_filter]
  refine Finset.sum_congr rfl fun q _ => ?_
  by_cases h : p q <;> simp [h]

/-- The same with two indicators: the product of two one-hot factors selects the points both select. -/
theorem sum_mul_indicator₂ [Fintype ι] (f : ι → EReal) (p r : ι → Prop) [DecidablePred p] [DecidablePred r] :
    ∑ q, (f q * (if p q then (1 : EReal) else 0)) * (if r q then (1 : EReal) else 0)
      = ∑ q ∈ Finset.univ.filter (fun q => p q ∧ r q), f q := by
  rw [Finset.sum_filter]
  refine Finset.sum_congr rfl fun q _ => ?_
  by_cases h : p q <;> by_cases h' : r q <;> simp [h, h']

/-- The number of selected points, as a sum of ones. -/
theorem sum_one_filter [Fintype ι] (p : ι → Prop) [DecidablePred p] :
    ∑ q ∈ Finset.univ.filter p, (1 : EReal) = (((Finset.univ.filter p).card : ℝ) : EReal) := by
  calc ∑ q ∈ Finset.univ.filter p, (1 : EReal)
      = ∑ q ∈ Finset.univ.filter p, (((fun _ => (1 : ℝ)) q : ℝ) : EReal) := by simp
    _ = ((∑ q ∈ Finset.univ.filter p, (1 : ℝ) : ℝ) : EReal) := (coe_sum _ _).symm
    _ = _ := by simp

end LibMoments
-- ==== Proof.KI.Global.lean ====
/-
  From tiles to the whole batch. A tile's point `p` is point `4096 n + p` of its batch; with the batch minima and voxel sizes the
  region finds, the tile's per-point quantities are the batch's (the program-free `Cert.Spec` functions of the point array),
  so a tile's sum at column `13 g + f`, `jk` is the sum over the tile's points that lie in voxel (g, jk) of feature `f`; summed
  over the batch's 64 tiles this is the sum over ALL the batch's points in the voxel: the array of accumulated moments.
-/
import proofs.«168833_j62826781606551_2_alg».proof.Proof.KI.Blocks
import proofs.«168833_j62826781606551_2_alg».proof.Proof.Spec3
import proofs.«168833_j62826781606551_2_alg».proof.Proof.Consts
import proofs.«168833_j62826781606551_2_alg».proof.Proof.LibMoments

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

variable (m : (ℓ : Loc nD τ sig) → Buf (Elt Ideal) ℓ)

/-- The point array, the batch minima and the voxel sizes as plain functions of their coordinates. -/
def Xf (c : Dev nD) : Fin 16 → Fin 262144 → Fin 3 → EReal := fun b q a => X m c (ix3 b q a)
def MNf (c : Dev nD) : Fin 16 → Fin 3 → EReal := fun b a => V m c main_v1 (ix3 b (0 : Fin 1) a)
def VSf (c : Dev nD) : Fin 16 → Fin 3 → EReal := fun b a => V m c main_v8 (ix3 b (0 : Fin 1) a)

/-- The batch of a grid point, and the batch row of a tile's point. -/
def tb (t : Fin cfg0.N) : Fin 16 := ⟨t.val / 64, by have := t.isLt; have hN : cfg0.N = 1024 := N_0; omega⟩
def tq (t : Fin cfg0.N) (p : Fin 4096) : Fin 262144 := ⟨t.val % 64 * 4096 + p.val, by have := p.isLt; omega⟩

theorem px_tile (c : Dev nD) (t : Fin cfg0.N) (p : Fin 4096) (a : Fin 3) :
    px (iblk m c 0 t) p a = Xf m c (tb t) (tq t p) a := iblk0_apply m c t p a

theorem mnT_tile (c : Dev nD) (t : Fin cfg0.N) (a : Fin 3) : mnT (iblk m c 1 t) a = MNf m c (tb t) a := by
  unfold mnT MNf
  rw [iblk1_apply m c t (0 : Fin 2) a, V_v9]
  exact concatenate_pair_apply_left (t := S16x2x3) (s₁ := S16x1x3) (s₂ := S16x1x3) (1 : Fin 3) _ _ _ (ix3 (tb t) (0 : Fin 2) a) rfl (ix3 (tb t) (0 : Fin 1) a)
    (fun b => by match b with | ⟨0, _⟩ => rfl | ⟨1, _⟩ => rfl | ⟨2, _⟩ => rfl)

theorem vsT_tile (c : Dev nD) (t : Fin cfg0.N) (a : Fin 3) : vsT (iblk m c 1 t) a = VSf m c (tb t) a := by
  unfold vsT VSf
  rw [iblk1_apply m c t (1 : Fin 2) a, V_v9]
  exact concatenate_pair_apply_right (t := S16x2x3) (s₁ := S16x1x3) (s₂ := S16x1x3) (1 : Fin 3) _ _ _ (ix3 (tb t) (1 : Fin 2) a) rfl rfl (ix3 (tb t) (0 : Fin 1) a)
    (fun b hb => by match b with | ⟨0, _⟩ => rfl | ⟨1, _⟩ => exact absurd rfl hb | ⟨2, _⟩ => rfl) rfl

theorem w15_eq : (w15 : EReal) = ((15 : ℝ) : EReal) := Cert.Consts.ofBits_15
theorem w0_eq : (w0 : EReal) = ((0 : ℝ) : EReal) := by rw [EReal.coe_zero]; exact Cert.Consts.ofBits_zero
theorem w1_eq : (w1 : EReal) = ((1 : ℝ) : EReal) := Cert.Consts.ofBits_one
theorem wHalf_eq : (wHalf : EReal) = ((1 / 2 : ℝ) : EReal) := Cert.Consts.ofBits_half

theorem gridF_tile (c : Dev nD) (t : Fin cfg0.N) (p : Fin 4096) (a : Fin 3) :
    gridF (iblk m c 0 t) (iblk m c 1 t) p a = Cert.Spec.gF (Xf m c) (MNf m c) (VSf m c) (tb t) (tq t p) a := by
  unfold gridF Cert.Spec.gF Cert.Spec.clipF
  rw [px_tile, mnT_tile, vsT_tile, w15_eq, w0_eq]
  rfl

theorem gridI_tile (c : Dev nD) (t : Fin cfg0.N) (p : Fin 4096) (a : Fin 3) :
    gridI (iblk m c 0 t) (iblk m c 1 t) p a = Cert.Spec.gI (Xf m c) (MNf m c) (VSf m c) (tb t) (tq t p) a := by
  unfold gridI Cert.Spec.gI; rw [gridF_tile]

theorem xcT_tile (c : Dev nD) (t : Fin cfg0.N) (p : Fin 4096) (a : Fin 3) :
    xcT (iblk m c 0 t) (iblk m c 1 t) p a = Cert.Spec.xc (Xf m c) (MNf m c) (VSf m c) (tb t) (tq t p) a := by
  unfold xcT ctrT Cert.Spec.xc Cert.Spec.cen
  rw [px_tile, mnT_tile, vsT_tile, gridF_tile, wHalf_eq]

theorem featT_tile (c : Dev nD) (t : Fin cfg0.N) (p : Fin 4096) (f : Fin 13) :
    featT (iblk m c 0 t) (iblk m c 1 t) p f = Cert.Spec.feat (Xf m c) (MNf m c) (VSf m c) (tb t) (tq t p) f := by
  unfold featT Cert.Spec.feat
  simp only [xcT_tile, w1_eq]

/-- A feature times the two indicators is the feature on the voxel's points and nothing elsewhere. -/
theorem mul_two_ind (y : EReal) (A B : Prop) [Decidable A] [Decidable B] :
    (y * (if A then (1 : EReal) else 0)) * (if B then (1 : EReal) else 0) = if A ∧ B then y else 0 := by
  by_cases hA : A <;> by_cases hB : B <;> simp [hA, hB]

/-- What point `q` of batch `b` adds to entry (13 g + f, jk). -/
def term (c : Dev nD) (b : Fin 16) (g : Fin 16) (jk : Fin 256) (f : Fin 13) (q : Fin 262144) : EReal :=
  if Cert.Spec.inVox (Xf m c) (MNf m c) (VSf m c) b g jk q then Cert.Spec.feat (Xf m c) (MNf m c) (VSf m c) b q f else 0

/-- A tile's sum, in the batch's terms. -/
theorem tileSum_eq (c : Dev nD) (t : Fin cfg0.N) (g : Fin 16) (f : Fin 13) (jk : Fin 256) :
    tileSum m c t ⟨g.val * 13 + f.val, by have := g.isLt; have := f.isLt; omega⟩ jk
      = ∑ p : Fin 4096, term m c (tb t) g jk f (tq t p) := by
  unfold tileSum
  refine Finset.sum_congr rfl fun p _ => ?_
  rw [summand_apply, featT_tile, gridI_tile, gridI_tile, gridI_tile, mul_two_ind]
  unfold term
  exact if_congr (Cert.Spec.hot_iff _ _ _ _ _ _ _) rfl rfl

end Cert.KernelIdeal.Hand

end
-- ==== Proof.KI.Batch.lean ====
/-
  The array of accumulated moments, entry by entry: at (b, 13 g + f, jk) it holds the sum, over the points of batch `b` that
  lie in voxel (g, jk), of the point's centred feature `f`. The 64 tiles of 4096 points are the batch's 262144 points, once each.
-/
import proofs.«168833_j62826781606551_2_alg».proof.Proof.KI.Global

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

variable (m : (ℓ : Loc nD τ sig) → Buf (Elt Ideal) ℓ)

/-- Tile `k`, point `p` ↔ batch point `4096 k + p`. -/
def tileEquiv : Fin 64 × Fin 4096 ≃ Fin 262144 where
  toFun x := ⟨x.1.val * 4096 + x.2.val, by have := x.1.isLt; have := x.2.isLt; omega⟩
  invFun q := (⟨q.val / 4096, by have := q.isLt; omega⟩, ⟨q.val % 4096, by omega⟩)
  left_inv x := by
    have := x.1.isLt; have := x.2.isLt
    apply Prod.ext <;> apply Fin.ext <;> simp only [] <;> omega
  right_inv q := by apply Fin.ext; simp only []; omega

/-- A sum over the tiles of the sum over a tile's points is the sum over the batch's points. -/
theorem sum_tiles {M : Type*} [AddCommMonoid M] (G : Fin 262144 → M) :
    ∑ k : Fin 64, ∑ p : Fin 4096, G ⟨k.val * 4096 + p.val, by have := k.isLt; have := p.isLt; omega⟩ = ∑ q, G q := by
  rw [← Fintype.sum_prod_type']
  exact Fintype.sum_equiv tileEquiv _ _ (fun x => rfl)

theorem tb_eq (b : Fin 16) (k : Fin 64) (h : b.val * 64 + k.val < cfg0.N) : tb ⟨b.val * 64 + k.val, h⟩ = b := by
  apply Fin.ext; show (b.val * 64 + k.val) / 64 = b.val; have := k.isLt; omega
theorem tq_eq (b : Fin 16) (k : Fin 64) (h : b.val * 64 + k.val < cfg0.N) (p : Fin 4096) :
    tq ⟨b.val * 64 + k.val, h⟩ p = ⟨k.val * 4096 + p.val, by have := k.isLt; have := p.isLt; omega⟩ := by
  apply Fin.ext; show (b.val * 64 + k.val) % 64 * 4096 + p.val = k.val * 4096 + p.val; have := k.isLt; omega

/-- THE ARRAY OF ACCUMULATED MOMENTS: the sum of the feature over the voxel's points. -/
theorem raw_eq (c : Dev nD) (b : Fin 16) (g : Fin 16) (f : Fin 13) (jk : Fin 256) :
    rawG m c (ix3 b (⟨g.val * 13 + f.val, by have := g.isLt; have := f.isLt; omega⟩ : Fin 208) jk)
      = ∑ q ∈ Finset.univ.filter (Cert.Spec.inVox (Xf m c) (MNf m c) (VSf m c) b g jk), Cert.Spec.feat (Xf m c) (MNf m c) (VSf m c) b q f := by
  rw [rawG_apply, Finset.sum_range, w0_eq, EReal.coe_zero, zero_add, Finset.sum_filter, ← sum_tiles]
  refine Finset.sum_congr rfl fun k _ => ?_
  have h : b.val * 64 + k.val < cfg0.N := by have := b.isLt; have := k.isLt; have hN : cfg0.N = 1024 := N_0; omega
  unfold tileSumN
  rw [dif_pos h, tileSum_eq, tb_eq]
  refine Finset.sum_congr rfl fun p _ => ?_
  rw [tq_eq]; rfl

end Cert.KernelIdeal.Hand

end
-- ==== Proof.KI.Tail.lean ====
/-
  The kernel program's lines after the region, read at an index of the result. The 143 lines are cut into consecutive
  stretches, each read back on its own over an ARBITRARY valuation known only at the buffers the stretch reads, and chained:
  the layout lines (the 16×208×256 moments array as batch × voxel × channel, and its three slices: count, first moments,
  second moments), the four integer functions (from the voxel number `v` the words `v / 256`, `v % 256`, `(v % 256) / 16`,
  `v % 16`, each function body a closed term of the word settled for all `v < 4096` at once), the float lines in six stretches
  (centre, means, products of means, covariance, mask and concatenation) and the final select. `tail_eq` is the result as
  one term of the moments array, the lower corner and the voxel size; `tail_apply` reads it at an index in extended-real
  arithmetic as `tailSpec`.
-/
import proofs.«168833_j62826781606551_2_alg».proof.Proof.KI.Raw
import Idealize.ShloMosaic.Lib.Pipeline.Frame
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx Idealize.ShloMosaic.StableHlo

/-! ## The accumulated moments laid out per voxel -/

/-- The moments array as batch × voxel × channel: a reshape, a transpose, a reshape and a transpose of the 16×208×256 array. -/
def lay (raw : FVec F S16x208x256 .f32) : FVec F S16x4096x13 .f32 :=
  transpose S16x4096x13 [0, 2, 1]
    (shapeCast S16x13x4096
      (transpose S16x13x16x256 [0, 2, 1, 3] (shapeCast S16x16x13x256 raw shapeCasts_S16x208x256_S16x16x13x256)
        transposes_S16x16x13x256_S16x13x16x256_0_2_1_3)
      shapeCasts_S16x13x16x256_S16x13x4096)
    transposes_S16x13x4096_S16x4096x13_0_2_1

/-- Channel `ch` of voxel `v` of batch `b` is row `(v / 256) * 13 + ch`, column `v % 256` of the batch's block. -/
theorem lay_apply (raw : FVec F S16x208x256 .f32) (b : Fin 16) (v : Fin 4096) (ch : Fin 13) :
    lay raw (ix3 b v ch)
      = raw (ix3 b ⟨v.val / 256 * 13 + ch.val, by have := v.isLt; have := ch.isLt; omega⟩ ⟨v.val % 256, Nat.mod_lt _ (by decide)⟩) := by
  have hv := v.isLt
  have hch := ch.isLt
  have hb := b.isLt
  unfold lay
  refine (transpose_apply _ _ transposes_S16x13x4096_S16x4096x13_0_2_1 (ix3 b v ch) (ix3 b ch v)
    (fun a => match a with | ⟨0, _⟩ => rfl | ⟨1, _⟩ => rfl | ⟨2, _⟩ => rfl)).trans ?_
  refine (shapeCast_apply _ shapeCasts_S16x13x16x256_S16x13x4096 (ix3 b ch v)
    (ix4 b ch ⟨v.val / 256, by omega⟩ ⟨v.val % 256, Nat.mod_lt _ (by decide)⟩) ?_).trans ?_
  · rewrite [Shape.rowMajor_val_four, Shape.rowMajor_val_three]
    show ((b.val * 13 + ch.val) * 16 + v.val / 256) * 256 + v.val % 256 = (b.val * 13 + ch.val) * 4096 + v.val
    omega
  refine (transpose_apply _ _ transposes_S16x16x13x256_S16x13x16x256_0_2_1_3
    (ix4 b ch ⟨v.val / 256, by omega⟩ ⟨v.val % 256, Nat.mod_lt _ (by decide)⟩)
    (ix4 b ⟨v.val / 256, by omega⟩ ch ⟨v.val % 256, Nat.mod_lt _ (by decide)⟩)
    (fun a => match a with | ⟨0, _⟩ => rfl | ⟨1, _⟩ => rfl | ⟨2, _⟩ => rfl | ⟨3, _⟩ => rfl)).trans ?_
  refine shapeCast_apply raw shapeCasts_S16x208x256_S16x16x13x256 _ _ ?_
  rewrite [Shape.rowMajor_val_four, Shape.rowMajor_val_three]
  show (b.val * 208 + (v.val / 256 * 13 + ch.val)) * 256 + v.val % 256 = ((b.val * 16 + v.val / 256) * 13 + ch.val) * 256 + v.val % 256
  omega

/-- The point count of a voxel. -/
def cntV (raw : FVec F S16x208x256 .f32) : FVec F S16x4096 .f32 :=
  shapeCast S16x4096 (extractStridedSlice S16x4096x1 ![0, 0, 0] (lay raw) slices_S16x4096x13_S16x4096x1_0_0_0) shapeCasts_S16x4096x1_S16x4096
/-- The three centred first moments of a voxel. -/
def sumV (raw : FVec F S16x208x256 .f32) : FVec F S16x4096x3 .f32 :=
  extractStridedSlice S16x4096x3 ![0, 0, 1] (lay raw) slices_S16x4096x13_S16x4096x3_0_0_1
/-- The nine centred second moments of a voxel. -/
def sqV (raw : FVec F S16x208x256 .f32) : FVec F S16x4096x9 .f32 :=
  extractStridedSlice S16x4096x9 ![0, 0, 4] (lay raw) slices_S16x4096x13_S16x4096x9_0_0_4

theorem cntV_apply (raw : FVec F S16x208x256 .f32) (b : Fin 16) (v : Fin 4096) :
    cntV raw (ix2 b v) = lay raw (ix3 b v 0) := by
  unfold cntV
  refine (shapeCast_apply _ shapeCasts_S16x4096x1_S16x4096 (ix2 b v) (ix3 b v 0) ?_).trans ?_
  · rewrite [Shape.rowMajor_val_three, Shape.rowMajor_val_two]
    show (b.val * 4096 + v.val) * 1 + 0 = b.val * 4096 + v.val
    omega
  exact extractStridedSlice_apply _ _ slices_S16x4096x13_S16x4096x1_0_0_0 (ix3 b v 0) (ix3 b v 0)
    (fun a => match a with | ⟨0, _⟩ => by show b.val = 0 + b.val; omega | ⟨1, _⟩ => by show v.val = 0 + v.val; omega | ⟨2, _⟩ => by show 0 = 0 + 0; omega)

theorem sumV_apply (raw : FVec F S16x208x256 .f32) (b : Fin 16) (v : Fin 4096) (a : Fin 3) :
    sumV raw (ix3 b v a) = lay raw (ix3 b v ⟨1 + a.val, by have := a.isLt; omega⟩) := by
  unfold sumV
  exact extractStridedSlice_apply _ _ slices_S16x4096x13_S16x4096x3_0_0_1 (ix3 b v a) (ix3 b v ⟨1 + a.val, by have := a.isLt; omega⟩)
    (fun c => match c with | ⟨0, _⟩ => by show b.val = 0 + b.val; omega | ⟨1, _⟩ => by show v.val = 0 + v.val; omega | ⟨2, _⟩ => by show 1 + a.val = 1 + a.val; omega)

theorem sqV_apply (raw : FVec F S16x208x256 .f32) (b : Fin 16) (v : Fin 4096) (k : Fin 9) :
    sqV raw (ix3 b v k) = lay raw (ix3 b v ⟨4 + k.val, by have := k.isLt; omega⟩) := by
  unfold sqV
  exact extractStridedSlice_apply _ _ slices_S16x4096x13_S16x4096x9_0_0_4 (ix3 b v k) (ix3 b v ⟨4 + k.val, by have := k.isLt; omega⟩)
    (fun c => match c with | ⟨0, _⟩ => by show b.val = 0 + b.val; omega | ⟨1, _⟩ => by show v.val = 0 + v.val; omega | ⟨2, _⟩ => by show 4 + k.val = 4 + k.val; omega)

/-! ## Stretch 1: the layout lines -/

set_option maxHeartbeats 4000000 in
theorem t1_v16 (W : Valuation τ sig (Elt F)) (raw : FVec F S16x208x256 .f32) (h10 : W (Proc.devRef .tc main_v10) = raw) :
    after (hostOps1 (F := F)) W (Proc.devRef .tc main_v16) = cntV raw := by
  simp only [hostOps1]
  after_results_simp
  try rw [h10]
  rfl

set_option maxHeartbeats 4000000 in
theorem t1_v17 (W : Valuation τ sig (Elt F)) (raw : FVec F S16x208x256 .f32) (h10 : W (Proc.devRef .tc main_v10) = raw) :
    after (hostOps1 (F := F)) W (Proc.devRef .tc main_v17) = sumV raw := by
  simp only [hostOps1]
  after_results_simp
  try rw [h10]
  rfl

set_option maxHeartbeats 4000000 in
theorem t1_v18 (W : Valuation τ sig (Elt F)) (raw : FVec F S16x208x256 .f32) (h10 : W (Proc.devRef .tc main_v10) = raw) :
    after (hostOps1 (F := F)) W (Proc.devRef .tc main_v18) = sqV raw := by
  simp only [hostOps1]
  after_results_simp
  try rw [h10]
  rfl

theorem t1_v19 (W : Valuation τ sig (Elt F)) :
    after (hostOps1 (F := F)) W (Proc.devRef .tc main_v19) = iotaInDim S4096 32 0 := by
  simp only [hostOps1]
  after_results_simp

theorem t1_c (W : Valuation τ sig (Elt F)) :
    after (hostOps1 (F := F)) W (Proc.devRef .tc main_c) = constantI S_ 32 256#32 := by
  simp only [hostOps1]
  after_results_simp

theorem t1_keep_v1 (W : Valuation τ sig (Elt F)) :
    after (hostOps1 (F := F)) W (Proc.devRef .tc main_v1) = W (Proc.devRef .tc main_v1) := by
  simp only [hostOps1]
  after_results_simp

theorem t1_keep_v8 (W : Valuation τ sig (Elt F)) :
    after (hostOps1 (F := F)) W (Proc.devRef .tc main_v8) = W (Proc.devRef .tc main_v8) := by
  simp only [hostOps1]
  after_results_simp

/-! ## The voxel's three integer coordinates -/

/-- The sign of a 32-bit word: 0, −1 or 1. -/
def sgnW (x : BitVec 32) : BitVec 32 := if x = 0 then 0 else if x.msb = true then -1 else 1

/-- Floor division as the program computes it: the truncated quotient, less one where the signs differ and the remainder is not zero. -/
def floorDivW (x d : BitVec 32) : BitVec 32 :=
  Scalar.select (IntOp.andi (IntOp.cmpi .ne (sgnW x) (sgnW d)) (IntOp.cmpi .ne (IntOp.remsi .host x d) 0#32))
    (IntOp.subi (IntOp.divsi .host x d) 1#32) (IntOp.divsi .host x d)

/-- The divisor the remainder uses: 1 in place of 0. -/
def dvsW (d : BitVec 32) : BitVec 32 := Scalar.select (IntOp.cmpi .eq d 0#32) 1#32 d

/-- The remainder as the program computes it: the truncated remainder, plus the divisor where it is not zero and its sign differs from the divisor's. -/
def remW (x d : BitVec 32) : BitVec 32 :=
  Scalar.select
    (IntOp.andi (IntOp.cmpi .ne (IntOp.cmpi .slt (IntOp.remsi .host x (dvsW d)) 0#32) (IntOp.cmpi .slt (dvsW d) 0#32))
      (IntOp.cmpi .ne (IntOp.remsi .host x (dvsW d)) 0#32))
    (IntOp.addi (IntOp.remsi .host x (dvsW d)) (dvsW d)) (IntOp.remsi .host x (dvsW d))

theorem floorDivW_256 : ∀ k : Fin 4096, floorDivW (BitVec.ofNat 32 k.val) 256#32 = BitVec.ofNat 32 (k.val / 256) := by decide +kernel
theorem remW_256 : ∀ k : Fin 4096, remW (BitVec.ofNat 32 k.val) 256#32 = BitVec.ofNat 32 (k.val % 256) := by decide +kernel
theorem floorDivW_16 : ∀ k : Fin 256, floorDivW (BitVec.ofNat 32 k.val) 16#32 = BitVec.ofNat 32 (k.val / 16) := by decide +kernel
theorem remW_16 : ∀ k : Fin 256, remW (BitVec.ofNat 32 k.val) 16#32 = BitVec.ofNat 32 (k.val % 16) := by decide +kernel

/-! ## The integer lines: the quotient by 256, the remainder, its quotient by 16 and its remainder -/

set_option maxHeartbeats 4000000 in
theorem ti_v20 (W : Valuation τ sig (Elt F)) (h19 : W (Proc.devRef .tc main_v19) = iotaInDim S4096 32 0)
    (hc : W (Proc.devRef .tc main_c) = constantI S_ 32 256#32) :
    after (hostOps1_1 (F := F)) W (Proc.devRef .tc main_v20) = fun v => BitVec.ofNat 32 ((v 0).val / 256) := by
  simp only [hostOps1_1]
  after_results_simp
  rw [h19, hc]
  funext v
  simp only [TRef.ofBuf, TRef.toBuf, cast_eq, id, select, addi, subi, Host.divsi, Host.remsi, signi, cmpi, andi, broadcastInDim, constantI, iotaInDim]
  exact floorDivW_256 (v 0)

set_option maxHeartbeats 4000000 in
theorem ti_v21 (W : Valuation τ sig (Elt F)) (h19 : W (Proc.devRef .tc main_v19) = iotaInDim S4096 32 0) :
    after (hostOps1_2 (F := F) ++ hostOps1_3) W (Proc.devRef .tc main_v21) = fun v => BitVec.ofNat 32 ((v 0).val % 256) := by
  simp only [hostOps1_2, hostOps1_3, List.cons_append, List.nil_append]
  after_results_simp
  rw [h19]
  funext v
  simp only [TRef.ofBuf, TRef.toBuf, cast_eq, id, select, addi, subi, Host.divsi, Host.remsi, signi, cmpi, andi, broadcastInDim, constantI, iotaInDim]
  exact remW_256 (v 0)

set_option maxHeartbeats 4000000 in
theorem ti_v22 (W : Valuation τ sig (Elt F))
    (h21 : W (Proc.devRef .tc main_v21) = fun v : S4096.Idx => BitVec.ofNat 32 ((v 0).val % 256)) :
    after (hostOps1_4 (F := F) ++ hostOps1_5) W (Proc.devRef .tc main_v22) = fun v => BitVec.ofNat 32 ((v 0).val % 256 / 16) := by
  simp only [hostOps1_4, hostOps1_5, List.cons_append, List.nil_append]
  after_results_simp
  rw [h21]
  funext v
  simp only [TRef.ofBuf, TRef.toBuf, cast_eq, id, select, addi, subi, Host.divsi, Host.remsi, signi, cmpi, andi, broadcastInDim, constantI, iotaInDim]
  exact floorDivW_16 ⟨(v 0).val % 256, Nat.mod_lt _ (by decide)⟩

set_option maxHeartbeats 4000000 in
theorem ti_v23 (W : Valuation τ sig (Elt F))
    (h21 : W (Proc.devRef .tc main_v21) = fun v : S4096.Idx => BitVec.ofNat 32 ((v 0).val % 256)) :
    after (hostOps1_6 (F := F) ++ hostOps1_7) W (Proc.devRef .tc main_v23) = fun v => BitVec.ofNat 32 ((v 0).val % 16) := by
  simp only [hostOps1_6, hostOps1_7, List.cons_append, List.nil_append]
  after_results_simp
  rw [h21]
  funext v
  simp only [TRef.ofBuf, TRef.toBuf, cast_eq, id, select, addi, subi, Host.divsi, Host.remsi, signi, cmpi, andi, broadcastInDim, constantI, iotaInDim]
  refine (remW_16 ⟨(v 0).val % 256, Nat.mod_lt _ (by decide)⟩).trans ?_
  show BitVec.ofNat 32 ((v 0).val % 256 % 16) = BitVec.ofNat 32 ((v 0).val % 16)
  rw [Nat.mod_mod_of_dvd _ (by decide : 16 ∣ 256)]

/-! ## The broadcasts and reshapes of the float lines, read at an index -/

section Reads
variable {α : Type}

theorem bc_scalar {t : Shape} (h : S_.BroadcastsInDim t ![]) (x : S_.Idx → α) (j : t.Idx) :
    broadcastInDim t ![] h x j = x ix0 :=
  broadcastInDim_apply _ h x j ix0 (fun a => a.elim0)

theorem bc_4096_x1 (x : S4096.Idx → α) (v : Fin 4096) (c : Fin 1) :
    broadcastInDim S4096x1 ![0] bcast_S4096_S4096x1_0 x (ix2 v c) = x (ix1 v) :=
  broadcastInDim_apply _ _ x _ _ (fun a => match a with | ⟨0, _⟩ => rfl)

theorem bc_16x3_16x1x3 (x : S16x3.Idx → α) (b : Fin 16) (z : Fin 1) (a : Fin 3) :
    broadcastInDim S16x1x3 ![0, 2] bcast_S16x3_S16x1x3_0_2 x (ix3 b z a) = x (ix2 b a) :=
  broadcastInDim_apply _ _ x _ _ (fun c => match c with | ⟨0, _⟩ => rfl | ⟨1, _⟩ => rfl)

theorem bc_4096x3_1x4096x3 (x : S4096x3.Idx → α) (z : Fin 1) (v : Fin 4096) (a : Fin 3) :
    broadcastInDim S1x4096x3 ![1, 2] bcast_S4096x3_S1x4096x3_1_2 x (ix3 z v a) = x (ix2 v a) :=
  broadcastInDim_apply _ _ x _ _ (fun c => match c with | ⟨0, _⟩ => rfl | ⟨1, _⟩ => rfl)

theorem bc_1x4096x3_16x4096x3 (x : S1x4096x3.Idx → α) (b : Fin 16) (v : Fin 4096) (a : Fin 3) :
    broadcastInDim S16x4096x3 ![0, 1, 2] bcast_S1x4096x3_S16x4096x3_0_1_2 x (ix3 b v a) = x (ix3 0 v a) :=
  broadcastInDim_apply _ _ x _ _ (fun c => match c with | ⟨0, _⟩ => rfl | ⟨1, _⟩ => rfl | ⟨2, _⟩ => rfl)

theorem bc_16x1x3_16x4096x3 (x : S16x1x3.Idx → α) (b : Fin 16) (v : Fin 4096) (a : Fin 3) :
    broadcastInDim S16x4096x3 ![0, 1, 2] bcast_S16x1x3_S16x4096x3_0_1_2 x (ix3 b v a) = x (ix3 b 0 a) :=
  broadcastInDim_apply _ _ x _ _ (fun c => match c with | ⟨0, _⟩ => rfl | ⟨1, _⟩ => rfl | ⟨2, _⟩ => rfl)

theorem bc_16x4096_x1 (x : S16x4096.Idx → α) (b : Fin 16) (v : Fin 4096) (c : Fin 1) :
    broadcastInDim S16x4096x1 ![0, 1] bcast_S16x4096_S16x4096x1_0_1 x (ix3 b v c) = x (ix2 b v) :=
  broadcastInDim_apply _ _ x _ _ (fun c => match c with | ⟨0, _⟩ => rfl | ⟨1, _⟩ => rfl)

theorem bc_16x4096x1_x3 (x : S16x4096x1.Idx → α) (b : Fin 16) (v : Fin 4096) (a : Fin 3) :
    broadcastInDim S16x4096x3 ![0, 1, 2] bcast_S16x4096x1_S16x4096x3_0_1_2 x (ix3 b v a) = x (ix3 b v 0) :=
  broadcastInDim_apply _ _ x _ _ (fun c => match c with | ⟨0, _⟩ => rfl | ⟨1, _⟩ => rfl | ⟨2, _⟩ => rfl)

theorem bc_16x4096x1_x9 (x : S16x4096x1.Idx → α) (b : Fin 16) (v : Fin 4096) (k : Fin 9) :
    broadcastInDim S16x4096x9 ![0, 1, 2] bcast_S16x4096x1_S16x4096x9_0_1_2 x (ix3 b v k) = x (ix3 b v 0) :=
  broadcastInDim_apply _ _ x _ _ (fun c => match c with | ⟨0, _⟩ => rfl | ⟨1, _⟩ => rfl | ⟨2, _⟩ => rfl)

theorem bc_16x4096x1_x12 (x : S16x4096x1.Idx → α) (b : Fin 16) (v : Fin 4096) (j : Fin 12) :
    broadcastInDim S16x4096x12 ![0, 1, 2] bcast_S16x4096x1_S16x4096x12_0_1_2 x (ix3 b v j) = x (ix3 b v 0) :=
  broadcastInDim_apply _ _ x _ _ (fun c => match c with | ⟨0, _⟩ => rfl | ⟨1, _⟩ => rfl | ⟨2, _⟩ => rfl)

theorem bc_16x4096x3_x3x1 (x : S16x4096x3.Idx → α) (b : Fin 16) (v : Fin 4096) (p : Fin 3) (q : Fin 1) :
    broadcastInDim S16x4096x3x1 ![0, 1, 2] bcast_S16x4096x3_S16x4096x3x1_0_1_2 x (ix4 b v p q) = x (ix3 b v p) :=
  broadcastInDim_apply _ _ x _ _ (fun c => match c with | ⟨0, _⟩ => rfl | ⟨1, _⟩ => rfl | ⟨2, _⟩ => rfl)

theorem bc_16x4096x3_x1x3 (x : S16x4096x3.Idx → α) (b : Fin 16) (v : Fin 4096) (p : Fin 1) (q : Fin 3) :
    broadcastInDim S16x4096x1x3 ![0, 1, 3] bcast_S16x4096x3_S16x4096x1x3_0_1_3 x (ix4 b v p q) = x (ix3 b v q) :=
  broadcastInDim_apply _ _ x _ _ (fun c => match c with | ⟨0, _⟩ => rfl | ⟨1, _⟩ => rfl | ⟨2, _⟩ => rfl)

theorem bc_16x4096x3x1_x3x3 (x : S16x4096x3x1.Idx → α) (b : Fin 16) (v : Fin 4096) (p q : Fin 3) :
    broadcastInDim S16x4096x3x3 ![0, 1, 2, 3] bcast_S16x4096x3x1_S16x4096x3x3_0_1_2_3 x (ix4 b v p q) = x (ix4 b v p 0) :=
  broadcastInDim_apply _ _ x _ _ (fun c => match c with | ⟨0, _⟩ => rfl | ⟨1, _⟩ => rfl | ⟨2, _⟩ => rfl | ⟨3, _⟩ => rfl)

theorem bc_16x4096x1x3_x3x3 (x : S16x4096x1x3.Idx → α) (b : Fin 16) (v : Fin 4096) (p q : Fin 3) :
    broadcastInDim S16x4096x3x3 ![0, 1, 2, 3] bcast_S16x4096x1x3_S16x4096x3x3_0_1_2_3 x (ix4 b v p q) = x (ix4 b v 0 q) :=
  broadcastInDim_apply _ _ x _ _ (fun c => match c with | ⟨0, _⟩ => rfl | ⟨1, _⟩ => rfl | ⟨2, _⟩ => rfl | ⟨3, _⟩ => rfl)

theorem sc_16x1x3_16x3 (x : S16x1x3.Idx → α) (b : Fin 16) (a : Fin 3) :
    shapeCast S16x3 x shapeCasts_S16x1x3_S16x3 (ix2 b a) = x (ix3 b 0 a) := by
  refine shapeCast_apply x shapeCasts_S16x1x3_S16x3 (ix2 b a) (ix3 b 0 a) ?_
  rewrite [Shape.rowMajor_val_three, Shape.rowMajor_val_two]
  show (b.val * 1 + 0) * 3 + a.val = b.val * 3 + a.val
  omega

theorem sc_16x4096x3x3_x9 (x : S16x4096x3x3.Idx → α) (b : Fin 16) (v : Fin 4096) (k : Fin 9) :
    shapeCast S16x4096x9 x shapeCasts_S16x4096x3x3_S16x4096x9 (ix3 b v k)
      = x (ix4 b v ⟨k.val / 3, by have := k.isLt; omega⟩ ⟨k.val % 3, Nat.mod_lt _ (by decide)⟩) := by
  have hk := k.isLt
  refine shapeCast_apply x shapeCasts_S16x4096x3x3_S16x4096x9 (ix3 b v k) _ ?_
  rewrite [Shape.rowMajor_val_three, Shape.rowMajor_val_four]
  show ((b.val * 4096 + v.val) * 3 + k.val / 3) * 3 + k.val % 3 = (b.val * 4096 + v.val) * 9 + k.val
  omega

end Reads

/-! ## The float lines -/

/-- Column `a` of the table of voxel coordinates, as a word. -/
def colI (i24 i25 i26 : IVec S4096x1 32) (v : Fin 4096) (a : Fin 3) : BitVec 32 :=
  match a with | ⟨0, _⟩ => i24 (ix2 v 0) | ⟨1, _⟩ => i25 (ix2 v 0) | ⟨2, _⟩ => i26 (ix2 v 0)

theorem concat3_apply (i24 i25 i26 : IVec S4096x1 32) (v : Fin 4096) (a : Fin 3) :
    concatenate S4096x3 1 [⟨S4096x1, i24⟩, ⟨S4096x1, i25⟩, ⟨S4096x1, i26⟩] concatenates_S4096x1_S4096x1_S4096x1_S4096x3_d1 (ix2 v a)
      = colI i24 i25 i26 v a := by
  match a with
  | ⟨0, _⟩ =>
    exact concatenate_apply_piece 1 [⟨S4096x1, i24⟩, ⟨S4096x1, i25⟩, ⟨S4096x1, i26⟩] concatenates_S4096x1_S4096x1_S4096x1_S4096x3_d1 (ix2 v 0) 0 (by show (_ : ℕ) < 3; omega) S4096x1 i24 rfl rfl 0 rfl (ix2 v 0)
      (fun b hb => match b with | ⟨0, _⟩ => rfl | ⟨1, _⟩ => absurd rfl hb) rfl
  | ⟨1, _⟩ =>
    exact concatenate_apply_piece 1 [⟨S4096x1, i24⟩, ⟨S4096x1, i25⟩, ⟨S4096x1, i26⟩] concatenates_S4096x1_S4096x1_S4096x1_S4096x3_d1 (ix2 v 1) 1 (by show (_ : ℕ) < 3; omega) S4096x1 i25 rfl rfl 1 rfl (ix2 v 0)
      (fun b hb => match b with | ⟨0, _⟩ => rfl | ⟨1, _⟩ => absurd rfl hb) rfl
  | ⟨2, _⟩ =>
    exact concatenate_apply_piece 1 [⟨S4096x1, i24⟩, ⟨S4096x1, i25⟩, ⟨S4096x1, i26⟩] concatenates_S4096x1_S4096x1_S4096x1_S4096x3_d1 (ix2 v 2) 2 (by show (_ : ℕ) < 3; omega) S4096x1 i26 rfl rfl 2 rfl (ix2 v 0)
      (fun b hb => match b with | ⟨0, _⟩ => rfl | ⟨1, _⟩ => absurd rfl hb) rfl

/-- Rewrites every broadcast and reshape standing at a literal index, outermost first. -/
macro "bc_rw" : tactic => `(tactic| repeat (first
  | rw [bc_16x1x3_16x4096x3] | rw [bc_16x3_16x1x3] | rw [bc_1x4096x3_16x4096x3] | rw [bc_4096x3_1x4096x3] | rw [bc_scalar]
  | rw [sc_16x1x3_16x3] | rw [concat3_apply] | rw [bc_16x4096x1_x3] | rw [bc_16x4096_x1] | rw [bc_16x4096x1_x9]
  | rw [bc_16x4096x1_x12] | rw [bc_16x4096x3x1_x3x3] | rw [bc_16x4096x1x3_x3x3] | rw [bc_16x4096x3_x3x1] | rw [bc_16x4096x3_x1x3]
  | rw [sc_16x4096x3x3_x9] | rw [bc_4096_x1]
  | simp only [addf, mulf, subf, maximumf, Host.divf, sitofp, cmpf, constant]))

/-- The voxels' centres, as the program builds them. -/
def cenT (i24 i25 i26 : IVec S4096x1 32) (mn vs : FVec F S16x1x3 .f32) : FVec F S16x4096x3 .f32 :=
  addf
    (broadcastInDim S16x4096x3 ![0, 1, 2] bcast_S16x1x3_S16x4096x3_0_1_2
      (broadcastInDim S16x1x3 ![0, 2] bcast_S16x3_S16x1x3_0_2 (shapeCast S16x3 mn shapeCasts_S16x1x3_S16x3)))
    (mulf
      (broadcastInDim S16x4096x3 ![0, 1, 2] bcast_S1x4096x3_S16x4096x3_0_1_2
        (addf
          (broadcastInDim S1x4096x3 ![1, 2] bcast_S4096x3_S1x4096x3_1_2
            (sitofp .f32
              (concatenate S4096x3 1 [⟨S4096x1, i24⟩, ⟨S4096x1, i25⟩, ⟨S4096x1, i26⟩] concatenates_S4096x1_S4096x1_S4096x1_S4096x3_d1)))
          (broadcastInDim S1x4096x3 ![] bcast_S_S1x4096x3 (constant S_ .f32 0x3F000000#32))))
      (broadcastInDim S16x4096x3 ![0, 1, 2] bcast_S16x1x3_S16x4096x3_0_1_2
        (broadcastInDim S16x1x3 ![0, 2] bcast_S16x3_S16x1x3_0_2 (shapeCast S16x3 vs shapeCasts_S16x1x3_S16x3))))

theorem cenT_apply (i24 i25 i26 : IVec S4096x1 32) (mn vs : FVec F S16x1x3 .f32) (b : Fin 16) (v : Fin 4096) (a : Fin 3) :
    cenT i24 i25 i26 mn vs (ix3 b v a)
      = FloatOps.addf (mn (ix3 b 0 a))
          (FloatOps.mulf (FloatOps.addf (FloatOps.sitofp .f32 (colI i24 i25 i26 v a)) (FloatOps.ofBits .f32 0x3F000000#32)) (vs (ix3 b 0 a))) := by
  unfold cenT
  bc_rw

/-- The means of the centred coordinates: the first moments over the count, the count raised to one. -/
def meanT (cnt : FVec F S16x4096 .f32) (sm : FVec F S16x4096x3 .f32) : FVec F S16x4096x3 .f32 :=
  Host.divf sm
    (broadcastInDim S16x4096x3 ![0, 1, 2] bcast_S16x4096x1_S16x4096x3_0_1_2
      (broadcastInDim S16x4096x1 ![0, 1] bcast_S16x4096_S16x4096x1_0_1
        (maximumf cnt (broadcastInDim S16x4096 ![] bcast_S_S16x4096 (constant S_ .f32 0x3F800000#32)))))

theorem meanT_apply (cnt : FVec F S16x4096 .f32) (sm : FVec F S16x4096x3 .f32) (b : Fin 16) (v : Fin 4096) (a : Fin 3) :
    meanT cnt sm (ix3 b v a)
      = FloatOps.hostDivf (sm (ix3 b v a)) (FloatOps.maximumf (cnt (ix2 b v)) (FloatOps.ofBits .f32 0x3F800000#32)) := by
  unfold meanT
  bc_rw

/-- The products of the means, pair by pair. -/
def outerT (mean : FVec F S16x4096x3 .f32) : FVec F S16x4096x9 .f32 :=
  shapeCast S16x4096x9
    (mulf
      (broadcastInDim S16x4096x3x3 ![0, 1, 2, 3] bcast_S16x4096x3x1_S16x4096x3x3_0_1_2_3
        (broadcastInDim S16x4096x3x1 ![0, 1, 2] bcast_S16x4096x3_S16x4096x3x1_0_1_2 mean))
      (broadcastInDim S16x4096x3x3 ![0, 1, 2, 3] bcast_S16x4096x1x3_S16x4096x3x3_0_1_2_3
        (broadcastInDim S16x4096x1x3 ![0, 1, 3] bcast_S16x4096x3_S16x4096x1x3_0_1_3 mean)))
    shapeCasts_S16x4096x3x3_S16x4096x9

theorem outerT_apply (mean : FVec F S16x4096x3 .f32) (b : Fin 16) (v : Fin 4096) (k : Fin 9) :
    outerT mean (ix3 b v k)
      = FloatOps.mulf (mean (ix3 b v ⟨k.val / 3, by have := k.isLt; omega⟩)) (mean (ix3 b v ⟨k.val % 3, Nat.mod_lt _ (by decide)⟩)) := by
  unfold outerT
  rw [sc_16x4096x3x3_x9]
  bc_rw

/-- The covariance: the second moments less the count times the products of the means, over the count less one raised to one. -/
def covT (cnt : FVec F S16x4096 .f32) (sq outer : FVec F S16x4096x9 .f32) : FVec F S16x4096x9 .f32 :=
  Host.divf
    (subf sq
      (mulf
        (broadcastInDim S16x4096x9 ![0, 1, 2] bcast_S16x4096x1_S16x4096x9_0_1_2
          (broadcastInDim S16x4096x1 ![0, 1] bcast_S16x4096_S16x4096x1_0_1 cnt))
        outer))
    (broadcastInDim S16x4096x9 ![0, 1, 2] bcast_S16x4096x1_S16x4096x9_0_1_2
      (broadcastInDim S16x4096x1 ![0, 1] bcast_S16x4096_S16x4096x1_0_1
        (maximumf (subf cnt (broadcastInDim S16x4096 ![] bcast_S_S16x4096 (constant S_ .f32 0x3F800000#32)))
          (broadcastInDim S16x4096 ![] bcast_S_S16x4096 (constant S_ .f32 0x3F800000#32)))))

theorem covT_apply (cnt : FVec F S16x4096 .f32) (sq outer : FVec F S16x4096x9 .f32) (b : Fin 16) (v : Fin 4096) (k : Fin 9) :
    covT cnt sq outer (ix3 b v k)
      = FloatOps.hostDivf (FloatOps.subf (sq (ix3 b v k)) (FloatOps.mulf (cnt (ix2 b v)) (outer (ix3 b v k))))
          (FloatOps.maximumf (FloatOps.subf (cnt (ix2 b v)) (FloatOps.ofBits .f32 0x3F800000#32)) (FloatOps.ofBits .f32 0x3F800000#32)) := by
  unfold covT
  bc_rw

/-- The mask of the voxels holding more than one point. -/
def maskT (cnt : FVec F S16x4096 .f32) : IVec S16x4096x1 1 :=
  broadcastInDim S16x4096x1 ![0, 1] bcast_S16x4096_S16x4096x1_0_1
    (cmpf .ogt cnt (broadcastInDim S16x4096 ![] bcast_S_S16x4096 (constant S_ .f32 0x3F800000#32)))

theorem maskT_apply (cnt : FVec F S16x4096 .f32) (b : Fin 16) (v : Fin 4096) (c : Fin 1) :
    maskT cnt (ix3 b v c) = FloatOps.cmpf .ogt (cnt (ix2 b v)) (FloatOps.ofBits .f32 0x3F800000#32) := by
  unfold maskT
  bc_rw

/-- The means and the covariances side by side. -/
def catT (m46 : FVec F S16x4096x3 .f32) (c63 : FVec F S16x4096x9 .f32) : FVec F S16x4096x12 .f32 :=
  concatenate S16x4096x12 2 [⟨S16x4096x3, m46⟩, ⟨S16x4096x9, c63⟩] concatenates_S16x4096x3_S16x4096x9_S16x4096x12_d2

theorem catT_apply_left (m46 : FVec F S16x4096x3 .f32) (c63 : FVec F S16x4096x9 .f32) (b : Fin 16) (v : Fin 4096) (j : Fin 12) (hj : j.val < 3) :
    catT m46 c63 (ix3 b v j) = m46 (ix3 b v ⟨j.val, hj⟩) :=
  concatenate_pair_apply_left 2 m46 c63 concatenates_S16x4096x3_S16x4096x9_S16x4096x12_d2 (ix3 b v j) rfl (ix3 b v ⟨j.val, hj⟩)
    (fun c => match c with | ⟨0, _⟩ => rfl | ⟨1, _⟩ => rfl | ⟨2, _⟩ => rfl)

theorem catT_apply_right (m46 : FVec F S16x4096x3 .f32) (c63 : FVec F S16x4096x9 .f32) (b : Fin 16) (v : Fin 4096) (j : Fin 12) (hj : 3 ≤ j.val) :
    catT m46 c63 (ix3 b v j) = c63 (ix3 b v ⟨j.val - 3, by have := j.isLt; omega⟩) :=
  concatenate_pair_apply_right 2 m46 c63 concatenates_S16x4096x3_S16x4096x9_S16x4096x12_d2 (ix3 b v j) rfl rfl (ix3 b v ⟨j.val - 3, by have := j.isLt; omega⟩)
    (fun c hc => match c with | ⟨0, _⟩ => rfl | ⟨1, _⟩ => rfl | ⟨2, _⟩ => absurd rfl hc)
    (by show j.val - 3 + 3 = j.val; omega)

/-- The result: the rows of the voxels under the mask, zero elsewhere. -/
def finalT (mask : IVec S16x4096x1 1) (cat : FVec F S16x4096x12 .f32) (z : FVec F S_ .f32) : FVec F S16x4096x12 .f32 :=
  select (broadcastInDim S16x4096x12 ![0, 1, 2] bcast_S16x4096x1_S16x4096x12_0_1_2 mask) cat
    (broadcastInDim S16x4096x12 ![] bcast_S_S16x4096x12 z)

theorem finalT_apply (mask : IVec S16x4096x1 1) (cat : FVec F S16x4096x12 .f32) (z : FVec F S_ .f32) (b : Fin 16) (v : Fin 4096) (j : Fin 12) :
    finalT mask cat z (ix3 b v j) = Scalar.select (mask (ix3 b v 0)) (cat (ix3 b v j)) (z ix0) := by
  unfold finalT
  rw [select_apply, bc_16x4096x1_x12, bc_scalar]

/-- A fold over a list of lines is the fold over its tail after the fold over its head, wherever the list is cut. -/
theorem after_split (n : ℕ) (l : List (HloOp τ sig (Elt F))) (V : Valuation τ sig (Elt F)) :
    after l V = after (l.drop n) (after (l.take n) V) := by
  conv_lhs => rw [← List.take_append_drop n l]
  exact StableHlo.after_append _ _ _

/-! ### The float lines, stretch by stretch: lines 0 … 2, 3 … 17, 18 … 24, 25 … 30, 31 … 43, 44 … 49 -/

theorem t8a_v24 (W : Valuation τ sig (Elt F)) (i20 : IVec S4096 32) (h20 : W (Proc.devRef .tc main_v20) = i20) :
    after (((hostOps1_8 (F := F)).drop 0).take 3) W (Proc.devRef .tc main_v24) = broadcastInDim S4096x1 ![0] bcast_S4096_S4096x1_0 i20 := by
  subst h20
  simp only [hostOps1_8, List.drop_succ_cons, List.drop_zero, List.take_succ_cons, List.take_zero]
  after_results_simp

theorem t8a_v25 (W : Valuation τ sig (Elt F)) (i22 : IVec S4096 32) (h22 : W (Proc.devRef .tc main_v22) = i22) :
    after (((hostOps1_8 (F := F)).drop 0).take 3) W (Proc.devRef .tc main_v25) = broadcastInDim S4096x1 ![0] bcast_S4096_S4096x1_0 i22 := by
  subst h22
  simp only [hostOps1_8, List.drop_succ_cons, List.drop_zero, List.take_succ_cons, List.take_zero]
  after_results_simp

theorem t8a_v26 (W : Valuation τ sig (Elt F)) (i23 : IVec S4096 32) (h23 : W (Proc.devRef .tc main_v23) = i23) :
    after (((hostOps1_8 (F := F)).drop 0).take 3) W (Proc.devRef .tc main_v26) = broadcastInDim S4096x1 ![0] bcast_S4096_S4096x1_0 i23 := by
  subst h23
  simp only [hostOps1_8, List.drop_succ_cons, List.drop_zero, List.take_succ_cons, List.take_zero]
  after_results_simp

theorem t8a_keep_v1 (W : Valuation τ sig (Elt F)) :
    after (((hostOps1_8 (F := F)).drop 0).take 3) W (Proc.devRef .tc main_v1) = W (Proc.devRef .tc main_v1) := by
  simp only [hostOps1_8, List.drop_succ_cons, List.drop_zero, List.take_succ_cons, List.take_zero]
  after_results_simp

theorem t8a_keep_v8 (W : Valuation τ sig (Elt F)) :
    after (((hostOps1_8 (F := F)).drop 0).take 3) W (Proc.devRef .tc main_v8) = W (Proc.devRef .tc main_v8) := by
  simp only [hostOps1_8, List.drop_succ_cons, List.drop_zero, List.take_succ_cons, List.take_zero]
  after_results_simp

theorem t8a_keep_v16 (W : Valuation τ sig (Elt F)) :
    after (((hostOps1_8 (F := F)).drop 0).take 3) W (Proc.devRef .tc main_v16) = W (Proc.devRef .tc main_v16) := by
  simp only [hostOps1_8, List.drop_succ_cons, List.drop_zero, List.take_succ_cons, List.take_zero]
  after_results_simp

theorem t8a_keep_v17 (W : Valuation τ sig (Elt F)) :
    after (((hostOps1_8 (F := F)).drop 0).take 3) W (Proc.devRef .tc main_v17) = W (Proc.devRef .tc main_v17) := by
  simp only [hostOps1_8, List.drop_succ_cons, List.drop_zero, List.take_succ_cons, List.take_zero]
  after_results_simp

theorem t8a_keep_v18 (W : Valuation τ sig (Elt F)) :
    after (((hostOps1_8 (F := F)).drop 0).take 3) W (Proc.devRef .tc main_v18) = W (Proc.devRef .tc main_v18) := by
  simp only [hostOps1_8, List.drop_succ_cons, List.drop_zero, List.take_succ_cons, List.take_zero]
  after_results_simp

set_option maxHeartbeats 4000000 in
theorem t8b_v40 (W : Valuation τ sig (Elt F)) (i24 i25 i26 : IVec S4096x1 32) (mn vs : FVec F S16x1x3 .f32)
    (h24 : W (Proc.devRef .tc main_v24) = i24) (h25 : W (Proc.devRef .tc main_v25) = i25) (h26 : W (Proc.devRef .tc main_v26) = i26)
    (h1 : W (Proc.devRef .tc main_v1) = mn) (h8 : W (Proc.devRef .tc main_v8) = vs) :
    after (((hostOps1_8 (F := F)).drop 3).take 15) W (Proc.devRef .tc main_v40) = cenT i24 i25 i26 mn vs := by
  subst h24 h25 h26 h1 h8
  simp only [hostOps1_8, List.drop_succ_cons, List.drop_zero, List.take_succ_cons, List.take_zero]
  after_results_simp
  rfl

theorem t8b_keep_v16 (W : Valuation τ sig (Elt F)) :
    after (((hostOps1_8 (F := F)).drop 3).take 15) W (Proc.devRef .tc main_v16) = W (Proc.devRef .tc main_v16) := by
  simp only [hostOps1_8, List.drop_succ_cons, List.drop_zero, List.take_succ_cons, List.take_zero]
  after_results_simp

theorem t8b_keep_v17 (W : Valuation τ sig (Elt F)) :
    after (((hostOps1_8 (F := F)).drop 3).take 15) W (Proc.devRef .tc main_v17) = W (Proc.devRef .tc main_v17) := by
  simp only [hostOps1_8, List.drop_succ_cons, List.drop_zero, List.take_succ_cons, List.take_zero]
  after_results_simp

theorem t8b_keep_v18 (W : Valuation τ sig (Elt F)) :
    after (((hostOps1_8 (F := F)).drop 3).take 15) W (Proc.devRef .tc main_v18) = W (Proc.devRef .tc main_v18) := by
  simp only [hostOps1_8, List.drop_succ_cons, List.drop_zero, List.take_succ_cons, List.take_zero]
  after_results_simp

set_option maxHeartbeats 4000000 in
theorem t8c_v45 (W : Valuation τ sig (Elt F)) (cnt : FVec F S16x4096 .f32) (sm : FVec F S16x4096x3 .f32)
    (h16 : W (Proc.devRef .tc main_v16) = cnt) (h17 : W (Proc.devRef .tc main_v17) = sm) :
    after (((hostOps1_8 (F := F)).drop 18).take 7) W (Proc.devRef .tc main_v45) = meanT cnt sm := by
  subst h16 h17
  simp only [hostOps1_8, List.drop_succ_cons, List.drop_zero, List.take_succ_cons, List.take_zero]
  after_results_simp
  rfl

set_option maxHeartbeats 4000000 in
theorem t8c_v46 (W : Valuation τ sig (Elt F)) (cnt : FVec F S16x4096 .f32) (sm cen : FVec F S16x4096x3 .f32)
    (h16 : W (Proc.devRef .tc main_v16) = cnt) (h17 : W (Proc.devRef .tc main_v17) = sm) (h40 : W (Proc.devRef .tc main_v40) = cen) :
    after (((hostOps1_8 (F := F)).drop 18).take 7) W (Proc.devRef .tc main_v46) = addf (meanT cnt sm) cen := by
  subst h16 h17 h40
  simp only [hostOps1_8, List.drop_succ_cons, List.drop_zero, List.take_succ_cons, List.take_zero]
  after_results_simp
  rfl

theorem t8c_keep_v16 (W : Valuation τ sig (Elt F)) :
    after (((hostOps1_8 (F := F)).drop 18).take 7) W (Proc.devRef .tc main_v16) = W (Proc.devRef .tc main_v16) := by
  simp only [hostOps1_8, List.drop_succ_cons, List.drop_zero, List.take_succ_cons, List.take_zero]
  after_results_simp

theorem t8c_keep_v18 (W : Valuation τ sig (Elt F)) :
    after (((hostOps1_8 (F := F)).drop 18).take 7) W (Proc.devRef .tc main_v18) = W (Proc.devRef .tc main_v18) := by
  simp only [hostOps1_8, List.drop_succ_cons, List.drop_zero, List.take_succ_cons, List.take_zero]
  after_results_simp

set_option maxHeartbeats 4000000 in
theorem t8d_v52 (W : Valuation τ sig (Elt F)) (mean : FVec F S16x4096x3 .f32) (h45 : W (Proc.devRef .tc main_v45) = mean) :
    after (((hostOps1_8 (F := F)).drop 25).take 6) W (Proc.devRef .tc main_v52) = outerT mean := by
  subst h45
  simp only [hostOps1_8, List.drop_succ_cons, List.drop_zero, List.take_succ_cons, List.take_zero]
  after_results_simp
  rfl

theorem t8d_keep_v16 (W : Valuation τ sig (Elt F)) :
    after (((hostOps1_8 (F := F)).drop 25).take 6) W (Proc.devRef .tc main_v16) = W (Proc.devRef .tc main_v16) := by
  simp only [hostOps1_8, List.drop_succ_cons, List.drop_zero, List.take_succ_cons, List.take_zero]
  after_results_simp

theorem t8d_keep_v18 (W : Valuation τ sig (Elt F)) :
    after (((hostOps1_8 (F := F)).drop 25).take 6) W (Proc.devRef .tc main_v18) = W (Proc.devRef .tc main_v18) := by
  simp only [hostOps1_8, List.drop_succ_cons, List.drop_zero, List.take_succ_cons, List.take_zero]
  after_results_simp

theorem t8d_keep_v46 (W : Valuation τ sig (Elt F)) :
    after (((hostOps1_8 (F := F)).drop 25).take 6) W (Proc.devRef .tc main_v46) = W (Proc.devRef .tc main_v46) := by
  simp only [hostOps1_8, List.drop_succ_cons, List.drop_zero, List.take_succ_cons, List.take_zero]
  after_results_simp

set_option maxHeartbeats 4000000 in
theorem t8e_v63 (W : Valuation τ sig (Elt F)) (cnt : FVec F S16x4096 .f32) (sq outer : FVec F S16x4096x9 .f32)
    (h16 : W (Proc.devRef .tc main_v16) = cnt) (h18 : W (Proc.devRef .tc main_v18) = sq) (h52 : W (Proc.devRef .tc main_v52) = outer) :
    after (((hostOps1_8 (F := F)).drop 31).take 13) W (Proc.devRef .tc main_v63) = covT cnt sq outer := by
  subst h16 h18 h52
  simp only [hostOps1_8, List.drop_succ_cons, List.drop_zero, List.take_succ_cons, List.take_zero]
  after_results_simp
  rfl

theorem t8e_keep_v16 (W : Valuation τ sig (Elt F)) :
    after (((hostOps1_8 (F := F)).drop 31).take 13) W (Proc.devRef .tc main_v16) = W (Proc.devRef .tc main_v16) := by
  simp only [hostOps1_8, List.drop_succ_cons, List.drop_zero, List.take_succ_cons, List.take_zero]
  after_results_simp

theorem t8e_keep_v46 (W : Valuation τ sig (Elt F)) :
    after (((hostOps1_8 (F := F)).drop 31).take 13) W (Proc.devRef .tc main_v46) = W (Proc.devRef .tc main_v46) := by
  simp only [hostOps1_8, List.drop_succ_cons, List.drop_zero, List.take_succ_cons, List.take_zero]
  after_results_simp

set_option maxHeartbeats 4000000 in
theorem t8f_v66 (W : Valuation τ sig (Elt F)) (cnt : FVec F S16x4096 .f32) (h16 : W (Proc.devRef .tc main_v16) = cnt) :
    after ((hostOps1_8 (F := F)).drop 44) W (Proc.devRef .tc main_v66) = maskT cnt := by
  subst h16
  simp only [hostOps1_8, List.drop_succ_cons, List.drop_zero, List.take_succ_cons, List.take_zero]
  after_results_simp
  rfl

set_option maxHeartbeats 4000000 in
theorem t8f_v67 (W : Valuation τ sig (Elt F)) (m46 : FVec F S16x4096x3 .f32) (c63 : FVec F S16x4096x9 .f32)
    (h46 : W (Proc.devRef .tc main_v46) = m46) (h63 : W (Proc.devRef .tc main_v63) = c63) :
    after ((hostOps1_8 (F := F)).drop 44) W (Proc.devRef .tc main_v67) = catT m46 c63 := by
  subst h46 h63
  simp only [hostOps1_8, List.drop_succ_cons, List.drop_zero, List.take_succ_cons, List.take_zero]
  after_results_simp
  rfl

theorem t8f_cst11 (W : Valuation τ sig (Elt F)) :
    after ((hostOps1_8 (F := F)).drop 44) W (Proc.devRef .tc main_cst_11) = constant S_ .f32 0x00000000#32 := by
  simp only [hostOps1_8, List.drop_succ_cons, List.drop_zero, List.take_succ_cons, List.take_zero]
  after_results_simp

/-! ### The final select -/

set_option maxHeartbeats 4000000 in
theorem t9_v68 (W : Valuation τ sig (Elt F)) (mask : IVec S16x4096x1 1) (cat : FVec F S16x4096x12 .f32) (z : FVec F S_ .f32)
    (h66 : W (Proc.devRef .tc main_v66) = mask) (h67 : W (Proc.devRef .tc main_v67) = cat) (h11 : W (Proc.devRef .tc main_cst_11) = z) :
    after (hostOps1_9 (F := F)) W (Proc.devRef .tc main_v68) = finalT mask cat z := by
  subst h66 h67 h11
  simp only [hostOps1_9]
  after_results_simp
  rfl

/-! ## The float values the integer lines leave alone -/

/-- The five float values live across the integer lines: the counts, the first and second moments, the lower corner and the voxel size. -/
abbrev FloatKept (W : Valuation τ sig (Elt F)) (cnt : FVec F S16x4096 .f32) (sm : FVec F S16x4096x3 .f32) (sq : FVec F S16x4096x9 .f32)
    (mn vs : FVec F S16x1x3 .f32) : Prop :=
  W (Proc.devRef .tc main_v16) = cnt ∧ W (Proc.devRef .tc main_v17) = sm ∧ W (Proc.devRef .tc main_v18) = sq
    ∧ W (Proc.devRef .tc main_v1) = mn ∧ W (Proc.devRef .tc main_v8) = vs

set_option maxHeartbeats 4000000 in
theorem kf_A (W : Valuation τ sig (Elt F)) (cnt : FVec F S16x4096 .f32) (sm : FVec F S16x4096x3 .f32) (sq : FVec F S16x4096x9 .f32)
    (mn vs : FVec F S16x1x3 .f32) (h : FloatKept W cnt sm sq mn vs) : FloatKept (after (hostOps1_1 (F := F)) W) cnt sm sq mn vs := by
  obtain ⟨h16, h17, h18, h1, h8⟩ := h
  refine ⟨?_, ?_, ?_, ?_, ?_⟩
  all_goals (simp only [hostOps1_1]; after_results_simp; assumption)

set_option maxHeartbeats 4000000 in
theorem kf_B (W : Valuation τ sig (Elt F)) (cnt : FVec F S16x4096 .f32) (sm : FVec F S16x4096x3 .f32) (sq : FVec F S16x4096x9 .f32)
    (mn vs : FVec F S16x1x3 .f32) (h : FloatKept W cnt sm sq mn vs) : FloatKept (after (hostOps1_2 (F := F) ++ hostOps1_3) W) cnt sm sq mn vs := by
  obtain ⟨h16, h17, h18, h1, h8⟩ := h
  refine ⟨?_, ?_, ?_, ?_, ?_⟩
  all_goals (simp only [hostOps1_2, hostOps1_3, List.cons_append, List.nil_append]; after_results_simp; assumption)

set_option maxHeartbeats 4000000 in
theorem kf_C (W : Valuation τ sig (Elt F)) (cnt : FVec F S16x4096 .f32) (sm : FVec F S16x4096x3 .f32) (sq : FVec F S16x4096x9 .f32)
    (mn vs : FVec F S16x1x3 .f32) (h : FloatKept W cnt sm sq mn vs) : FloatKept (after (hostOps1_4 (F := F) ++ hostOps1_5) W) cnt sm sq mn vs := by
  obtain ⟨h16, h17, h18, h1, h8⟩ := h
  refine ⟨?_, ?_, ?_, ?_, ?_⟩
  all_goals (simp only [hostOps1_4, hostOps1_5, List.cons_append, List.nil_append]; after_results_simp; assumption)

set_option maxHeartbeats 4000000 in
theorem kf_D (W : Valuation τ sig (Elt F)) (cnt : FVec F S16x4096 .f32) (sm : FVec F S16x4096x3 .f32) (sq : FVec F S16x4096x9 .f32)
    (mn vs : FVec F S16x1x3 .f32) (h : FloatKept W cnt sm sq mn vs) : FloatKept (after (hostOps1_6 (F := F) ++ hostOps1_7) W) cnt sm sq mn vs := by
  obtain ⟨h16, h17, h18, h1, h8⟩ := h
  refine ⟨?_, ?_, ?_, ?_, ?_⟩
  all_goals (simp only [hostOps1_6, hostOps1_7, List.cons_append, List.nil_append]; after_results_simp; assumption)

theorem ki_A_v19 (W : Valuation τ sig (Elt F)) :
    after (hostOps1_1 (F := F)) W (Proc.devRef .tc main_v19) = W (Proc.devRef .tc main_v19) := by
  simp only [hostOps1_1]
  after_results_simp

theorem ki_B_v20 (W : Valuation τ sig (Elt F)) :
    after (hostOps1_2 (F := F) ++ hostOps1_3) W (Proc.devRef .tc main_v20) = W (Proc.devRef .tc main_v20) := by
  simp only [hostOps1_2, hostOps1_3, List.cons_append, List.nil_append]
  after_results_simp

theorem ki_C_v20 (W : Valuation τ sig (Elt F)) :
    after (hostOps1_4 (F := F) ++ hostOps1_5) W (Proc.devRef .tc main_v20) = W (Proc.devRef .tc main_v20) := by
  simp only [hostOps1_4, hostOps1_5, List.cons_append, List.nil_append]
  after_results_simp

theorem ki_C_v21 (W : Valuation τ sig (Elt F)) :
    after (hostOps1_4 (F := F) ++ hostOps1_5) W (Proc.devRef .tc main_v21) = W (Proc.devRef .tc main_v21) := by
  simp only [hostOps1_4, hostOps1_5, List.cons_append, List.nil_append]
  after_results_simp

theorem ki_D_v20 (W : Valuation τ sig (Elt F)) :
    after (hostOps1_6 (F := F) ++ hostOps1_7) W (Proc.devRef .tc main_v20) = W (Proc.devRef .tc main_v20) := by
  simp only [hostOps1_6, hostOps1_7, List.cons_append, List.nil_append]
  after_results_simp

theorem ki_D_v22 (W : Valuation τ sig (Elt F)) :
    after (hostOps1_6 (F := F) ++ hostOps1_7) W (Proc.devRef .tc main_v22) = W (Proc.devRef .tc main_v22) := by
  simp only [hostOps1_6, hostOps1_7, List.cons_append, List.nil_append]
  after_results_simp

/-! ## The float lines chained -/

/-- The three coordinate columns, as the float lines receive them. -/
abbrev col0 : IVec S4096x1 32 := broadcastInDim S4096x1 ![0] bcast_S4096_S4096x1_0 (fun v : S4096.Idx => BitVec.ofNat 32 ((v 0).val / 256))
abbrev col1 : IVec S4096x1 32 := broadcastInDim S4096x1 ![0] bcast_S4096_S4096x1_0 (fun v : S4096.Idx => BitVec.ofNat 32 ((v 0).val % 256 / 16))
abbrev col2 : IVec S4096x1 32 := broadcastInDim S4096x1 ![0] bcast_S4096_S4096x1_0 (fun v : S4096.Idx => BitVec.ofNat 32 ((v 0).val % 16))

/-- The result as a term of the moments array, the lower corner and the voxel size. -/
def resT (raw : FVec F S16x208x256 .f32) (mn vs : FVec F S16x1x3 .f32) : FVec F S16x4096x12 .f32 :=
  finalT (maskT (cntV raw))
    (catT (addf (meanT (cntV raw) (sumV raw)) (cenT col0 col1 col2 mn vs))
      (covT (cntV raw) (sqV raw) (outerT (meanT (cntV raw) (sumV raw)))))
    (constant S_ .f32 0x00000000#32)

set_option maxHeartbeats 4000000 in
theorem t8_all (W : Valuation τ sig (Elt F)) (cnt : FVec F S16x4096 .f32) (sm : FVec F S16x4096x3 .f32) (sq : FVec F S16x4096x9 .f32)
    (mn vs : FVec F S16x1x3 .f32) (i20 i22 i23 : IVec S4096 32)
    (h20 : W (Proc.devRef .tc main_v20) = i20) (h22 : W (Proc.devRef .tc main_v22) = i22) (h23 : W (Proc.devRef .tc main_v23) = i23)
    (hK : FloatKept W cnt sm sq mn vs) :
    after (hostOps1_8 (F := F)) W (Proc.devRef .tc main_v66) = maskT cnt
    ∧ after (hostOps1_8 (F := F)) W (Proc.devRef .tc main_v67)
        = catT (addf (meanT cnt sm) (cenT (broadcastInDim S4096x1 ![0] bcast_S4096_S4096x1_0 i20) (broadcastInDim S4096x1 ![0] bcast_S4096_S4096x1_0 i22)
            (broadcastInDim S4096x1 ![0] bcast_S4096_S4096x1_0 i23) mn vs)) (covT cnt sq (outerT (meanT cnt sm)))
    ∧ after (hostOps1_8 (F := F)) W (Proc.devRef .tc main_cst_11) = constant S_ .f32 0x00000000#32 := by
  obtain ⟨h16, h17, h18, h1, h8⟩ := hK
  rw [show after (hostOps1_8 (F := F)) W = after ((hostOps1_8 (F := F)).drop 0) W from rfl]
  rw [after_split 3 ((hostOps1_8 (F := F)).drop 0) W]
  have a24 := t8a_v24 W i20 h20
  have a25 := t8a_v25 W i22 h22
  have a26 := t8a_v26 W i23 h23
  have a1 := (t8a_keep_v1 W).trans h1
  have a8 := (t8a_keep_v8 W).trans h8
  have a16 := (t8a_keep_v16 W).trans h16
  have a17 := (t8a_keep_v17 W).trans h17
  have a18 := (t8a_keep_v18 W).trans h18
  generalize after (((hostOps1_8 (F := F)).drop 0).take 3) W = W1 at a24 a25 a26 a1 a8 a16 a17 a18 ⊢
  simp only [List.drop_drop, Nat.reduceAdd]
  rw [after_split 15 ((hostOps1_8 (F := F)).drop 3) W1]
  have b40 := t8b_v40 W1 _ _ _ mn vs a24 a25 a26 a1 a8
  have b16 := (t8b_keep_v16 W1).trans a16
  have b17 := (t8b_keep_v17 W1).trans a17
  have b18 := (t8b_keep_v18 W1).trans a18
  generalize after (((hostOps1_8 (F := F)).drop 3).take 15) W1 = W2 at b40 b16 b17 b18 ⊢
  simp only [List.drop_drop, Nat.reduceAdd]
  rw [after_split 7 ((hostOps1_8 (F := F)).drop 18) W2]
  have c45 := t8c_v45 W2 cnt sm b16 b17
  have c46 := t8c_v46 W2 cnt sm _ b16 b17 b40
  have c16 := (t8c_keep_v16 W2).trans b16
  have c18 := (t8c_keep_v18 W2).trans b18
  generalize after (((hostOps1_8 (F := F)).drop 18).take 7) W2 = W3 at c45 c46 c16 c18 ⊢
  simp only [List.drop_drop, Nat.reduceAdd]
  rw [after_split 6 ((hostOps1_8 (F := F)).drop 25) W3]
  have d52 := t8d_v52 W3 _ c45
  have d16 := (t8d_keep_v16 W3).trans c16
  have d18 := (t8d_keep_v18 W3).trans c18
  have d46 := (t8d_keep_v46 W3).trans c46
  generalize after (((hostOps1_8 (F := F)).drop 25).take 6) W3 = W4 at d52 d16 d18 d46 ⊢
  simp only [List.drop_drop, Nat.reduceAdd]
  rw [after_split 13 ((hostOps1_8 (F := F)).drop 31) W4]
  have e63 := t8e_v63 W4 cnt sq _ d16 d18 d52
  have e16 := (t8e_keep_v16 W4).trans d16
  have e46 := (t8e_keep_v46 W4).trans d46
  generalize after (((hostOps1_8 (F := F)).drop 31).take 13) W4 = W5 at e63 e16 e46 ⊢
  simp only [List.drop_drop, Nat.reduceAdd]
  exact ⟨t8f_v66 W5 cnt e16, t8f_v67 W5 _ _ e46 e63, t8f_cst11 W5⟩

/-! ## All the lines after the region, chained -/

theorem tail_flatten : (tailOps (F := F)).flatten
    = hostOps1 ++ (hostOps1_1 ++ ((hostOps1_2 ++ hostOps1_3) ++ ((hostOps1_4 ++ hostOps1_5) ++ ((hostOps1_6 ++ hostOps1_7) ++ (hostOps1_8 ++ hostOps1_9))))) := by
  simp only [tailOps, List.flatten_cons, List.flatten_nil, List.append_assoc, List.append_nil]

set_option maxHeartbeats 4000000 in
/-- The lines after the region leave in the result buffer the result term of the moments array, the lower corner and the voxel size. -/
theorem tail_eq (W : Valuation τ sig (Elt F)) (raw : FVec F S16x208x256 .f32) (mn vs : FVec F S16x1x3 .f32)
    (h10 : W (Proc.devRef .tc main_v10) = raw) (h1 : W (Proc.devRef .tc main_v1) = mn) (h8 : W (Proc.devRef .tc main_v8) = vs) :
    after (tailOps (F := F)).flatten W (Proc.devRef .tc main_v68) = resT raw mn vs := by
  rw [tail_flatten, after_append]
  have a19 := t1_v19 W
  have ac := t1_c W
  have aK : FloatKept (after (hostOps1 (F := F)) W) (cntV raw) (sumV raw) (sqV raw) mn vs :=
    ⟨t1_v16 W raw h10, t1_v17 W raw h10, t1_v18 W raw h10, (t1_keep_v1 W).trans h1, (t1_keep_v8 W).trans h8⟩
  generalize after (hostOps1 (F := F)) W = W1 at a19 ac aK ⊢
  rw [after_append]
  have b20 := ti_v20 W1 a19 ac
  have b19 := (ki_A_v19 W1).trans a19
  have bK := kf_A W1 _ _ _ _ _ aK
  generalize after (hostOps1_1 (F := F)) W1 = W2 at b20 b19 bK ⊢
  rw [after_append]
  have c21 := ti_v21 W2 b19
  have c20 := (ki_B_v20 W2).trans b20
  have cK := kf_B W2 _ _ _ _ _ bK
  generalize after (hostOps1_2 (F := F) ++ hostOps1_3) W2 = W3 at c21 c20 cK ⊢
  rw [after_append]
  have d22 := ti_v22 W3 c21
  have d21 := (ki_C_v21 W3).trans c21
  have d20 := (ki_C_v20 W3).trans c20
  have dK := kf_C W3 _ _ _ _ _ cK
  generalize after (hostOps1_4 (F := F) ++ hostOps1_5) W3 = W4 at d22 d21 d20 dK ⊢
  rw [after_append]
  have e23 := ti_v23 W4 d21
  have e22 := (ki_D_v22 W4).trans d22
  have e20 := (ki_D_v20 W4).trans d20
  have eK := kf_D W4 _ _ _ _ _ dK
  generalize after (hostOps1_6 (F := F) ++ hostOps1_7) W4 = W5 at e23 e22 e20 eK ⊢
  rw [after_append]
  obtain ⟨f66, f67, f11⟩ := t8_all W5 _ _ _ mn vs _ _ _ e20 e22 e23 eK
  generalize after (hostOps1_8 (F := F)) W5 = W6 at f66 f67 f11 ⊢
  exact t9_v68 W6 _ _ _ f66 f67 f11

/-! ## The result read at an index, in extended-real arithmetic -/

/-- A word below 4096, read as a signed integer, is the number. -/
theorem toInt_ofNat_small : ∀ k : Fin 4096, (BitVec.ofNat 32 k.val).toInt = (k.val : ℤ) := by decide +kernel

theorem sitofp_ofNat (n : ℕ) (h : n < 4096) :
    FloatOps.sitofp (F := Ideal) .f32 (BitVec.ofNat 32 n) = (((n : ℕ) : ℝ) : EReal) := by
  show ((((BitVec.ofNat 32 n).toInt : ℤ) : ℝ) : EReal) = _
  rw [toInt_ofNat_small ⟨n, h⟩, Int.cast_natCast]

/-- The voxel's point count: channel 0 of its column of the moments array. -/
def sCnt (raw : FVec Ideal S16x208x256 .f32) (b : Fin 16) (v : Fin 4096) : Ideal .f32 :=
  raw (ix3 b ⟨v.val / 256 * 13 + 0, by have := v.isLt; omega⟩ ⟨v.val % 256, Nat.mod_lt _ (by decide)⟩)
/-- The voxel's three centred first moments: channels 1 … 3. -/
def sS (raw : FVec Ideal S16x208x256 .f32) (b : Fin 16) (v : Fin 4096) (a : Fin 3) : Ideal .f32 :=
  raw (ix3 b ⟨v.val / 256 * 13 + (1 + a.val), by have := v.isLt; have := a.isLt; omega⟩ ⟨v.val % 256, Nat.mod_lt _ (by decide)⟩)
/-- The voxel's nine centred second moments: channels 4 … 12. -/
def sQ (raw : FVec Ideal S16x208x256 .f32) (b : Fin 16) (v : Fin 4096) (k : Fin 9) : Ideal .f32 :=
  raw (ix3 b ⟨v.val / 256 * 13 + (4 + k.val), by have := v.isLt; have := k.isLt; omega⟩ ⟨v.val % 256, Nat.mod_lt _ (by decide)⟩)
/-- The voxel's integer coordinate on axis `a`, as an extended real. -/
def sG (v : Fin 4096) (a : Fin 3) : EReal :=
  match a with
  | ⟨0, _⟩ => (((v.val / 256 : ℕ) : ℝ) : EReal)
  | ⟨1, _⟩ => (((v.val % 256 / 16 : ℕ) : ℝ) : EReal)
  | ⟨2, _⟩ => (((v.val % 16 : ℕ) : ℝ) : EReal)
/-- The voxel's centre on axis `a`. -/
def sCen (mn vs : FVec Ideal S16x1x3 .f32) (b : Fin 16) (v : Fin 4096) (a : Fin 3) : Ideal .f32 :=
  mn (ix3 b 0 a) + (sG v a + Ideal.ofBits .f32 0x3F000000#32) * vs (ix3 b 0 a)
/-- The mean of the centred coordinate on axis `a`. -/
def sMc (raw : FVec Ideal S16x208x256 .f32) (b : Fin 16) (v : Fin 4096) (a : Fin 3) : Ideal .f32 :=
  Ideal.div (sS raw b v a) (max (sCnt raw b v) (Ideal.ofBits .f32 0x3F800000#32))

/-- Entry `j` of voxel `v` of batch `b` of the result: where the voxel holds more than one point, the mean (entries 0 … 2) or the
    covariance (entries 3 … 11); zero elsewhere. -/
def tailSpec (raw : FVec Ideal S16x208x256 .f32) (mn vs : FVec Ideal S16x1x3 .f32) (b : Fin 16) (v : Fin 4096) (j : Fin 12) : Ideal .f32 :=
  if Ideal.ofBits .f32 0x3F800000#32 < sCnt raw b v then
    (if h : j.val < 3 then sMc raw b v ⟨j.val, h⟩ + sCen mn vs b v ⟨j.val, h⟩
     else Ideal.div
       (sQ raw b v ⟨j.val - 3, by have := j.isLt; omega⟩
         - sCnt raw b v * (sMc raw b v ⟨(j.val - 3) / 3, by have := j.isLt; omega⟩ * sMc raw b v ⟨(j.val - 3) % 3, Nat.mod_lt _ (by decide)⟩))
       (max (sCnt raw b v - Ideal.ofBits .f32 0x3F800000#32) (Ideal.ofBits .f32 0x3F800000#32)))
  else Ideal.ofBits .f32 0x00000000#32

theorem colI_cols (v : Fin 4096) (a : Fin 3) :
    FloatOps.sitofp (F := Ideal) .f32 (colI col0 col1 col2 v a) = sG v a := by
  have hv := v.isLt
  match a with
  | ⟨0, _⟩ =>
    show FloatOps.sitofp (F := Ideal) .f32 (col0 (ix2 v 0)) = _
    rw [show col0 (ix2 v 0) = BitVec.ofNat 32 (v.val / 256) from bc_4096_x1 _ v 0]
    exact sitofp_ofNat _ (by omega)
  | ⟨1, _⟩ =>
    show FloatOps.sitofp (F := Ideal) .f32 (col1 (ix2 v 0)) = _
    rw [show col1 (ix2 v 0) = BitVec.ofNat 32 (v.val % 256 / 16) from bc_4096_x1 _ v 0]
    exact sitofp_ofNat _ (by omega)
  | ⟨2, _⟩ =>
    show FloatOps.sitofp (F := Ideal) .f32 (col2 (ix2 v 0)) = _
    rw [show col2 (ix2 v 0) = BitVec.ofNat 32 (v.val % 16) from bc_4096_x1 _ v 0]
    exact sitofp_ofNat _ (by omega)

set_option maxHeartbeats 4000000 in
/-- THE LINES AFTER THE REGION, read at an index of the result. -/
theorem tail_apply (W : Valuation τ sig (Elt Ideal)) (raw : FVec Ideal S16x208x256 .f32) (mn vs : FVec Ideal S16x1x3 .f32)
    (h10 : W (Proc.devRef .tc main_v10) = raw) (h1 : W (Proc.devRef .tc main_v1) = mn) (h8 : W (Proc.devRef .tc main_v8) = vs)
    (b : Fin 16) (v : Fin 4096) (j : Fin 12) :
    StableHlo.after (tailOps (F := Ideal)).flatten W (Proc.devRef .tc main_v68) (ix3 b v j) = tailSpec raw mn vs b v j := by
  rw [tail_eq W raw mn vs h10 h1 h8]
  unfold resT
  rw [finalT_apply, maskT_apply, cntV_apply, lay_apply]
  unfold tailSpec
  show Scalar.select (FloatOps.cmpf (F := Ideal) .ogt (sCnt raw b v) (FloatOps.ofBits .f32 0x3F800000#32)) _ _ = _
  by_cases hc : Ideal.ofBits .f32 0x3F800000#32 < sCnt raw b v
  · have hm : FloatOps.cmpf (F := Ideal) .ogt (sCnt raw b v) (FloatOps.ofBits .f32 0x3F800000#32) = 1#1 := by
      show BitVec.ofBool (decide (Ideal.ofBits .f32 0x3F800000#32 < sCnt raw b v)) = 1#1
      rw [decide_eq_true hc]; rfl
    rw [if_pos hc, hm, select_one]
    by_cases hj : j.val < 3
    · rw [dif_pos hj, catT_apply_left _ _ b v j hj]
      show FloatOps.addf (meanT (cntV raw) (sumV raw) (ix3 b v ⟨j.val, hj⟩)) (cenT col0 col1 col2 mn vs (ix3 b v ⟨j.val, hj⟩)) = _
      rw [meanT_apply, cenT_apply, colI_cols, sumV_apply, cntV_apply, lay_apply, lay_apply]
      rfl
    · rw [dif_neg hj, catT_apply_right _ _ b v j (by omega), covT_apply, outerT_apply, meanT_apply, meanT_apply, sqV_apply,
        sumV_apply, sumV_apply, cntV_apply]
      repeat rw [lay_apply]
      rfl
  · have hm : FloatOps.cmpf (F := Ideal) .ogt (sCnt raw b v) (FloatOps.ofBits .f32 0x3F800000#32) = 0#1 := by
      show BitVec.ofBool (decide (Ideal.ofBits .f32 0x3F800000#32 < sCnt raw b v)) = 0#1
      rw [decide_eq_false hc]; rfl
    rw [if_neg hc, hm, select_zero]
    rfl

end Cert.KernelIdeal.Hand

end
-- ==== Proof.KI.Centre.lean ====
/-
  The centre of a point's voxel, in the point-wise description of a batch, is the centre the lines after the region compute for
  the voxel the point lies in: a point of voxel `v` has the three coordinates `v / 256`, `(v % 256) / 16`, `v % 16`.
-/
import proofs.«168833_j62826781606551_2_alg».proof.Proof.KI.Tail
import proofs.«168833_j62826781606551_2_alg».proof.Proof.Spec3
import proofs.«168833_j62826781606551_2_alg».proof.Proof.Consts

set_option maxRecDepth 16384

noncomputable section

namespace Cert.KernelIdeal.Hand

open Cert.KernelIdeal Cert.KernelIdeal.Gen
open Idealize.ShloMosaic Idealize.ShloMosaic.TcCoe
open Idealize.ShloMosaic.ValueIdx

/-- The voxel's integer coordinate on axis `a`, as a natural. -/
def gNat (v : Fin 4096) (a : Fin 3) : ℕ :=
  match a with
  | ⟨0, _⟩ => v.val / 256
  | ⟨1, _⟩ => v.val % 256 / 16
  | ⟨2, _⟩ => v.val % 16

theorem sG_eq (v : Fin 4096) (a : Fin 3) : sG v a = ((gNat v a : ℝ) : EReal) := by
  match a with
  | ⟨0, _⟩ => rfl
  | ⟨1, _⟩ => rfl
  | ⟨2, _⟩ => rfl

/-- A point of voxel `v` has the voxel's coordinates. -/
theorem gN_of_inVox (x : Fin 16 → Fin 262144 → Fin 3 → EReal) (mn vs : Fin 16 → Fin 3 → EReal)
    (b : Fin 16) (v : Fin 4096) (q : Fin 262144)
    (hq : Cert.Spec.inVox x mn vs b ⟨v.val / 256, by have := v.isLt; omega⟩ ⟨v.val % 256, Nat.mod_lt _ (by norm_num)⟩ q) (a : Fin 3) :
    Cert.Spec.gN x mn vs b q a = gNat v a := by
  unfold Cert.Spec.inVox at hq
  obtain ⟨h0, h12⟩ := hq
  have h0' : Cert.Spec.gN x mn vs b q 0 = v.val / 256 := h0
  have h12' : Cert.Spec.gN x mn vs b q 1 * 16 + Cert.Spec.gN x mn vs b q 2 = v.val % 256 := h12
  have l1 := Cert.Spec.gN_le x mn vs b q 1
  have l2 := Cert.Spec.gN_le x mn vs b q 2
  have hv := v.isLt
  match a with
  | ⟨0, _⟩ => exact h0'
  | ⟨1, _⟩ =>
    show Cert.Spec.gN x mn vs b q 1 = v.val % 256 / 16
    omega
  | ⟨2, _⟩ =>
    show Cert.Spec.gN x mn vs b q 2 = v.val % 16
    omega

/-- THE CENTRE of the voxel of a point of voxel `v` is the centre the lines after the region compute for `v`. -/
theorem cen_inVox (x : Fin 16 → Fin 262144 → Fin 3 → EReal) (mn vs : Fin 16 → Fin 3 → EReal) (mnv vsv : FVec Ideal S16x1x3 .f32)
    (hmn : ∀ b a, mn b a = mnv (ix3 b (0 : Fin 1) a)) (hvs : ∀ b a, vs b a = vsv (ix3 b (0 : Fin 1) a))
    (b : Fin 16) (v : Fin 4096) (q : Fin 262144)
    (hq : Cert.Spec.inVox x mn vs b ⟨v.val / 256, by have := v.isLt; omega⟩ ⟨v.val % 256, Nat.mod_lt _ (by norm_num)⟩ q) (a : Fin 3) :
    Cert.Spec.cen x mn vs b q a = sCen mnv vsv b v a := by
  unfold Cert.Spec.cen sCen
  rw [Cert.Spec.gF_eq, gN_of_inVox x mn vs b v q hq a, sG_eq, hmn, hvs, Cert.Consts.ofBits_half]

/-- The same centre where the batch's lower corner and voxel size on the axis are reals: a real. -/
theorem cen_inVox_real (x : Fin 16 → Fin 262144 → Fin 3 → EReal) (mn vs : Fin 16 → Fin 3 → EReal)
    (b : Fin 16) (v : Fin 4096) (q : Fin 262144)
    (hq : Cert.Spec.inVox x mn vs b ⟨v.val / 256, by have := v.isLt; omega⟩ ⟨v.val % 256, Nat.mod_lt _ (by norm_num)⟩ q) (a : Fin 3)
    (mr vr : ℝ) (hmr : mn b a = ((mr : ℝ) : EReal)) (hvr : vs b a = ((vr : ℝ) : EReal)) :
    Cert.Spec.cen x mn vs b q a = ((mr + ((gNat v a : ℝ) + 1 / 2) * vr : ℝ) : EReal) := by
  unfold Cert.Spec.cen
  rw [Cert.Spec.gF_eq, gN_of_inVox x mn vs b v q hq a, hmr, hvr, EReal.coe_add, EReal.coe_mul, EReal.coe_add]

/-- The centre the lines after the region compute, where the lower corner and the voxel size on the axis are reals. -/
theorem sCen_real (mnv vsv : FVec Ideal S16x1x3 .f32) (b : Fin 16) (v : Fin 4096) (a : Fin 3) (mr vr : ℝ)
    (hmr : mnv (ix3 b (0 : Fin 1) a) = ((mr : ℝ) : EReal)) (hvr : vsv (ix3 b (0 : Fin 1) a) = ((vr : ℝ) : EReal)) :
    sCen mnv vsv b v a = ((mr + ((gNat v a : ℝ) + 1 / 2) * vr : ℝ) : EReal) := by
  unfold sCen
  rw [sG_eq, hmr, hvr, Cert.Consts.ofBits_half, EReal.coe_add, EReal.coe_mul, EReal.coe_add]

end Cert.KernelIdeal.Hand

end
-- ==== Proof.RefStages.lean ====
/-
  The reference's result buffer, read stage by stage. The run leaves in it the fold of the 106 host operations over the
  launch contents; the fold is cut here into nine consecutive stretches, each read back on its own over an ARBITRARY
  valuation that is only known at the few buffers the stretch reads, and chained: the result is the staged term
  `val_main_v79` of the point array (each operation one definition, read at an index by its own lemma).
  The stretches end where few values are live: after the voxel coordinate as a float (operation 17), as an integer (26),
  the flat segment index (48), the point count and the first moments (59), the second moments (69), the means and their
  outer products (81), the covariance (94), the validity mask (98).
-/
import proofs.«168833_j62826781606551_2_alg».proof.Proof.RefRead
import proofs.«168833_j62826781606551_2_alg».proof.Proof.RefFrame
import Idealize.ShloMosaic.Lib.Pipeline.Frame

noncomputable section

namespace Cert.ReferenceIdeal.Hand

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- A fold over a list of operations is the fold over its tail after the fold over its head, wherever the list is cut. -/
theorem after_split (n : ℕ) (l : List (HloOp τ sig (Elt F))) (V : Valuation τ sig (Elt F)) :
    after l V = after (l.drop n) (after (l.take n) V) := by
  conv_lhs => rw [← List.take_append_drop n l]
  exact StableHlo.after_append _ _ _

/-! ### Stretch 1: operations 0 … 17 -/

set_option maxRecDepth 16384 in
set_option maxHeartbeats 4000000 in
theorem s1_v13 (W : Valuation τ sig (Elt F)) (x0 : (⟨S16x262144x3, .f32⟩ : BufTy).Contents (Elt F)) (h_arg0 : W (Proc.devRef .tc main_arg0) = x0) :
    after (((ops (F := F)).drop 0).take 18) W (Proc.devRef .tc main_v13) = Read.val_main_v13 (F := F) x0 := by
  simp only [ops, List.drop_succ_cons, List.drop_zero, List.take_succ_cons, List.take_zero]
  after_results_simp
  try simp only [h_arg0]
  try rw [h_arg0]
  rfl

set_option maxRecDepth 16384 in
theorem s1_keep_arg0 (W : Valuation τ sig (Elt F)) :
    after (((ops (F := F)).drop 0).take 18) W (Proc.devRef .tc main_arg0) = W (Proc.devRef .tc main_arg0) := by
  simp only [ops, List.drop_succ_cons, List.drop_zero, List.take_succ_cons, List.take_zero]
  after_results_simp

/-! ### Stretch 2: operations 18 … 26 -/

set_option maxRecDepth 16384 in
set_option maxHeartbeats 4000000 in
theorem s2_v15 (W : Valuation τ sig (Elt F)) (x0 : (⟨S16x262144x3, .f32⟩ : BufTy).Contents (Elt F)) (h_v13 : W (Proc.devRef .tc main_v13) = Read.val_main_v13 (F := F) x0) :
    after (((ops (F := F)).drop 18).take 9) W (Proc.devRef .tc main_v15) = Read.val_main_v15 (F := F) x0 := by
  simp only [ops, List.drop_succ_cons, List.drop_zero, List.take_succ_cons, List.take_zero]
  after_results_simp
  try simp only [h_v13]
  try rw [h_v13]
  rfl

set_option maxRecDepth 16384 in
theorem s2_keep_arg0 (W : Valuation τ sig (Elt F)) :
    after (((ops (F := F)).drop 18).take 9) W (Proc.devRef .tc main_arg0) = W (Proc.devRef .tc main_arg0) := by
  simp only [ops, List.drop_succ_cons, List.drop_zero, List.take_succ_cons, List.take_zero]
  after_results_simp

/-! ### Stretch 3: operations 27 … 48 -/

set_option maxRecDepth 16384 in
set_option maxHeartbeats 4000000 in
theorem s3_v34 (W : Valuation τ sig (Elt F)) (x0 : (⟨S16x262144x3, .f32⟩ : BufTy).Contents (Elt F)) (h_v15 : W (Proc.devRef .tc main_v15) = Read.val_main_v15 (F := F) x0) :
    after (((ops (F := F)).drop 27).take 22) W (Proc.devRef .tc main_v34) = Read.val_main_v34 (F := F) x0 := by
  simp only [ops, List.drop_succ_cons, List.drop_zero, List.take_succ_cons, List.take_zero]
  after_results_simp
  try simp only [h_v15]
  try rw [h_v15]
  rfl

set_option maxRecDepth 16384 in
theorem s3_keep_arg0 (W : Valuation τ sig (Elt F)) :
    after (((ops (F := F)).drop 27).take 22) W (Proc.devRef .tc main_arg0) = W (Proc.devRef .tc main_arg0) := by
  simp only [ops, List.drop_succ_cons, List.drop_zero, List.take_succ_cons, List.take_zero]
  after_results_simp

/-! ### Stretch 4: operations 49 … 59 -/

set_option maxRecDepth 16384 in
set_option maxHeartbeats 4000000 in
theorem s4_v35 (W : Valuation τ sig (Elt F)) (x0 : (⟨S16x262144x3, .f32⟩ : BufTy).Contents (Elt F)) (h_arg0 : W (Proc.devRef .tc main_arg0) = x0) (h_v34 : W (Proc.devRef .tc main_v34) = Read.val_main_v34 (F := F) x0) :
    after (((ops (F := F)).drop 49).take 11) W (Proc.devRef .tc main_v35) = Read.val_main_v35 (F := F) x0 := by
  simp only [ops, List.drop_succ_cons, List.drop_zero, List.take_succ_cons, List.take_zero]
  after_results_simp
  try simp only [h_arg0, h_v34]
  try rw [h_arg0]
  try rw [h_v34]
  rfl

set_option maxRecDepth 16384 in
set_option maxHeartbeats 4000000 in
theorem s4_v39 (W : Valuation τ sig (Elt F)) (x0 : (⟨S16x262144x3, .f32⟩ : BufTy).Contents (Elt F)) (h_arg0 : W (Proc.devRef .tc main_arg0) = x0) (h_v34 : W (Proc.devRef .tc main_v34) = Read.val_main_v34 (F := F) x0) :
    after (((ops (F := F)).drop 49).take 11) W (Proc.devRef .tc main_v39) = Read.val_main_v39 (F := F) x0 := by
  simp only [ops, List.drop_succ_cons, List.drop_zero, List.take_succ_cons, List.take_zero]
  after_results_simp
  try simp only [h_arg0, h_v34]
  try rw [h_arg0]
  try rw [h_v34]
  rfl

set_option maxRecDepth 16384 in
set_option maxHeartbeats 4000000 in
theorem s4_v42 (W : Valuation τ sig (Elt F)) (x0 : (⟨S16x262144x3, .f32⟩ : BufTy).Contents (Elt F)) (h_arg0 : W (Proc.devRef .tc main_arg0) = x0) (h_v34 : W (Proc.devRef .tc main_v34) = Read.val_main_v34 (F := F) x0) :
    after (((ops (F := F)).drop 49).take 11) W (Proc.devRef .tc main_v42) = Read.val_main_v42 (F := F) x0 := by
  simp only [ops, List.drop_succ_cons, List.drop_zero, List.take_succ_cons, List.take_zero]
  after_results_simp
  try simp only [h_arg0, h_v34]
  try rw [h_arg0]
  try rw [h_v34]
  rfl

set_option maxRecDepth 16384 in
theorem s4_keep_v34 (W : Valuation τ sig (Elt F)) :
    after (((ops (F := F)).drop 49).take 11) W (Proc.devRef .tc main_v34) = W (Proc.devRef .tc main_v34) := by
  simp only [ops, List.drop_succ_cons, List.drop_zero, List.take_succ_cons, List.take_zero]
  after_results_simp

/-! ### Stretch 5: operations 60 … 69 -/

set_option maxRecDepth 16384 in
set_option maxHeartbeats 4000000 in
theorem s5_v51 (W : Valuation τ sig (Elt F)) (x0 : (⟨S16x262144x3, .f32⟩ : BufTy).Contents (Elt F)) (h_v35 : W (Proc.devRef .tc main_v35) = Read.val_main_v35 (F := F) x0) (h_v34 : W (Proc.devRef .tc main_v34) = Read.val_main_v34 (F := F) x0) :
    after (((ops (F := F)).drop 60).take 10) W (Proc.devRef .tc main_v51) = Read.val_main_v51 (F := F) x0 := by
  simp only [ops, List.drop_succ_cons, List.drop_zero, List.take_succ_cons, List.take_zero]
  after_results_simp
  try simp only [h_v35, h_v34]
  try rw [h_v35]
  try rw [h_v34]
  rfl

set_option maxRecDepth 16384 in
theorem s5_keep_v39 (W : Valuation τ sig (Elt F)) :
    after (((ops (F := F)).drop 60).take 10) W (Proc.devRef .tc main_v39) = W (Proc.devRef .tc main_v39) := by
  simp only [ops, List.drop_succ_cons, List.drop_zero, List.take_succ_cons, List.take_zero]
  after_results_simp

set_option maxRecDepth 16384 in
theorem s5_keep_v42 (W : Valuation τ sig (Elt F)) :
    after (((ops (F := F)).drop 60).take 10) W (Proc.devRef .tc main_v42) = W (Proc.devRef .tc main_v42) := by
  simp only [ops, List.drop_succ_cons, List.drop_zero, List.take_succ_cons, List.take_zero]
  after_results_simp

/-! ### Stretch 6: operations 70 … 81 -/

set_option maxRecDepth 16384 in
set_option maxHeartbeats 4000000 in
theorem s6_v56 (W : Valuation τ sig (Elt F)) (x0 : (⟨S16x262144x3, .f32⟩ : BufTy).Contents (Elt F)) (h_v39 : W (Proc.devRef .tc main_v39) = Read.val_main_v39 (F := F) x0) (h_v42 : W (Proc.devRef .tc main_v42) = Read.val_main_v42 (F := F) x0) :
    after (((ops (F := F)).drop 70).take 12) W (Proc.devRef .tc main_v56) = Read.val_main_v56 (F := F) x0 := by
  simp only [ops, List.drop_succ_cons, List.drop_zero, List.take_succ_cons, List.take_zero]
  after_results_simp
  try simp only [h_v39, h_v42]
  try rw [h_v39]
  try rw [h_v42]
  rfl

set_option maxRecDepth 16384 in
set_option maxHeartbeats 4000000 in
theorem s6_v62 (W : Valuation τ sig (Elt F)) (x0 : (⟨S16x262144x3, .f32⟩ : BufTy).Contents (Elt F)) (h_v39 : W (Proc.devRef .tc main_v39) = Read.val_main_v39 (F := F) x0) (h_v42 : W (Proc.devRef .tc main_v42) = Read.val_main_v42 (F := F) x0) :
    after (((ops (F := F)).drop 70).take 12) W (Proc.devRef .tc main_v62) = Read.val_main_v62 (F := F) x0 := by
  simp only [ops, List.drop_succ_cons, List.drop_zero, List.take_succ_cons, List.take_zero]
  after_results_simp
  try simp only [h_v39, h_v42]
  try rw [h_v39]
  try rw [h_v42]
  rfl

set_option maxRecDepth 16384 in
theorem s6_keep_v39 (W : Valuation τ sig (Elt F)) :
    after (((ops (F := F)).drop 70).take 12) W (Proc.devRef .tc main_v39) = W (Proc.devRef .tc main_v39) := by
  simp only [ops, List.drop_succ_cons, List.drop_zero, List.take_succ_cons, List.take_zero]
  after_results_simp

set_option maxRecDepth 16384 in
theorem s6_keep_v51 (W : Valuation τ sig (Elt F)) :
    after (((ops (F := F)).drop 70).take 12) W (Proc.devRef .tc main_v51) = W (Proc.devRef .tc main_v51) := by
  simp only [ops, List.drop_succ_cons, List.drop_zero, List.take_succ_cons, List.take_zero]
  after_results_simp

/-! ### Stretch 7: operations 82 … 94 -/

set_option maxRecDepth 16384 in
set_option maxHeartbeats 4000000 in
theorem s7_v73 (W : Valuation τ sig (Elt F)) (x0 : (⟨S16x262144x3, .f32⟩ : BufTy).Contents (Elt F)) (h_v39 : W (Proc.devRef .tc main_v39) = Read.val_main_v39 (F := F) x0) (h_v62 : W (Proc.devRef .tc main_v62) = Read.val_main_v62 (F := F) x0) (h_v51 : W (Proc.devRef .tc main_v51) = Read.val_main_v51 (F := F) x0) :
    after (((ops (F := F)).drop 82).take 13) W (Proc.devRef .tc main_v73) = Read.val_main_v73 (F := F) x0 := by
  simp only [ops, List.drop_succ_cons, List.drop_zero, List.take_succ_cons, List.take_zero]
  after_results_simp
  try simp only [h_v39, h_v62, h_v51]
  try rw [h_v39]
  try rw [h_v62]
  try rw [h_v51]
  rfl

set_option maxRecDepth 16384 in
theorem s7_keep_v39 (W : Valuation τ sig (Elt F)) :
    after (((ops (F := F)).drop 82).take 13) W (Proc.devRef .tc main_v39) = W (Proc.devRef .tc main_v39) := by
  simp only [ops, List.drop_succ_cons, List.drop_zero, List.take_succ_cons, List.take_zero]
  after_results_simp

set_option maxRecDepth 16384 in
theorem s7_keep_v56 (W : Valuation τ sig (Elt F)) :
    after (((ops (F := F)).drop 82).take 13) W (Proc.devRef .tc main_v56) = W (Proc.devRef .tc main_v56) := by
  simp only [ops, List.drop_succ_cons, List.drop_zero, List.take_succ_cons, List.take_zero]
  after_results_simp

/-! ### Stretch 8: operations 95 … 98 -/

set_option maxRecDepth 16384 in
set_option maxHeartbeats 4000000 in
theorem s8_v76 (W : Valuation τ sig (Elt F)) (x0 : (⟨S16x262144x3, .f32⟩ : BufTy).Contents (Elt F)) (h_v39 : W (Proc.devRef .tc main_v39) = Read.val_main_v39 (F := F) x0) :
    after (((ops (F := F)).drop 95).take 4) W (Proc.devRef .tc main_v76) = Read.val_main_v76 (F := F) x0 := by
  simp only [ops, List.drop_succ_cons, List.drop_zero, List.take_succ_cons, List.take_zero]
  after_results_simp
  try simp only [h_v39]
  try rw [h_v39]
  rfl

set_option maxRecDepth 16384 in
theorem s8_keep_v56 (W : Valuation τ sig (Elt F)) :
    after (((ops (F := F)).drop 95).take 4) W (Proc.devRef .tc main_v56) = W (Proc.devRef .tc main_v56) := by
  simp only [ops, List.drop_succ_cons, List.drop_zero, List.take_succ_cons, List.take_zero]
  after_results_simp

set_option maxRecDepth 16384 in
theorem s8_keep_v73 (W : Valuation τ sig (Elt F)) :
    after (((ops (F := F)).drop 95).take 4) W (Proc.devRef .tc main_v73) = W (Proc.devRef .tc main_v73) := by
  simp only [ops, List.drop_succ_cons, List.drop_zero, List.take_succ_cons, List.take_zero]
  after_results_simp

/-! ### Stretch 9: operations 99 … 105 -/

set_option maxRecDepth 16384 in
set_option maxHeartbeats 4000000 in
theorem s9_v79 (W : Valuation τ sig (Elt F)) (x0 : (⟨S16x262144x3, .f32⟩ : BufTy).Contents (Elt F)) (h_v76 : W (Proc.devRef .tc main_v76) = Read.val_main_v76 (F := F) x0) (h_v56 : W (Proc.devRef .tc main_v56) = Read.val_main_v56 (F := F) x0) (h_v73 : W (Proc.devRef .tc main_v73) = Read.val_main_v73 (F := F) x0) :
    after ((ops (F := F)).drop 99) W (Proc.devRef .tc main_v79) = Read.val_main_v79 (F := F) x0 := by
  simp only [ops, List.drop_succ_cons, List.drop_zero, List.take_succ_cons, List.take_zero]
  after_results_simp
  try simp only [h_v76, h_v56, h_v73]
  try rw [h_v76]
  try rw [h_v56]
  try rw [h_v73]
  rfl

/-! ### The stretches chained -/

/-- The fold of all 106 operations, read at the result buffer, over any valuation holding `x0` in the point array. -/
theorem fold_eq (V : Valuation τ sig (Elt F)) (x0 : (⟨S16x262144x3, .f32⟩ : BufTy).Contents (Elt F))
    (h0_arg0 : V (Proc.devRef .tc main_arg0) = x0) :
    after (ops (F := F)) V (Proc.devRef .tc main_v79) = Read.val_main_v79 (F := F) x0 := by
  show after ((ops (F := F)).drop 0) V (Proc.devRef .tc main_v79) = _
  rw [after_split 18 ((ops (F := F)).drop 0) V]
  have h1_v13 := s1_v13 V x0 h0_arg0
  have h1_arg0 := (s1_keep_arg0 V).trans h0_arg0
  generalize after (((ops (F := F)).drop 0).take 18) V = W1 at h1_v13 h1_arg0 ⊢
  simp only [List.drop_drop, Nat.reduceAdd]
  rw [after_split 9 ((ops (F := F)).drop 18) W1]
  have h2_v15 := s2_v15 W1 x0 h1_v13
  have h2_arg0 := (s2_keep_arg0 W1).trans h1_arg0
  generalize after (((ops (F := F)).drop 18).take 9) W1 = W2 at h2_v15 h2_arg0 ⊢
  simp only [List.drop_drop, Nat.reduceAdd]
  rw [after_split 22 ((ops (F := F)).drop 27) W2]
  have h3_v34 := s3_v34 W2 x0 h2_v15
  have h3_arg0 := (s3_keep_arg0 W2).trans h2_arg0
  generalize after (((ops (F := F)).drop 27).take 22) W2 = W3 at h3_v34 h3_arg0 ⊢
  simp only [List.drop_drop, Nat.reduceAdd]
  rw [after_split 11 ((ops (F := F)).drop 49) W3]
  have h4_v35 := s4_v35 W3 x0 h3_arg0 h3_v34
  have h4_v39 := s4_v39 W3 x0 h3_arg0 h3_v34
  have h4_v42 := s4_v42 W3 x0 h3_arg0 h3_v34
  have h4_v34 := (s4_keep_v34 W3).trans h3_v34
  generalize after (((ops (F := F)).drop 49).take 11) W3 = W4 at h4_v35 h4_v39 h4_v42 h4_v34 ⊢
  simp only [List.drop_drop, Nat.reduceAdd]
  rw [after_split 10 ((ops (F := F)).drop 60) W4]
  have h5_v51 := s5_v51 W4 x0 h4_v35 h4_v34
  have h5_v39 := (s5_keep_v39 W4).trans h4_v39
  have h5_v42 := (s5_keep_v42 W4).trans h4_v42
  generalize after (((ops (F := F)).drop 60).take 10) W4 = W5 at h5_v51 h5_v39 h5_v42 ⊢
  simp only [List.drop_drop, Nat.reduceAdd]
  rw [after_split 12 ((ops (F := F)).drop 70) W5]
  have h6_v56 := s6_v56 W5 x0 h5_v39 h5_v42
  have h6_v62 := s6_v62 W5 x0 h5_v39 h5_v42
  have h6_v39 := (s6_keep_v39 W5).trans h5_v39
  have h6_v51 := (s6_keep_v51 W5).trans h5_v51
  generalize after (((ops (F := F)).drop 70).take 12) W5 = W6 at h6_v56 h6_v62 h6_v39 h6_v51 ⊢
  simp only [List.drop_drop, Nat.reduceAdd]
  rw [after_split 13 ((ops (F := F)).drop 82) W6]
  have h7_v73 := s7_v73 W6 x0 h6_v39 h6_v62 h6_v51
  have h7_v39 := (s7_keep_v39 W6).trans h6_v39
  have h7_v56 := (s7_keep_v56 W6).trans h6_v56
  generalize after (((ops (F := F)).drop 82).take 13) W6 = W7 at h7_v73 h7_v39 h7_v56 ⊢
  simp only [List.drop_drop, Nat.reduceAdd]
  rw [after_split 4 ((ops (F := F)).drop 95) W7]
  have h8_v76 := s8_v76 W7 x0 h7_v39
  have h8_v56 := (s8_keep_v56 W7).trans h7_v56
  have h8_v73 := (s8_keep_v73 W7).trans h7_v73
  generalize after (((ops (F := F)).drop 95).take 4) W7 = W8 at h8_v76 h8_v56 h8_v73 ⊢
  simp only [List.drop_drop, Nat.reduceAdd]
  exact s9_v79 W8 x0 h8_v76 h8_v56 h8_v73

/-- What the reference leaves in its result buffer is the staged term of the launched point array. -/
theorem result_eq (m : (ℓ : Loc nD τ sig) → Buf (Elt F) ℓ) (c : Dev nD) :
    result (F := F) m c = Read.val_main_v79 (F := F) (m ((c.tc : Thread nD τ).loc main_arg0)) :=
  fold_eq (launchContents m c) _ rfl

end Cert.ReferenceIdeal.Hand

end
-- ==== Proof.RefIndex.lean ====
/-
  The reference's result, read at an index, down to its three scatter sums.
  Per flat voxel row r = 4096 b + v the reference accumulates, over the points whose segment index is r, the count, the
  three coordinate sums and the nine sums of coordinate products; every later operation acts row by row and element by
  element. Chaining the per-operation reads from the final reshape down to the three scatters gives the result element
  (b, v, j) as a closed expression in those sums: zero unless the count exceeds one, the mean of coordinate j for j < 3, and
  for j = 3 + 3 p + q the (p, q) second moment less the count times the product of the two means, over the count less one
  floored at one. The scatter sums are first kept in the ideal scatter's own form (operand element plus the sum of the
  updates whose result index is the element). The section after reads the three "lands at" conditions off the dimension
  numbers: an update lands at row r exactly when its point's segment index, read signed, is r (and, for the two windowed
  scatters, its window coordinate is the column); the last section restates the three sums with that condition.
-/
import proofs.«168833_j62826781606551_2_alg».proof.Proof.RefRead
import Idealize.ShloMosaic.PureOps.Ideal
import Idealize.ShloMosaic.Lib.ValueIdx

noncomputable section

namespace Cert.ReferenceIdeal.Hand

open Cert.ReferenceIdeal Cert.ReferenceIdeal.Gen Cert.ReferenceIdeal.Value Idealize.ShloMosaic Idealize.ShloMosaic.TcCoe Idealize.SL.Sem Idealize.ShloMosaic.StableHlo
open Cert.ReferenceIdeal.Read Idealize.ShloMosaic.ValueIdx

/-- The flat voxel row of voxel `v` of batch `b`. -/
def refRow (b : Fin 16) (v : Fin 4096) : Fin 65536 := ⟨b.val * 4096 + v.val, by have := b.isLt; have := v.isLt; omega⟩

/-- The number of points of flat voxel row `r`: zero plus a one for every point whose scatter lands at `r`. -/
def refCnt (x0 : FVec Ideal S16x262144x3 .f32) (r : Fin 65536) : Ideal .f32 :=
  Ideal.ofBits .f32 0x00000000#32 + ∑ u ∈ Finset.univ.filter (fun u : S4194304.Idx =>
    scatter_S65536_S4194304x1_S4194304_n_0_0_1.resultIdx? u (val_main_v38 (F := Ideal) x0) = some (ix1 r)), Ideal.ofBits .f32 0x3F800000#32

/-- The sum of coordinate `a` over the points of row `r`. -/
def refSum (x0 : FVec Ideal S16x262144x3 .f32) (r : Fin 65536) (a : Fin 3) : Ideal .f32 :=
  Ideal.ofBits .f32 0x00000000#32 + ∑ u ∈ Finset.univ.filter (fun u : S4194304x3.Idx =>
    scatter_S65536x3_S4194304x1_S4194304x3_1_0_0_1.resultIdx? u (val_main_v41 (F := Ideal) x0) = some (ix2 r a)), val_main_v35 (F := Ideal) x0 u

/-- The sum of the product of two coordinates (pair `k`) over the points of row `r`. -/
def refSq (x0 : FVec Ideal S16x262144x3 .f32) (r : Fin 65536) (k : Fin 9) : Ideal .f32 :=
  Ideal.ofBits .f32 0x00000000#32 + ∑ u ∈ Finset.univ.filter (fun u : S4194304x9.Idx =>
    scatter_S65536x9_S4194304x1_S4194304x9_1_0_0_1.resultIdx? u (val_main_v50 (F := Ideal) x0) = some (ix2 r k)), val_main_v48 (F := Ideal) x0 u

/-- The mean of coordinate `a` over row `r` (the count floored at one). -/
def refMean (x0 : FVec Ideal S16x262144x3 .f32) (r : Fin 65536) (a : Fin 3) : Ideal .f32 :=
  Ideal.div (refSum x0 r a) (max (refCnt x0 r) (Ideal.ofBits .f32 0x3F800000#32))

/-- The ideal accumulating scatter at an index: the operand element plus the sum of the updates landing there. -/
theorem hostScatterAdd_at {s si su : Shape} (d : ScatterDims s si su) {w : Nat} (x : s.Idx → EReal) (idx : IVec si w)
    (upd : su.Idx → EReal) (i : s.Idx) :
    Ideal.hostScatterAdd d x idx upd i = x i + ∑ j ∈ Finset.univ.filter (fun j => d.resultIdx? j idx = some i), upd j := rfl

/-- The same, with the operand element and the updates given by what they are known to equal. -/
theorem scatter_at {s si su : Shape} (d : ScatterDims s si su) {w : Nat} (x : s.Idx → EReal) (idx : IVec si w)
    (upd upd' : su.Idx → EReal) (i : s.Idx) (c : EReal) (hx : x i = c) (hu : ∀ u, upd u = upd' u) :
    Ideal.hostScatterAdd d x idx upd i = c + ∑ j ∈ Finset.univ.filter (fun j => d.resultIdx? j idx = some i), upd' j := by
  rw [hostScatterAdd_at, hx, Finset.sum_congr rfl (fun u _ => hu u)]

theorem v39_eq (x0 : FVec Ideal S16x262144x3 .f32) :
    val_main_v39 (F := Ideal) x0 = Ideal.hostScatterAdd scatter_S65536_S4194304x1_S4194304_n_0_0_1
      (val_main_v37 (F := Ideal)) (val_main_v38 (F := Ideal) x0) (val_main_v36 (F := Ideal)) := rfl

theorem v42_eq (x0 : FVec Ideal S16x262144x3 .f32) :
    val_main_v42 (F := Ideal) x0 = Ideal.hostScatterAdd scatter_S65536x3_S4194304x1_S4194304x3_1_0_0_1
      (val_main_v40 (F := Ideal)) (val_main_v41 (F := Ideal) x0) (val_main_v35 (F := Ideal) x0) := rfl

theorem v51_eq (x0 : FVec Ideal S16x262144x3 .f32) :
    val_main_v51 (F := Ideal) x0 = Ideal.hostScatterAdd scatter_S65536x9_S4194304x1_S4194304x9_1_0_0_1
      (val_main_v49 (F := Ideal)) (val_main_v50 (F := Ideal) x0) (val_main_v48 (F := Ideal) x0) := rfl

theorem v39_at (x0 : FVec Ideal S16x262144x3 .f32) (r : Fin 65536) :
    val_main_v39 (F := Ideal) x0 (ix1 r) = refCnt x0 r := by
  rw [v39_eq, refCnt]
  exact scatter_at _ _ _ _ _ _ _ (by rw [val_main_v37_apply, val_main_cst_8_apply]; rfl)
    (fun u => by rw [val_main_v36_apply, val_main_cst_7_apply]; rfl)

theorem v42_at (x0 : FVec Ideal S16x262144x3 .f32) (r : Fin 65536) (a : Fin 3) :
    val_main_v42 (F := Ideal) x0 (ix2 r a) = refSum x0 r a := by
  rw [v42_eq, refSum]
  exact scatter_at _ _ _ _ _ _ _ (by rw [val_main_v40_apply, val_main_cst_9_apply]; rfl) (fun u => rfl)

theorem v51_at (x0 : FVec Ideal S16x262144x3 .f32) (r : Fin 65536) (k : Fin 9) :
    val_main_v51 (F := Ideal) x0 (ix2 r k) = refSq x0 r k := by
  rw [v51_eq, refSq]
  exact scatter_at _ _ _ _ _ _ _ (by rw [val_main_v49_apply, val_main_cst_10_apply]; rfl) (fun u => rfl)

/-! ### Index arithmetic of the layout operations, at indices given by their coordinates -/

theorem i54 (r : Fin 65536) (c : Fin 1) : idx_main_v54 (ix2 r c) = ix1 r := by
  funext a; match a with | ⟨0, _⟩ => rfl
theorem i55 (r : Fin 65536) (a : Fin 3) : idx_main_v55 (ix2 r a) = ix2 r ⟨0, Nat.one_pos⟩ := by
  funext d; match d with | ⟨0, _⟩ => rfl | ⟨1, _⟩ => rfl
theorem i57 (r : Fin 65536) (a : Fin 3) (c : Fin 1) : idx_main_v57 (ix3 r a c) = ix2 r a := by
  funext d; match d with | ⟨0, _⟩ => rfl | ⟨1, _⟩ => rfl
theorem i58 (r : Fin 65536) (c : Fin 1) (a : Fin 3) : idx_main_v58 (ix3 r c a) = ix2 r a := by
  funext d; match d with | ⟨0, _⟩ => rfl | ⟨1, _⟩ => rfl
theorem i59 (r : Fin 65536) (p q : Fin 3) : idx_main_v59 (ix3 r p q) = ix3 r p ⟨0, Nat.one_pos⟩ := by
  funext d; match d with | ⟨0, _⟩ => rfl | ⟨1, _⟩ => rfl | ⟨2, _⟩ => rfl
theorem i60 (r : Fin 65536) (p q : Fin 3) : idx_main_v60 (ix3 r p q) = ix3 r ⟨0, Nat.one_pos⟩ q := by
  funext d; match d with | ⟨0, _⟩ => rfl | ⟨1, _⟩ => rfl | ⟨2, _⟩ => rfl
theorem i62 (r : Fin 65536) (k : Fin 9) :
    idx_main_v62 (ix2 r k) = ix3 r ⟨k.val / 3, by have := k.isLt; omega⟩ ⟨k.val % 3, by omega⟩ := by
  have hk := k.isLt
  funext d; match d with
  | ⟨0, _⟩ => exact Fin.ext (by show (r.val * 9 + k.val) / 9 = r.val; omega)
  | ⟨1, _⟩ => exact Fin.ext (by show (r.val * 9 + k.val) / 3 % 3 = k.val / 3; omega)
  | ⟨2, _⟩ => exact Fin.ext (by show (r.val * 9 + k.val) % 3 = k.val % 3; omega)
theorem i67 (r : Fin 65536) (c : Fin 1) : idx_main_v67 (ix2 r c) = ix1 r := by
  funext a; match a with | ⟨0, _⟩ => rfl
theorem i68 (r : Fin 65536) (c : Fin 1) : idx_main_v68 (ix2 r c) = ix1 r := by
  funext a; match a with | ⟨0, _⟩ => rfl
theorem i69 (r : Fin 65536) (k : Fin 9) : idx_main_v69 (ix2 r k) = ix2 r ⟨0, Nat.one_pos⟩ := by
  funext d; match d with | ⟨0, _⟩ => rfl | ⟨1, _⟩ => rfl
theorem i72 (r : Fin 65536) (k : Fin 9) : idx_main_v72 (ix2 r k) = ix2 r ⟨0, Nat.one_pos⟩ := by
  funext d; match d with | ⟨0, _⟩ => rfl | ⟨1, _⟩ => rfl
theorem i76 (r : Fin 65536) (c : Fin 1) : idx_main_v76 (ix2 r c) = ix1 r := by
  funext a; match a with | ⟨0, _⟩ => rfl
theorem icall1 (r : Fin 65536) (j : Fin 12) : idx_main_call1_v1 (ix2 r j) = ix2 r ⟨0, Nat.one_pos⟩ := by
  funext d; match d with | ⟨0, _⟩ => rfl | ⟨1, _⟩ => rfl
theorem i79 (b : Fin 16) (v : Fin 4096) (j : Fin 12) : idx_main_v79 (ix3 b v j) = ix2 (refRow b v) j := by
  have hb := b.isLt; have hv := v.isLt; have hj := j.isLt
  funext d; match d with
  | ⟨0, _⟩ => exact Fin.ext (by show ((b.val * 4096 + v.val) * 12 + j.val) / 12 = b.val * 4096 + v.val; omega)
  | ⟨1, _⟩ => exact Fin.ext (by show ((b.val * 4096 + v.val) * 12 + j.val) % 12 = j.val; omega)

/-! ### The stages after the three sums, at a row -/

section Stages

variable (x0 : FVec Ideal S16x262144x3 .f32) (r : Fin 65536)

theorem v53_at : val_main_v53 (F := Ideal) x0 (ix1 r) = max (refCnt x0 r) (Ideal.ofBits .f32 0x3F800000#32) := by
  rw [val_main_v53_apply, v39_at, val_main_v52_apply, val_main_cst_11_apply, Ideal.maximumf_def, Ideal.ofBits_def]
theorem v54_at (c : Fin 1) : val_main_v54 (F := Ideal) x0 (ix2 r c) = max (refCnt x0 r) (Ideal.ofBits .f32 0x3F800000#32) := by
  rw [val_main_v54_apply, i54, v53_at]
theorem v55_at (a : Fin 3) : val_main_v55 (F := Ideal) x0 (ix2 r a) = max (refCnt x0 r) (Ideal.ofBits .f32 0x3F800000#32) := by
  rw [val_main_v55_apply, i55, v54_at]
theorem v56_at (a : Fin 3) : val_main_v56 (F := Ideal) x0 (ix2 r a) = refMean x0 r a := by
  rw [val_main_v56_apply, v42_at, v55_at, Ideal.hostDivf_def, refMean]
theorem v57_at (a : Fin 3) (c : Fin 1) : val_main_v57 (F := Ideal) x0 (ix3 r a c) = refMean x0 r a := by
  rw [val_main_v57_apply, i57, v56_at]
theorem v58_at (c : Fin 1) (a : Fin 3) : val_main_v58 (F := Ideal) x0 (ix3 r c a) = refMean x0 r a := by
  rw [val_main_v58_apply, i58, v56_at]
theorem v59_at (p q : Fin 3) : val_main_v59 (F := Ideal) x0 (ix3 r p q) = refMean x0 r p := by
  rw [val_main_v59_apply, i59, v57_at]
theorem v60_at (p q : Fin 3) : val_main_v60 (F := Ideal) x0 (ix3 r p q) = refMean x0 r q := by
  rw [val_main_v60_apply, i60, v58_at]
theorem v61_at (p q : Fin 3) : val_main_v61 (F := Ideal) x0 (ix3 r p q) = refMean x0 r p * refMean x0 r q := by
  rw [val_main_v61_apply, v59_at, v60_at, Ideal.mulf_def]
theorem v62_at (k : Fin 9) : val_main_v62 (F := Ideal) x0 (ix2 r k) =
    refMean x0 r ⟨k.val / 3, by have := k.isLt; omega⟩ * refMean x0 r ⟨k.val % 3, by omega⟩ := by
  rw [val_main_v62_apply, i62, v61_at]
theorem v64_at : val_main_v64 (F := Ideal) x0 (ix1 r) = refCnt x0 r - Ideal.ofBits .f32 0x3F800000#32 := by
  rw [val_main_v64_apply, v39_at, val_main_v63_apply, val_main_cst_12_apply, Ideal.subf_def, Ideal.ofBits_def]
theorem v66_at : val_main_v66 (F := Ideal) x0 (ix1 r) =
    max (refCnt x0 r - Ideal.ofBits .f32 0x3F800000#32) (Ideal.ofBits .f32 0x3F800000#32) := by
  rw [val_main_v66_apply, v64_at, val_main_v65_apply, val_main_cst_13_apply, Ideal.maximumf_def, Ideal.ofBits_def]
theorem v67_at (c : Fin 1) : val_main_v67 (F := Ideal) x0 (ix2 r c) =
    max (refCnt x0 r - Ideal.ofBits .f32 0x3F800000#32) (Ideal.ofBits .f32 0x3F800000#32) := by
  rw [val_main_v67_apply, i67, v66_at]
theorem v68_at (c : Fin 1) : val_main_v68 (F := Ideal) x0 (ix2 r c) = refCnt x0 r := by
  rw [val_main_v68_apply, i68, v39_at]
theorem v69_at (k : Fin 9) : val_main_v69 (F := Ideal) x0 (ix2 r k) = refCnt x0 r := by
  rw [val_main_v69_apply, i69, v68_at]
theorem v70_at (k : Fin 9) : val_main_v70 (F := Ideal) x0 (ix2 r k) =
    refCnt x0 r * (refMean x0 r ⟨k.val / 3, by have := k.isLt; omega⟩ * refMean x0 r ⟨k.val % 3, by omega⟩) := by
  rw [val_main_v70_apply, v69_at, v62_at, Ideal.mulf_def]
theorem v71_at (k : Fin 9) : val_main_v71 (F := Ideal) x0 (ix2 r k) =
    refSq x0 r k - refCnt x0 r * (refMean x0 r ⟨k.val / 3, by have := k.isLt; omega⟩ * refMean x0 r ⟨k.val % 3, by omega⟩) := by
  rw [val_main_v71_apply, v51_at, v70_at, Ideal.subf_def]
theorem v72_at (k : Fin 9) : val_main_v72 (F := Ideal) x0 (ix2 r k) =
    max (refCnt x0 r - Ideal.ofBits .f32 0x3F800000#32) (Ideal.ofBits .f32 0x3F800000#32) := by
  rw [val_main_v72_apply, i72, v67_at]
theorem v73_at (k : Fin 9) : val_main_v73 (F := Ideal) x0 (ix2 r k) =
    Ideal.div (refSq x0 r k - refCnt x0 r * (refMean x0 r ⟨k.val / 3, by have := k.isLt; omega⟩ * refMean x0 r ⟨k.val % 3, by omega⟩))
      (max (refCnt x0 r - Ideal.ofBits .f32 0x3F800000#32) (Ideal.ofBits .f32 0x3F800000#32)) := by
  rw [val_main_v73_apply, v71_at, v72_at, Ideal.hostDivf_def]

/-- The validity bit of a row: is one below the count? -/
theorem v75_at : val_main_v75 (F := Ideal) x0 (ix1 r) = Ideal.cmp .ogt (refCnt x0 r) (Ideal.ofBits .f32 0x3F800000#32) := by
  rw [val_main_v75_apply, v39_at, val_main_v74_apply, val_main_cst_14_apply, Ideal.ofBits_def]
  rfl
theorem v76_at (c : Fin 1) : val_main_v76 (F := Ideal) x0 (ix2 r c) =
    Ideal.cmp .ogt (refCnt x0 r) (Ideal.ofBits .f32 0x3F800000#32) := by
  rw [val_main_v76_apply, i76, v75_at]
theorem call1_v1_at (j : Fin 12) : val_main_call1_v1 (F := Ideal) x0 (ix2 r j) =
    Ideal.cmp .ogt (refCnt x0 r) (Ideal.ofBits .f32 0x3F800000#32) := by
  rw [val_main_call1_v1_apply, icall1, v76_at]
theorem call1_v2_at (i : S65536x12.Idx) : val_main_call1_v2 (F := Ideal) i = Ideal.ofBits .f32 0x00000000#32 := by
  rw [val_main_call1_v2_apply, val_main_call1_v0_apply, val_main_cst_15_apply, Ideal.ofBits_def]

/-- A select on the bit of an ordered greater-than comparison is the conditional on the strict order. -/
theorem select_cmp_ogt {α : Type} (x y : EReal) (a b : α) :
    Scalar.select (Ideal.cmp .ogt x y) a b = if y < x then a else b := by
  unfold Scalar.select Ideal.cmp
  by_cases h : y < x
  · rw [if_pos h]; simp [h]
  · rw [if_neg h]; simp [h]

/-- The joined array's first three columns are the means. -/
theorem v77_left (j : Fin 12) (h : j.val < 3) :
    val_main_v77 (F := Ideal) x0 (ix2 r j) = val_main_v56 (F := Ideal) x0 (ix2 r ⟨j.val, h⟩) := by
  unfold val_main_v77
  exact concatenate_pair_apply_left (t := S65536x12) (s₁ := S65536x3) (s₂ := S65536x9) (1 : Fin 2) _ _ _ (ix2 r j) rfl (ix2 r ⟨j.val, h⟩)
    (fun d => match d with | ⟨0, _⟩ => rfl | ⟨1, _⟩ => rfl)

/-- The joined array's last nine columns are the covariances. -/
theorem v77_right (j : Fin 12) (h : ¬ j.val < 3) :
    val_main_v77 (F := Ideal) x0 (ix2 r j) =
      val_main_v73 (F := Ideal) x0 (ix2 r ⟨j.val - 3, by have := j.isLt; omega⟩) := by
  unfold val_main_v77
  exact concatenate_pair_apply_right (t := S65536x12) (s₁ := S65536x3) (s₂ := S65536x9) (1 : Fin 2) _ _ _ (ix2 r j) rfl rfl (ix2 r ⟨j.val - 3, by have := j.isLt; omega⟩)
    (fun d => match d with | ⟨0, _⟩ => fun _ => rfl | ⟨1, _⟩ => fun hd => absurd rfl hd)
    (by show (j.val - 3) + 3 = j.val; omega)

theorem v78_at (j : Fin 12) : val_main_v78 (F := Ideal) x0 (ix2 r j) =
    if Ideal.ofBits .f32 0x3F800000#32 < refCnt x0 r then val_main_v77 (F := Ideal) x0 (ix2 r j)
    else Ideal.ofBits .f32 0x00000000#32 := by
  rw [val_main_v78_apply, call1_v1_at, call1_v2_at, select_cmp_ogt]

/-- The reference's result at voxel `v` of batch `b`, column `j`, from the three sums of the voxel's row: zero unless the row
    holds more than one point; then the mean of coordinate `j` for `j < 3`, and for `j = 3 + 3 p + q` the second moment of
    coordinates `p, q` less the count times the product of their means, over the count less one floored at one. -/
def refSpec (x0 : FVec Ideal S16x262144x3 .f32) (b : Fin 16) (v : Fin 4096) (j : Fin 12) : Ideal .f32 :=
  if Ideal.ofBits .f32 0x3F800000#32 < refCnt x0 (refRow b v) then
    (if h : j.val < 3 then refMean x0 (refRow b v) ⟨j.val, h⟩
     else Ideal.div
       (refSq x0 (refRow b v) ⟨j.val - 3, by have := j.isLt; omega⟩ - refCnt x0 (refRow b v) *
         (refMean x0 (refRow b v) ⟨(j.val - 3) / 3, by have := j.isLt; omega⟩ * refMean x0 (refRow b v) ⟨(j.val - 3) % 3, by omega⟩))
       (max (refCnt x0 (refRow b v) - Ideal.ofBits .f32 0x3F800000#32) (Ideal.ofBits .f32 0x3F800000#32)))
  else Ideal.ofBits .f32 0x00000000#32

theorem ref_apply (x0 : FVec Ideal S16x262144x3 .f32) (b : Fin 16) (v : Fin 4096) (j : Fin 12) :
    val_main_v79 (F := Ideal) x0 (ix3 b v j) = refSpec x0 b v j := by
  rw [val_main_v79_apply, i79, v78_at, refSpec]
  by_cases hc : Ideal.ofBits .f32 0x3F800000#32 < refCnt x0 (refRow b v)
  · rw [if_pos hc, if_pos hc]
    by_cases hj : j.val < 3
    · rw [dif_pos hj, v77_left _ _ _ hj, v56_at]
    · rw [dif_neg hj, v77_right _ _ _ hj, v73_at]
  · rw [if_neg hc, if_neg hc]

end Stages

/-! ### Where an update lands, for the three scatters' dimension numbers -/

section Lands

/-- An update lands at an operand index exactly when, on every axis, its start plus its window coordinate is the index's
    coordinate. -/
theorem resultIdx?_eq_some_iff {s si su : Shape} (d : ScatterDims s si su) {w : Nat} (j : su.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    constructor
    · intro e a
      have h1 : (d.start j idx a + (d.window j a : Int)).toNat = (i a).val := by rw [← e]
      have h0 := (h a).1
      omega
    · intro e
      funext a
      apply Fin.ext
      show (d.start j idx a + (d.window j a : Int)).toNat = (i a).val
      have := e a; omega
  · constructor
    · intro e; cases e
    · intro e
      exfalso; apply h; intro a
      have h1 := e a; have h2 := (i a).isLt
      constructor <;> omega

theorem dC_window (u : S4194304.Idx) : scatter_S65536_S4194304x1_S4194304_n_0_0_1.window u 0 = 0 := by
  unfold ScatterDims.window
  rw [dif_neg (by decide)]

theorem dC_siIdx (u : S4194304.Idx) (c : Fin scatter_S65536_S4194304x1_S4194304_n_0_0_1.scatterDimsToOperandDims.length) :
    scatter_S65536_S4194304x1_S4194304_n_0_0_1.siIdx u c = ix2 (u 0) ⟨0, Nat.one_pos⟩ := by
  have hc : c.val < 1 := c.isLt
  funext b
  match b with
  | ⟨0, _⟩ =>
    unfold ScatterDims.siIdx
    rw [dif_neg (by show ¬ (0 : Nat) = 1; decide)]
    unfold ScatterDims.siCoord
    apply Fin.ext
    show (u _).val = (u 0).val
    congr 2
  | ⟨1, _⟩ =>
    unfold ScatterDims.siIdx
    rw [dif_pos (by show (1 : Nat) = 1; rfl)]
    apply Fin.ext
    show c.val = 0
    omega

theorem dC_start (u : S4194304.Idx) (idx : IVec S4194304x1 32) :
    scatter_S65536_S4194304x1_S4194304_n_0_0_1.start u idx 0 = (idx (ix2 (u 0) ⟨0, Nat.one_pos⟩)).toInt := by
  unfold ScatterDims.start
  rw [dif_pos (by decide), dC_siIdx]
  rfl

/-- A point's one lands at row `r` of the counts exactly when its segment index, read signed, is `r`. -/
theorem dC_lands (idx : IVec S4194304x1 32) (u : S4194304.Idx) (r : Fin 65536) :
    scatter_S65536_S4194304x1_S4194304_n_0_0_1.resultIdx? u idx = some (ix1 r) ↔ (idx (ix2 (u 0) ⟨0, Nat.one_pos⟩)).toInt = (r.val : Int) := by
  rw [resultIdx?_eq_some_iff, Fin.forall_fin_one, dC_start, dC_window]
  show (idx (ix2 (u 0) ⟨0, Nat.one_pos⟩)).toInt + ((0 : Nat) : Int) = (r.val : Int) ↔ _
  constructor <;> intro h <;> omega

theorem dS_window0 (u : S4194304x3.Idx) : scatter_S65536x3_S4194304x1_S4194304x3_1_0_0_1.window u 0 = 0 := by
  unfold ScatterDims.window
  rw [dif_neg (by decide)]

theorem dS_window1 (u : S4194304x3.Idx) : scatter_S65536x3_S4194304x1_S4194304x3_1_0_0_1.window u 1 = (u 1).val := by
  unfold ScatterDims.window
  rw [dif_pos (by decide)]
  congr 2

theorem dS_siIdx (u : S4194304x3.Idx) (c : Fin scatter_S65536x3_S4194304x1_S4194304x3_1_0_0_1.scatterDimsToOperandDims.length) :
    scatter_S65536x3_S4194304x1_S4194304x3_1_0_0_1.siIdx u c = ix2 (u 0) ⟨0, Nat.one_pos⟩ := by
  have hc : c.val < 1 := c.isLt
  funext b
  match b with
  | ⟨0, _⟩ =>
    unfold ScatterDims.siIdx
    rw [dif_neg (by show ¬ (0 : Nat) = 1; decide)]
    unfold ScatterDims.siCoord
    apply Fin.ext
    show (u _).val = (u 0).val
    congr 2
  | ⟨1, _⟩ =>
    unfold ScatterDims.siIdx
    rw [dif_pos (by show (1 : Nat) = 1; rfl)]
    apply Fin.ext
    show c.val = 0
    omega

theorem dS_start0 (u : S4194304x3.Idx) (idx : IVec S4194304x1 32) :
    scatter_S65536x3_S4194304x1_S4194304x3_1_0_0_1.start u idx 0 = (idx (ix2 (u 0) ⟨0, Nat.one_pos⟩)).toInt := by
  unfold ScatterDims.start
  rw [dif_pos (by decide), dS_siIdx]
  rfl

theorem dS_start1 (u : S4194304x3.Idx) (idx : IVec S4194304x1 32) : scatter_S65536x3_S4194304x1_S4194304x3_1_0_0_1.start u idx 1 = 0 := by
  unfold ScatterDims.start
  rw [dif_neg (by decide)]

/-- A point's coordinate `u 1` lands at row `r`, column `a` of the coordinate sums exactly when the point's segment index, read signed, is `r` and the coordinate is `a`. -/
theorem dS_lands (idx : IVec S4194304x1 32) (u : S4194304x3.Idx) (r : Fin 65536) (a : Fin 3) :
    scatter_S65536x3_S4194304x1_S4194304x3_1_0_0_1.resultIdx? u idx = some (ix2 r a) ↔
      (idx (ix2 (u 0) ⟨0, Nat.one_pos⟩)).toInt = (r.val : Int) ∧ (u 1).val = a.val := by
  rw [resultIdx?_eq_some_iff, Fin.forall_fin_two, dS_start0, dS_window0, dS_start1, dS_window1]
  show ((idx (ix2 (u 0) ⟨0, Nat.one_pos⟩)).toInt + ((0 : Nat) : Int) = (r.val : Int) ∧
    (0 : Int) + (((u 1).val : Nat) : Int) = (a.val : Int)) ↔ _
  constructor
  · rintro ⟨h0, h1⟩; exact ⟨by omega, by omega⟩
  · rintro ⟨h0, h1⟩; exact ⟨by omega, by omega⟩

theorem dQ_window0 (u : S4194304x9.Idx) : scatter_S65536x9_S4194304x1_S4194304x9_1_0_0_1.window u 0 = 0 := by
  unfold ScatterDims.window
  rw [dif_neg (by decide)]

theorem dQ_window1 (u : S4194304x9.Idx) : scatter_S65536x9_S4194304x1_S4194304x9_1_0_0_1.window u 1 = (u 1).val := by
  unfold ScatterDims.window
  rw [dif_pos (by decide)]
  congr 2

theorem dQ_siIdx (u : S4194304x9.Idx) (c : Fin scatter_S65536x9_S4194304x1_S4194304x9_1_0_0_1.scatterDimsToOperandDims.length) :
    scatter_S65536x9_S4194304x1_S4194304x9_1_0_0_1.siIdx u c = ix2 (u 0) ⟨0, Nat.one_pos⟩ := by
  have hc : c.val < 1 := c.isLt
  funext b
  match b with
  | ⟨0, _⟩ =>
    unfold ScatterDims.siIdx
    rw [dif_neg (by show ¬ (0 : Nat) = 1; decide)]
    unfold ScatterDims.siCoord
    apply Fin.ext
    show (u _).val = (u 0).val
    congr 2
  | ⟨1, _⟩ =>
    unfold ScatterDims.siIdx
    rw [dif_pos (by show (1 : Nat) = 1; rfl)]
    apply Fin.ext
    show c.val = 0
    omega

theorem dQ_start0 (u : S4194304x9.Idx) (idx : IVec S4194304x1 32) :
    scatter_S65536x9_S4194304x1_S4194304x9_1_0_0_1.start u idx 0 = (idx (ix2 (u 0) ⟨0, Nat.one_pos⟩)).toInt := by
  unfold ScatterDims.start
  rw [dif_pos (by decide), dQ_siIdx]
  rfl

theorem dQ_start1 (u : S4194304x9.Idx) (idx : IVec S4194304x1 32) : scatter_S65536x9_S4194304x1_S4194304x9_1_0_0_1.start u idx 1 = 0 := by
  unfold ScatterDims.start
  rw [dif_neg (by decide)]

/-- A point's coordinate-product `u 1` lands at row `r`, column `k` of the second-moment sums exactly when the point's segment index, read signed, is `r` and the pair is `k`. -/
theorem dQ_lands (idx : IVec S4194304x1 32) (u : S4194304x9.Idx) (r : Fin 65536) (a : Fin 9) :
    scatter_S65536x9_S4194304x1_S4194304x9_1_0_0_1.resultIdx? u idx = some (ix2 r a) ↔
      (idx (ix2 (u 0) ⟨0, Nat.one_pos⟩)).toInt = (r.val : Int) ∧ (u 1).val = a.val := by
  rw [resultIdx?_eq_some_iff, Fin.forall_fin_two, dQ_start0, dQ_window0, dQ_start1, dQ_window1]
  show ((idx (ix2 (u 0) ⟨0, Nat.one_pos⟩)).toInt + ((0 : Nat) : Int) = (r.val : Int) ∧
    (0 : Int) + (((u 1).val : Nat) : Int) = (a.val : Int)) ↔ _
  constructor
  · rintro ⟨h0, h1⟩; exact ⟨by omega, by omega⟩
  · rintro ⟨h0, h1⟩; exact ⟨by omega, by omega⟩

end Lands

/-! ### The three sums with the landing condition read off: over the points whose segment index is the row -/

section Closed

/-- A sum over the indices satisfying a condition may be taken over those satisfying an equivalent one. -/
theorem sum_filter_iff {ι : Type} [Fintype ι] {M : Type} [AddCommMonoid M] (p q : ι → Prop) [DecidablePred p] [DecidablePred q]
    (f : ι → M) (c : M) (h : ∀ u, p u ↔ q u) :
    c + ∑ u ∈ Finset.univ.filter p, f u = c + ∑ u ∈ Finset.univ.filter q, f u := by
  rw [Finset.filter_congr (fun u _ => h u)]

theorem i38 (p : Fin 4194304) (c : Fin 1) : idx_main_v38 (ix2 p c) = ix1 p := by
  funext a; match a with | ⟨0, _⟩ => rfl
theorem i41 (p : Fin 4194304) (c : Fin 1) : idx_main_v41 (ix2 p c) = ix1 p := by
  funext a; match a with | ⟨0, _⟩ => rfl
theorem i50 (p : Fin 4194304) (c : Fin 1) : idx_main_v50 (ix2 p c) = ix1 p := by
  funext a; match a with | ⟨0, _⟩ => rfl

variable (x0 : FVec Ideal S16x262144x3 .f32)

/-- The three index operands are the flat segment index, one column wide. -/
theorem v38_at (p : Fin 4194304) (c : Fin 1) :
    val_main_v38 (F := Ideal) x0 (ix2 p c) = val_main_v34 (F := Ideal) x0 (ix1 p) := by
  rw [val_main_v38_apply, i38]
theorem v41_at (p : Fin 4194304) (c : Fin 1) :
    val_main_v41 (F := Ideal) x0 (ix2 p c) = val_main_v34 (F := Ideal) x0 (ix1 p) := by
  rw [val_main_v41_apply, i41]
theorem v50_at (p : Fin 4194304) (c : Fin 1) :
    val_main_v50 (F := Ideal) x0 (ix2 p c) = val_main_v34 (F := Ideal) x0 (ix1 p) := by
  rw [val_main_v50_apply, i50]

/-- The count of a row: a one for every point whose segment index is the row. -/
theorem refCnt_eq (r : Fin 65536) :
    refCnt x0 r = Ideal.ofBits .f32 0x00000000#32 + ∑ u ∈ Finset.univ.filter (fun u : S4194304.Idx =>
      BitVec.toInt (val_main_v34 (F := Ideal) x0 (ix1 (u 0))) = (r.val : Int)), Ideal.ofBits .f32 0x3F800000#32 := by
  rw [refCnt]
  exact sum_filter_iff _ _ _ _ (fun u => by rw [dC_lands, v38_at x0 (u 0) ⟨0, Nat.one_pos⟩])

/-- The coordinate sum of a row: coordinate `a` of every point whose segment index is the row. -/
theorem refSum_eq (r : Fin 65536) (a : Fin 3) :
    refSum x0 r a = Ideal.ofBits .f32 0x00000000#32 + ∑ u ∈ Finset.univ.filter (fun u : S4194304x3.Idx =>
      BitVec.toInt (val_main_v34 (F := Ideal) x0 (ix1 (u 0))) = (r.val : Int) ∧ (u 1).val = a.val),
        val_main_v35 (F := Ideal) x0 u := by
  rw [refSum]
  exact sum_filter_iff _ _ _ _ (fun u => by rw [dS_lands, v41_at x0 (u 0) ⟨0, Nat.one_pos⟩])

/-- The second-moment sum of a row: product `k` of every point whose segment index is the row. -/
theorem refSq_eq (r : Fin 65536) (k : Fin 9) :
    refSq x0 r k = Ideal.ofBits .f32 0x00000000#32 + ∑ u ∈ Finset.univ.filter (fun u : S4194304x9.Idx =>
      BitVec.toInt (val_main_v34 (F := Ideal) x0 (ix1 (u 0))) = (r.val : Int) ∧ (u 1).val = k.val),
        val_main_v48 (F := Ideal) x0 u := by
  rw [refSq]
  exact sum_filter_iff _ _ _ _ (fun u => by rw [dQ_lands, v50_at x0 (u 0) ⟨0, Nat.one_pos⟩])

end Closed

end Cert.ReferenceIdeal.Hand
-- ==== Proof.RefIndex2.lean ====
/-
  The reference's segment index and its three sums, point by point.
  The flat segment index of point q of batch b' is 256 i0 + 16 i1 + i2 + 4096 b' in 32-bit integer arithmetic, where
  i_a is the point's voxel coordinate on axis a: the coordinate less the batch minimum, over the voxel edge, floored,
  clipped to [0, 15] and converted to an integer.
  The three scatter sums of a row run over the flat point indices p = 262144 b' + q (and a column); written over the pair
  (b', q) they are: the count, a one for every point whose segment index is the row; the coordinate sum, the point's
  coordinate; the second-moment sum, the product of the point's two coordinates. The flat sums become double sums by the
  bijection between the flat indices and the (batch, point) pairs, and the column condition of the two windowed scatters
  collapses the sum over columns to its one term.
-/
import proofs.«168833_j62826781606551_2_alg».proof.Proof.RefIndex
import Idealize.ShloMosaic.PureOps.Ideal
import Idealize.ShloMosaic.Lib.ValueIdx

noncomputable section

namespace Cert.ReferenceIdeal.Hand

open Cert.ReferenceIdeal Cert.ReferenceIdeal.Gen Cert.ReferenceIdeal.Value Idealize.ShloMosaic Idealize.ShloMosaic.TcCoe Idealize.SL.Sem Idealize.ShloMosaic.StableHlo
open Cert.ReferenceIdeal.Read Idealize.ShloMosaic.ValueIdx

/-! ### The segment index of a point, from the three clipped voxel coordinates -/

section Segment

variable (x0 : FVec Ideal S16x262144x3 .f32) (b' : Fin 16) (q : Fin 262144)

theorem i17 : idx_main_v17 (ix2 b' q) = ix3 b' q ⟨0, Nat.one_pos⟩ := by
  have hb := b'.isLt; have hq := q.isLt
  funext d; match d with
  | ⟨0, _⟩ => exact Fin.ext (by show (b'.val * 262144 + q.val) / 262144 = b'.val; omega)
  | ⟨1, _⟩ => exact Fin.ext (by show (b'.val * 262144 + q.val) / 1 % 262144 = q.val; omega)
  | ⟨2, _⟩ => rfl
theorem i21 : idx_main_v21 (ix2 b' q) = ix3 b' q ⟨0, Nat.one_pos⟩ := by
  have hb := b'.isLt; have hq := q.isLt
  funext d; match d with
  | ⟨0, _⟩ => exact Fin.ext (by show (b'.val * 262144 + q.val) / 262144 = b'.val; omega)
  | ⟨1, _⟩ => exact Fin.ext (by show (b'.val * 262144 + q.val) / 1 % 262144 = q.val; omega)
  | ⟨2, _⟩ => rfl
theorem i26 : idx_main_v26 (ix2 b' q) = ix3 b' q ⟨0, Nat.one_pos⟩ := by
  have hb := b'.isLt; have hq := q.isLt
  funext d; match d with
  | ⟨0, _⟩ => exact Fin.ext (by show (b'.val * 262144 + q.val) / 262144 = b'.val; omega)
  | ⟨1, _⟩ => exact Fin.ext (by show (b'.val * 262144 + q.val) / 1 % 262144 = q.val; omega)
  | ⟨2, _⟩ => rfl
theorem i16 (c : Fin 1) : idx_main_v16 (ix3 b' q c) = ix3 b' q (0 : Fin 3) := by
  have hc := c.isLt
  funext d; match d with
  | ⟨0, _⟩ => rfl
  | ⟨1, _⟩ => rfl
  | ⟨2, _⟩ => exact Fin.ext (by show c.val = 0; omega)
theorem i20 (c : Fin 1) : idx_main_v20 (ix3 b' q c) = ix3 b' q (1 : Fin 3) := by
  have hc := c.isLt
  funext d; match d with
  | ⟨0, _⟩ => rfl
  | ⟨1, _⟩ => rfl
  | ⟨2, _⟩ => exact Fin.ext (by show 1 + c.val = 1; omega)
theorem i25 (c : Fin 1) : idx_main_v25 (ix3 b' q c) = ix3 b' q (2 : Fin 3) := by
  have hc := c.isLt
  funext d; match d with
  | ⟨0, _⟩ => rfl
  | ⟨1, _⟩ => rfl
  | ⟨2, _⟩ => exact Fin.ext (by show 2 + c.val = 2; omega)
theorem i32 : idx_main_v32 (ix2 b' q) = ix2 b' ⟨0, Nat.one_pos⟩ := by
  funext d; match d with | ⟨0, _⟩ => rfl | ⟨1, _⟩ => rfl
theorem i29 (c : Fin 1) : idx_main_v29 (ix2 b' c) = ix1 b' := by
  funext d; match d with | ⟨0, _⟩ => rfl

theorem v17_at : val_main_v17 (F := Ideal) x0 (ix2 b' q) = val_main_v15 (F := Ideal) x0 (ix3 b' q (0 : Fin 3)) := by
  rw [val_main_v17_apply, i17, val_main_v16_apply, i16]
theorem v21_at : val_main_v21 (F := Ideal) x0 (ix2 b' q) = val_main_v15 (F := Ideal) x0 (ix3 b' q (1 : Fin 3)) := by
  rw [val_main_v21_apply, i21, val_main_v20_apply, i20]
theorem v26_at : val_main_v26 (F := Ideal) x0 (ix2 b' q) = val_main_v15 (F := Ideal) x0 (ix3 b' q (2 : Fin 3)) := by
  rw [val_main_v26_apply, i26, val_main_v25_apply, i25]
theorem v32_at : val_main_v32 (F := Ideal) (ix2 b' q) = IntOp.muli (BitVec.ofNat 32 b'.val) 4096#32 := by
  rw [val_main_v32_apply, i32, val_main_v31_apply, val_main_v29_apply, i29, val_main_v28_apply, val_main_v30_apply,
    val_main_c_6_apply]

/-- The segment index of point `q` of batch `b'`: 256 times the first clipped voxel coordinate plus 16 times the second
    plus the third, plus 4096 times the batch (32-bit integer arithmetic). -/
theorem v33_at : val_main_v33 (F := Ideal) x0 (ix2 b' q) =
    IntOp.addi (IntOp.addi (IntOp.addi
      (IntOp.muli (val_main_v15 (F := Ideal) x0 (ix3 b' q (0 : Fin 3))) 256#32)
      (IntOp.muli (val_main_v15 (F := Ideal) x0 (ix3 b' q (1 : Fin 3))) 16#32))
      (val_main_v15 (F := Ideal) x0 (ix3 b' q (2 : Fin 3))))
      (IntOp.muli (BitVec.ofNat 32 b'.val) 4096#32) := by
  rw [val_main_v33_apply, val_main_v27_apply, val_main_v24_apply, val_main_v19_apply, val_main_v23_apply,
    v17_at, v21_at, v26_at, v32_at, val_main_v18_apply, val_main_c_4_apply, val_main_v22_apply, val_main_c_5_apply]

end Segment

/-! ### A clipped voxel coordinate of a point -/

section Clip

variable (x0 : FVec Ideal S16x262144x3 .f32) (b' : Fin 16) (q : Fin 262144) (a : Fin 3)

theorem i9 : idx_main_v9 (ix3 b' q a) = ix3 b' (0 : Fin 1) a := by
  funext d; match d with | ⟨0, _⟩ => rfl | ⟨1, _⟩ => rfl | ⟨2, _⟩ => rfl
theorem i11 : idx_main_v11 (ix3 b' q a) = ix3 b' (0 : Fin 1) a := by
  funext d; match d with | ⟨0, _⟩ => rfl | ⟨1, _⟩ => rfl | ⟨2, _⟩ => rfl

/-- Voxel coordinate `a` of point `q` of batch `b'`, as an integer: the point's coordinate less the batch's minimum, over
    the voxel edge, floored, clipped below at 0 and above at 15, and converted. -/
theorem v15_at : val_main_v15 (F := Ideal) x0 (ix3 b' q a) =
    Ideal.fptosi 32 (min (((15#32 : BitVec 32).toInt : ℝ) : EReal) (max (((0#32 : BitVec 32).toInt : ℝ) : EReal)
      (Ideal.liftRound Int.floor (Ideal.div (x0 (ix3 b' q a) - val_main_v1 (F := Ideal) x0 (ix3 b' (0 : Fin 1) a))
        (val_main_v8 (F := Ideal) x0 (ix3 b' (0 : Fin 1) a)))))) := by
  rw [val_main_v15_apply, val_main_v14_apply, val_main_call0_v4_apply, val_main_call0_v3_apply, val_main_c_3_apply,
    val_main_call0_v2_apply, val_main_call0_v1_apply, val_main_call0_v0_apply, val_main_c_apply,
    val_main_v13_apply, val_main_v12_apply, val_main_v10_apply, val_main_v9_apply, i9, val_main_v11_apply, i11,
    Ideal.minimumf_def, Ideal.maximumf_def, Ideal.hostUnary_floor_def, Ideal.hostDivf_def, Ideal.subf_def]
  rfl

end Clip

/-! ### Sums over flat point indices as double sums over batch and point -/

section FlatSums

/-- The flat index of entry `b` of row `a` is inside an array of `m n` entries. -/
theorem flat_lt {m n N : Nat} (h : m * n = N) (a : Fin m) (b : Fin n) : a.val * n + b.val < N := by
  subst h
  calc a.val * n + b.val < a.val * n + n := by have := b.isLt; omega
    _ = (a.val + 1) * n := by ring
    _ ≤ m * n := Nat.mul_le_mul_right n a.isLt

/-- A sum over `m n` flat indices is the double sum over rows and entries. -/
theorem sum_flat {M : Type} [AddCommMonoid M] (m n N : Nat) (h : m * n = N) (f : Fin N → M) :
    ∑ p : Fin N, f p = ∑ a : Fin m, ∑ b : Fin n, f ⟨a.val * n + b.val, flat_lt h a b⟩ := by
  subst h
  rw [← Equiv.sum_comp finProdFinEquiv f, Fintype.sum_prod_type]
  refine Finset.sum_congr rfl (fun a _ => Finset.sum_congr rfl (fun b _ => ?_))
  congr 1
  apply Fin.ext
  show b.val + n * a.val = a.val * n + b.val
  ring

/-- A rank-1 index set is its coordinate's range, so a sum over it is the sum over the coordinate. -/
def idxEquiv1 {n : Nat} : (⟨1, ![n]⟩ : Shape).Idx ≃ Fin n where
  toFun i := i 0
  invFun a := ix1 a
  left_inv i := (eq_ix1 i).symm
  right_inv _ := rfl
theorem sum_idx1 {M : Type} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A constant summed over the rank-1 indices satisfying a condition that reads the coordinate: the double sum of the
    constant where the condition holds. -/
theorem sum_filter_flat {M : Type} [AddCommMonoid M] (m n N : Nat) (h : m * n = N)
    (Q : (⟨1, ![N]⟩ : Shape).Idx → Prop) [DecidablePred Q] (P : Fin N → Prop) [DecidablePred P]
    (hQ : ∀ p, Q (ix1 p) ↔ P p) (c z : M) :
    z + ∑ u ∈ Finset.univ.filter Q, c
      = z + ∑ a : Fin m, ∑ b : Fin n, if P ⟨a.val * n + b.val, flat_lt h a b⟩ then c else 0 := by
  rw [Finset.sum_filter, sum_idx1, sum_flat m n N h]
  refine congrArg (fun t => z + t) (Finset.sum_congr rfl (fun a _ => Finset.sum_congr rfl (fun b _ => ?_)))
  exact if_congr (hQ _) rfl rfl

/-- A function summed over the (flat index, column) pairs whose flat index satisfies a condition and whose column is `a`:
    the double sum, where the condition holds, of the function at column `a`. -/
theorem sum_filter_row {M : Type} [AddCommMonoid M] (m n N K : Nat) (h : m * n = N)
    (R : (⟨2, ![N, K]⟩ : Shape).Idx → Prop) [DecidablePred R] (P : Fin N → Prop) [DecidablePred P] (a : Fin K)
    (hR : ∀ p k, R (ix2 p k) ↔ P p ∧ k = a) (f : (⟨2, ![N, K]⟩ : Shape).Idx → M) (z : M) :
    z + ∑ u ∈ Finset.univ.filter R, f u
      = z + ∑ b : Fin m, ∑ q : Fin n, if P ⟨b.val * n + q.val, flat_lt h b q⟩
          then f (ix2 ⟨b.val * n + q.val, flat_lt h b q⟩ a) else 0 := by
  rw [Finset.sum_filter, sum_idx2, sum_flat m n N h]
  refine congrArg (fun t => z + t) (Finset.sum_congr rfl (fun b _ => Finset.sum_congr rfl (fun q _ => ?_)))
  by_cases hp : P ⟨b.val * n + q.val, flat_lt h b q⟩
  · rw [if_pos hp, Finset.sum_congr rfl (fun k _ => if_congr ((hR _ k).trans (and_iff_right hp)) rfl rfl),
      Finset.sum_ite_eq' Finset.univ a, if_pos (Finset.mem_univ a)]
  · rw [if_neg hp]
    exact Finset.sum_eq_zero (fun k _ => if_neg (fun hh => hp ((hR _ k).1 hh).1))

end FlatSums

/-! ### The three sums of a row, over the batches and their points -/

section Points

variable (x0 : FVec Ideal S16x262144x3 .f32) (b' : Fin 16) (q : Fin 262144)

theorem i34 (hp : b'.val * 262144 + q.val < 4194304) :
    idx_main_v34 (ix1 (⟨b'.val * 262144 + q.val, hp⟩ : Fin 4194304)) = ix2 b' q := by
  have hb := b'.isLt; have hq := q.isLt
  funext d; match d with
  | ⟨0, _⟩ => exact Fin.ext (by show (b'.val * 262144 + q.val) / 262144 = b'.val; omega)
  | ⟨1, _⟩ => exact Fin.ext (by show (b'.val * 262144 + q.val) % 262144 = q.val; omega)
/-- The flat segment index at a flat point index is the segment index of the point in its batch. -/
theorem v34_at (hp : b'.val * 262144 + q.val < 4194304) :
    val_main_v34 (F := Ideal) x0 (ix1 (⟨b'.val * 262144 + q.val, hp⟩ : Fin 4194304)) = val_main_v33 (F := Ideal) x0 (ix2 b' q) := by
  rw [val_main_v34_apply, i34]

theorem i35 (hp : b'.val * 262144 + q.val < 4194304) (a : Fin 3) :
    idx_main_v35 (ix2 (⟨b'.val * 262144 + q.val, hp⟩ : Fin 4194304) a) = ix3 b' q a := by
  have hb := b'.isLt; have hq := q.isLt; have ha := a.isLt
  funext d; match d with
  | ⟨0, _⟩ => exact Fin.ext (by show ((b'.val * 262144 + q.val) * 3 + a.val) / 786432 = b'.val; omega)
  | ⟨1, _⟩ => exact Fin.ext (by show ((b'.val * 262144 + q.val) * 3 + a.val) / 3 % 262144 = q.val; omega)
  | ⟨2, _⟩ => exact Fin.ext (by show ((b'.val * 262144 + q.val) * 3 + a.val) % 3 = a.val; omega)
/-- The flat point array at a flat point index is the point. -/
theorem v35_at (hp : b'.val * 262144 + q.val < 4194304) (a : Fin 3) :
    val_main_v35 (F := Ideal) x0 (ix2 (⟨b'.val * 262144 + q.val, hp⟩ : Fin 4194304) a) = x0 (ix3 b' q a) := by
  rw [val_main_v35_apply, i35]

theorem i48 (p : Fin 4194304) (k : Fin 9) :
    idx_main_v48 (ix2 p k) = ix3 p ⟨k.val / 3, by have := k.isLt; omega⟩ ⟨k.val % 3, by omega⟩ := by
  have hk := k.isLt
  funext d; match d with
  | ⟨0, _⟩ => exact Fin.ext (by show (p.val * 9 + k.val) / 9 = p.val; omega)
  | ⟨1, _⟩ => exact Fin.ext (by show (p.val * 9 + k.val) / 3 % 3 = k.val / 3; omega)
  | ⟨2, _⟩ => exact Fin.ext (by show (p.val * 9 + k.val) % 3 = k.val % 3; omega)
theorem i45 (p : Fin 4194304) (i j : Fin 3) : idx_main_v45 (ix3 p i j) = ix3 p i ⟨0, Nat.one_pos⟩ := by
  funext d; match d with | ⟨0, _⟩ => rfl | ⟨1, _⟩ => rfl | ⟨2, _⟩ => rfl
theorem i46 (p : Fin 4194304) (i j : Fin 3) : idx_main_v46 (ix3 p i j) = ix3 p ⟨0, Nat.one_pos⟩ j := by
  funext d; match d with | ⟨0, _⟩ => rfl | ⟨1, _⟩ => rfl | ⟨2, _⟩ => rfl
theorem i43 (p : Fin 4194304) (i : Fin 3) (c : Fin 1) : idx_main_v43 (ix3 p i c) = ix2 p i := by
  funext d; match d with | ⟨0, _⟩ => rfl | ⟨1, _⟩ => rfl
theorem i44 (p : Fin 4194304) (c : Fin 1) (j : Fin 3) : idx_main_v44 (ix3 p c j) = ix2 p j := by
  funext d; match d with | ⟨0, _⟩ => rfl | ⟨1, _⟩ => rfl

/-- The flat array of coordinate products at a flat point index is the product of the point's two coordinates. -/
theorem v48_at (hp : b'.val * 262144 + q.val < 4194304) (k : Fin 9) :
    val_main_v48 (F := Ideal) x0 (ix2 (⟨b'.val * 262144 + q.val, hp⟩ : Fin 4194304) k) =
      x0 (ix3 b' q ⟨k.val / 3, by have := k.isLt; omega⟩) * x0 (ix3 b' q ⟨k.val % 3, by omega⟩) := by
  rw [val_main_v48_apply, i48, val_main_v47_apply, val_main_v45_apply, i45, val_main_v43_apply, i43,
    val_main_v46_apply, i46, val_main_v44_apply, i44, v35_at, v35_at, Ideal.mulf_def]

/-- The count of a row: a one for every point, of every batch, whose segment index is the row. -/
theorem refCnt_points (r : Fin 65536) :
    refCnt x0 r = Ideal.ofBits .f32 0x00000000#32 + ∑ b' : Fin 16, ∑ q : Fin 262144,
      (if BitVec.toInt (val_main_v33 (F := Ideal) x0 (ix2 b' q)) = (r.val : ℤ) then Ideal.ofBits .f32 0x3F800000#32 else 0) := by
  rw [refCnt_eq]
  refine (sum_filter_flat 16 262144 4194304 (by norm_num) _
    (fun p => BitVec.toInt (val_main_v34 (F := Ideal) x0 (ix1 p)) = (r.val : ℤ)) (fun p => Iff.rfl) _ _).trans ?_
  refine congrArg (fun t => Ideal.ofBits .f32 0x00000000#32 + t)
    (Finset.sum_congr rfl (fun b' _ => Finset.sum_congr rfl (fun q _ => ?_)))
  show (if BitVec.toInt (val_main_v34 (F := Ideal) x0 (ix1 ⟨b'.val * 262144 + q.val, _⟩)) = (r.val : ℤ) then _ else _) = _
  rw [v34_at]

/-- The coordinate sum of a row: coordinate `a` of every point, of every batch, whose segment index is the row. -/
theorem refSum_points (r : Fin 65536) (a : Fin 3) :
    refSum x0 r a = Ideal.ofBits .f32 0x00000000#32 + ∑ b' : Fin 16, ∑ q : Fin 262144,
      (if BitVec.toInt (val_main_v33 (F := Ideal) x0 (ix2 b' q)) = (r.val : ℤ) then x0 (ix3 b' q a) else 0) := by
  rw [refSum_eq]
  refine (sum_filter_row 16 262144 4194304 3 (by norm_num) _
    (fun p => BitVec.toInt (val_main_v34 (F := Ideal) x0 (ix1 p)) = (r.val : ℤ)) a
    (fun p k => and_congr Iff.rfl Fin.val_inj) _ _).trans ?_
  refine congrArg (fun t => Ideal.ofBits .f32 0x00000000#32 + t)
    (Finset.sum_congr rfl (fun b' _ => Finset.sum_congr rfl (fun q _ => ?_)))
  show (if BitVec.toInt (val_main_v34 (F := Ideal) x0 (ix1 ⟨b'.val * 262144 + q.val, _⟩)) = (r.val : ℤ)
    then val_main_v35 (F := Ideal) x0 (ix2 ⟨b'.val * 262144 + q.val, _⟩ a) else _) = _
  rw [v34_at, v35_at]

/-- The second-moment sum of a row: the product of coordinates `k / 3` and `k % 3` of every point, of every batch, whose
    segment index is the row. -/
theorem refSq_points (r : Fin 65536) (k : Fin 9) :
    refSq x0 r k = Ideal.ofBits .f32 0x00000000#32 + ∑ b' : Fin 16, ∑ q : Fin 262144,
      (if BitVec.toInt (val_main_v33 (F := Ideal) x0 (ix2 b' q)) = (r.val : ℤ)
        then x0 (ix3 b' q ⟨k.val / 3, by have := k.isLt; omega⟩) * x0 (ix3 b' q ⟨k.val % 3, by omega⟩) else 0) := by
  rw [refSq_eq]
  refine (sum_filter_row 16 262144 4194304 9 (by norm_num) _
    (fun p => BitVec.toInt (val_main_v34 (F := Ideal) x0 (ix1 p)) = (r.val : ℤ)) k
    (fun p k' => and_congr Iff.rfl Fin.val_inj) _ _).trans ?_
  refine congrArg (fun t => Ideal.ofBits .f32 0x00000000#32 + t)
    (Finset.sum_congr rfl (fun b' _ => Finset.sum_congr rfl (fun q _ => ?_)))
  show (if BitVec.toInt (val_main_v34 (F := Ideal) x0 (ix1 ⟨b'.val * 262144 + q.val, _⟩)) = (r.val : ℤ)
    then val_main_v48 (F := Ideal) x0 (ix2 ⟨b'.val * 262144 + q.val, _⟩ k) else _) = _
  rw [v34_at, v48_at]

end Points

end Cert.ReferenceIdeal.Hand
-- ==== Proof.RefBatch.lean ====
/-
  The reference's three sums of a voxel, over the points of its batch; and the batch minima and voxel edges are reals.
  A point's flat segment index is 4096 b' + 256 i0 + 16 i1 + i2 with i_a its integer voxel coordinates, each at most 15, so
  the index equals row 4096 b + v exactly when the point is of batch b and its coordinates number voxel v (no 32-bit
  arithmetic wraps at these sizes). The double sums over (batch, point) therefore keep the one batch b, and the count, the
  coordinate sums and the second-moment sums of voxel v of batch b are sums over the batch's points in the voxel.
  When every point coordinate is a real number, a batch's minimum and maximum on an axis — the least and the greatest of
  262144 reals — are reals, and so is the voxel edge, the extent over sixteen plus a positive real constant.
-/
import proofs.«168833_j62826781606551_2_alg».proof.Proof.RefIndex2
import proofs.«168833_j62826781606551_2_alg».proof.Proof.Spec3
import Idealize.ShloMosaic.PureOps.Reduce

noncomputable section

namespace Cert.ReferenceIdeal.Hand

open Cert.ReferenceIdeal Cert.ReferenceIdeal.Gen Cert.ReferenceIdeal.Value Idealize.ShloMosaic Idealize.ShloMosaic.TcCoe Idealize.SL.Sem Idealize.ShloMosaic.StableHlo
open Cert.ReferenceIdeal.Read Idealize.ShloMosaic.ValueIdx

/-- The points, by batch, point and axis. -/
def XfR (x0 : FVec Ideal S16x262144x3 .f32) : Fin 16 → Fin 262144 → Fin 3 → EReal := fun b q a => x0 (ix3 b q a)
/-- The batch minima, by batch and axis. -/
def MNR (x0 : FVec Ideal S16x262144x3 .f32) : Fin 16 → Fin 3 → EReal :=
  fun b a => val_main_v1 (F := Ideal) x0 (ix3 b (0 : Fin 1) a)
/-- The voxel edge lengths, by batch and axis. -/
def VSR (x0 : FVec Ideal S16x262144x3 .f32) : Fin 16 → Fin 3 → EReal :=
  fun b a => val_main_v8 (F := Ideal) x0 (ix3 b (0 : Fin 1) a)

section Batch

variable (x0 : FVec Ideal S16x262144x3 .f32)

theorem toInt_fifteen : (((15#32 : BitVec 32).toInt : ℝ) : EReal) = ((15 : ℝ) : EReal) := by
  have h : (15#32 : BitVec 32).toInt = 15 := by decide
  rw [h]; norm_num
theorem toInt_zero : (((0#32 : BitVec 32).toInt : ℝ) : EReal) = ((0 : ℝ) : EReal) := by
  have h : (0#32 : BitVec 32).toInt = 0 := by decide
  rw [h]; norm_num

/-- The program's integer voxel coordinate is the specification's. -/
theorem v15_gI (b' : Fin 16) (q : Fin 262144) (a : Fin 3) :
    val_main_v15 (F := Ideal) x0 (ix3 b' q a) = Cert.Spec.gI (XfR x0) (MNR x0) (VSR x0) b' q a := by
  rw [v15_at, toInt_fifteen, toInt_zero]
  rfl

/-- A point's segment index is row `4096 b + v` exactly when the point is of batch `b` and in voxel `v`. -/
theorem seg_iff (b' b : Fin 16) (v : Fin 4096) (q : Fin 262144) :
    BitVec.toInt (val_main_v33 (F := Ideal) x0 (ix2 b' q)) = ((refRow b v).val : ℤ) ↔
      b' = b ∧ Cert.Spec.inVox (XfR x0) (MNR x0) (VSR x0) b ⟨v.val / 256, by have := v.isLt; omega⟩
        ⟨v.val % 256, Nat.mod_lt _ (by norm_num)⟩ q := by
  have h0 := Cert.Spec.gN_le (XfR x0) (MNR x0) (VSR x0) b' q 0
  have h1 := Cert.Spec.gN_le (XfR x0) (MNR x0) (VSR x0) b' q 1
  have h2 := Cert.Spec.gN_le (XfR x0) (MNR x0) (VSR x0) b' q 2
  rw [v33_at, v15_gI, v15_gI, v15_gI, Cert.Spec.gI_eq, Cert.Spec.gI_eq, Cert.Spec.gI_eq]
  show BitVec.toInt _ = ((b.val * 4096 + v.val : ℕ) : ℤ) ↔ _
  rw [Cert.Spec.seg_eq _ _ _ _ _ _ h0 h1 h2 b'.isLt b.isLt v.isLt]
  constructor
  · rintro ⟨hb, hv⟩
    have hb' : b' = b := Fin.ext hb
    subst hb'
    refine ⟨rfl, ?_⟩
    unfold Cert.Spec.inVox
    exact (Cert.Spec.vox_split _ _ _ (v.val / 256) (v.val % 256) h1 h2 (Nat.mod_lt _ (by norm_num))).1
      (by rw [hv]; exact (Nat.div_add_mod' v.val 256).symm)
  · rintro ⟨hb, hv⟩
    subst hb
    refine ⟨rfl, ?_⟩
    unfold Cert.Spec.inVox at hv
    rw [(Cert.Spec.vox_split _ _ _ (v.val / 256) (v.val % 256) h1 h2 (Nat.mod_lt _ (by norm_num))).2 hv]
    exact Nat.div_add_mod' v.val 256

/-- A double sum whose terms vanish off one value of the outer index, and off a condition on the inner, is the sum over
    the inner indices satisfying the condition. -/
theorem sum_batch {M : Type} [AddCommMonoid M] {ι κ : Type} [Fintype ι] [DecidableEq ι] [Fintype κ]
    (C : ι → κ → Prop) [∀ i k, Decidable (C i k)] (P : κ → Prop) [DecidablePred P] (b : ι) (F : ι → κ → M)
    (h : ∀ i k, C i k ↔ i = b ∧ P k) :
    ∑ i, ∑ k, (if C i k then F i k else 0) = ∑ k ∈ Finset.univ.filter P, F b k := by
  rw [Finset.sum_eq_single b]
  · rw [Finset.sum_filter]
    exact Finset.sum_congr rfl (fun k _ => if_congr ((h b k).trans (and_iff_right rfl)) rfl rfl)
  · intro i _ hi
    exact Finset.sum_eq_zero (fun k _ => if_neg (fun hc => hi ((h i k).1 hc).1))
  · intro hb
    exact absurd (Finset.mem_univ b) hb

/-- The count of voxel `v` of batch `b`: a one for every point of the batch in the voxel. -/
theorem refCnt_batch (b : Fin 16) (v : Fin 4096) :
    refCnt x0 (refRow b v) = Ideal.ofBits .f32 0x00000000#32 +
      ∑ q ∈ Finset.univ.filter (Cert.Spec.inVox (XfR x0) (MNR x0) (VSR x0) b ⟨v.val / 256, by have := v.isLt; omega⟩
        ⟨v.val % 256, Nat.mod_lt _ (by norm_num)⟩), Ideal.ofBits .f32 0x3F800000#32 := by
  rw [refCnt_points]
  exact congrArg (fun t => Ideal.ofBits .f32 0x00000000#32 + t) (sum_batch _ _ b _ (fun b' q => seg_iff x0 b' b v q))

/-- The coordinate sum of voxel `v` of batch `b`: coordinate `a` of every point of the batch in the voxel. -/
theorem refSum_batch (b : Fin 16) (v : Fin 4096) (a : Fin 3) :
    refSum x0 (refRow b v) a = Ideal.ofBits .f32 0x00000000#32 +
      ∑ q ∈ Finset.univ.filter (Cert.Spec.inVox (XfR x0) (MNR x0) (VSR x0) b ⟨v.val / 256, by have := v.isLt; omega⟩
        ⟨v.val % 256, Nat.mod_lt _ (by norm_num)⟩), x0 (ix3 b q a) := by
  rw [refSum_points]
  exact congrArg (fun t => Ideal.ofBits .f32 0x00000000#32 + t)
    (sum_batch _ _ b (fun b' q => x0 (ix3 b' q a)) (fun b' q => seg_iff x0 b' b v q))

/-- The second-moment sum of voxel `v` of batch `b`: the product of coordinates `k / 3` and `k % 3` of every point of the
    batch in the voxel. -/
theorem refSq_batch (b : Fin 16) (v : Fin 4096) (k : Fin 9) :
    refSq x0 (refRow b v) k = Ideal.ofBits .f32 0x00000000#32 +
      ∑ q ∈ Finset.univ.filter (Cert.Spec.inVox (XfR x0) (MNR x0) (VSR x0) b ⟨v.val / 256, by have := v.isLt; omega⟩
        ⟨v.val % 256, Nat.mod_lt _ (by norm_num)⟩),
        x0 (ix3 b q ⟨k.val / 3, by have := k.isLt; omega⟩) * x0 (ix3 b q ⟨k.val % 3, by omega⟩) := by
  rw [refSq_points]
  exact congrArg (fun t => Ideal.ofBits .f32 0x00000000#32 + t)
    (sum_batch _ _ b (fun b' q => x0 (ix3 b' q ⟨k.val / 3, by have := k.isLt; omega⟩) * x0 (ix3 b' q ⟨k.val % 3, by omega⟩))
      (fun b' q => seg_iff x0 b' b v q))

end Batch

/-! ### The batch minima and voxel edges are real numbers when the points are -/

section Finite

theorem sixteen_bits : Ideal.ofBits .f32 0x41800000#32 = ((16 : ℝ) : EReal) := by
  simp [Ideal.ofBits, Ideal.ieee, -EReal.coe_mul]; norm_num
theorem top_bits : Ideal.ofBits .f32 0x7F800000#32 = ⊤ := by simp [Ideal.ofBits, Ideal.ieee]
theorem bot_bits : Ideal.ofBits .f32 0xFF800000#32 = ⊥ := by simp [Ideal.ofBits, Ideal.ieee]

/-- The least of finitely many reals, at least one, is a real. -/
theorem fold_min_real {ι : Type} (S : Finset ι) (hS : S.Nonempty) (x : ι → EReal) (hx : ∀ i, ∃ r : ℝ, x i = (r : EReal)) :
    ∃ r : ℝ, S.fold min ⊤ x = (r : EReal) := by
  have hbot : S.fold min ⊤ x ≠ ⊥ := by
    apply ne_of_gt
    rw [Finset.lt_fold_min]
    exact ⟨bot_lt_top, fun i _ => by obtain ⟨r, hr⟩ := hx i; rw [hr]; exact EReal.bot_lt_coe r⟩
  have htop : S.fold min ⊤ x ≠ ⊤ := by
    obtain ⟨i0, hi0⟩ := hS
    obtain ⟨r, hr⟩ := hx i0
    apply ne_of_lt
    refine lt_of_le_of_lt (b := x i0) ?_ ?_
    · rw [Finset.fold_min_le]; exact Or.inr ⟨i0, hi0, le_refl _⟩
    · rw [hr]; exact EReal.coe_lt_top r
  exact ⟨_, (EReal.coe_toReal htop hbot).symm⟩

/-- The greatest of finitely many reals, at least one, is a real. -/
theorem fold_max_real {ι : Type} (S : Finset ι) (hS : S.Nonempty) (x : ι → EReal) (hx : ∀ i, ∃ r : ℝ, x i = (r : EReal)) :
    ∃ r : ℝ, S.fold max ⊥ x = (r : EReal) := by
  have htop : S.fold max ⊥ x ≠ ⊤ := by
    apply ne_of_lt
    rw [Finset.fold_max_lt]
    exact ⟨bot_lt_top, fun i _ => by obtain ⟨r, hr⟩ := hx i; rw [hr]; exact EReal.coe_lt_top r⟩
  have hbot : S.fold max ⊥ x ≠ ⊥ := by
    obtain ⟨i0, hi0⟩ := hS
    obtain ⟨r, hr⟩ := hx i0
    apply ne_of_gt
    refine lt_of_lt_of_le (b := x i0) ?_ ?_
    · rw [hr]; exact EReal.bot_lt_coe r
    · rw [Finset.le_fold_max]; exact Or.inr ⟨i0, hi0, le_refl _⟩
  exact ⟨_, (EReal.coe_toReal htop hbot).symm⟩

theorem eps_real : ∃ r : ℝ, Ideal.ofBits .f32 0x358637BD#32 = (r : EReal) := by
  simp [Ideal.ofBits, Ideal.ieee, -EReal.coe_mul]

variable (x0 : FVec Ideal S16x262144x3 .f32)

/-- A batch's minimum on an axis is a real. -/
theorem v0_real (hfin : ∀ i, ∃ r : ℝ, x0 i = (r : EReal)) (j : S16x3.Idx) :
    ∃ r : ℝ, val_main_v0 (F := Ideal) x0 j = (r : EReal) := by
  have h : S16x262144x3.Reduces [1] S16x3 := by decide
  have e : val_main_v0 (F := Ideal) x0 j =
      (Finset.univ : Finset (Fin (S16x262144x3.size 1))).fold min (val_main_cst (F := Ideal) (Shape.Idx.first h_S_))
        (x0 ∘ Shape.Reduces.lift h j) :=
    Host.reduce_eq_fold_single (a := 1) min x0 (val_main_cst (F := Ideal)) reducesTo_S16x262144x3_S16x3_d1 h h_S_ j
  rw [e, val_main_cst_apply, Ideal.ofBits_def, top_bits]
  exact fold_min_real _ ⟨⟨0, by decide⟩, Finset.mem_univ _⟩ _ (fun k => hfin _)

/-- A batch's maximum on an axis is a real. -/
theorem v2_real (hfin : ∀ i, ∃ r : ℝ, x0 i = (r : EReal)) (j : S16x3.Idx) :
    ∃ r : ℝ, val_main_v2 (F := Ideal) x0 j = (r : EReal) := by
  have h : S16x262144x3.Reduces [1] S16x3 := by decide
  have e : val_main_v2 (F := Ideal) x0 j =
      (Finset.univ : Finset (Fin (S16x262144x3.size 1))).fold max (val_main_cst_0 (F := Ideal) (Shape.Idx.first h_S_))
        (x0 ∘ Shape.Reduces.lift h j) :=
    Host.reduce_eq_fold_single (a := 1) max x0 (val_main_cst_0 (F := Ideal)) reducesTo_S16x262144x3_S16x3_d1 h h_S_ j
  rw [e, val_main_cst_0_apply, Ideal.ofBits_def, bot_bits]
  exact fold_max_real _ ⟨⟨0, by decide⟩, Finset.mem_univ _⟩ _ (fun k => hfin _)

theorem i1 (b : Fin 16) (c : Fin 1) (a : Fin 3) : idx_main_v1 (ix3 b c a) = ix2 b a := by
  funext d; match d with | ⟨0, _⟩ => rfl | ⟨1, _⟩ => rfl
theorem i3 (b : Fin 16) (c : Fin 1) (a : Fin 3) : idx_main_v3 (ix3 b c a) = ix2 b a := by
  funext d; match d with | ⟨0, _⟩ => rfl | ⟨1, _⟩ => rfl

/-- The batch minima are reals. -/
theorem fin_mn (hfin : ∀ i, ∃ r : ℝ, x0 i = (r : EReal)) (b : Fin 16) (a : Fin 3) :
    ∃ r : ℝ, val_main_v1 (F := Ideal) x0 (ix3 b (0 : Fin 1) a) = (r : EReal) := by
  rw [val_main_v1_apply, i1]
  exact v0_real x0 hfin _

/-- The batch maxima are reals. -/
theorem fin_mx (hfin : ∀ i, ∃ r : ℝ, x0 i = (r : EReal)) (b : Fin 16) (a : Fin 3) :
    ∃ r : ℝ, val_main_v3 (F := Ideal) x0 (ix3 b (0 : Fin 1) a) = (r : EReal) := by
  rw [val_main_v3_apply, i3]
  exact v2_real x0 hfin _

/-- The voxel edges — the extent over sixteen, plus a small positive constant — are reals. -/
theorem fin_vs (hfin : ∀ i, ∃ r : ℝ, x0 i = (r : EReal)) (b : Fin 16) (a : Fin 3) :
    ∃ r : ℝ, val_main_v8 (F := Ideal) x0 (ix3 b (0 : Fin 1) a) = (r : EReal) := by
  obtain ⟨mx, hmx⟩ := fin_mx x0 hfin b a
  obtain ⟨mn, hmn⟩ := fin_mn x0 hfin b a
  obtain ⟨e, he⟩ := eps_real
  rw [val_main_v8_apply, val_main_v6_apply, val_main_v4_apply, hmx, hmn, val_main_v5_apply, val_main_cst_1_apply,
    val_main_v7_apply, val_main_cst_2_apply, Ideal.addf_def, Ideal.hostDivf_def, Ideal.subf_def, Ideal.ofBits_def,
    Ideal.ofBits_def, sixteen_bits, he, Ideal.div_coe (by norm_num : (16 : ℝ) ≠ 0)]
  exact ⟨(mx - mn) * (1 / 16) + e, by rw [EReal.coe_add, EReal.coe_mul, EReal.coe_sub]⟩

end Finite

end Cert.ReferenceIdeal.Hand
-- ==== Proof.Finite.lean ====
/-
  From the precondition to finiteness. The predicate is the conjunction over all entries of `|x| < +∞`, printed as a reduction
  by `and` of the comparisons from the constant 1; where it is all ones every comparison is 1, so no entry of the point array
  is an infinity: every entry is a real.
-/
import proofs.«168833_j62826781606551_2_alg».proof.Defs
import proofs.«168833_j62826781606551_2_alg».proof.Proof.Gen.Pre_finite_inputs
import Idealize.ShloMosaic.Lib.ReduceAll
import Idealize.ShloMosaic.Lib.ValueIdx

noncomputable section

namespace Cert.Proof

open Idealize.ShloMosaic Idealize.SL.Sem

/-- The scalar shape has one index. -/
instance : Subsingleton Cert.Pre_finite_inputs.S_.Idx := ⟨fun a b => funext fun d => d.elim0⟩

/-- An extended real whose absolute value is below `+∞` is a real. -/
theorem real_of_abs_lt_top (x : EReal) (h : max x (-x) < ⊤) : ∃ r : ℝ, x = (r : EReal) := by
  have h1 : x ≠ ⊤ := fun e => by subst e; simp at h
  have h2 : x ≠ ⊥ := fun e => by subst e; simp at h
  exact ⟨x.toReal, (EReal.coe_toReal h1 h2).symm⟩

/-- Under the precondition every entry of the point array is a real. -/
theorem finite_of_pre (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD)
    (i : Cert.KernelIdeal.S16x262144x3.Idx) :
    ∃ r : ℝ, m ((c.tc : Thread Cert.KernelIdeal.nD Cert.KernelIdeal.τ).loc Cert.KernelIdeal.main_arg0) i = (r : EReal) := by
  have h := congrFun (hpre c) ValueIdx.ix0
  dsimp only [Cert.Pre_finite_inputs.fn] at h
  have he := Host.reduce_andi_all _ _ _ _ _ h i
  have key : ∀ x : EReal, BitVec.ofBool (decide (max x (-x) < Ideal.ofBits .f32 0x7F800000#32)) = 1#1 → ∃ r : ℝ, x = (r : EReal) := by
    intro x hx
    have htop : Ideal.ofBits .f32 0x7F800000#32 = ⊤ := by simp [Ideal.ofBits, Ideal.ieee]
    apply real_of_abs_lt_top
    by_contra hn
    rw [htop, decide_eq_false hn] at hx
    exact absurd hx (by decide)
  exact key (m ((c.tc : Thread Cert.KernelIdeal.nD Cert.KernelIdeal.τ).loc Cert.KernelIdeal.main_arg0) i) he

end Cert.Proof

end
-- ==== Proof.LibCentred.lean ====
/-
  The centred-moments law at the ideal instance: over the extended reals, for finitely many finite points and a finite
  centre, the mean recovered from the centred sum (divide by the count, add the centre back) is the mean of the points, and
  the covariance numerator "second moments less count times the product of the means" is the same whether the points are
  centred or not. The quotient is the ideal float quotient (`Ideal.div`), the count is clamped below by one as the
  programs clamp it. General: nothing here mentions a program.
-/
import Idealize.ShloMosaic.PureOps.Ideal
import proofs.«168833_j62826781606551_2_alg».proof.Proof.LibMoments

namespace LibMoments

open Idealize.ShloMosaic

variable {ι : Type*}

/-- The ideal quotient of two reals, the divisor not zero, is the real quotient. -/
theorem ideal_div_coe (a b : ℝ) (hb : b ≠ 0) : Ideal.div (a : EReal) (b : EReal) = ((a / b : ℝ) : EReal) := by
  rw [Ideal.div_coe hb, ← EReal.coe_mul, mul_one_div]

/-- A count of at least one is not changed by the clamp `max · 1`. -/
theorem max_coe_one (n : ℝ) (h : 1 ≤ n) : max (n : EReal) 1 = (n : EReal) :=
  max_eq_left (by exact_mod_cast h)

/-- The sum of centred points, in the extended reals, is the coerced real sum. -/
theorem sum_coe_sub (P : Finset ι) (x : ι → ℝ) (c : ℝ) :
    ∑ q ∈ P, ((x q : EReal) - (c : EReal)) = ((∑ q ∈ P, (x q - c) : ℝ) : EReal) := by
  rw [coe_sum]; exact Finset.sum_congr rfl fun q _ => (EReal.coe_sub _ _).symm

/-- The sum of products of centred coordinates, in the extended reals, is the coerced real sum. -/
theorem sum_coe_sub_mul (P : Finset ι) (x y : ι → ℝ) (a b : ℝ) :
    ∑ q ∈ P, ((x q : EReal) - (a : EReal)) * ((y q : EReal) - (b : EReal)) = ((∑ q ∈ P, (x q - a) * (y q - b) : ℝ) : EReal) := by
  rw [coe_sum]; exact Finset.sum_congr rfl fun q _ => by rw [EReal.coe_mul, EReal.coe_sub, EReal.coe_sub]

theorem sum_coe_mul (P : Finset ι) (x y : ι → ℝ) :
    ∑ q ∈ P, (x q : EReal) * (y q : EReal) = ((∑ q ∈ P, x q * y q : ℝ) : EReal) := by
  rw [coe_sum]; exact Finset.sum_congr rfl fun q _ => (EReal.coe_mul _ _).symm

/-- THE MEAN: centred sum over the clamped count, plus the centre, is the plain sum over the clamped count. -/
theorem mean_entry (P : Finset ι) (x : ι → ℝ) (c : ℝ) (h1 : 1 ≤ P.card) :
    Ideal.div (∑ q ∈ P, ((x q : EReal) - (c : EReal))) (max ((P.card : ℝ) : EReal) 1) + (c : EReal)
      = Ideal.div (∑ q ∈ P, (x q : EReal)) (max ((P.card : ℝ) : EReal) 1) := by
  have hn : (1 : ℝ) ≤ (P.card : ℝ) := by exact_mod_cast h1
  have hn0 : (P.card : ℝ) ≠ 0 := by linarith
  rw [max_coe_one _ hn, sum_coe_sub, ← coe_sum, ideal_div_coe _ _ hn0, ideal_div_coe _ _ hn0, ← EReal.coe_add,
    mean_centered P x c _ rfl hn0]

/-- THE COVARIANCE NUMERATOR: second moments less count times the product of the means, centred or not. -/
theorem cov_entry (P : Finset ι) (x y : ι → ℝ) (a b : ℝ) (h1 : 1 ≤ P.card) :
    ∑ q ∈ P, ((x q : EReal) - (a : EReal)) * ((y q : EReal) - (b : EReal))
        - ((P.card : ℝ) : EReal) * (Ideal.div (∑ q ∈ P, ((x q : EReal) - (a : EReal))) (max ((P.card : ℝ) : EReal) 1)
            * Ideal.div (∑ q ∈ P, ((y q : EReal) - (b : EReal))) (max ((P.card : ℝ) : EReal) 1))
      = ∑ q ∈ P, (x q : EReal) * (y q : EReal)
        - ((P.card : ℝ) : EReal) * (Ideal.div (∑ q ∈ P, (x q : EReal)) (max ((P.card : ℝ) : EReal) 1)
            * Ideal.div (∑ q ∈ P, (y q : EReal)) (max ((P.card : ℝ) : EReal) 1)) := by
  have hn : (1 : ℝ) ≤ (P.card : ℝ) := by exact_mod_cast h1
  have hn0 : (P.card : ℝ) ≠ 0 := by linarith
  rw [max_coe_one _ hn, sum_coe_sub_mul, sum_coe_sub, sum_coe_sub, sum_coe_mul, ← coe_sum, ← coe_sum,
    ideal_div_coe _ _ hn0, ideal_div_coe _ _ hn0, ideal_div_coe _ _ hn0, ideal_div_coe _ _ hn0,
    ← EReal.coe_mul, ← EReal.coe_mul, ← EReal.coe_sub, ← EReal.coe_mul, ← EReal.coe_mul, ← EReal.coe_sub,
    cov_centered P x y a b _ rfl hn0]

end LibMoments
-- ==== Proof.VoxelLaw.lean ====
/-
  THE VOXEL LAW, away from any program: for a finite set `P` of points with real coordinates `xr a q` and a real centre `C a`,
  the result row computed from the CENTRED moments (count, Σ (x − C), Σ (x − C)(x − C)ᵀ; the mean shifted back by the centre) is
  the row computed from the plain moments (count, Σ x, Σ x xᵀ) — entry by entry, with the programs' clamps and their
  "more than one point" test, over the extended reals with the ideal quotient.
-/
import proofs.«168833_j62826781606551_2_alg».proof.Proof.LibCentred

noncomputable section

namespace Cert.Spec

open Idealize.ShloMosaic LibMoments

variable {ι : Type*}

/-- Σ over `P` of the real 1, coerced, is the number of points. -/
theorem sum_one (P : Finset ι) : ∑ _q ∈ P, ((1 : ℝ) : EReal) = ((P.card : ℝ) : EReal) := by
  rw [← coe_sum]; simp

theorem entry_eq (P : Finset ι) (xr : Fin 3 → ι → ℝ) (C : Fin 3 → ℝ) (j : Fin 12) :
    (if ((1 : ℝ) : EReal) < ∑ _q ∈ P, ((1 : ℝ) : EReal) then
      (if h : j.val < 3 then
        Ideal.div (∑ q ∈ P, ((xr ⟨j.val, h⟩ q : EReal) - (C ⟨j.val, h⟩ : EReal))) (max (∑ _q ∈ P, ((1 : ℝ) : EReal)) ((1 : ℝ) : EReal)) + (C ⟨j.val, h⟩ : EReal)
      else Ideal.div
        (∑ q ∈ P, ((xr ⟨(j.val - 3) / 3, by have := j.isLt; omega⟩ q : EReal) - (C ⟨(j.val - 3) / 3, by have := j.isLt; omega⟩ : EReal))
            * ((xr ⟨(j.val - 3) % 3, by omega⟩ q : EReal) - (C ⟨(j.val - 3) % 3, by omega⟩ : EReal))
          - (∑ _q ∈ P, ((1 : ℝ) : EReal)) *
            (Ideal.div (∑ q ∈ P, ((xr ⟨(j.val - 3) / 3, by have := j.isLt; omega⟩ q : EReal) - (C ⟨(j.val - 3) / 3, by have := j.isLt; omega⟩ : EReal))) (max (∑ _q ∈ P, ((1 : ℝ) : EReal)) ((1 : ℝ) : EReal))
              * Ideal.div (∑ q ∈ P, ((xr ⟨(j.val - 3) % 3, by omega⟩ q : EReal) - (C ⟨(j.val - 3) % 3, by omega⟩ : EReal))) (max (∑ _q ∈ P, ((1 : ℝ) : EReal)) ((1 : ℝ) : EReal))))
        (max (∑ _q ∈ P, ((1 : ℝ) : EReal) - ((1 : ℝ) : EReal)) ((1 : ℝ) : EReal)))
    else (0 : EReal))
    = (if ((1 : ℝ) : EReal) < ∑ _q ∈ P, ((1 : ℝ) : EReal) then
      (if h : j.val < 3 then
        Ideal.div (∑ q ∈ P, (xr ⟨j.val, h⟩ q : EReal)) (max (∑ _q ∈ P, ((1 : ℝ) : EReal)) ((1 : ℝ) : EReal))
      else Ideal.div
        (∑ q ∈ P, (xr ⟨(j.val - 3) / 3, by have := j.isLt; omega⟩ q : EReal) * (xr ⟨(j.val - 3) % 3, by omega⟩ q : EReal)
          - (∑ _q ∈ P, ((1 : ℝ) : EReal)) *
            (Ideal.div (∑ q ∈ P, (xr ⟨(j.val - 3) / 3, by have := j.isLt; omega⟩ q : EReal)) (max (∑ _q ∈ P, ((1 : ℝ) : EReal)) ((1 : ℝ) : EReal))
              * Ideal.div (∑ q ∈ P, (xr ⟨(j.val - 3) % 3, by omega⟩ q : EReal)) (max (∑ _q ∈ P, ((1 : ℝ) : EReal)) ((1 : ℝ) : EReal))))
        (max (∑ _q ∈ P, ((1 : ℝ) : EReal) - ((1 : ℝ) : EReal)) ((1 : ℝ) : EReal)))
    else (0 : EReal)) := by
  rw [sum_one]
  by_cases hc : ((1 : ℝ) : EReal) < ((P.card : ℝ) : EReal)
  · have hcard : 1 ≤ P.card := by
      have : (1 : ℝ) < (P.card : ℝ) := by exact_mod_cast hc
      have : 1 < P.card := by exact_mod_cast this
      omega
    rw [if_pos hc, if_pos hc]
    by_cases hj : j.val < 3
    · rw [dif_pos hj, dif_pos hj]
      have := mean_entry P (xr ⟨j.val, hj⟩) (C ⟨j.val, hj⟩) hcard
      rw [show (1 : EReal) = ((1 : ℝ) : EReal) from rfl] at this
      exact this
    · rw [dif_neg hj, dif_neg hj]
      have := cov_entry P (xr ⟨(j.val - 3) / 3, by have := j.isLt; omega⟩) (xr ⟨(j.val - 3) % 3, by omega⟩)
        (C ⟨(j.val - 3) / 3, by have := j.isLt; omega⟩) (C ⟨(j.val - 3) % 3, by omega⟩) hcard
      rw [show (1 : EReal) = ((1 : ℝ) : EReal) from rfl] at this
      rw [this]
  · rw [if_neg hc, if_neg hc]

end Cert.Spec

end
-- ==== Proof.BridgeLemmas.lean ====
/-
  The thirteen features, one by one: the first is the constant 1, the next three are the centred coordinates, the last nine
  their products row by row.
-/

import proofs.«168833_j62826781606551_2_alg».proof.Proof.Spec3

set_option maxRecDepth 16384

noncomputable section

namespace Cert.Proof

open Idealize.ShloMosaic

/-- The first feature is the constant 1. -/
theorem feat_zero (x : Fin 16 → Fin 262144 → Fin 3 → EReal) (mn vs : Fin 16 → Fin 3 → EReal) (b : Fin 16) (q : Fin 262144) (h : 0 < 13) :
    Cert.Spec.feat x mn vs b q ⟨0, h⟩ = ((1 : ℝ) : EReal) := by
  unfold Cert.Spec.feat; rw [if_pos rfl]

/-- Features 1 … 3 are the centred coordinates. -/
theorem feat_lin (x : Fin 16 → Fin 262144 → Fin 3 → EReal) (mn vs : Fin 16 → Fin 3 → EReal) (b : Fin 16) (q : Fin 262144) (a : Fin 3)
    (h : 1 + a.val < 13) : Cert.Spec.feat x mn vs b q ⟨1 + a.val, h⟩ = Cert.Spec.xc x mn vs b q a := by
  unfold Cert.Spec.feat
  rw [if_neg (by show ¬(1 + a.val = 0); omega), dif_pos (by show 1 + a.val < 4; have := a.isLt; omega)]
  congr 1; apply Fin.ext; show 1 + a.val - 1 = a.val; omega

/-- Features 4 … 12 are their products, row by row. -/
theorem feat_quad (x : Fin 16 → Fin 262144 → Fin 3 → EReal) (mn vs : Fin 16 → Fin 3 → EReal) (b : Fin 16) (q : Fin 262144) (k : Fin 9)
    (h : 4 + k.val < 13) :
    Cert.Spec.feat x mn vs b q ⟨4 + k.val, h⟩
      = Cert.Spec.xc x mn vs b q ⟨k.val / 3, by have := k.isLt; omega⟩ * Cert.Spec.xc x mn vs b q ⟨k.val % 3, by omega⟩ := by
  unfold Cert.Spec.feat
  rw [if_neg (by show ¬(4 + k.val = 0); omega), dif_neg (by show ¬(4 + k.val < 4); omega)]
  congr 2 <;> (apply Fin.ext; show _ = _; simp only []; omega)

end Cert.Proof

end
-- ==== Proof.Bridge.lean ====
/-
  THE BRIDGE. From memories that agree on the point array, under finite inputs, the reference's result buffer holds what the
  kernel program's holds. Entry (b, v, j): both are "if the voxel has more than one point, its mean (j < 3) or covariance
  (j ≥ 3), else zero", the reference from the plain moments of the voxel's points, the kernel from the moments centred at
  the voxel's centre with the mean shifted back; the voxel's point set is the same on both sides (the same clipped floors of
  the same scaled offsets, compared as integers), every coordinate, minimum and voxel size is a real number, and the voxel
  law (Proof/VoxelLaw.lean) identifies the two rows.
-/
import proofs.«168833_j62826781606551_2_alg».proof.Defs
import proofs.«168833_j62826781606551_2_alg».proof.Proof.Gen.Pre_finite_inputs
import proofs.«168833_j62826781606551_2_alg».proof.Proof.KI.Value
import proofs.«168833_j62826781606551_2_alg».proof.Proof.KI.Batch
import proofs.«168833_j62826781606551_2_alg».proof.Proof.KI.Centre
import proofs.«168833_j62826781606551_2_alg».proof.Proof.RefStages
import proofs.«168833_j62826781606551_2_alg».proof.Proof.RefBatch
import proofs.«168833_j62826781606551_2_alg».proof.Proof.Finite
import proofs.«168833_j62826781606551_2_alg».proof.Proof.VoxelLaw
import proofs.«168833_j62826781606551_2_alg».proof.Proof.BridgeLemmas

set_option maxRecDepth 16384

noncomputable section

namespace Cert.Proof

open Idealize.ShloMosaic Idealize.SL.Sem Idealize.ShloMosaic.ValueIdx
open Cert.KernelIdeal Cert.KernelIdeal.Gen Cert.KernelIdeal.Hand

section Entry

variable (m : (ℓ : Loc Cert.KernelIdeal.nD Cert.KernelIdeal.τ Cert.KernelIdeal.sig) → Buf (Elt Ideal) ℓ)
  (hpre : Cert.Pre_KernelIdeal (hPre_finite_inputs := Cert.Pre_finite_inputs.Gen.facts) m) (c : Dev Cert.KernelIdeal.nD)

/-- The two programs see the same points, minima and voxel sizes. -/
theorem Xf_eq : Xf m c = Cert.ReferenceIdeal.Hand.XfR (X m c) := rfl
theorem MNf_eq : MNf m c = Cert.ReferenceIdeal.Hand.MNR (X m c) := by
  unfold MNf Cert.ReferenceIdeal.Hand.MNR; rw [V_v1]
theorem VSf_eq : VSf m c = Cert.ReferenceIdeal.Hand.VSR (X m c) := by
  unfold VSf Cert.ReferenceIdeal.Hand.VSR; rw [V_v8]

include hpre in
/-- ENTRY BY ENTRY: the kernel program's row entry is the reference's. -/
theorem spec_eq (b : Fin 16) (v : Fin 4096) (j : Fin 12) :
    tailSpec (rawG m c) (V m c main_v1) (V m c main_v8) b v j = Cert.ReferenceIdeal.Hand.refSpec (X m c) b v j := by
  -- every coordinate is a real
  have hfin : ∀ i, ∃ r : ℝ, X m c i = (r : EReal) := fun i => finite_of_pre m hpre c i
  choose xr hxr using fun (a : Fin 3) (q : Fin 262144) => hfin (ix3 b q a)
  choose mr hmr using fun (a : Fin 3) => Cert.ReferenceIdeal.Hand.fin_mn (X m c) hfin b a
  choose vr hvr using fun (a : Fin 3) => Cert.ReferenceIdeal.Hand.fin_vs (X m c) hfin b a
  have hmn : ∀ a, MNf m c b a = ((mr a : ℝ) : EReal) := fun a => by rw [MNf_eq]; exact hmr a
  have hvs : ∀ a, VSf m c b a = ((vr a : ℝ) : EReal) := fun a => by rw [VSf_eq]; exact hvr a
  -- the voxel, its point set and its centre
  let g : Fin 16 := ⟨v.val / 256, by have := v.isLt; omega⟩
  let jk : Fin 256 := ⟨v.val % 256, Nat.mod_lt _ (by norm_num)⟩
  let C : Fin 3 → ℝ := fun a => mr a + ((gNat v a : ℝ) + 1 / 2) * vr a
  have hcen : ∀ q, Cert.Spec.inVox (Xf m c) (MNf m c) (VSf m c) b g jk q → ∀ a, Cert.Spec.cen (Xf m c) (MNf m c) (VSf m c) b q a = ((C a : ℝ) : EReal) :=
    fun q hq a => cen_inVox_real (Xf m c) (MNf m c) (VSf m c) b v q hq a (mr a) (vr a) (hmn a) (hvs a)
  have hxc : ∀ q, Cert.Spec.inVox (Xf m c) (MNf m c) (VSf m c) b g jk q → ∀ a,
      Cert.Spec.xc (Xf m c) (MNf m c) (VSf m c) b q a = ((xr a q : ℝ) : EReal) - ((C a : ℝ) : EReal) := fun q hq a => by
    unfold Cert.Spec.xc; rw [hcen q hq a]; exact congrArg (· - ((C a : ℝ) : EReal)) (hxr a q)
  -- the kernel program's moments
  have kCnt : sCnt (rawG m c) b v = ∑ _q ∈ Finset.univ.filter (Cert.Spec.inVox (Xf m c) (MNf m c) (VSf m c) b g jk), ((1 : ℝ) : EReal) :=
    (raw_eq m c b g ⟨0, by norm_num⟩ jk).trans (Finset.sum_congr rfl fun q _ => feat_zero _ _ _ b q _)
  have kS : ∀ a : Fin 3, sS (rawG m c) b v a
      = ∑ q ∈ Finset.univ.filter (Cert.Spec.inVox (Xf m c) (MNf m c) (VSf m c) b g jk), (((xr a q : ℝ) : EReal) - ((C a : ℝ) : EReal)) := fun a =>
    (raw_eq m c b g ⟨1 + a.val, by have := a.isLt; omega⟩ jk).trans (Finset.sum_congr rfl fun q hq =>
      (feat_lin _ _ _ b q a _).trans (hxc q (Finset.mem_filter.mp hq).2 a))
  have kQ : ∀ k : Fin 9, sQ (rawG m c) b v k
      = ∑ q ∈ Finset.univ.filter (Cert.Spec.inVox (Xf m c) (MNf m c) (VSf m c) b g jk),
          (((xr ⟨k.val / 3, by have := k.isLt; omega⟩ q : ℝ) : EReal) - ((C ⟨k.val / 3, by have := k.isLt; omega⟩ : ℝ) : EReal))
            * (((xr ⟨k.val % 3, by omega⟩ q : ℝ) : EReal) - ((C ⟨k.val % 3, by omega⟩ : ℝ) : EReal)) := fun k =>
    (raw_eq m c b g ⟨4 + k.val, by have := k.isLt; omega⟩ jk).trans (Finset.sum_congr rfl fun q hq => by
      rw [feat_quad _ _ _ b q k, hxc q (Finset.mem_filter.mp hq).2, hxc q (Finset.mem_filter.mp hq).2])
  have kCen : ∀ a : Fin 3, sCen (V m c main_v1) (V m c main_v8) b v a = ((C a : ℝ) : EReal) := fun a =>
    sCen_real (V m c main_v1) (V m c main_v8) b v a (mr a) (vr a) (hmn a) (hvs a)
  -- the reference's moments
  have rCnt : Cert.ReferenceIdeal.Hand.refCnt (X m c) (Cert.ReferenceIdeal.Hand.refRow b v)
      = ∑ _q ∈ Finset.univ.filter (Cert.Spec.inVox (Xf m c) (MNf m c) (VSf m c) b g jk), ((1 : ℝ) : EReal) := by
    rw [Cert.ReferenceIdeal.Hand.refCnt_batch, ← Xf_eq, ← MNf_eq, ← VSf_eq, Cert.Consts.ofBits_zero, zero_add, Cert.Consts.ofBits_one]
  have rS : ∀ a : Fin 3, Cert.ReferenceIdeal.Hand.refSum (X m c) (Cert.ReferenceIdeal.Hand.refRow b v) a
      = ∑ q ∈ Finset.univ.filter (Cert.Spec.inVox (Xf m c) (MNf m c) (VSf m c) b g jk), ((xr a q : ℝ) : EReal) := fun a => by
    rw [Cert.ReferenceIdeal.Hand.refSum_batch, ← Xf_eq, ← MNf_eq, ← VSf_eq, Cert.Consts.ofBits_zero, zero_add]
    exact Finset.sum_congr rfl fun q _ => hxr a q
  have rQ : ∀ k : Fin 9, Cert.ReferenceIdeal.Hand.refSq (X m c) (Cert.ReferenceIdeal.Hand.refRow b v) k
      = ∑ q ∈ Finset.univ.filter (Cert.Spec.inVox (Xf m c) (MNf m c) (VSf m c) b g jk),
          ((xr ⟨k.val / 3, by have := k.isLt; omega⟩ q : ℝ) : EReal) * ((xr ⟨k.val % 3, by omega⟩ q : ℝ) : EReal) := fun k => by
    rw [Cert.ReferenceIdeal.Hand.refSq_batch, ← Xf_eq, ← MNf_eq, ← VSf_eq, Cert.Consts.ofBits_zero, zero_add]
    exact Finset.sum_congr rfl fun q _ => by rw [hxr, hxr]
  -- the two rows
  unfold tailSpec Cert.ReferenceIdeal.Hand.refSpec sMc Cert.ReferenceIdeal.Hand.refMean
  simp only [kCnt, kS, kQ, kCen, rCnt, rS, rQ, Cert.Consts.ofBits_one, Cert.Consts.ofBits_zero]
  exact Cert.Spec.entry_eq _ xr C j

end Entry

theorem bridge
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (c : Dev Cert.KernelIdeal.nD) :
    Cert.ReferenceIdeal.Hand.result (F := Ideal) m' c = Cert.KernelIdeal.Hand.result (F := Ideal) m c := by
  funext i
  obtain ⟨b, v, j, rfl⟩ : ∃ (b : Fin 16) (v : Fin 4096) (j : Fin 12), i = ix3 b v j := ⟨i 0, i 1, i 2, eq_ix3 i⟩
  rw [Cert.ReferenceIdeal.Hand.result_eq, hagree c, Cert.ReferenceIdeal.Hand.ref_apply]
  have hK : Cert.KernelIdeal.Hand.result (F := Ideal) m c (ix3 b v j) = tailSpec (rawG m c) (V m c main_v1) (V m c main_v8) b v j := by
    unfold Cert.KernelIdeal.Hand.result Pipeline.afterTail₀
    exact tail_apply _ _ _ _ ((Pipeline.withArrays_arr spec0 launch0.win.arr_inj c _ _ 2).trans (final2 m c))
      (Pipeline.withArrays_of_ne spec0 c _ _ main_v1 (by decide)) (Pipeline.withArrays_of_ne spec0 c _ _ main_v8 (by decide)) b v j
  rw [hK]
  exact (spec_eq m hpre c b v j).symm

end Cert.Proof

end
-- ==== Proof.lean ====
/-
  The certificate of the voxel-moments kernel against its scatter-add reference.

  Both programs cut each batch's 262144 points into a 16×16×16 grid of voxels spanning the batch's bounding box and return,
  per voxel with at least two points, the mean and the covariance of its points. The reference adds each point's moments
  (1, x, x xᵀ) into its voxel's row by three scatter-adds. The kernel walks a batch in 64 tiles of 4096 points; in each tile
  it forms the thirteen moments of the points CENTRED at their voxel's centre, spreads them over 16 column groups by the
  first voxel coordinate (a one-hot product), and contracts against the one-hot of the other two coordinates on the matrix
  unit, adding the 208×256 block of partial sums into a scratch accumulator that is zeroed at a batch's first tile and copied
  out at its last; the host then un-factors the 208×256 block into 4096 voxels × 13 moments, divides, and shifts the centred
  mean back by the voxel's centre. Over the extended reals with finite inputs the centred and the plain moments give the
  same mean and the same covariance (the covariance is shift invariant).

  The three frames: each kernel program's run is the region's run between the host lines before and after it
  (Proof/K/Frame.lean, Proof/KI/Frame.lean); the reference's is the run of a straight line of host operations
  (Proof/RefFrame.lean). The idealization rewrote nothing, so `preserves` is trivial.
-/
import proofs.«168833_j62826781606551_2_alg».proof.Defs
import proofs.«168833_j62826781606551_2_alg».proof.Proof.Gen.Kernel
import proofs.«168833_j62826781606551_2_alg».proof.Proof.Gen.Kernel.Skeleton
import proofs.«168833_j62826781606551_2_alg».proof.Proof.Gen.Kernel.Launch
import proofs.«168833_j62826781606551_2_alg».proof.Proof.Gen.Kernel.Points
import proofs.«168833_j62826781606551_2_alg».proof.Proof.Gen.KernelIdeal
import proofs.«168833_j62826781606551_2_alg».proof.Proof.Gen.KernelIdeal.Skeleton
import proofs.«168833_j62826781606551_2_alg».proof.Proof.Gen.KernelIdeal.Launch
import proofs.«168833_j62826781606551_2_alg».proof.Proof.Gen.KernelIdeal.Points
import proofs.«168833_j62826781606551_2_alg».proof.Proof.Gen.ReferenceIdeal
import proofs.«168833_j62826781606551_2_alg».proof.Proof.Gen.Pre_finite_inputs
import proofs.«168833_j62826781606551_2_alg».proof.Proof.K.Frame
import proofs.«168833_j62826781606551_2_alg».proof.Proof.KI.Frame
import proofs.«168833_j62826781606551_2_alg».proof.Proof.RefFrame
import proofs.«168833_j62826781606551_2_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ
theorem frame_ki : Cert.frame_KernelIdeal (hKernelIdeal := Cert.KernelIdeal.Gen.facts) (hPre_finite_inputs := Cert.Pre_finite_inputs.Gen.facts) :=
  fun m ρ _ => Cert.KernelIdeal.Hand.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run (F := Ideal) m ρ)

theorem preserves : Cert.preserves_Kernel_KernelIdeal := trivial

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelIdeal.Hand.result (F := Ideal) m c, Cert.KernelIdeal.Hand.run_value (F := Ideal) m ρ, ?_⟩
  exact (θ_run Cert.ReferenceIdeal.defs _ _).mono (fun _ h c => ⟨(h c).1.trans (bridge m m' hpre hagree c), (h c).2⟩)
    (Cert.ReferenceIdeal.Hand.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
